-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x100 : Shape := ⟨2, ![16384, 100]⟩
abbrev S100 : Shape := ⟨1, ![100]⟩
abbrev S26x16 : Shape := ⟨2, ![26, 16]⟩
abbrev S_ : Shape := ⟨0, ![]⟩

class Facts : Prop where
  bcast_S_S16384x100 : S_.BroadcastsInDim S16384x100 (![] : Fin 0 → Fin S16384x100.rank)
  reducesTo_S16384x100_S_d0_1 : S16384x100.ReducesTo [0, 1] S_
  h_S_ : 0 < S_.numel
  bcast_S_S100 : S_.BroadcastsInDim S100 (![] : Fin 0 → Fin S100.rank)
  reducesTo_S100_S_d0 : S100.ReducesTo [0] S_
  bcast_S_S26x16 : S_.BroadcastsInDim S26x16 (![] : Fin 0 → Fin S26x16.rank)
  reducesTo_S26x16_S_d0_1 : S26x16.ReducesTo [0, 1] S_

variable [Facts]

def fn_part1 {F : FTy → Type} [FloatOps F] (main_arg3 : IVec S100 32) (main_v13 : IVec S_ 1) (main_v15 : IVec S100 1) (main_c_5 : IVec S_ 32) : IVec S_ 1 :=
  let main_v16 : IVec S100 32 := broadcastInDim S100 ![] bcast_S_S100 main_c_5
  let main_v17 : IVec S100 1 := cmpi .slt main_arg3 main_v16
  let main_v18 : IVec S100 1 := andi main_v15 main_v17
  let main_c_6 : IVec S_ 1 := constantI S_ 1 1#1
  let main_v19 : IVec S_ 1 := (fun x v => Host.reduce IntOp.andi x v reducesTo_S100_S_d0 h_S_) main_v18 main_c_6
  let main_v20 : IVec S_ 1 := andi main_v13 main_v19
  main_v20

def fn {F : FTy → Type} [FloatOps F] (main_arg0 : FVec F S16384x100 .f32) (main_arg1 : FVec F S100 .f32) (main_arg2 : FVec F S26x16 .f32) (main_arg3 : IVec S100 32) : IVec S_ 1 :=
  let main_v0 : FVec F S16384x100 .f32 := Host.absf main_arg0
  let main_cst : FVec F S_ .f32 := constant S_ .f32 0x7F800000#32
  let main_v1 : FVec F S16384x100 .f32 := broadcastInDim S16384x100 ![] bcast_S_S16384x100 main_cst
  let main_v2 : IVec S16384x100 1 := cmpf .olt main_v0 main_v1
  let main_c : IVec S_ 1 := constantI S_ 1 1#1
  let main_v3 : IVec S_ 1 := (fun x v => Host.reduce IntOp.andi x v reducesTo_S16384x100_S_d0_1 h_S_) main_v2 main_c
  let main_v4 : FVec F S100 .f32 := Host.absf main_arg1
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_v9 : FVec F S26x16 .f32 := Host.absf main_arg2
  let main_cst_2 : FVec F S_ .f32 := constant S_ .f32 0x7F800000#32
  let main_v10 : FVec F S26x16 .f32 := broadcastInDim S26x16 ![] bcast_S_S26x16 main_cst_2
  let main_v11 : IVec S26x16 1 := cmpf .olt main_v9 main_v10
  let main_c_3 : IVec S_ 1 := constantI S_ 1 1#1
  let main_v12 : IVec S_ 1 := (fun x v => Host.reduce IntOp.andi x v reducesTo_S26x16_S_d0_1 h_S_) main_v11 main_c_3
  let main_v13 : IVec S_ 1 := andi main_v8 main_v12
  let main_c_4 : IVec S_ 32 := constantI S_ 32 0#32
  let main_v14 : IVec S100 32 := broadcastInDim S100 ![] bcast_S_S100 main_c_4
  let main_v15 : IVec S100 1 := cmpi .sge main_arg3 main_v14
  let main_c_5 : IVec S_ 32 := constantI S_ 32 26#32
  fn_part1 (F := F) main_arg3 main_v13 main_v15 main_c_5
-- ==== Kernel.lean ====
abbrev S16384x100 : Shape := ⟨2, ![16384, 100]⟩
abbrev S100 : Shape := ⟨1, ![100]⟩
abbrev S26x16 : Shape := ⟨2, ![26, 16]⟩
abbrev S100x16384 : Shape := ⟨2, ![100, 16384]⟩
abbrev S100x1 : Shape := ⟨2, ![100, 1]⟩
abbrev S2x16384 : Shape := ⟨2, ![2, 16384]⟩
abbrev S100x16x16384 : Shape := ⟨3, ![100, 16, 16384]⟩
abbrev S2x1024 : Shape := ⟨2, ![2, 1024]⟩
abbrev S100x8x1024 : Shape := ⟨3, ![100, 8, 1024]⟩
abbrev S2x100x8 : Shape := ⟨3, ![2, 100, 8]⟩
abbrev S100x2 : Shape := ⟨2, ![100, 2]⟩
abbrev S2x100x1024 : Shape := ⟨3, ![2, 100, 1024]⟩
abbrev S2 : Shape := ⟨1, ![2]⟩
abbrev S1 : Shape := ⟨1, ![1]⟩
abbrev S_ : Shape := ⟨0, ![]⟩
abbrev S1x100x1024 : Shape := ⟨3, ![1, 100, 1024]⟩
abbrev S100x1024 : Shape := ⟨2, ![100, 1024]⟩
abbrev S100x26 : Shape := ⟨2, ![100, 26]⟩
abbrev S100x16 : Shape := ⟨2, ![100, 16]⟩
abbrev S100x8 : Shape := ⟨2, ![100, 8]⟩
abbrev S1x100x8 : Shape := ⟨3, ![1, 100, 8]⟩
abbrev S100x1x1024 : Shape := ⟨3, ![100, 1, 1024]⟩
abbrev S1x1024 : Shape := ⟨2, ![1, 1024]⟩
abbrev S16384x2 : Shape := ⟨2, ![16384, 2]⟩
abbrev S16384x100x16 : Shape := ⟨3, ![16384, 100, 16]⟩

abbrev nBuf : Space → Nat
  | .hbm => 11
  | .vmem => 11
  | .smem => 0
  | _ => 0

abbrev bufTy : (tb : Table) → Fin (tcTables nBuf tb) → BufTy
  | .hbm, ⟨0, _⟩ => ⟨S16384x100, .f32⟩
  | .hbm, ⟨1, _⟩ => ⟨S100, .f32⟩
  | .hbm, ⟨2, _⟩ => ⟨S26x16, .f32⟩
  | .hbm, ⟨3, _⟩ => ⟨S100, .i32⟩
  | .hbm, ⟨4, _⟩ => ⟨S100x16384, .f32⟩
  | .hbm, ⟨5, _⟩ => ⟨S100x1, .f32⟩
  | .hbm, ⟨6, _⟩ => ⟨S100x1, .i32⟩
  | .hbm, ⟨7, _⟩ => ⟨S2x16384, .f32⟩
  | .hbm, ⟨8, _⟩ => ⟨S100x16x16384, .f32⟩
  | .hbm, ⟨9, _⟩ => ⟨S16384x2, .f32⟩
  | .hbm, ⟨10, _⟩ => ⟨S16384x100x16, .f32⟩
  | .local _ .vmem, ⟨0, _⟩ => ⟨S100x1, .f32⟩
  | .local _ .vmem, ⟨1, _⟩ => ⟨S26x16, .f32⟩
  | .local _ .vmem, ⟨2, _⟩ => ⟨S100x1, .i32⟩
  | .local _ .vmem, ⟨3, _⟩ => ⟨S2x1024, .f32⟩
  | .local _ .vmem, ⟨4, _⟩ => ⟨S2x1024, .f32⟩
  | .local _ .vmem, ⟨5, _⟩ => ⟨S100x8x1024, .f32⟩
  | .local _ .vmem, ⟨6, _⟩ => ⟨S100x8x1024, .f32⟩
  | .local _ .vmem, ⟨7, _⟩ => ⟨S2x100x8, .f32⟩
  | .local _ .vmem, ⟨8, _⟩ => ⟨S100x2, .f32⟩
  | .local _ .vmem, ⟨9, _⟩ => ⟨S100x1, .f32⟩
  | .local _ .vmem, ⟨10, _⟩ => ⟨S2x100x1024, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 : Fin 1 → Nat :=
  let c0_i32_28 : BitVec 32 := 0#32
  let c2_i32_29 : BitVec 32 := 2#32
  let v72 : BitVec 32 := Scalar.remsi c0_i32_28 c2_i32_29
  ![v72.toNat]
def k0_off2 : Fin 3 → Nat :=
  let c0_i32_28 : BitVec 32 := 0#32
  let c2_i32_29 : BitVec 32 := 2#32
  let v72 : BitVec 32 := Scalar.remsi c0_i32_28 c2_i32_29
  let c0_i32_31 : BitVec 32 := 0#32
  let c0_i32_32 : BitVec 32 := 0#32
  ![v72.toNat, 0, 0]
def k0_off3 : Fin 2 → Nat :=
  let c0_i32_33 : BitVec 32 := 0#32
  let c1024_i32 : BitVec 32 := 1024#32
  let c0_i32_30 : BitVec 32 := 0#32
  let v73 : BitVec 32 := Scalar.muli c1024_i32 c0_i32_30
  ![0, v73.toNat]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off4 (i : grid0.Coords) : Fin 1 → Nat :=
  let arg0 : BitVec 32 := BitVec.ofNat 32 (i 0).val
  let c2_i32_28 : BitVec 32 := 2#32
  let v72 : BitVec 32 := Scalar.remsi arg0 c2_i32_28
  ![v72.toNat]
def k0_off5 (i : grid0.Coords) : Fin 3 → Nat :=
  let arg0 : BitVec 32 := BitVec.ofNat 32 (i 0).val
  let c2_i32_28 : BitVec 32 := 2#32
  let v72 : BitVec 32 := Scalar.remsi arg0 c2_i32_28
  let c0_i32_29 : BitVec 32 := 0#32
  let c0_i32_30 : BitVec 32 := 0#32
  ![v72.toNat, 0, 0]
def k0_off6 (i : grid0.Coords) : Fin 2 → Nat :=
  let c0_i32_31 : BitVec 32 := 0#32
  let c1024_i32 : BitVec 32 := 1024#32
  let arg0 : BitVec 32 := BitVec.ofNat 32 (i 0).val
  let v73 : BitVec 32 := Scalar.muli c1024_i32 arg0
  ![0, v73.toNat]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c16_i32 : BitVec 32 := 16#32
  let v10 : BitVec 1 := Scalar.cmpi .slt v9 c16_i32
  let v11 : BitVec 1 := Scalar.andi v8 v10
  let v12 : BitVec 32 := Scalar.extui v11
  let c0_i32_5 : BitVec 32 := 0#32
  let v13 : BitVec 1 := Scalar.cmpi .ne v12 c0_i32_5
  v13

def k0_off7 (i : grid0.Coords) : Fin 1 → Nat :=
  let arg0 : BitVec 32 := BitVec.ofNat 32 (i 0).val
  let c1_i32_28 : BitVec 32 := 1#32
  let v72 : BitVec 32 := Scalar.addi arg0 c1_i32_28
  let c2_i32_29 : BitVec 32 := 2#32
  let v73 : BitVec 32 := Scalar.remsi v72 c2_i32_29
  ![v73.toNat]
def k0_off8 (i : grid0.Coords) : Fin 3 → Nat :=
  let arg0 : BitVec 32 := BitVec.ofNat 32 (i 0).val
  let c1_i32_28 : BitVec 32 := 1#32
  let v72 : BitVec 32 := Scalar.addi arg0 c1_i32_28
  let c2_i32_29 : BitVec 32 := 2#32
  let v73 : BitVec 32 := Scalar.remsi v72 c2_i32_29
  let c0_i32_30 : BitVec 32 := 0#32
  let c0_i32_31 : BitVec 32 := 0#32
  ![v73.toNat, 0, 0]
def k0_off9 (i : grid0.Coords) : Fin 2 → Nat :=
  let c0_i32_32 : BitVec 32 := 0#32
  let c1024_i32 : BitVec 32 := 1024#32
  let arg0 : BitVec 32 := BitVec.ofNat 32 (i 0).val
  let c1_i32_28 : BitVec 32 := 1#32
  let v72 : BitVec 32 := Scalar.addi arg0 c1_i32_28
  let v74 : BitVec 32 := Scalar.muli c1024_i32 v72
  ![0, v74.toNat]
def k0_off10 (i : grid0.Coords) : Fin 3 → Nat :=
  let arg0 : BitVec 32 := BitVec.ofNat 32 (i 0).val
  let c2_i32 : BitVec 32 := 2#32
  let v14 : BitVec 32 := Scalar.remsi arg0 c2_i32
  let v15 : Index := Scalar.indexCast v14
  let c0 : Index := 0#32
  let c0_6 : Index := 0#32
  ![v15.toNat, 0, 0]
def k0_off11 (i : grid0.Coords) : Fin 3 → Nat :=
  let arg1 : BitVec 32 := BitVec.ofNat 32 (i 1).val
  let v18 : Index := Scalar.indexCast arg1
  let c0_7 : Index := 0#32
  let c0_8 : Index := 0#32
  ![v18.toNat, 0, 0]
def k0_cond4 (i : grid0.Coords) : BitVec 1 :=
  let arg1 : BitVec 32 := BitVec.ofNat 32 (i 1).val
  let c0_i32_26 : BitVec 32 := 0#32
  let v69 : BitVec 1 := Scalar.cmpi .eq arg1 c0_i32_26
  let v70 : BitVec 32 := Scalar.extui v69
  let c0_i32_27 : BitVec 32 := 0#32
  let v71 : BitVec 1 := Scalar.cmpi .ne v70 c0_i32_27
  v71

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 1 → Memref sig .tc .vmem S100x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S26x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S100x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S100x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S16384x100_S100x16384_1_0 : S16384x100.Transposes [1, 0] S100x16384
  shapeCasts_S100_S100x1 : S100.ShapeCasts S100x1
  squeezes_S1_S_ : S1.Squeezes S_
  squeezes_S1x100x1024_S100x1024 : S1x100x1024.Squeezes S100x1024
  inb_S100x1_S100x1_0_0 : ∀ a, (![0, 0] : Fin 2 → Nat) a + S100x1.size a ≤ S100x1.size a
  h_S100x1 : 0 < S100x1.numel
  shapeCasts_S100x1_S100x1 : S100x1.ShapeCasts S100x1
  iota_S100x26_d1_w32 : S100x26.Iotas .tc 32 [1]
  broadcasts_S100x1_S100x26 : S100x1.Broadcasts S100x26
  natLt_1_32 : 1 < 32
  inb_S26x16_S26x16_0_0 : ∀ a, (![0, 0] : Fin 2 → Nat) a + S26x16.size a ≤ S26x16.size a
  h_S26x16 : 0 < S26x16.numel
  slices_S100x16_o0_0_S100x8 : S100x16.Slices ![0, 0] S100x8
  inb_S2x100x8_S1x100x8_0_0_0 : ∀ a, (![0, 0, 0] : Fin 3 → Nat) a + S1x100x8.size a ≤ S2x100x8.size a
  h_S1x100x8 : 0 < S1x100x8.numel
  shapeCasts_S1x100x8_S100x8 : S1x100x8.ShapeCasts S100x8
  shapeCasts_S100x8_S1x100x8 : S100x8.ShapeCasts S1x100x8
  slices_S100x16_o0_8_S100x8 : S100x16.Slices ![0, 8] S100x8
  inb_S2x100x8_S1x100x8_1_0_0 : ∀ a, (![1, 0, 0] : Fin 3 → Nat) a + S1x100x8.size a ≤ S2x100x8.size a
  reduces_S100x16_S100 : S100x16.Reduces [1] S100
  concatenates_S100x1_S100x1_S100x2_d1 : Shape.Concatenates [S100x1, S100x1] S100x2 1
  inb_S100x2_S100x2_0_0 : ∀ a, (![0, 0] : Fin 2 → Nat) a + S100x2.size a ≤ S100x2.size a
  h_S100x2 : 0 < S100x2.numel
  shapeCasts_S100x2_S100x2 : S100x2.ShapeCasts S100x2
  h_S1x100x1024 : 0 < S1x100x1024.numel
  shapeCasts_S1x100x1024_S100x1024 : S1x100x1024.ShapeCasts S100x1024
  slices_S100x8_o0_0_S100x1 : S100x8.Slices ![0, 0] S100x1
  broadcasts_S100x1_S100x1024 : S100x1.Broadcasts S100x1024
  inb_S100x8x1024_S100x1x1024_0_0_0 : ∀ a, (![0, 0, 0] : Fin 3 → Nat) a + S100x1x1024.size a ≤ S100x8x1024.size a
  h_S100x1x1024 : 0 < S100x1x1024.numel
  shapeCasts_S100x1x1024_S100x1024 : S100x1x1024.ShapeCasts S100x1024
  shapeCasts_S100x1024_S100x1x1024 : S100x1024.ShapeCasts S100x1x1024
  slices_S100x8_o0_1_S100x1 : S100x8.Slices ![0, 1] S100x1
  inb_S100x8x1024_S100x1x1024_0_1_0 : ∀ a, (![0, 1, 0] : Fin 3 → Nat) a + S100x1x1024.size a ≤ S100x8x1024.size a
  slices_S100x8_o0_2_S100x1 : S100x8.Slices ![0, 2] S100x1
  inb_S100x8x1024_S100x1x1024_0_2_0 : ∀ a, (![0, 2, 0] : Fin 3 → Nat) a + S100x1x1024.size a ≤ S100x8x1024.size a
  slices_S100x8_o0_3_S100x1 : S100x8.Slices ![0, 3] S100x1
  inb_S100x8x1024_S100x1x1024_0_3_0 : ∀ a, (![0, 3, 0] : Fin 3 → Nat) a + S100x1x1024.size a ≤ S100x8x1024.size a
  slices_S100x8_o0_4_S100x1 : S100x8.Slices ![0, 4] S100x1
  inb_S100x8x1024_S100x1x1024_0_4_0 : ∀ a, (![0, 4, 0] : Fin 3 → Nat) a + S100x1x1024.size a ≤ S100x8x1024.size a
  slices_S100x8_o0_5_S100x1 : S100x8.Slices ![0, 5] S100x1
  inb_S100x8x1024_S100x1x1024_0_5_0 : ∀ a, (![0, 5, 0] : Fin 3 → Nat) a + S100x1x1024.size a ≤ S100x8x1024.size a
  slices_S100x8_o0_6_S100x1 : S100x8.Slices ![0, 6] S100x1
  inb_S100x8x1024_S100x1x1024_0_6_0 : ∀ a, (![0, 6, 0] : Fin 3 → Nat) a + S100x1x1024.size a ≤ S100x8x1024.size a
  slices_S100x8_o0_7_S100x1 : S100x8.Slices ![0, 7] S100x1
  inb_S100x8x1024_S100x1x1024_0_7_0 : ∀ a, (![0, 7, 0] : Fin 3 → Nat) a + S100x1x1024.size a ≤ S100x8x1024.size a
  slices_S2x1024_o1_0_S1x1024 : S2x1024.Slices ![1, 0] S1x1024
  slices_S2x1024_o0_0_S1x1024 : S2x1024.Slices ![0, 0] S1x1024
  concatenates_S1x1024_S1x1024_S2x1024_d0 : Shape.Concatenates [S1x1024, S1x1024] S2x1024 0
  inb_S2x1024_S2x1024_0_0 : ∀ a, (![0, 0] : Fin 2 → Nat) a + S2x1024.size a ≤ S2x1024.size a
  h_S2x1024 : 0 < S2x1024.numel
  transposes_S2x16384_S16384x2_1_0 : S2x16384.Transposes [1, 0] S16384x2
  transposes_S100x16x16384_S16384x100x16_2_0_1 : S100x16x16384.Transposes [2, 0, 1] S16384x100x16
  dot_S100x26_S26x16_S100x16_1_0_0_1_n_n_wf : DotDims.WF S100x26 S26x16 S100x16 [1] [0] [0] [1] [] []
  dot_S100x2_S100x1024_S2x1024_0_0_1_1_n_n_wf : DotDims.WF S100x2 S100x1024 S2x1024 [0] [0] [1] [1] [] []
  dot_S100x1_S100x1024_S1x1024_0_0_1_1_n_n_wf : DotDims.WF S100x1 S100x1024 S1x1024 [0] [0] [1] [1] [] []
  hcc0_scratch4 : 7 + S2.numel ≤ 9
  hrank0 : 0 < grid0.rank
  k0_off1_inb : ∀ i : grid0.Coords, ∀ (k0_h1 : k0_cond1 i = 1#1), ∀ a, k0_off1 a + S1.size a ≤ S2.size a
  k0_off2_inb : ∀ i : grid0.Coords, ∀ (k0_h1 : k0_cond1 i = 1#1), ∀ a, k0_off2 a + S1x100x1024.size a ≤ S2x100x1024.size a
  k0_off3_inb : ∀ i : grid0.Coords, ∀ (k0_h1 : k0_cond1 i = 1#1), ∀ a, k0_off3 a + S100x1024.size a ≤ S100x16384.size a
  k0_off4_inb : ∀ i : grid0.Coords, ∀ (k0_h2 : k0_cond2 i = 1#1), ∀ a, (k0_off4 i) a + S1.size a ≤ S2.size a
  k0_off5_inb : ∀ i : grid0.Coords, ∀ (k0_h2 : k0_cond2 i = 1#1), ∀ a, (k0_off5 i) a + S1x100x1024.size a ≤ S2x100x1024.size a
  k0_off6_inb : ∀ i : grid0.Coords, ∀ (k0_h2 : k0_cond2 i = 1#1), ∀ a, (k0_off6 i) a + S100x1024.size a ≤ S100x16384.size a
  k0_off7_inb : ∀ i : grid0.Coords, ∀ (k0_h3 : k0_cond3 i = 1#1), ∀ a, (k0_off7 i) a + S1.size a ≤ S2.size a
  k0_off8_inb : ∀ i : grid0.Coords, ∀ (k0_h3 : k0_cond3 i = 1#1), ∀ a, (k0_off8 i) a + S1x100x1024.size a ≤ S2x100x1024.size a
  k0_off9_inb : ∀ i : grid0.Coords, ∀ (k0_h3 : k0_cond3 i = 1#1), ∀ a, (k0_off9 i) a + S100x1024.size a ≤ S100x16384.size a
  k0_off10_inb : ∀ i : grid0.Coords, ∀ a, (k0_off10 i) a + S1x100x1024.size a ≤ S2x100x1024.size a
  k0_off11_inb : ∀ i : grid0.Coords, ∀ a, (k0_off11 i) a + S1x100x8.size a ≤ S2x100x8.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S100x1.size a ≤ S100x1.size a
  hwx0_0 : ∀ i : grid0.Coords, EltTy.bits .f32 = 32 ∨ (Rect.block (s := S100x1) S100x1.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S26x16.size a ≤ S26x16.size a
  hwx0_1 : ∀ i : grid0.Coords, EltTy.bits .f32 = 32 ∨ (Rect.block (s := S26x16) S26x16.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S100x1.size a ≤ S100x1.size a
  hwx0_2 : ∀ i : grid0.Coords, EltTy.bits .i32 = 32 ∨ (Rect.block (s := S100x1) S100x1.size (cc0_transform_3 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S2x1024.size a ≤ S2x16384.size a
  hwx0_3 : ∀ i : grid0.Coords, EltTy.bits .f32 = 32 ∨ (Rect.block (s := S2x16384) S2x1024.size (cc0_transform_4 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_5 i = cc0_transform_5 i'
  hinb0_4 : ∀ (i : grid0.Coords) a, (cc0_transform_5 i a + 1) * S100x8x1024.size a ≤ S100x16x16384.size a
  hwx0_4 : ∀ i : grid0.Coords, EltTy.bits .f32 = 32 ∨ (Rect.block (s := S100x16x16384) S100x8x1024.size (cc0_transform_5 i) (hinb0_4 i)).WholeWords (EltTy.packing .f32)

variable [Facts₀]

abbrev cc0_scratch4 : DmaSems sig S2 := SemArray.consecutive 7 S2 hcc0_scratch4
def dot_S100x26_S26x16_S100x16_1_0_0_1_n_n : DotDims S100x26 S26x16 S100x16 where
  lhsContracting := [1]
  rhsContracting := [0]
  lhsNonContracting := [0]
  rhsNonContracting := [1]
  lhsBatch := []
  rhsBatch := []
  wf := dot_S100x26_S26x16_S100x16_1_0_0_1_n_n_wf
def dot_S100x2_S100x1024_S2x1024_0_0_1_1_n_n : DotDims S100x2 S100x1024 S2x1024 where
  lhsContracting := [0]
  rhsContracting := [0]
  lhsNonContracting := [1]
  rhsNonContracting := [1]
  lhsBatch := []
  rhsBatch := []
  wf := dot_S100x2_S100x1024_S2x1024_0_0_1_1_n_n_wf
def dot_S100x1_S100x1024_S1x1024_0_0_1_1_n_n : DotDims S100x1 S100x1024 S1x1024 where
  lhsContracting := [0]
  rhsContracting := [0]
  lhsNonContracting := [1]
  rhsNonContracting := [1]
  lhsBatch := []
  rhsBatch := []
  wf := dot_S100x1_S100x1024_S1x1024_0_0_1_1_n_n_wf

abbrev win0_0 : Pipeline.Window sig grid0 :=
  Pipeline.Window.ofSpec (Memref.whole main_v1) S100x1.size cc0_transform_1 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S26x16.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S100x1.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S2x1024.size cc0_transform_4 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S100x8x1024.size cc0_transform_5 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond4 i == 1#1) | 4 => fun _ => false | ⟨_ + 5, h⟩ => absurd h (Nat.not_lt.2 (Nat.le_add_left _ _))

class Facts : Prop extends Facts₀ where

variable [Facts]
-- ==== ReferenceIdeal.lean ====
abbrev S16384x100 : Shape := ⟨2, ![16384, 100]⟩
abbrev S100 : Shape := ⟨1, ![100]⟩
abbrev S26x16 : Shape := ⟨2, ![26, 16]⟩
abbrev S16384x100x1 : Shape := ⟨3, ![16384, 100, 1]⟩
abbrev S_ : Shape := ⟨0, ![]⟩
abbrev S100x1 : Shape := ⟨2, ![100, 1]⟩
abbrev S1 : Shape := ⟨1, ![1]⟩
abbrev S1x1 : Shape := ⟨2, ![1, 1]⟩
abbrev S100x16 : Shape := ⟨2, ![100, 16]⟩
abbrev S1x100x16 : Shape := ⟨3, ![1, 100, 16]⟩
abbrev S16384x100x16 : Shape := ⟨3, ![16384, 100, 16]⟩
abbrev S1x100 : Shape := ⟨2, ![1, 100]⟩
abbrev S16384 : Shape := ⟨1, ![16384]⟩
abbrev S16384x1 : Shape := ⟨2, ![16384, 1]⟩
abbrev S16384x2 : Shape := ⟨2, ![16384, 2]⟩

abbrev nBuf : Space → Nat
  | .hbm => 50
  | .vmem => 0
  | .smem => 0
  | _ => 0

abbrev bufTy : (tb : Table) → Fin (tcTables nBuf tb) → BufTy
  | .hbm, ⟨0, _⟩ => ⟨S16384x100, .f32⟩
  | .hbm, ⟨1, _⟩ => ⟨S100, .f32⟩
  | .hbm, ⟨2, _⟩ => ⟨S26x16, .f32⟩
  | .hbm, ⟨3, _⟩ => ⟨S100, .i32⟩
  | .hbm, ⟨4, _⟩ => ⟨S16384x100x1, .f32⟩
  | .hbm, ⟨5, _⟩ => ⟨S_, .i32⟩
  | .hbm, ⟨6, _⟩ => ⟨S100, .i32⟩
  | .hbm, ⟨7, _⟩ => ⟨S100, .i1⟩
  | .hbm, ⟨8, _⟩ => ⟨S_, .i32⟩
  | .hbm, ⟨9, _⟩ => ⟨S100, .i32⟩
  | .hbm, ⟨10, _⟩ => ⟨S100, .i32⟩
  | .hbm, ⟨11, _⟩ => ⟨S100, .i32⟩
  | .hbm, ⟨12, _⟩ => ⟨S100x1, .i32⟩
  | .hbm, ⟨13, _⟩ => ⟨S1, .i32⟩
  | .hbm, ⟨14, _⟩ => ⟨S_, .i32⟩
  | .hbm, ⟨15, _⟩ => ⟨S100x1, .i32⟩
  | .hbm, ⟨16, _⟩ => ⟨S100x1, .i1⟩
  | .hbm, ⟨17, _⟩ => ⟨S1x1, .i32⟩
  | .hbm, ⟨18, _⟩ => ⟨S100x1, .i32⟩
  | .hbm, ⟨19, _⟩ => ⟨S100x1, .i1⟩
  | .hbm, ⟨20, _⟩ => ⟨S100x1, .i1⟩
  | .hbm, ⟨21, _⟩ => ⟨S_, .i1⟩
  | .hbm, ⟨22, _⟩ => ⟨S100, .i1⟩
  | .hbm, ⟨23, _⟩ => ⟨S100x16, .f32⟩
  | .hbm, ⟨24, _⟩ => ⟨S100x16, .i1⟩
  | .hbm, ⟨25, _⟩ => ⟨S_, .f32⟩
  | .hbm, ⟨26, _⟩ => ⟨S100x16, .f32⟩
  | .hbm, ⟨27, _⟩ => ⟨S100x16, .f32⟩
  | .hbm, ⟨28, _⟩ => ⟨S1x100x16, .f32⟩
  | .hbm, ⟨29, _⟩ => ⟨S16384x100x16, .f32⟩
  | .hbm, ⟨30, _⟩ => ⟨S16384x100x16, .f32⟩
  | .hbm, ⟨31, _⟩ => ⟨S16384x100x16, .f32⟩
  | .hbm, ⟨32, _⟩ => ⟨S1x100, .f32⟩
  | .hbm, ⟨33, _⟩ => ⟨S16384x100, .f32⟩
  | .hbm, ⟨34, _⟩ => ⟨S16384x100, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384, .f32⟩
  | .hbm, ⟨40, _⟩ => ⟨S16384x100x16, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S16384x1, .f32⟩
  | .hbm, ⟨49, _⟩ => ⟨S16384x2, .f32⟩
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_v9 : Ref sig .tc := ⟨.hbm, 36, rfl⟩
abbrev main_v10 : Ref sig .tc := ⟨.hbm, 37, rfl⟩
abbrev main_cst_0 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩

abbrev nD : Nat := 1
abbrev τ : Topo := Topo.v7x

variable {F : FTy → Type} [FloatOps F]

class Facts₀ : Prop where
  shapeCasts_S16384x100_S16384x100x1 : S16384x100.ShapeCasts S16384x100x1
  bcast_S_S100 : S_.BroadcastsInDim S100 (![] : Fin 0 → Fin S100.rank)
  bcast_S100_S100x1_0 : S100.BroadcastsInDim S100x1 (![0] : Fin 1 → Fin S100x1.rank)
  bcast_S_S100x1 : S_.BroadcastsInDim S100x1 (![] : Fin 0 → Fin S100x1.rank)
  bcast_S1_S1x1_1 : S1.BroadcastsInDim S1x1 (![1] : Fin 1 → Fin S1x1.rank)
  bcast_S1x1_S100x1_0_1 : S1x1.BroadcastsInDim S100x1 (![0, 1] : Fin 2 → Fin S100x1.rank)
  reducesTo_S100x1_S100_d1 : S100x1.ReducesTo [1] S100
  h_S_ : 0 < S_.numel
  bcast_S100_S100x16_0 : S100.BroadcastsInDim S100x16 (![0] : Fin 1 → Fin S100x16.rank)
  bcast_S_S100x16 : S_.BroadcastsInDim S100x16 (![] : Fin 0 → Fin S100x16.rank)
  bcast_S100x16_S1x100x16_1_2 : S100x16.BroadcastsInDim S1x100x16 (![1, 2] : Fin 2 → Fin S1x100x16.rank)
  bcast_S16384x100x1_S16384x100x16_0_1_2 : S16384x100x1.BroadcastsInDim S16384x100x16 (![0, 1, 2] : Fin 3 → Fin S16384x100x16.rank)
  bcast_S1x100x16_S16384x100x16_0_1_2 : S1x100x16.BroadcastsInDim S16384x100x16 (![0, 1, 2] : Fin 3 → Fin S16384x100x16.rank)
  bcast_S100_S1x100_1 : S100.BroadcastsInDim S1x100 (![1] : Fin 1 → Fin S1x100.rank)
  bcast_S1x100_S16384x100_0_1 : S1x100.BroadcastsInDim S16384x100 (![0, 1] : Fin 2 → Fin S16384x100.rank)
  reducesTo_S16384x100_S16384_d1 : S16384x100.ReducesTo [1] S16384
  shapeCasts_S16384_S16384x1 : S16384.ShapeCasts S16384x1
  reducesTo_S16384x100x16_S16384_d1_2 : S16384x100x16.ReducesTo [1, 2] S16384
  bcast_S_S16384 : S_.BroadcastsInDim S16384 (![] : Fin 0 → Fin S16384.rank)
  concatenates_S16384x1_S16384x1_S16384x2_d1 : Shape.Concatenates [S16384x1, S16384x1] S16384x2 1
  gather_S26x16_S100x1_S100x16_1_0_n_n_0_1_116_wf : GatherDims.WF S26x16 S100x1 S100x16 [1] [0] [] [0] [] 1 ![1, 16]

variable [Facts₀]

def gather_S26x16_S100x1_S100x16_1_0_n_n_0_1_116 : GatherDims S26x16 S100x1 S100x16 where
  offsetDims := [1]
  collapsedSliceDims := [0]
  operandBatchingDims := []
  startIndicesBatchingDims := []
  startIndexMap := [0]
  indexVectorDim := 1
  sliceSizes := ![1, 16]
  wf := gather_S26x16_S100x1_S100x16_1_0_n_n_0_1_116_wf

class Facts : Prop extends Facts₀ where

variable [Facts]
-- ==== Proof.KBRing.lean ====
/-
  The kernel streams the transposed input (left in HBM) through a two-slot VMEM buffer by its own copies: the
  copy of column block `i + 1` is started at grid point `(i, 1)` and waited for at `(i + 1, 0)`, so one copy is
  in flight across a point boundary.  This module names the pieces the point-indexed invariant is stated over: the
  two slots of the buffer, the sixteen column blocks of the operand, the two semaphore cells, and the copy in flight.
-/
import proofs.«166942_g35321811042314_cont_sun_m_1252_29_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main around the region, at the algebra that carries the copies' counters. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The scratch operands and the operand left in HBM, whole. -/
abbrev scE : Memref sig .tc .vmem S2x100x8 .f32 := Memref.whole cc0_scratch0
abbrev scA : Memref sig .tc .vmem S100x2 .f32 := Memref.whole cc0_scratch1
abbrev scQ : Memref sig .tc .vmem S100x1 .f32 := Memref.whole cc0_scratch2
abbrev scX : Memref sig .tc .vmem S2x100x1024 .f32 := Memref.whole cc0_scratch3
abbrev hbX : Memref sig .tc .hbm S100x16384 .f32 := Memref.whole main_v0

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's own two semaphore cells. -/
abbrev osem : Fin 2 → SemLoc sig := fun j => (![SemLoc.dma 7, SemLoc.dma 8] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 7) 0 ∗ semVal ((c : Thread nD τ), SemLoc.dma 8) 0) := by
  rw [Pipeline.ownSems0_eq_of_list c osem [0, 1] (by decide) (by decide)]; rfl
/-- The operand the body moves itself. -/
def HX : Finset (Ref sig .tc) := {main_v0}
theorem HX_sub : HX ⊆ Pipeline.restRefs sig spec0 := by decide
theorem hbmPts_eq (c : Dev nD) :
    (bigSep HX (fun b => ((c : Thread nD τ).loc b) ↦{fullShare} V m c b) : sProp 𝕄) = iprop(hbPt c hbX (V m c main_v0)) := by
  rw [BI.bigSep_eq_bigSepL_of_eq [main_v0] (by decide) (by decide)]; rfl

/-- The region's entry and exit invariant, conjunct by conjunct. -/
theorem PhiD_eq (c : Dev nD) :
    (Pipeline.ΦD osem spec0 HX (V m) c : sProp 𝕄)
      = iprop(iprop((∃ d, owns (c : Thread nD τ) scE fullShare d) ∗ (∃ d, owns (c : Thread nD τ) scA fullShare d) ∗ (∃ d, owns (c : Thread nD τ) scQ fullShare d) ∗ (∃ d, owns (c : Thread nD τ) scX fullShare d)) ∗ (∃ r, prngReg c r) ∗ iprop(semVal ((c : Thread nD τ), SemLoc.dma 7) 0 ∗ semVal ((c : Thread nD τ), SemLoc.dma 8) 0) ∗ iprop(hbPt c hbX (V m c main_v0))) := by
  rw [Pipeline.ΦD_eq, scopedRest0_eq, ownSems_eq, hbmPts_eq]; simp only [scE, scA, scQ, scX, owns_whole]; try rfl

/-! ## The slots, the column blocks, the cells -/

theorem inb_slot (s : Fin 2) : ∀ a, (![s.val, 0, 0] : Fin 3 → Nat) a + S1x100x1024.size a ≤ S2x100x1024.size a := by
  have := s.isLt; intro a; fin_cases a <;> simp <;> omega
theorem inb_src (b : Fin 16) : ∀ a, (![0, 1024 * b.val] : Fin 2 → Nat) a + S100x1024.size a ≤ S100x16384.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the two-slot buffer, as the body's copies spell their destination. -/
def rslot (s : Fin 2) : Memref sig .tc .vmem S100x1024 .f32 :=
  (scX.slice (Rect.unit (s := S2x100x1024) ![s.val, 0, 0] S1x100x1024.size (inb_slot s)) (fun _ => rfl)).squeeze S100x1024 squeezes_S1x100x1024_S100x1024
/-- Column block `b` of the transposed input (columns `1024 b … 1024 b + 1023`), as the copies spell their source. -/
def srcB (b : Fin 16) : Memref sig .tc .hbm S100x1024 .f32 :=
  hbX.slice (Rect.unit (s := S100x16384) ![0, 1024 * b.val] S100x1024.size (inb_src b)) (fun _ => rfl)
/-- Cell `s` of the kernel's semaphore pair. -/
def cellA (s : Fin 2) : DmaSems sig S_ := (cc0_scratch4.slice (Rect.unit (s := S2) ![s.val] S1.size (inb_cell s))).squeeze S_ squeezes_S1_S_
abbrev cellR (s : Fin 2) : SemLoc sig := SemLoc.dma (cellA s).sem
theorem cellR_0 : cellR 0 = SemLoc.dma 7 := by decide
theorem cellR_1 : cellR 1 = SemLoc.dma 8 := by decide

section Pieces
variable (c : Dev nD) (W : HbBuf (F := F) c hbX)
/-- Slot `s` held by exactly its own elements at contents `f`; cell `s` at zero; block `b`'s elements of the operand, and
    the operand's other elements; the slot's contents once block `b` has landed in it over `f`; the copy of block `b`
    into slot `s` in flight, delivering the slot landed and the block's elements back. -/
abbrev slotP (s : Fin 2) (f : HbBuf (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (b : Fin 16) : sProp 𝕄 := (srcB b).view.loc (c : Thread nD τ) ↦[(srcB b).view.set]{fullShare} W
def restP (b : Fin 16) : sProp 𝕄 := ((c : Thread nD τ).loc main_v0) ↦[Finset.univ \ (srcB b).view.set]{fullShare} W
abbrev landed (s : Fin 2) (b : Fin 16) (f : HbBuf (F := F) c (rslot s)) : HbBuf (F := F) c (rslot s) :=
  (rslot s).view.writes (Elt F) f [⟨Rect.whole S100x1024, ReadAs.same.apply ((srcB b).view.read (Elt F) W)⟩]
abbrev flightP (s : Fin 2) (b : Fin 16) (f : HbBuf (F := F) c (rslot s)) : sProp 𝕄 :=
  Transfers.Flight countersEmb (c : Thread nD τ) (cellR s) default ((rslot s).view.amount (cellR s))
    iprop(slotP c s (landed c W s b f) ∗ srcP c W b)
omit [FloatOps F] in
theorem cellP_0 : cellP (F := F) c 0 = semVal ((c : Thread nD τ), SemLoc.dma 7) 0 := congrArg (fun x => (semVal ((c : Thread nD τ), x) 0 : sProp 𝕄)) cellR_0
omit [FloatOps F] in
theorem cellP_1 : cellP (F := F) c 1 = semVal ((c : Thread nD τ), SemLoc.dma 8) 0 := congrArg (fun x => (semVal ((c : Thread nD τ), x) 0 : sProp 𝕄)) cellR_1
end Pieces

/-! ## The slots are disjoint and cover the buffer; the operand is a block and the rest -/

abbrev slotSet (s : Fin 2) : Finset S2x100x1024.Idx := (Rect.unit (s := S2x100x1024) ![s.val, 0, 0] S1x100x1024.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x100x1024) (0 : Fin 3) 1 (fun s : Fin 2 => (![s.val, 0, 0] : Fin 3 → Nat)) S1x100x1024.size inb_slot (fun s => by simp) rfl s s' h
theorem slots_cover : Finset.univ.biUnion slotSet = Finset.univ :=
  Ring.lead_cover (s := S2x100x1024) (0 : Fin 3) 1 (fun s : Fin 2 => (![s.val, 0, 0] : Fin 3 → Nat)) S1x100x1024.size inb_slot (fun s => by simp)
    (fun s a ha => by fin_cases a <;> first | exact absurd rfl ha | rfl) rfl (fun a ha => by fin_cases a <;> first | exact absurd rfl ha | rfl) rfl

section InOut
variable (c : Dev nD) (W : HbBuf (F := F) c hbX)
theorem slotP_eq (s : Fin 2) (f) : slotP (F := F) c s f = (((c : Thread nD τ).loc cc0_scratch3) ↦[slotSet s]{fullShare} f : sProp 𝕄) := by
  unfold slotP; rw [slotSet_eq]; rfl
theorem src_split (b : Fin 16) : (hbPt c hbX W : sProp 𝕄) ⊣⊢ iprop(srcP c W b ∗ restP c W b) := by
  unfold restP; exact pointsTo_split_subset (Finset.subset_univ _)
set_option maxHeartbeats 1000000 in
theorem slots_in : iprop(∃ d, owns (c : Thread nD τ) scX fullShare d) ⊢ (iprop((∃ f, slotP (F := F) c 0 f) ∗ ∃ f, slotP (F := F) c 1 f) : sProp 𝕄) := by
  simp only [scX, owns_whole]
  exact Ring.slots2_split (U := Pipeline.UD sig nD τ) (ℓ := (c : Thread nD τ).loc cc0_scratch3) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scX fullShare d) := by
  simp only [scX, owns_whole]
  exact Ring.slots2_join (U := Pipeline.UD sig nD τ) (ℓ := (c : Thread nD τ).loc cc0_scratch3) (q := fullShare) slotSet slots_disjoint slots_cover
    (slotP c 0) (slotP c 1) (slotP_eq c 0) (slotP_eq c 1)
end InOut

/-! ## The body's operands at point `t` are these pieces: the offset chains in closed form over the grid -/

/-- At point `t = 2 i + j` the body reads slot `i % 2`, which holds block `i`; the copy it may start is of block `i + 1`
    into slot `(i + 1) % 2`. -/
abbrev sNow (t : Fin grid0.N) : Fin 2 := Ring.sl 2 (t.val / 2)
abbrev bNow (t : Fin grid0.N) : Fin 16 := Ring.bk 16 (t.val / 2)
abbrev sNext (t : Fin grid0.N) : Fin 2 := Ring.sl 2 (t.val / 2 + 1)
abbrev bNext (t : Fin grid0.N) : Fin 16 := Ring.bk 16 (t.val / 2 + 1)

section Canon
omit [FloatOps F]
theorem coff1 : k0_off1 = ![(0 : Fin 2).val] := by decide +kernel
theorem coff2 : k0_off2 = ![(0 : Fin 2).val, 0, 0] := by decide +kernel
theorem coff3 : k0_off3 = ![0, 1024 * (0 : Fin 16).val] := by decide +kernel
theorem coff4 : ∀ t : Fin grid0.N, k0_off4 (grid0.coords t) = ![(sNow t).val] := by decide +kernel
theorem coff5 : ∀ t : Fin grid0.N, k0_off5 (grid0.coords t) = ![(sNow t).val, 0, 0] := by decide +kernel
theorem coff6 : ∀ t : Fin grid0.N, k0_off6 (grid0.coords t) = ![0, 1024 * (bNow t).val] := by decide +kernel
theorem coff7 : ∀ t : Fin grid0.N, k0_off7 (grid0.coords t) = ![(sNext t).val] := by decide +kernel
theorem coff8 : ∀ t : Fin grid0.N, k0_off8 (grid0.coords t) = ![(sNext t).val, 0, 0] := by decide +kernel
theorem coff9 : ∀ t : Fin grid0.N, k0_cond3 (grid0.coords t) = 1#1 → k0_off9 (grid0.coords t) = ![0, 1024 * (bNext t).val] := by decide +kernel
theorem coff10 : ∀ t : Fin grid0.N, k0_off10 (grid0.coords t) = ![(sNow t).val, 0, 0] := by decide +kernel
theorem coff11 : ∀ t : Fin grid0.N, k0_off11 (grid0.coords t) = ![t.val % 2, 0, 0] := by decide +kernel
instance (priority := high) closedOff10 (t : Fin grid0.N) : ClosedOff (k0_off10 (grid0.coords t)) := ⟨![(sNow t).val, 0, 0], coff10 t⟩
instance (priority := high) closedOff11 (t : Fin grid0.N) : ClosedOff (k0_off11 (grid0.coords t)) := ⟨![t.val % 2, 0, 0], coff11 t⟩
end Canon

end Cert.Kernel.Body

end
-- ==== Proof.KBCanon.lean ====
/-
  The memrefs the kernel's body spells at grid point `t` — a slot of the two-slot buffer, a column block of the
  operand, a semaphore cell, each through an offset chain the body computes from the point's coordinates — are the
  named slots, blocks and cells: the chains in closed form over the 32 points.
-/
import proofs.«166942_g35321811042314_cont_sun_m_1252_29_alg».proof.Proof.KBRing

set_option maxRecDepth 16384

noncomputable section

namespace Cert.Kernel.Body

open Cert.Kernel Cert.Kernel.Gen
open Idealize.ShloMosaic Idealize.ShloMosaic.TcCoe Idealize.ShloMosaic.Tactic
open Idealize.SL Idealize.SL.Sem

/-- The first point's copy (the only point where the first condition holds is point 0): the slot read there, its
    block, its cell. -/
theorem coff1' : ∀ t : Fin grid0.N, k0_cond1 (grid0.coords t) = 1#1 → k0_off1 = ![(sNow t).val] := by decide +kernel
theorem coff2' : ∀ t : Fin grid0.N, k0_cond1 (grid0.coords t) = 1#1 → k0_off2 = ![(sNow t).val, 0, 0] := by decide +kernel
theorem coff3' : ∀ t : Fin grid0.N, k0_cond1 (grid0.coords t) = 1#1 → k0_off3 = ![0, 1024 * (bNow t).val] := by decide +kernel
@[sl_canon] theorem canon2 (t : Fin grid0.N) (h1 : k0_cond1 (grid0.coords t) = 1#1) :
    (scX.slice (Rect.unit (s := S2x100x1024) k0_off2 S1x100x1024.size (k0_off2_inb (grid0.coords t) h1)) (fun _ => rfl)).squeeze S100x1024 squeezes_S1x100x1024_S100x1024 = rslot (sNow t) :=
  congrArg (fun M : Memref sig .tc .vmem S1x100x1024 .f32 => M.squeeze S100x1024 squeezes_S1x100x1024_S100x1024) (Memref.slice_unit_congr _ (coff2' t h1) _ _ (fun _ => rfl) (fun _ => rfl))
@[sl_canon] theorem canon1 (t : Fin grid0.N) (h1 : k0_cond1 (grid0.coords t) = 1#1) :
    (cc0_scratch4.slice (Rect.unit (s := S2) k0_off1 S1.size (k0_off1_inb (grid0.coords t) h1))).squeeze S_ squeezes_S1_S_ = cellA (sNow t) :=
  congrArg (fun A : DmaSems sig S1 => A.squeeze S_ squeezes_S1_S_) (SemArray.slice_unit_congr _ (coff1' t h1) _ _)
@[sl_canon] theorem canon3 (t : Fin grid0.N) (h1 : k0_cond1 (grid0.coords t) = 1#1) :
    hbX.slice (Rect.unit (s := S100x16384) k0_off3 S100x1024.size (k0_off3_inb (grid0.coords t) h1)) (fun _ => rfl) = srcB (bNow t) :=
  Memref.slice_unit_congr _ (coff3' t h1) _ _ (fun _ => rfl) (fun _ => rfl)

/-- The copy waited for at point `t`: the slot read there, its block, its cell. -/
@[sl_canon] theorem canon5 (t : Fin grid0.N) (h2 : k0_cond2 (grid0.coords t) = 1#1) :
    (scX.slice (Rect.unit (s := S2x100x1024) (k0_off5 (grid0.coords t)) S1x100x1024.size (k0_off5_inb (grid0.coords t) h2)) (fun _ => rfl)).squeeze S100x1024 squeezes_S1x100x1024_S100x1024 = rslot (sNow t) :=
  congrArg (fun M : Memref sig .tc .vmem S1x100x1024 .f32 => M.squeeze S100x1024 squeezes_S1x100x1024_S100x1024) (Memref.slice_unit_congr _ (coff5 t) _ _ (fun _ => rfl) (fun _ => rfl))
@[sl_canon] theorem canon4 (t : Fin grid0.N) (h2 : k0_cond2 (grid0.coords t) = 1#1) :
    (cc0_scratch4.slice (Rect.unit (s := S2) (k0_off4 (grid0.coords t)) S1.size (k0_off4_inb (grid0.coords t) h2))).squeeze S_ squeezes_S1_S_ = cellA (sNow t) :=
  congrArg (fun A : DmaSems sig S1 => A.squeeze S_ squeezes_S1_S_) (SemArray.slice_unit_congr _ (coff4 t) _ _)
@[sl_canon] theorem canon6 (t : Fin grid0.N) (h2 : k0_cond2 (grid0.coords t) = 1#1) :
    hbX.slice (Rect.unit (s := S100x16384) (k0_off6 (grid0.coords t)) S100x1024.size (k0_off6_inb (grid0.coords t) h2)) (fun _ => rfl) = srcB (bNow t) :=
  Memref.slice_unit_congr _ (coff6 t) _ _ (fun _ => rfl) (fun _ => rfl)

/-- The copy started at point `t`: the other slot, the next block, the other cell. -/
@[sl_canon] theorem canon8 (t : Fin grid0.N) (h3 : k0_cond3 (grid0.coords t) = 1#1) :
    (scX.slice (Rect.unit (s := S2x100x1024) (k0_off8 (grid0.coords t)) S1x100x1024.size (k0_off8_inb (grid0.coords t) h3)) (fun _ => rfl)).squeeze S100x1024 squeezes_S1x100x1024_S100x1024 = rslot (sNext t) :=
  congrArg (fun M : Memref sig .tc .vmem S1x100x1024 .f32 => M.squeeze S100x1024 squeezes_S1x100x1024_S100x1024) (Memref.slice_unit_congr _ (coff8 t) _ _ (fun _ => rfl) (fun _ => rfl))
@[sl_canon] theorem canon7 (t : Fin grid0.N) (h3 : k0_cond3 (grid0.coords t) = 1#1) :
    (cc0_scratch4.slice (Rect.unit (s := S2) (k0_off7 (grid0.coords t)) S1.size (k0_off7_inb (grid0.coords t) h3))).squeeze S_ squeezes_S1_S_ = cellA (sNext t) :=
  congrArg (fun A : DmaSems sig S1 => A.squeeze S_ squeezes_S1_S_) (SemArray.slice_unit_congr _ (coff7 t) _ _)
@[sl_canon] theorem canon9 (t : Fin grid0.N) (h3 : k0_cond3 (grid0.coords t) = 1#1) :
    hbX.slice (Rect.unit (s := S100x16384) (k0_off9 (grid0.coords t)) S100x1024.size (k0_off9_inb (grid0.coords t) h3)) (fun _ => rfl) = srcB (bNext t) :=
  Memref.slice_unit_congr _ (coff9 t h3) _ _ (fun _ => rfl) (fun _ => rfl)

end Cert.Kernel.Body

end
-- ==== Proof.KBRunC.lean ====
/-
  The kernel's body at an odd grid point `(i, 1)` that is not the last: it starts the copy of column block `i + 1` into
  the slot it is not reading, reads block `i` from the other slot and the second half of the embedding from scratch,
  and stores the eight scaled rows of the output block.  What the output block's buffer ends with is found by running
  the body; the copy is left in flight for the next point.
-/
import proofs.«166942_g35321811042314_cont_sun_m_1252_29_alg».proof.Proof.Gen.Kernel.Skeleton
import proofs.«166942_g35321811042314_cont_sun_m_1252_29_alg».proof.Proof.KBCanon

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The slot's contents once block `b` has landed in it whole. -/
abbrev landedJ (c : Dev nD) (W : HbBuf (F := F) c hbX) (s : Fin 2) (b : Fin 16) : HbBuf (F := F) c (rslot s) :=
  (rslot s).view.writes (Elt F) (rslot s).view.junk [⟨Rect.whole S100x1024, ReadAs.same.apply ((srcB b).view.read (Elt F) W)⟩]

set_option maxHeartbeats 4000000 in
/-- The run at such a point: the output block's pieces, and the triple. -/
noncomputable def kernelRun_C [∀ e, Nonempty (Elt F e)] (c : Dev nD) (t : Fin cfg0.N)
    (arg3 : Memref sig .tc .vmem S100x1 .f32) (harg3 : arg3.IsWhole) (arg4 : Memref sig .tc .vmem S26x16 .f32) (harg4 : arg4.IsWhole)
    (arg5 : Memref sig .tc .vmem S100x1 .i32) (harg5 : arg5.IsWhole) (arg6 : Memref sig .tc .vmem S2x1024 .f32) (harg6 : arg6.IsWhole)
    (arg7 : Memref sig .tc .vmem S100x8x1024 .f32) (harg7 : arg7.IsWhole)
    (h1 : ¬ k0_cond1 (grid0.coords t) = 1#1) (h2 : ¬ k0_cond2 (grid0.coords t) = 1#1) (h3 : k0_cond3 (grid0.coords t) = 1#1) (h4 : ¬ k0_cond4 (grid0.coords t) = 1#1)
    (x0 : Vec F S100x1 .f32) (x1 : Vec F S26x16 .f32) (x2 : Vec F S100x1 .i32)
    (e0 : Vec F S2x100x8 .f32) (a0 : Vec F S100x2 .f32) (q0 : Vec F S100x1 .f32)
    (W : HbBuf (F := F) c hbX) :
    { L7 : List (View.Piece (Elt F) S100x8x1024 .f32) //
      ∀ (y3 : Vec F S2x1024 .f32) (f : HbBuf (F := F) c (rslot (sNext t))) (Wt : Waits sig Unit) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare y3 ∗ (∃ d, owns (c : Thread nD τ) arg7 fullShare d)
            ∗ owns (c : Thread nD τ) scE fullShare e0 ∗ owns (c : Thread nD τ) scA fullShare a0 ∗ owns (c : Thread nD τ) scQ fullShare q0
            ∗ slotP c (sNow t) (landedJ c W (sNow t) (bNow t)) ∗ slotP c (sNext t) f ∗ cellP c (sNow t) ∗ cellP c (sNext t)
            ∗ srcP c W (bNext t) ∗ restP c W (bNext t) ∗ owes (c : Thread nD τ) 0 Wt
            ∗ (iprop(owns (c : Thread nD τ) arg3 fullShare x0 ∗ owns (c : Thread nD τ) arg4 fullShare x1 ∗ owns (c : Thread nD τ) arg5 fullShare x2
                ∗ owns (c : Thread nD τ) arg6 fullShare y3 ∗ (∃ f7, arg7.view.loc (c : Thread nD τ) ↦[arg7.view.set]{fullShare} arg7.view.writes (Elt F) f7 L7)
                ∗ owns (c : Thread nD τ) scE fullShare e0 ∗ owns (c : Thread nD τ) scA fullShare a0 ∗ owns (c : Thread nD τ) scQ fullShare q0
                ∗ slotP c (sNow t) (landedJ c W (sNow t) (bNow t)) ∗ cellP c (sNow t)
                ∗ flightP c W (sNext t) (bNext t) f ∗ restP c W (bNext t) ∗ (∃ W', owes (c : Thread nD τ) 0 W')) -∗ K ⟨⟩))
          ⊢ wp frame (wpE (defs₀ (F := F)) Variants.none c none) Set.univ
            (cc0__fm_body (grid0.coords t) hbX (Memref.isWhole_whole _) arg3 harg3 arg4 harg4 arg5 harg5 arg6 harg6 arg7 harg7
              scE (Memref.isWhole_whole _) scA (Memref.isWhole_whole _) scQ (Memref.isWhole_whole _) scX (Memref.isWhole_whole _) cc0_scratch4) K } := by
  refine ⟨?_, fun y3 f Wt K => ?run⟩
  case run =>
    haveI : Fact (¬ k0_cond1 (grid0.coords t) = 1#1) := ⟨h1⟩
    haveI : Fact (¬ k0_cond2 (grid0.coords t) = 1#1) := ⟨h2⟩
    haveI : Fact (k0_cond3 (grid0.coords t) = 1#1) := ⟨h3⟩
    haveI : Fact (¬ k0_cond4 (grid0.coords t) = 1#1) := ⟨h4⟩
    simp only [cc0__fm_body_eq_skeleton]; unfold cc0__fm_body_skel
    unfold owns
    iintro ⟨⟨%f0, %hf0, H0⟩, ⟨%f1, %hf1, H1⟩, ⟨%f2, %hf2, H2⟩, ⟨%f3, %hf3, H3⟩, ⟨%d4, %f4, -, H4⟩, ⟨%fe, %hfe, HE⟩, ⟨%fa, %hfa, HA⟩, ⟨%fq, %hfq, HQ⟩, HsN, HsX, HcN, HcX, Hsrc, Hrest, HW, Hk⟩
    obtain rfl := harg3.eq_unread hf0
    obtain rfl := harg4.eq_unread hf1
    obtain rfl := harg5.eq_unread hf2
    obtain rfl := harg6.eq_unread hf3
    obtain rfl := (Memref.isWhole_whole cc0_scratch0).eq_unread hfe
    obtain rfl := (Memref.isWhole_whole cc0_scratch1).eq_unread hfa
    obtain rfl := (Memref.isWhole_whole cc0_scratch2).eq_unread hfq
    sl_exec (disch := first | exact h1 | exact h2 | exact h3 | exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HE]
    · iexists _; isplitr; · ipureintro; exact (Memref.isWhole_whole cc0_scratch0).read_unread _
      iexact HE
    isplitl [HA]
    · iexists _; isplitr; · ipureintro; exact (Memref.isWhole_whole cc0_scratch1).read_unread _
      iexact HA
    isplitl [HQ]
    · iexists _; isplitr; · ipureintro; exact (Memref.isWhole_whole cc0_scratch2).read_unread _
      iexact HQ
    isplitl [HsN]; · iexact HsN
    isplitl [HcN]; · iexact HcN
    isplitl [HcX]; · iexact HcX
    isplitl [Hrest]; · iexact Hrest
    iexists _; iexact HW

end Cert.Kernel.Body

end
-- ==== Proof.KBRunD.lean ====
/-
  The kernel's body at the last grid point `(15, 1)`: no copy is started; it reads block 15 from its slot and the second
  half of the embedding from scratch and stores the eight scaled rows of the output block.
-/
import proofs.«166942_g35321811042314_cont_sun_m_1252_29_alg».proof.Proof.Gen.Kernel.Skeleton
import proofs.«166942_g35321811042314_cont_sun_m_1252_29_alg».proof.Proof.KBRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The run at the last point: the output block's pieces, and the triple. -/
noncomputable def kernelRun_D [∀ e, Nonempty (Elt F e)] (c : Dev nD) (t : Fin cfg0.N)
    (arg3 : Memref sig .tc .vmem S100x1 .f32) (harg3 : arg3.IsWhole) (arg4 : Memref sig .tc .vmem S26x16 .f32) (harg4 : arg4.IsWhole)
    (arg5 : Memref sig .tc .vmem S100x1 .i32) (harg5 : arg5.IsWhole) (arg6 : Memref sig .tc .vmem S2x1024 .f32) (harg6 : arg6.IsWhole)
    (arg7 : Memref sig .tc .vmem S100x8x1024 .f32) (harg7 : arg7.IsWhole)
    (h1 : ¬ k0_cond1 (grid0.coords t) = 1#1) (h2 : ¬ k0_cond2 (grid0.coords t) = 1#1) (h3 : ¬ k0_cond3 (grid0.coords t) = 1#1) (h4 : ¬ k0_cond4 (grid0.coords t) = 1#1)
    (x0 : Vec F S100x1 .f32) (x1 : Vec F S26x16 .f32) (x2 : Vec F S100x1 .i32)
    (e0 : Vec F S2x100x8 .f32) (a0 : Vec F S100x2 .f32) (q0 : Vec F S100x1 .f32)
    (W : HbBuf (F := F) c hbX) :
    { L7 : List (View.Piece (Elt F) S100x8x1024 .f32) //
      ∀ (y3 : Vec F S2x1024 .f32) (Wt : Waits sig Unit) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare y3 ∗ (∃ d, owns (c : Thread nD τ) arg7 fullShare d)
            ∗ owns (c : Thread nD τ) scE fullShare e0 ∗ owns (c : Thread nD τ) scA fullShare a0 ∗ owns (c : Thread nD τ) scQ fullShare q0
            ∗ slotP c (sNow t) (landedJ c W (sNow t) (bNow t)) ∗ owes (c : Thread nD τ) 0 Wt
            ∗ (iprop(owns (c : Thread nD τ) arg3 fullShare x0 ∗ owns (c : Thread nD τ) arg4 fullShare x1 ∗ owns (c : Thread nD τ) arg5 fullShare x2
                ∗ owns (c : Thread nD τ) arg6 fullShare y3 ∗ (∃ f7, arg7.view.loc (c : Thread nD τ) ↦[arg7.view.set]{fullShare} arg7.view.writes (Elt F) f7 L7)
                ∗ owns (c : Thread nD τ) scE fullShare e0 ∗ owns (c : Thread nD τ) scA fullShare a0 ∗ owns (c : Thread nD τ) scQ fullShare q0
                ∗ slotP c (sNow t) (landedJ c W (sNow t) (bNow t)) ∗ (∃ W', owes (c : Thread nD τ) 0 W')) -∗ K ⟨⟩))
          ⊢ wp frame (wpE (defs₀ (F := F)) Variants.none c none) Set.univ
            (cc0__fm_body (grid0.coords t) hbX (Memref.isWhole_whole _) arg3 harg3 arg4 harg4 arg5 harg5 arg6 harg6 arg7 harg7
              scE (Memref.isWhole_whole _) scA (Memref.isWhole_whole _) scQ (Memref.isWhole_whole _) scX (Memref.isWhole_whole _) cc0_scratch4) K } := by
  refine ⟨?_, fun y3 Wt K => ?run⟩
  case run =>
    haveI : Fact (¬ k0_cond1 (grid0.coords t) = 1#1) := ⟨h1⟩
    haveI : Fact (¬ k0_cond2 (grid0.coords t) = 1#1) := ⟨h2⟩
    haveI : Fact (¬ k0_cond3 (grid0.coords t) = 1#1) := ⟨h3⟩
    haveI : Fact (¬ k0_cond4 (grid0.coords t) = 1#1) := ⟨h4⟩
    simp only [cc0__fm_body_eq_skeleton]; unfold cc0__fm_body_skel
    unfold owns
    iintro ⟨⟨%f0, %hf0, H0⟩, ⟨%f1, %hf1, H1⟩, ⟨%f2, %hf2, H2⟩, ⟨%f3, %hf3, H3⟩, ⟨%d4, %f4, -, H4⟩, ⟨%fe, %hfe, HE⟩, ⟨%fa, %hfa, HA⟩, ⟨%fq, %hfq, HQ⟩, HsN, HW, Hk⟩
    obtain rfl := harg3.eq_unread hf0
    obtain rfl := harg4.eq_unread hf1
    obtain rfl := harg5.eq_unread hf2
    obtain rfl := harg6.eq_unread hf3
    obtain rfl := (Memref.isWhole_whole cc0_scratch0).eq_unread hfe
    obtain rfl := (Memref.isWhole_whole cc0_scratch1).eq_unread hfa
    obtain rfl := (Memref.isWhole_whole cc0_scratch2).eq_unread hfq
    sl_exec (disch := first | exact h1 | exact h2 | exact h3 | exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HE]
    · iexists _; isplitr; · ipureintro; exact (Memref.isWhole_whole cc0_scratch0).read_unread _
      iexact HE
    isplitl [HA]
    · iexists _; isplitr; · ipureintro; exact (Memref.isWhole_whole cc0_scratch1).read_unread _
      iexact HA
    isplitl [HQ]
    · iexists _; isplitr; · ipureintro; exact (Memref.isWhole_whole cc0_scratch2).read_unread _
      iexact HQ
    isplitl [HsN]; · iexact HsN
    iexists _; iexact HW

end Cert.Kernel.Body

end
-- ==== Proof.KBRunB.lean ====
/-
  The kernel's body at an even grid point `(i, 0)` after the first: it waits for the copy of column block `i` that the
  point before left in flight, reads the block from its slot and the first half of the embedding from scratch, stores the
  eight scaled rows of the output block, and computes the two rows of the first result's block from the block and the
  two reduction vectors kept in scratch.
-/
import proofs.«166942_g35321811042314_cont_sun_m_1252_29_alg».proof.Proof.Gen.Kernel.Skeleton
import proofs.«166942_g35321811042314_cont_sun_m_1252_29_alg».proof.Proof.KBRunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The run at such a point: the pieces of the two output blocks, and the triple. -/
noncomputable def kernelRun_B [∀ e, Nonempty (Elt F e)] (c : Dev nD) (t : Fin cfg0.N)
    (arg3 : Memref sig .tc .vmem S100x1 .f32) (harg3 : arg3.IsWhole) (arg4 : Memref sig .tc .vmem S26x16 .f32) (harg4 : arg4.IsWhole)
    (arg5 : Memref sig .tc .vmem S100x1 .i32) (harg5 : arg5.IsWhole) (arg6 : Memref sig .tc .vmem S2x1024 .f32) (harg6 : arg6.IsWhole)
    (arg7 : Memref sig .tc .vmem S100x8x1024 .f32) (harg7 : arg7.IsWhole)
    (h1 : ¬ k0_cond1 (grid0.coords t) = 1#1) (h2 : k0_cond2 (grid0.coords t) = 1#1) (h3 : ¬ k0_cond3 (grid0.coords t) = 1#1) (h4 : k0_cond4 (grid0.coords t) = 1#1)
    (x0 : Vec F S100x1 .f32) (x1 : Vec F S26x16 .f32) (x2 : Vec F S100x1 .i32)
    (e0 : Vec F S2x100x8 .f32) (a0 : Vec F S100x2 .f32) (q0 : Vec F S100x1 .f32)
    (W : HbBuf (F := F) c hbX) :
    (L6 : List (View.Piece (Elt F) S2x1024 .f32)) ×' (L7 : List (View.Piece (Elt F) S100x8x1024 .f32)) ×'
      (∀ (g : HbBuf (F := F) c (rslot (sNow t))) (Wt : Waits sig Unit) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ owns (c : Thread nD τ) scE fullShare e0 ∗ owns (c : Thread nD τ) scA fullShare a0 ∗ owns (c : Thread nD τ) scQ fullShare q0
            ∗ flightP c W (sNow t) (bNow t) g ∗ owes (c : Thread nD τ) 0 Wt
            ∗ (iprop(owns (c : Thread nD τ) arg3 fullShare x0 ∗ owns (c : Thread nD τ) arg4 fullShare x1 ∗ owns (c : Thread nD τ) arg5 fullShare x2
                ∗ (∃ f6, arg6.view.loc (c : Thread nD τ) ↦[arg6.view.set]{fullShare} arg6.view.writes (Elt F) f6 L6) ∗ (∃ f7, arg7.view.loc (c : Thread nD τ) ↦[arg7.view.set]{fullShare} arg7.view.writes (Elt F) f7 L7)
                ∗ owns (c : Thread nD τ) scE fullShare e0 ∗ owns (c : Thread nD τ) scA fullShare a0 ∗ owns (c : Thread nD τ) scQ fullShare q0
                ∗ slotP c (sNow t) (landedJ c W (sNow t) (bNow t)) ∗ srcP c W (bNow t) ∗ cellP c (sNow t) ∗ (∃ W', owes (c : Thread nD τ) 0 W')) -∗ K ⟨⟩))
          ⊢ wp frame (wpE (defs₀ (F := F)) Variants.none c none) Set.univ
            (cc0__fm_body (grid0.coords t) hbX (Memref.isWhole_whole _) arg3 harg3 arg4 harg4 arg5 harg5 arg6 harg6 arg7 harg7
              scE (Memref.isWhole_whole _) scA (Memref.isWhole_whole _) scQ (Memref.isWhole_whole _) scX (Memref.isWhole_whole _) cc0_scratch4) K) := by
  refine ⟨?_, ?_, fun g Wt K => ?run⟩
  case run =>
    haveI : Fact (¬ k0_cond1 (grid0.coords t) = 1#1) := ⟨h1⟩
    haveI : Fact (k0_cond2 (grid0.coords t) = 1#1) := ⟨h2⟩
    haveI : Fact (¬ k0_cond3 (grid0.coords t) = 1#1) := ⟨h3⟩
    haveI : Fact (k0_cond4 (grid0.coords t) = 1#1) := ⟨h4⟩
    simp only [cc0__fm_body_eq_skeleton]; unfold cc0__fm_body_skel
    unfold owns
    iintro ⟨⟨%f0, %hf0, H0⟩, ⟨%f1, %hf1, H1⟩, ⟨%f2, %hf2, H2⟩, ⟨%d3, %f3, -, H3⟩, ⟨%d4, %f4, -, H4⟩, ⟨%fe, %hfe, HE⟩, ⟨%fa, %hfa, HA⟩, ⟨%fq, %hfq, HQ⟩, HF, HW, Hk⟩
    obtain rfl := harg3.eq_unread hf0
    obtain rfl := harg4.eq_unread hf1
    obtain rfl := harg5.eq_unread hf2
    obtain rfl := (Memref.isWhole_whole cc0_scratch0).eq_unread hfe
    obtain rfl := (Memref.isWhole_whole cc0_scratch1).eq_unread hfa
    obtain rfl := (Memref.isWhole_whole cc0_scratch2).eq_unread hfq
    sl_exec (disch := first | exact h1 | exact h2 | exact h3 | exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [HE]
    · iexists _; isplitr; · ipureintro; exact (Memref.isWhole_whole cc0_scratch0).read_unread _
      iexact HE
    isplitl [HA]
    · iexists _; isplitr; · ipureintro; exact (Memref.isWhole_whole cc0_scratch1).read_unread _
      iexact HA
    isplitl [HQ]
    · iexists _; isplitr; · ipureintro; exact (Memref.isWhole_whole cc0_scratch2).read_unread _
      iexact HQ
    isplitl [HF_dst]; · iexact HF_dst
    isplitl [HF_src]; · iexact HF_src
    isplitl [HF]; · iexact HF
    iexists _; iexact HW

end Cert.Kernel.Body

end
-- ==== Proof.KBRunA.lean ====
/-
  The kernel's body at the first grid point `(0, 0)`: it starts the copy of column block 0, computes the embedding of
  every feature from the field indices and the table (a one-hot matrix product) and stores its two halves, the column of
  linear weights beside the embedding's row sums, and the row sums of the embedding's squares into scratch; then it waits
  for the copy, and goes on as every even point does.  The pieces the three scratch buffers and the two output blocks end
  with are found by running the body.
-/
import proofs.«166942_g35321811042314_cont_sun_m_1252_29_alg».proof.Proof.Gen.Kernel.Skeleton
import proofs.«166942_g35321811042314_cont_sun_m_1252_29_alg».proof.Proof.KBRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The run at the first point: the pieces of the two output blocks and of the three scratch buffers, and the triple. -/
noncomputable def kernelRun_A [∀ e, Nonempty (Elt F e)] (c : Dev nD) (t : Fin cfg0.N)
    (arg3 : Memref sig .tc .vmem S100x1 .f32) (harg3 : arg3.IsWhole) (arg4 : Memref sig .tc .vmem S26x16 .f32) (harg4 : arg4.IsWhole)
    (arg5 : Memref sig .tc .vmem S100x1 .i32) (harg5 : arg5.IsWhole) (arg6 : Memref sig .tc .vmem S2x1024 .f32) (harg6 : arg6.IsWhole)
    (arg7 : Memref sig .tc .vmem S100x8x1024 .f32) (harg7 : arg7.IsWhole)
    (h1 : k0_cond1 (grid0.coords t) = 1#1) (h2 : k0_cond2 (grid0.coords t) = 1#1) (h3 : ¬ k0_cond3 (grid0.coords t) = 1#1) (h4 : k0_cond4 (grid0.coords t) = 1#1)
    (x0 : Vec F S100x1 .f32) (x1 : Vec F S26x16 .f32) (x2 : Vec F S100x1 .i32)
    (W : HbBuf (F := F) c hbX) :
    (L6 : List (View.Piece (Elt F) S2x1024 .f32)) ×' (L7 : List (View.Piece (Elt F) S100x8x1024 .f32)) ×'
    (LE : List (View.Piece (Elt F) S2x100x8 .f32)) ×' (LA : List (View.Piece (Elt F) S100x2 .f32)) ×' (LQ : List (View.Piece (Elt F) S100x1 .f32)) ×'
      (∀ (g : HbBuf (F := F) c (rslot (sNow t))) (Wt : Waits sig Unit) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (∃ d, owns (c : Thread nD τ) scE fullShare d) ∗ (∃ d, owns (c : Thread nD τ) scA fullShare d) ∗ (∃ d, owns (c : Thread nD τ) scQ fullShare d)
            ∗ slotP c (sNow t) g ∗ cellP c (sNow t) ∗ srcP c W (bNow t) ∗ owes (c : Thread nD τ) 0 Wt
            ∗ (iprop(owns (c : Thread nD τ) arg3 fullShare x0 ∗ owns (c : Thread nD τ) arg4 fullShare x1 ∗ owns (c : Thread nD τ) arg5 fullShare x2
                ∗ (∃ f6, arg6.view.loc (c : Thread nD τ) ↦[arg6.view.set]{fullShare} arg6.view.writes (Elt F) f6 L6) ∗ (∃ f7, arg7.view.loc (c : Thread nD τ) ↦[arg7.view.set]{fullShare} arg7.view.writes (Elt F) f7 L7)
                ∗ (∃ fE, scE.view.loc (c : Thread nD τ) ↦[scE.view.set]{fullShare} scE.view.writes (Elt F) fE LE) ∗ (∃ fA, scA.view.loc (c : Thread nD τ) ↦[scA.view.set]{fullShare} scA.view.writes (Elt F) fA LA) ∗ (∃ fQ, scQ.view.loc (c : Thread nD τ) ↦[scQ.view.set]{fullShare} scQ.view.writes (Elt F) fQ LQ)
                ∗ slotP c (sNow t) (landedJ c W (sNow t) (bNow t)) ∗ srcP c W (bNow t) ∗ cellP c (sNow t) ∗ (∃ W', owes (c : Thread nD τ) 0 W')) -∗ K ⟨⟩))
          ⊢ wp frame (wpE (defs₀ (F := F)) Variants.none c none) Set.univ
            (cc0__fm_body (grid0.coords t) hbX (Memref.isWhole_whole _) arg3 harg3 arg4 harg4 arg5 harg5 arg6 harg6 arg7 harg7
              scE (Memref.isWhole_whole _) scA (Memref.isWhole_whole _) scQ (Memref.isWhole_whole _) scX (Memref.isWhole_whole _) cc0_scratch4) K) := by
  refine ⟨?_, ?_, ?_, ?_, ?_, fun g Wt K => ?run⟩
  case run =>
    haveI : Fact (k0_cond1 (grid0.coords t) = 1#1) := ⟨h1⟩
    haveI : Fact (k0_cond2 (grid0.coords t) = 1#1) := ⟨h2⟩
    haveI : Fact (¬ k0_cond3 (grid0.coords t) = 1#1) := ⟨h3⟩
    haveI : Fact (k0_cond4 (grid0.coords t) = 1#1) := ⟨h4⟩
    simp only [cc0__fm_body_eq_skeleton]; unfold cc0__fm_body_skel
    unfold owns
    iintro ⟨⟨%f0, %hf0, H0⟩, ⟨%f1, %hf1, H1⟩, ⟨%f2, %hf2, H2⟩, ⟨%d3, %f3, -, H3⟩, ⟨%d4, %f4, -, H4⟩, ⟨%de, %fe, -, HE⟩, ⟨%da, %fa, -, HA⟩, ⟨%dq, %fq, -, HQ⟩, HsN, HcN, Hsrc, HW, Hk⟩
    obtain rfl := harg3.eq_unread hf0
    obtain rfl := harg4.eq_unread hf1
    obtain rfl := harg5.eq_unread hf2
    sl_exec (disch := first | exact h1 | exact h2 | exact h3 | exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [HE]; · iexists _; iexact HE
    isplitl [HA]; · iexists _; iexact HA
    isplitl [HQ]; · iexists _; iexact HQ
    isplitl [HsN]; · iexact HsN
    isplitl [Hsrc]; · iexact Hsrc
    isplitl [HcN]; · iexact HcN
    iexists _; iexact HW

end Cert.Kernel.Body

end
-- ==== Proof.KBData.lean ====
/-
  The proof data of the kernel's pipeline.  Point `t = 2 i + j` of the 16 × 2 grid is one of four kinds: the first
  point; an even point after it; an odd point before the last; the last point.  After the first point the three scratch
  buffers hold the embedding's halves, the linear weights beside the embedding's row sums, and the row sums of its
  squares, for good.  Before an odd point the slot `i % 2` holds column block `i`; before an even point after the first
  the copy of block `i` into that slot is in flight; before the first point and after the last nothing is.
-/
import proofs.«166942_g35321811042314_cont_sun_m_1252_29_alg».proof.Proof.Gen.Kernel.Skeleton
import proofs.«166942_g35321811042314_cont_sun_m_1252_29_alg».proof.Proof.KBRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The staging memrefs at a point, and the conditions in closed form -/

abbrev ms0 (t : Fin cfg0.N) : Memref sig .tc .vmem S100x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S26x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S100x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S100x8x1024 .f32 := win0_4.stage (cfg0.slots t 4)
abbrev hs4 (t : Fin cfg0.N) : (ms4 t).IsWhole := hstage0_4 ((cfg0.slots t 4).cast nbuf0_4)

section Conds
omit [FloatOps F]
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val % 2 = 0 :=
  (by decide +kernel : ∀ t : Fin grid0.N, k0_cond2 (grid0.coords t) = 1#1 ↔ t.val % 2 = 0)
theorem hcond3 : ∀ t : Fin cfg0.N, k0_cond3 (grid0.coords t) = 1#1 ↔ (t.val % 2 = 1 ∧ t.val < 31) :=
  (by decide +kernel : ∀ t : Fin grid0.N, k0_cond3 (grid0.coords t) = 1#1 ↔ (t.val % 2 = 1 ∧ t.val < 31))
theorem hcond4 : ∀ t : Fin cfg0.N, k0_cond4 (grid0.coords t) = 1#1 ↔ t.val % 2 = 0 :=
  (by decide +kernel : ∀ t : Fin grid0.N, k0_cond4 (grid0.coords t) = 1#1 ↔ t.val % 2 = 0)
end Conds

/-! ## The runs at a point's memrefs and blocks -/

/-- The first point's run. -/
def runA (c : Dev nD) (t : Fin cfg0.N) (h0 : t.val = 0) :=
  kernelRun_A (F := F) c t (ms0 t) (hs0 t) (ms1 t) (hs1 t) (ms2 t) (hs2 t) (ms3 t) (hs3 t) (ms4 t) (hs4 t)
    ((hcond1 t).mpr h0) ((hcond2 t).mpr (by omega)) (fun h => by have := (hcond3 t).mp h; omega) ((hcond4 t).mpr (by omega))
    (iblk m c 0 t) (iblk m c 1 t) (iblk m c 2 t) (V m c main_v0)

/-- The first point (as a point of the grid). -/
def t₀ : Fin cfg0.N := ⟨0, by decide⟩

/-- What the three scratch buffers hold from the first point on. -/
def Ev (c : Dev nD) : Vec F S2x100x8 .f32 := View.canon (runA m c t₀ rfl).2.2.1
def Av (c : Dev nD) : Vec F S100x2 .f32 := View.canon (runA m c t₀ rfl).2.2.2.1
def Qv (c : Dev nD) : Vec F S100x1 .f32 := View.canon (runA m c t₀ rfl).2.2.2.2.1

/-- An even point's run, after the first. -/
def runB (c : Dev nD) (t : Fin cfg0.N) (h0 : t.val ≠ 0) (he : t.val % 2 = 0) :=
  kernelRun_B (F := F) c t (ms0 t) (hs0 t) (ms1 t) (hs1 t) (ms2 t) (hs2 t) (ms3 t) (hs3 t) (ms4 t) (hs4 t)
    (fun h => h0 ((hcond1 t).mp h)) ((hcond2 t).mpr he) (fun h => by have := (hcond3 t).mp h; omega) ((hcond4 t).mpr he)
    (iblk m c 0 t) (iblk m c 1 t) (iblk m c 2 t) (Ev m c) (Av m c) (Qv m c) (V m c main_v0)

/-- An odd point's run, before the last. -/
def runC (c : Dev nD) (t : Fin cfg0.N) (ho : t.val % 2 = 1) (hl : t.val < 31) :=
  kernelRun_C (F := F) c t (ms0 t) (hs0 t) (ms1 t) (hs1 t) (ms2 t) (hs2 t) (ms3 t) (hs3 t) (ms4 t) (hs4 t)
    (fun h => by have := (hcond1 t).mp h; omega) (fun h => by have := (hcond2 t).mp h; omega) ((hcond3 t).mpr ⟨ho, hl⟩) (fun h => by have := (hcond4 t).mp h; omega)
    (iblk m c 0 t) (iblk m c 1 t) (iblk m c 2 t) (Ev m c) (Av m c) (Qv m c) (V m c main_v0)

/-- The last point's run. -/
def runD (c : Dev nD) (t : Fin cfg0.N) (ho : t.val % 2 = 1) (hl : ¬ t.val < 31) :=
  kernelRun_D (F := F) c t (ms0 t) (hs0 t) (ms1 t) (hs1 t) (ms2 t) (hs2 t) (ms3 t) (hs3 t) (ms4 t) (hs4 t)
    (fun h => by have := (hcond1 t).mp h; omega) (fun h => by have := (hcond2 t).mp h; omega) (fun h => hl ((hcond3 t).mp h).2) (fun h => by have := (hcond4 t).mp h; omega)
    (iblk m c 0 t) (iblk m c 1 t) (iblk m c 2 t) (Ev m c) (Av m c) (Qv m c) (V m c main_v0)

/-! ## What the two output windows' buffers hold after the body at each point -/

/-- The second result's block: the point's eight stores, read back. -/
def out7At (c : Dev nD) (t : Fin cfg0.N) : Vec F S100x8x1024 .f32 :=
  if h0 : t.val = 0 then View.canon (runA m c t h0).2.1
  else if he : t.val % 2 = 0 then View.canon (runB m c t h0 he).2.1
  else if hl : t.val < 31 then View.canon (runC m c t (by omega) hl).1
  else View.canon (runD m c t (by omega) hl).1

/-- The first result's block at an even point: its one store, read back. -/
def y3Even (c : Dev nD) (t : Fin cfg0.N) (he : t.val % 2 = 0) : Vec F S2x1024 .f32 :=
  if h0 : t.val = 0 then View.canon (runA m c t h0).1 else View.canon (runB m c t h0 he).1

/-- The first result's block: at an odd point what the even point before it left. -/
def y3At (c : Dev nD) (t : Fin cfg0.N) : Vec F S2x1024 .f32 :=
  if he : t.val % 2 = 0 then y3Even m c t he
  else y3Even m c ⟨t.val - 1, Nat.lt_of_le_of_lt (Nat.sub_le _ _) t.isLt⟩ (by dsimp only; omega)

/-! ## The invariant before point `k` -/

/-- The scratch buffers: anything before the first point, the kept values from then on. -/
def PhiS (c : Dev nD) (k : ℕ) : sProp 𝕄 :=
  if k = 0 then iprop((∃ d, owns (c : Thread nD τ) scE fullShare d) ∗ (∃ d, owns (c : Thread nD τ) scA fullShare d) ∗ (∃ d, owns (c : Thread nD τ) scQ fullShare d))
  else iprop(owns (c : Thread nD τ) scE fullShare (Ev m c) ∗ owns (c : Thread nD τ) scA fullShare (Av m c) ∗ owns (c : Thread nD τ) scQ fullShare (Qv m c))

/-- Nothing in flight: both slots held at anything, both cells at zero, the operand whole. -/
def ringIdle (c : Dev nD) (s s' : Fin 2) : sProp 𝕄 :=
  iprop((∃ f, slotP c s f) ∗ (∃ f, slotP c s' f) ∗ cellP c s ∗ cellP c s' ∗ hbPt c hbX (V m c main_v0))
/-- The copy of block `b` into slot `s` in flight; the other slot and cell held. -/
def ringFly (c : Dev nD) (s s' : Fin 2) (b : Fin 16) : sProp 𝕄 :=
  iprop((∃ f, flightP c (V m c main_v0) s b f) ∗ restP c (V m c main_v0) b ∗ (∃ f, slotP c s' f) ∗ cellP c s')
/-- Block `b` landed in slot `s`; the other slot at anything, both cells at zero, the operand whole. -/
def ringHas (c : Dev nD) (s s' : Fin 2) (b : Fin 16) : sProp 𝕄 :=
  iprop(slotP c s (landedJ c (V m c main_v0) s b) ∗ (∃ f, slotP c s' f) ∗ cellP c s ∗ cellP c s' ∗ hbPt c hbX (V m c main_v0))

/-- The ring before point `k`. -/
def PhiRing (c : Dev nD) (k : ℕ) : sProp 𝕄 :=
  if k = 0 ∨ 32 ≤ k then ringIdle m c (Ring.sl 2 (k / 2)) (Ring.sl 2 (k / 2 + 1))
  else if k % 2 = 0 then ringFly m c (Ring.sl 2 (k / 2)) (Ring.sl 2 (k / 2 + 1)) (Ring.bk 16 (k / 2))
  else ringHas m c (Ring.sl 2 (k / 2)) (Ring.sl 2 (k / 2 + 1)) (Ring.bk 16 (k / 2))

/-- The whole invariant before point `k`: the random-number register at some state, the scratch, the ring. -/
def PhiR (c : Dev nD) (k : ℕ) : sProp 𝕄 := iprop((∃ r, prngReg c r) ∗ PhiS m c k ∗ PhiRing m c k)

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => y3At m c t
    | ⟨4, _⟩ => out7At m c t
    | ⟨n + 5, h⟩ => absurd h (Nat.not_lt.2 (Nat.le_add_left _ _))
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = y3At m c t := by dsimp only [dats]
theorem after_4 (c : Dev nD) (t : Fin cfg0.N) : (dats m 0 c).after 4 t = out7At m c t := by dsimp only [dats]

/-- Each input window's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

end Cert.Kernel.Body

end
-- ==== Proof.KBSound.lean ====
/-
  The body obligation of the kernel's pipeline: at each of the four kinds of point the body takes the invariant before
  the point and the windows' buffers to the invariant after it and the buffers at what the proof data says.  The pieces a
  buffer ends with cover it, so what it holds does not depend on what it held before.
-/
import proofs.«166942_g35321811042314_cont_sun_m_1252_29_alg».proof.Proof.Gen.Kernel.Skeleton
import proofs.«166942_g35321811042314_cont_sun_m_1252_29_alg».proof.Proof.KBData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The found pieces cover their buffers -/

theorem cover6_A (c : Dev nD) (t : Fin cfg0.N) (h0 : t.val = 0) (y : S2x1024.Idx) : ∃ pc ∈ (runA m c t h0).1, y ∈ pc.1.set :=
  View.cover_of_tiledL (runA m c t h0).1 S2x1024.size (by sl_kernel_rfl) y
theorem cover7_A (c : Dev nD) (t : Fin cfg0.N) (h0 : t.val = 0) (y : S100x8x1024.Idx) : ∃ pc ∈ (runA m c t h0).2.1, y ∈ pc.1.set :=
  View.cover_of_tiledL (runA m c t h0).2.1 S100x1x1024.size (by sl_kernel_rfl) y
theorem coverE_A (c : Dev nD) (t : Fin cfg0.N) (h0 : t.val = 0) (y : S2x100x8.Idx) : ∃ pc ∈ (runA m c t h0).2.2.1, y ∈ pc.1.set :=
  View.cover_of_tiledL (runA m c t h0).2.2.1 S1x100x8.size (by sl_kernel_rfl) y
theorem coverA_A (c : Dev nD) (t : Fin cfg0.N) (h0 : t.val = 0) (y : S100x2.Idx) : ∃ pc ∈ (runA m c t h0).2.2.2.1, y ∈ pc.1.set :=
  View.cover_of_tiledL (runA m c t h0).2.2.2.1 S100x2.size (by sl_kernel_rfl) y
theorem coverQ_A (c : Dev nD) (t : Fin cfg0.N) (h0 : t.val = 0) (y : S100x1.Idx) : ∃ pc ∈ (runA m c t h0).2.2.2.2.1, y ∈ pc.1.set :=
  View.cover_of_tiledL (runA m c t h0).2.2.2.2.1 S100x1.size (by sl_kernel_rfl) y
theorem cover6_B (c : Dev nD) (t : Fin cfg0.N) (h0 : t.val ≠ 0) (he : t.val % 2 = 0) (y : S2x1024.Idx) : ∃ pc ∈ (runB m c t h0 he).1, y ∈ pc.1.set :=
  View.cover_of_tiledL (runB m c t h0 he).1 S2x1024.size (by sl_kernel_rfl) y
theorem cover7_B (c : Dev nD) (t : Fin cfg0.N) (h0 : t.val ≠ 0) (he : t.val % 2 = 0) (y : S100x8x1024.Idx) : ∃ pc ∈ (runB m c t h0 he).2.1, y ∈ pc.1.set :=
  View.cover_of_tiledL (runB m c t h0 he).2.1 S100x1x1024.size (by sl_kernel_rfl) y
theorem cover7_C (c : Dev nD) (t : Fin cfg0.N) (ho : t.val % 2 = 1) (hl : t.val < 31) (y : S100x8x1024.Idx) : ∃ pc ∈ (runC m c t ho hl).1, y ∈ pc.1.set :=
  View.cover_of_tiledL (runC m c t ho hl).1 S100x1x1024.size (by sl_kernel_rfl) y
theorem cover7_D (c : Dev nD) (t : Fin cfg0.N) (ho : t.val % 2 = 1) (hl : ¬ t.val < 31) (y : S100x8x1024.Idx) : ∃ pc ∈ (runD m c t ho hl).1, y ∈ pc.1.set :=
  View.cover_of_tiledL (runD m c t ho hl).1 S100x1x1024.size (by sl_kernel_rfl) y

/-! ## The obligation's two sides, the windows one by one -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 2000000 in
/-- The first point. -/
theorem sound_A (c : Dev nD) :
    bodyPre m c t₀ ⊢ wp frame (wpE (defs₀ (F := F)) Variants.none c none) Set.univ (bodyAt0 t₀) (fun _ => bodyPost m c t₀) := by
  have h0 : (t₀ : Fin cfg0.N).val = 0 := rfl
  unfold bodyPre bodyPost bodyAt0
  simp only [before_0, before_1, before_2]
  rw [after_0, after_1, after_2, after_3, after_4]
  rw [PhiR_castSucc m c t₀, PhiR_succ m c t₀]
  unfold Dat.owesAt Pipeline.owesWithin
  rw [show (dats m 0 c).owed t₀.castSucc = 0 from rfl, show (dats m 0 c).owed t₀.succ = 0 from rfl]
  unfold PhiR PhiS PhiRing
  rw [if_pos h0, if_neg (show ¬ t₀.val + 1 = 0 by omega), if_pos (Or.inl h0),
    if_neg (show ¬ (t₀.val + 1 = 0 ∨ 32 ≤ t₀.val + 1) by rw [h0]; omega), if_neg (show ¬ (t₀.val + 1) % 2 = 0 by rw [h0]; omega)]
  rw [show (t₀.val + 1) / 2 = t₀.val / 2 by rw [h0]]
  unfold ringIdle ringHas
  rw [show y3At m c t₀ = View.canon (runA m c t₀ h0).1 by unfold y3At y3Even; rw [dif_pos (by rw [h0]), dif_pos h0]]
  rw [show out7At m c t₀ = View.canon (runA m c t₀ h0).2.1 by unfold out7At; rw [dif_pos h0]]
  iintro ⟨⟨Hg, ⟨HE, HA, HQ⟩, ⟨⟨%g, HsN⟩, HsX, HcN, HcX, HX⟩⟩, ⟨%Wt, -, HW⟩, ⟨%d0, H0⟩, ⟨%d1, H1⟩, ⟨%d2, H2⟩, H3, H4⟩
  ihave HX' := (src_split c (V m c main_v0) (bNow t₀)).1 $$ HX
  icases HX' with ⟨Hsrc, Hrest⟩
  iapply ((runA m c t₀ h0).2.2.2.2.2 g Wt _)
  isplitl [H0]; · iexact H0
  isplitl [H1]; · iexact H1
  isplitl [H2]; · iexact H2
  isplitl [H3]; · iexact H3
  isplitl [H4]; · iexact H4
  isplitl [HE]; · iexact HE
  isplitl [HA]; · iexact HA
  isplitl [HQ]; · iexact HQ
  isplitl [HsN]; · iexact HsN
  isplitl [HcN]; · iexact HcN
  isplitl [Hsrc]; · iexact Hsrc
  isplitl [HW]; · iexact HW
  iintro ⟨H0, H1, H2, ⟨%f6, H3⟩, ⟨%f7, H4⟩, ⟨%fE, HE⟩, ⟨%fA, HA⟩, ⟨%fQ, HQ⟩, HsN, Hsrc, HcN, ⟨%W', HW'⟩⟩
  isplitl [Hg HE HA HQ HsN HsX HcN HcX Hsrc Hrest]
  · isplitl [Hg]; · iexact Hg
    isplitl [HE HA HQ]
    · isplitl [HE]
      · unfold owns Ev; iexists _; isplitr
        swap; · iexact HE
        ipureintro; exact View.read_writes_eq_canon _ _ _ (coverE_A m c _ _)
      isplitl [HA]
      · unfold owns Av; iexists _; isplitr
        swap; · iexact HA
        ipureintro; exact View.read_writes_eq_canon _ _ _ (coverA_A m c _ _)
      · unfold owns Qv; iexists _; isplitr
        swap; · iexact HQ
        ipureintro; exact View.read_writes_eq_canon _ _ _ (coverQ_A m c _ _)
    isplitl [HsN]; · iexact HsN
    isplitl [HsX]; · iexact HsX
    isplitl [HcN]; · iexact HcN
    isplitl [HcX]; · iexact HcX
    iapply (src_split c (V m c main_v0) (bNow t₀)).2
    isplitl [Hsrc]; · iexact Hsrc
    iexact Hrest
  isplitl [HW']
  · iexists W'; isplitr; · ipureintro; exact fun _ _ => Or.inl trivial
    iexact HW'
  isplitl [H0]; · iexact H0
  isplitl [H1]; · iexact H1
  isplitl [H2]; · iexact H2
  isplitl [H3]
  · unfold owns; iexists _; isplitr
    swap; · iexact H3
    ipureintro; exact View.read_writes_eq_canon _ _ _ (cover6_A m c _ _)
  · unfold owns; iexists _; isplitr
    swap; · iexact H4
    ipureintro; exact View.read_writes_eq_canon _ _ _ (cover7_A m c _ _)

end Cert.Kernel.Body

end
-- ==== Proof.KBSound2.lean ====
/-
  The body obligation at the three other kinds of point: an even point after the first (the copy in flight lands, the
  slot is read), an odd point before the last (the next copy is started), the last point (nothing is started).  At an odd
  point the first result's window is idle: its buffer holds what the even point before left, and is handed back as it is.
-/
import proofs.«166942_g35321811042314_cont_sun_m_1252_29_alg».proof.Proof.Gen.Kernel.Skeleton
import proofs.«166942_g35321811042314_cont_sun_m_1252_29_alg».proof.Proof.KBSound

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem y3At_even (c : Dev nD) (t : Fin cfg0.N) (he : t.val % 2 = 0) : y3At m c t = y3Even m c t he := by
  unfold y3At; rw [dif_pos he]
theorem y3At_odd (c : Dev nD) (t : Fin cfg0.N) (ho : ¬ t.val % 2 = 0) :
    y3At m c t = y3Even m c ⟨t.val - 1, Nat.lt_of_le_of_lt (Nat.sub_le _ _) t.isLt⟩ (by dsimp only; omega) := by
  unfold y3At; rw [dif_neg ho]

/-- At an odd point the first result's buffer holds what the even point before it left there. -/
theorem before_3_odd (c : Dev nD) (t : Fin cfg0.N) (ho : t.val % 2 = 1) (d) : (dats m 0 c).before 3 t d = y3At m c t := by
  have ht : t.val ≠ 0 := by omega
  have hfl : (cfg0.win 3).flush ⟨t.val - 1, Nat.lt_of_le_of_lt (Nat.sub_le _ _) t.isLt⟩ = false := by
    cases h : (cfg0.win 3).flush ⟨t.val - 1, Nat.lt_of_le_of_lt (Nat.sub_le _ _) t.isLt⟩
    · rfl
    · exfalso; have := (flush0_3 _).mp h; dsimp only at this; omega
  have hidle : cfg0.idle 3 (cfg0.grid.coords ⟨t.val - 1, Nat.lt_of_le_of_lt (Nat.sub_le _ _) t.isLt⟩) = false := by
    have hc4 := (hcond4 ⟨t.val - 1, Nat.lt_of_le_of_lt (Nat.sub_le _ _) t.isLt⟩).mpr (by dsimp only; omega)
    show (!(k0_cond4 (grid0.coords ⟨t.val - 1, _⟩) == 1#1)) = false
    rw [hc4]; rfl
  rw [(dats m 0 c).before_of_pos 3 t ht ((cfg0.win 3).fetch_out rfl t), hfl, if_neg Bool.false_ne_true]
  unfold Dat.left; rw [hidle]; dsimp only
  unfold Dat.kept
  rw [Pipeline.fill_of_clip_none (cfg := cfg0) 3 _ (fun _ => rfl) d ((dats m 0 c).after 3 _), Window.fill_cut, after_3]
  rw [y3At_even m c ⟨t.val - 1, Nat.lt_of_le_of_lt (Nat.sub_le _ _) t.isLt⟩ (by dsimp only; omega), y3At_odd m c t (by omega)]

set_option maxHeartbeats 2000000 in
/-- An even point after the first. -/
theorem sound_B (c : Dev nD) (t : Fin cfg0.N) (h0 : t.val ≠ 0) (he : t.val % 2 = 0) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before_0, before_1, before_2]
  rw [after_0, after_1, after_2, after_3, after_4]
  rw [PhiR_castSucc m c t, PhiR_succ m c t]
  unfold Dat.owesAt Pipeline.owesWithin
  rw [show (dats m 0 c).owed t.castSucc = 0 from rfl, show (dats m 0 c).owed t.succ = 0 from rfl]
  unfold PhiR PhiS PhiRing
  rw [if_neg h0, if_neg (show ¬ t.val + 1 = 0 by omega), if_neg (show ¬ (t.val = 0 ∨ 32 ≤ t.val) by omega), if_pos he,
    if_neg (show ¬ (t.val + 1 = 0 ∨ 32 ≤ t.val + 1) by omega), if_neg (show ¬ (t.val + 1) % 2 = 0 by omega)]
  rw [show (t.val + 1) / 2 = t.val / 2 by omega]
  unfold ringFly ringHas
  rw [show y3At m c t = View.canon (runB m c t h0 he).1 by unfold y3At y3Even; rw [dif_pos he, dif_neg h0]]
  rw [show out7At m c t = View.canon (runB m c t h0 he).2.1 by unfold out7At; rw [dif_neg h0, dif_pos he]]
  iintro ⟨⟨Hg, ⟨HE, HA, HQ⟩, ⟨⟨%g, HF⟩, Hrest, HsX, HcX⟩⟩, ⟨%Wt, -, HW⟩, ⟨%d0, H0⟩, ⟨%d1, H1⟩, ⟨%d2, H2⟩, ⟨%d3, H3⟩, ⟨%d4, H4⟩⟩
  iapply ((runB m c t h0 he).2.2 g Wt _)
  isplitl [H0]; · iexact H0
  isplitl [H1]; · iexact H1
  isplitl [H2]; · iexact H2
  isplitl [H3]; · iexists _; iexact H3
  isplitl [H4]; · iexists _; iexact H4
  isplitl [HE]; · iexact HE
  isplitl [HA]; · iexact HA
  isplitl [HQ]; · iexact HQ
  isplitl [HF]; · iexact HF
  isplitl [HW]; · iexact HW
  iintro ⟨H0, H1, H2, ⟨%f6, H3⟩, ⟨%f7, H4⟩, HE, HA, HQ, HsN, Hsrc, HcN, ⟨%W', HW'⟩⟩
  isplitl [Hg HE HA HQ HsN HsX HcN HcX Hsrc Hrest]
  · isplitl [Hg]; · iexact Hg
    isplitl [HE HA HQ]
    · isplitl [HE]; · iexact HE
      isplitl [HA]; · iexact HA
      iexact HQ
    isplitl [HsN]; · iexact HsN
    isplitl [HsX]; · iexact HsX
    isplitl [HcN]; · iexact HcN
    isplitl [HcX]; · iexact HcX
    iapply (src_split c (V m c main_v0) (bNow t)).2
    isplitl [Hsrc]; · iexact Hsrc
    iexact Hrest
  isplitl [HW']
  · iexists W'; isplitr; · ipureintro; exact fun _ _ => Or.inl trivial
    iexact HW'
  isplitl [H0]; · iexact H0
  isplitl [H1]; · iexact H1
  isplitl [H2]; · iexact H2
  isplitl [H3]
  · unfold owns; iexists _; isplitr
    swap; · iexact H3
    ipureintro; exact View.read_writes_eq_canon _ _ _ (cover6_B m c _ _ _)
  · unfold owns; iexists _; isplitr
    swap; · iexact H4
    ipureintro; exact View.read_writes_eq_canon _ _ _ (cover7_B m c _ _ _)

set_option maxHeartbeats 2000000 in
/-- An odd point before the last. -/
theorem sound_C (c : Dev nD) (t : Fin cfg0.N) (ho : t.val % 2 = 1) (hl : t.val < 31) :
    bodyPre m c t ⊢ wp frame (wpE (defs₀ (F := F)) Variants.none c none) Set.univ (bodyAt0 t) (fun _ => bodyPost m c t) := by
  unfold bodyPre bodyPost bodyAt0
  simp only [before_0, before_1, before_2]
  rw [after_0, after_1, after_2, after_3, after_4]
  rw [PhiR_castSucc m c t, PhiR_succ m c t]
  unfold Dat.owesAt Pipeline.owesWithin
  rw [show (dats m 0 c).owed t.castSucc = 0 from rfl, show (dats m 0 c).owed t.succ = 0 from rfl]
  unfold PhiR PhiS PhiRing
  rw [if_neg (show ¬ t.val = 0 by omega), if_neg (show ¬ t.val + 1 = 0 by omega), if_neg (show ¬ (t.val = 0 ∨ 32 ≤ t.val) by omega),
    if_neg (show ¬ t.val % 2 = 0 by omega), if_neg (show ¬ (t.val + 1 = 0 ∨ 32 ≤ t.val + 1) by omega), if_pos (show (t.val + 1) % 2 = 0 by omega)]
  rw [show (t.val + 1) / 2 = t.val / 2 + 1 by omega]
  rw [show Ring.sl 2 (t.val / 2 + 1 + 1) = Ring.sl 2 (t.val / 2) from Ring.sl_add 2 (t.val / 2)]
  unfold ringHas ringFly
  simp only [before_3_odd m c t ho]
  rw [show out7At m c t = View.canon (runC m c t ho hl).1 by unfold out7At; rw [dif_neg (by omega), dif_neg (by omega), dif_pos hl]]
  iintro ⟨⟨Hg, ⟨HE, HA, HQ⟩, ⟨HsN, ⟨%f, HsX⟩, HcN, HcX, HX⟩⟩, ⟨%Wt, -, HW⟩, ⟨%d0, H0⟩, ⟨%d1, H1⟩, ⟨%d2, H2⟩, ⟨%d3, H3⟩, ⟨%d4, H4⟩⟩
  ihave HX' := (src_split c (V m c main_v0) (bNext t)).1 $$ HX
  icases HX' with ⟨Hsrc, Hrest⟩
  iapply ((runC m c t ho hl).2 (y3At m c t) f Wt _)
  isplitl [H0]; · iexact H0
  isplitl [H1]; · iexact H1
  isplitl [H2]; · iexact H2
  isplitl [H3]; · iexact H3
  isplitl [H4]; · iexists _; iexact H4
  isplitl [HE]; · iexact HE
  isplitl [HA]; · iexact HA
  isplitl [HQ]; · iexact HQ
  isplitl [HsN]; · iexact HsN
  isplitl [HsX]; · iexact HsX
  isplitl [HcN]; · iexact HcN
  isplitl [HcX]; · iexact HcX
  isplitl [Hsrc]; · iexact Hsrc
  isplitl [Hrest]; · iexact Hrest
  isplitl [HW]; · iexact HW
  iintro ⟨H0, H1, H2, H3, ⟨%f7, H4⟩, HE, HA, HQ, HsN, HcN, HF, Hrest, ⟨%W', HW'⟩⟩
  isplitl [Hg HE HA HQ HsN HcN HF Hrest]
  · isplitl [Hg]; · iexact Hg
    isplitl [HE HA HQ]
    · isplitl [HE]; · iexact HE
      isplitl [HA]; · iexact HA
      iexact HQ
    isplitl [HF]; · iexists f; iexact HF
    isplitl [Hrest]; · iexact Hrest
    isplitl [HsN]; · iexists _; iexact HsN
    iexact HcN
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  unfold owns; iexists _; isplitr
  swap; · iexact H4
  ipureintro; exact View.read_writes_eq_canon _ _ _ (cover7_C m c _ _ _)

set_option maxHeartbeats 2000000 in
/-- The last point. -/
theorem sound_D (c : Dev nD) (t : Fin cfg0.N) (ho : t.val % 2 = 1) (hl : ¬ t.val < 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before_0, before_1, before_2]
  rw [after_0, after_1, after_2, after_3, after_4]
  rw [PhiR_castSucc m c t, PhiR_succ m c t]
  unfold Dat.owesAt Pipeline.owesWithin
  rw [show (dats m 0 c).owed t.castSucc = 0 from rfl, show (dats m 0 c).owed t.succ = 0 from rfl]
  unfold PhiR PhiS PhiRing
  rw [if_neg (show ¬ t.val = 0 by omega), if_neg (show ¬ t.val + 1 = 0 by omega), if_neg (show ¬ (t.val = 0 ∨ 32 ≤ t.val) by omega),
    if_neg (show ¬ t.val % 2 = 0 by omega), if_pos (show (t.val + 1 = 0 ∨ 32 ≤ t.val + 1) by omega)]
  rw [show (t.val + 1) / 2 = t.val / 2 + 1 by omega]
  rw [show Ring.sl 2 (t.val / 2 + 1 + 1) = Ring.sl 2 (t.val / 2) from Ring.sl_add 2 (t.val / 2)]
  unfold ringHas ringIdle
  simp only [before_3_odd m c t ho]
  rw [show out7At m c t = View.canon (runD m c t ho hl).1 by unfold out7At; rw [dif_neg (by omega), dif_neg (by omega), dif_neg hl]]
  iintro ⟨⟨Hg, ⟨HE, HA, HQ⟩, ⟨HsN, HsX, HcN, HcX, HX⟩⟩, ⟨%Wt, -, HW⟩, ⟨%d0, H0⟩, ⟨%d1, H1⟩, ⟨%d2, H2⟩, ⟨%d3, H3⟩, ⟨%d4, H4⟩⟩
  iapply ((runD m c t ho hl).2 (y3At m c t) Wt _)
  isplitl [H0]; · iexact H0
  isplitl [H1]; · iexact H1
  isplitl [H2]; · iexact H2
  isplitl [H3]; · iexact H3
  isplitl [H4]; · iexists _; iexact H4
  isplitl [HE]; · iexact HE
  isplitl [HA]; · iexact HA
  isplitl [HQ]; · iexact HQ
  isplitl [HsN]; · iexact HsN
  isplitl [HW]; · iexact HW
  iintro ⟨H0, H1, H2, H3, ⟨%f7, H4⟩, HE, HA, HQ, HsN, ⟨%W', HW'⟩⟩
  isplitl [Hg HE HA HQ HsN HsX HcN HcX HX]
  · isplitl [Hg]; · iexact Hg
    isplitl [HE HA HQ]
    · isplitl [HE]; · iexact HE
      isplitl [HA]; · iexact HA
      iexact HQ
    isplitl [HsX]; · iexact HsX
    isplitl [HsN]; · iexists _; iexact HsN
    isplitl [HcX]; · iexact HcX
    isplitl [HcN]; · iexact HcN
    iexact HX
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  unfold owns; iexists _; isplitr
  swap; · iexact H4
  ipureintro; exact View.read_writes_eq_canon _ _ _ (cover7_D m c _ _ _)

end Cert.Kernel.Body

end
-- ==== Proof.KBFrame.lean ====
/-
  The kernel program's frame run: the body obligation at every point (one of the four kinds), the invariant before the
  first point from what the launch hands the region and back after the last, and the launch theorem for a kernel that
  moves an operand by copies of its own, with the two transposes of the results after the region.
-/
import proofs.«166942_g35321811042314_cont_sun_m_1252_29_alg».proof.Proof.Gen.Kernel.Skeleton
import proofs.«166942_g35321811042314_cont_sun_m_1252_29_alg».proof.Proof.KBSound2

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = t₀ := Fin.ext h0
    exact sound_A m c
  · by_cases he : t.val % 2 = 0
    · exact sound_B m c t h0 he
    · by_cases hl : t.val < 31
      · exact sound_C m c t (by omega) hl
      · exact sound_D m c t (by omega) hl

section Idle
omit [FloatOps F]
/-- The first result's window is idle exactly at the odd points, where it is written back. -/
theorem idle3_even : ∀ t : Fin grid0.N, t.val % 2 = 0 → idle0 3 (grid0.coords t) = false := by decide +kernel
theorem idle3_odd : ∀ t : Fin grid0.N, ¬ t.val % 2 = 0 → idle0 3 (grid0.coords t) = true ∧ (win0 3).flush t = true := by decide +kernel
end Idle

/-- The library's body obligation, at every point. -/
theorem body_obligation (c : Dev nD) : BodyObligation (dats (F := F) m 0 c) (defs₀ (F := F)) Variants.none () Set.univ := fun t => by
  rw [bigSep_W0, bigSep_W0]
  by_cases he : t.val % 2 = 0
  · simp only [idle3_even t he]
    exact sound_body m c t
  · simp only [(idle3_odd t he).1, (idle3_odd t he).2]
    exact sound_body m c t

/-! ## Into the invariant and out of it -/

theorem hin (c : Dev nD) : Pipeline.ΦD osem spec0 HX (V m) c ⊢ (dats m 0 c).Φ 0 := by
  rw [PhiD_eq, show (dats m 0 c).Φ 0 = PhiR m c 0 from rfl]
  unfold PhiR PhiS PhiRing
  rw [if_pos rfl, if_pos (Or.inl rfl)]
  unfold ringIdle
  rw [show Ring.sl 2 (0 / 2) = (0 : Fin 2) from rfl, show Ring.sl 2 (0 / 2 + 1) = (1 : Fin 2) from rfl, cellP_0, cellP_1]
  iintro ⟨⟨HE, HA, HQ, HX4⟩, Hg, ⟨Hc0, Hc1⟩, Hh⟩
  ihave HS := (slots_in (F := F) c) $$ HX4
  icases HS with ⟨HS0, HS1⟩
  isplitl [Hg]; · iexact Hg
  isplitl [HE HA HQ]
  · isplitl [HE]; · iexact HE
    isplitl [HA]; · iexact HA
    iexact HQ
  isplitl [HS0]; · iexact HS0
  isplitl [HS1]; · iexact HS1
  isplitl [Hc0]; · iexact Hc0
  isplitl [Hc1]; · iexact Hc1
  iexact Hh

theorem hout (c : Dev nD) : (dats m 0 c).Φ (Fin.last cfg0.N) ⊢ Pipeline.ΦD osem spec0 HX (V m) c := by
  rw [PhiD_eq, show (dats m 0 c).Φ (Fin.last cfg0.N) = PhiR m c grid0.N from rfl]
  unfold PhiR PhiS PhiRing
  rw [show grid0.N = 32 by rw [N_0]]
  rw [if_neg (by decide : ¬ (32 : ℕ) = 0), if_pos (Or.inr (le_refl 32))]
  unfold ringIdle
  rw [show Ring.sl 2 (32 / 2) = (0 : Fin 2) from rfl, show Ring.sl 2 (32 / 2 + 1) = (1 : Fin 2) from rfl, cellP_0, cellP_1]
  iintro ⟨Hg, ⟨HE, HA, HQ⟩, ⟨HS0, HS1, Hc0, Hc1, Hh⟩⟩
  isplitl [HE HA HQ HS0 HS1]
  · isplitl [HE]; · iexists _; iexact HE
    isplitl [HA]; · iexists _; iexact HA
    isplitl [HQ]; · iexists _; iexact HQ
    iapply (slots_out (F := F) c)
    isplitl [HS0]; · iexact HS0
    iexact HS1
  isplitl [Hg]; · iexact Hg
  isplitl [Hc0 Hc1]
  · isplitl [Hc0]; · iexact Hc0
    iexact Hc1
  iexact Hh

/-! ## The run and the frame -/

/-- The two transposes after the region touch neither the operand the kernel moves itself nor anything scoped. -/
theorem sfxD_sub : ∀ ops ∈ ([hostOps1] : List (List (HloOp τ sig (Elt F)))), ∀ op ∈ ops,
    op.bufs ⊆ Pipeline.tailRefsBut sig Pipeline.Prefetch.none spec0 HX := by
  intro ops hops op hop
  simp only [List.mem_cons, List.mem_nil_iff, or_false] at hops
  rcases hops with rfl
  refine Pipeline.sub_tailRefsBut Pipeline.Prefetch.none spec0 HX op ((List.forall_iff_forall_mem.mp hostOps1_sub) op hop) (fun k => k.elim0) ?_
  intro b hb
  simp only [HX, Finset.mem_singleton] at hb; subst hb
  simp only [hostOps1, List.mem_cons, List.mem_nil_iff, or_false] at hop
  rcases hop with rfl | rfl <;> simp only [StableHlo.unary_bufs, Finset.mem_insert, Finset.mem_singleton, not_or] <;>
    exact ⟨StableHlo.devRef_ne_of_ne (by decide), StableHlo.devRef_ne_of_ne (by decide)⟩

set_option backward.isDefEq.respectTransparency.types false in
/-- Every weakly fair execution of @main terminates, nothing faulting, each array of the pipeline at what the library
    computes from the proof data and every other unscoped buffer as the two transposes leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_dma_around cfgs (dats m) (0 : Fin 1) launch0 osem defs₀ Variants.none ownSemFacts HX HX_sub m ρ main
    (hbody := fun c => (body_obligation m c).loose) (hshare := fun c => (dats m 0 c).share_full fun _ => rfl)
    (howed := fun _ _ => rfl) (V₀ := V0 m) (opss := [hostOps1]) (hsub := sfxD_sub) (hfresh := sfx_fresh) (hkeep := sfx_keeps)
    (hmain := hmainD m Variants.none) (hA := A_eq m) (hin := hin m) (hout := hout m)

theorem W_main_arg0 (dats' : (p : Fin _) → (c : Dev nD) → Dat τ (Elt F) Unit ℕ (Pipeline.UD sig nD τ) ℕ (cfgs p) c) (c : Dev nD) :
    Pipeline.afterTail₀ cfgs dats' 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats' : (p : Fin _) → (c : Dev nD) → Dat τ (Elt F) Unit ℕ (Pipeline.UD sig nD τ) ℕ (cfgs p) c) (c : Dev nD) :
    Pipeline.afterTail₀ cfgs dats' 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg3 (dats' : (p : Fin _) → (c : Dev nD) → Dat τ (Elt F) Unit ℕ (Pipeline.UD sig nD τ) ℕ (cfgs p) c) (c : Dev nD) :
    Pipeline.afterTail₀ cfgs dats' 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩) (run_main m ρ)

end Cert.Kernel.Body

end
-- ==== Proof.KIRing.lean ====
/-
  The kernel streams the transposed input (left in HBM) through a two-slot VMEM buffer by its own copies: the
  copy of column block `i + 1` is started at grid point `(i, 1)` and waited for at `(i + 1, 0)`, so one copy is
  in flight across a point boundary.  This module names the pieces the point-indexed invariant is stated over: the
  two slots of the buffer, the sixteen column blocks of the operand, the two semaphore cells, and the copy in flight.
-/
import proofs.«166942_g35321811042314_cont_sun_m_1252_29_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main around the region, at the algebra that carries the copies' counters. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The scratch operands and the operand left in HBM, whole. -/
abbrev scE : Memref sig .tc .vmem S2x100x8 .f32 := Memref.whole cc0_scratch0
abbrev scA : Memref sig .tc .vmem S100x2 .f32 := Memref.whole cc0_scratch1
abbrev scQ : Memref sig .tc .vmem S100x1 .f32 := Memref.whole cc0_scratch2
abbrev scX : Memref sig .tc .vmem S2x100x1024 .f32 := Memref.whole cc0_scratch3
abbrev hbX : Memref sig .tc .hbm S100x16384 .f32 := Memref.whole main_v0

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's own two semaphore cells. -/
abbrev osem : Fin 2 → SemLoc sig := fun j => (![SemLoc.dma 7, SemLoc.dma 8] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 7) 0 ∗ semVal ((c : Thread nD τ), SemLoc.dma 8) 0) := by
  rw [Pipeline.ownSems0_eq_of_list c osem [0, 1] (by decide) (by decide)]; rfl
/-- The operand the body moves itself. -/
def HX : Finset (Ref sig .tc) := {main_v0}
theorem HX_sub : HX ⊆ Pipeline.restRefs sig spec0 := by decide
theorem hbmPts_eq (c : Dev nD) :
    (bigSep HX (fun b => ((c : Thread nD τ).loc b) ↦{fullShare} V m c b) : sProp 𝕄) = iprop(hbPt c hbX (V m c main_v0)) := by
  rw [BI.bigSep_eq_bigSepL_of_eq [main_v0] (by decide) (by decide)]; rfl

/-- The region's entry and exit invariant, conjunct by conjunct. -/
theorem PhiD_eq (c : Dev nD) :
    (Pipeline.ΦD osem spec0 HX (V m) c : sProp 𝕄)
      = iprop(iprop((∃ d, owns (c : Thread nD τ) scE fullShare d) ∗ (∃ d, owns (c : Thread nD τ) scA fullShare d) ∗ (∃ d, owns (c : Thread nD τ) scQ fullShare d) ∗ (∃ d, owns (c : Thread nD τ) scX fullShare d)) ∗ (∃ r, prngReg c r) ∗ iprop(semVal ((c : Thread nD τ), SemLoc.dma 7) 0 ∗ semVal ((c : Thread nD τ), SemLoc.dma 8) 0) ∗ iprop(hbPt c hbX (V m c main_v0))) := by
  rw [Pipeline.ΦD_eq, scopedRest0_eq, ownSems_eq, hbmPts_eq]; simp only [scE, scA, scQ, scX, owns_whole]; try rfl

/-! ## The slots, the column blocks, the cells -/

theorem inb_slot (s : Fin 2) : ∀ a, (![s.val, 0, 0] : Fin 3 → Nat) a + S1x100x1024.size a ≤ S2x100x1024.size a := by
  have := s.isLt; intro a; fin_cases a <;> simp <;> omega
theorem inb_src (b : Fin 16) : ∀ a, (![0, 1024 * b.val] : Fin 2 → Nat) a + S100x1024.size a ≤ S100x16384.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the two-slot buffer, as the body's copies spell their destination. -/
def rslot (s : Fin 2) : Memref sig .tc .vmem S100x1024 .f32 :=
  (scX.slice (Rect.unit (s := S2x100x1024) ![s.val, 0, 0] S1x100x1024.size (inb_slot s)) (fun _ => rfl)).squeeze S100x1024 squeezes_S1x100x1024_S100x1024
/-- Column block `b` of the transposed input (columns `1024 b … 1024 b + 1023`), as the copies spell their source. -/
def srcB (b : Fin 16) : Memref sig .tc .hbm S100x1024 .f32 :=
  hbX.slice (Rect.unit (s := S100x16384) ![0, 1024 * b.val] S100x1024.size (inb_src b)) (fun _ => rfl)
/-- Cell `s` of the kernel's semaphore pair. -/
def cellA (s : Fin 2) : DmaSems sig S_ := (cc0_scratch4.slice (Rect.unit (s := S2) ![s.val] S1.size (inb_cell s))).squeeze S_ squeezes_S1_S_
abbrev cellR (s : Fin 2) : SemLoc sig := SemLoc.dma (cellA s).sem
theorem cellR_0 : cellR 0 = SemLoc.dma 7 := by decide
theorem cellR_1 : cellR 1 = SemLoc.dma 8 := by decide

section Pieces
variable (c : Dev nD) (W : HbBuf (F := F) c hbX)
/-- Slot `s` held by exactly its own elements at contents `f`; cell `s` at zero; block `b`'s elements of the operand, and
    the operand's other elements; the slot's contents once block `b` has landed in it over `f`; the copy of block `b`
    into slot `s` in flight, delivering the slot landed and the block's elements back. -/
abbrev slotP (s : Fin 2) (f : HbBuf (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (b : Fin 16) : sProp 𝕄 := (srcB b).view.loc (c : Thread nD τ) ↦[(srcB b).view.set]{fullShare} W
def restP (b : Fin 16) : sProp 𝕄 := ((c : Thread nD τ).loc main_v0) ↦[Finset.univ \ (srcB b).view.set]{fullShare} W
abbrev landed (s : Fin 2) (b : Fin 16) (f : HbBuf (F := F) c (rslot s)) : HbBuf (F := F) c (rslot s) :=
  (rslot s).view.writes (Elt F) f [⟨Rect.whole S100x1024, ReadAs.same.apply ((srcB b).view.read (Elt F) W)⟩]
abbrev flightP (s : Fin 2) (b : Fin 16) (f : HbBuf (F := F) c (rslot s)) : sProp 𝕄 :=
  Transfers.Flight countersEmb (c : Thread nD τ) (cellR s) default ((rslot s).view.amount (cellR s))
    iprop(slotP c s (landed c W s b f) ∗ srcP c W b)
omit [FloatOps F] in
theorem cellP_0 : cellP (F := F) c 0 = semVal ((c : Thread nD τ), SemLoc.dma 7) 0 := congrArg (fun x => (semVal ((c : Thread nD τ), x) 0 : sProp 𝕄)) cellR_0
omit [FloatOps F] in
theorem cellP_1 : cellP (F := F) c 1 = semVal ((c : Thread nD τ), SemLoc.dma 8) 0 := congrArg (fun x => (semVal ((c : Thread nD τ), x) 0 : sProp 𝕄)) cellR_1
end Pieces

/-! ## The slots are disjoint and cover the buffer; the operand is a block and the rest -/

abbrev slotSet (s : Fin 2) : Finset S2x100x1024.Idx := (Rect.unit (s := S2x100x1024) ![s.val, 0, 0] S1x100x1024.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x100x1024) (0 : Fin 3) 1 (fun s : Fin 2 => (![s.val, 0, 0] : Fin 3 → Nat)) S1x100x1024.size inb_slot (fun s => by simp) rfl s s' h
theorem slots_cover : Finset.univ.biUnion slotSet = Finset.univ :=
  Ring.lead_cover (s := S2x100x1024) (0 : Fin 3) 1 (fun s : Fin 2 => (![s.val, 0, 0] : Fin 3 → Nat)) S1x100x1024.size inb_slot (fun s => by simp)
    (fun s a ha => by fin_cases a <;> first | exact absurd rfl ha | rfl) rfl (fun a ha => by fin_cases a <;> first | exact absurd rfl ha | rfl) rfl

section InOut
variable (c : Dev nD) (W : HbBuf (F := F) c hbX)
theorem slotP_eq (s : Fin 2) (f) : slotP (F := F) c s f = (((c : Thread nD τ).loc cc0_scratch3) ↦[slotSet s]{fullShare} f : sProp 𝕄) := by
  unfold slotP; rw [slotSet_eq]; rfl
theorem src_split (b : Fin 16) : (hbPt c hbX W : sProp 𝕄) ⊣⊢ iprop(srcP c W b ∗ restP c W b) := by
  unfold restP; exact pointsTo_split_subset (Finset.subset_univ _)
set_option maxHeartbeats 1000000 in
theorem slots_in : iprop(∃ d, owns (c : Thread nD τ) scX fullShare d) ⊢ (iprop((∃ f, slotP (F := F) c 0 f) ∗ ∃ f, slotP (F := F) c 1 f) : sProp 𝕄) := by
  simp only [scX, owns_whole]
  exact Ring.slots2_split (U := Pipeline.UD sig nD τ) (ℓ := (c : Thread nD τ).loc cc0_scratch3) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scX fullShare d) := by
  simp only [scX, owns_whole]
  exact Ring.slots2_join (U := Pipeline.UD sig nD τ) (ℓ := (c : Thread nD τ).loc cc0_scratch3) (q := fullShare) slotSet slots_disjoint slots_cover
    (slotP c 0) (slotP c 1) (slotP_eq c 0) (slotP_eq c 1)
end InOut

/-! ## The body's operands at point `t` are these pieces: the offset chains in closed form over the grid -/

/-- At point `t = 2 i + j` the body reads slot `i % 2`, which holds block `i`; the copy it may start is of block `i + 1`
    into slot `(i + 1) % 2`. -/
abbrev sNow (t : Fin grid0.N) : Fin 2 := Ring.sl 2 (t.val / 2)
abbrev bNow (t : Fin grid0.N) : Fin 16 := Ring.bk 16 (t.val / 2)
abbrev sNext (t : Fin grid0.N) : Fin 2 := Ring.sl 2 (t.val / 2 + 1)
abbrev bNext (t : Fin grid0.N) : Fin 16 := Ring.bk 16 (t.val / 2 + 1)

section Canon
omit [FloatOps F]
theorem coff1 : k0_off1 = ![(0 : Fin 2).val] := by decide +kernel
theorem coff2 : k0_off2 = ![(0 : Fin 2).val, 0, 0] := by decide +kernel
theorem coff3 : k0_off3 = ![0, 1024 * (0 : Fin 16).val] := by decide +kernel
theorem coff4 : ∀ t : Fin grid0.N, k0_off4 (grid0.coords t) = ![(sNow t).val] := by decide +kernel
theorem coff5 : ∀ t : Fin grid0.N, k0_off5 (grid0.coords t) = ![(sNow t).val, 0, 0] := by decide +kernel
theorem coff6 : ∀ t : Fin grid0.N, k0_off6 (grid0.coords t) = ![0, 1024 * (bNow t).val] := by decide +kernel
theorem coff7 : ∀ t : Fin grid0.N, k0_off7 (grid0.coords t) = ![(sNext t).val] := by decide +kernel
theorem coff8 : ∀ t : Fin grid0.N, k0_off8 (grid0.coords t) = ![(sNext t).val, 0, 0] := by decide +kernel
theorem coff9 : ∀ t : Fin grid0.N, k0_cond3 (grid0.coords t) = 1#1 → k0_off9 (grid0.coords t) = ![0, 1024 * (bNext t).val] := by decide +kernel
theorem coff10 : ∀ t : Fin grid0.N, k0_off10 (grid0.coords t) = ![(sNow t).val, 0, 0] := by decide +kernel
theorem coff11 : ∀ t : Fin grid0.N, k0_off11 (grid0.coords t) = ![t.val % 2, 0, 0] := by decide +kernel
instance (priority := high) closedOff10 (t : Fin grid0.N) : ClosedOff (k0_off10 (grid0.coords t)) := ⟨![(sNow t).val, 0, 0], coff10 t⟩
instance (priority := high) closedOff11 (t : Fin grid0.N) : ClosedOff (k0_off11 (grid0.coords t)) := ⟨![t.val % 2, 0, 0], coff11 t⟩
end Canon

end Cert.KernelIdeal.Body

end
-- ==== Proof.KICanon.lean ====
/-
  The memrefs the kernel's body spells at grid point `t` — a slot of the two-slot buffer, a column block of the
  operand, a semaphore cell, each through an offset chain the body computes from the point's coordinates — are the
  named slots, blocks and cells: the chains in closed form over the 32 points.
-/
import proofs.«166942_g35321811042314_cont_sun_m_1252_29_alg».proof.Proof.KIRing

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

/-- The first point's copy (the only point where the first condition holds is point 0): the slot read there, its
    block, its cell. -/
theorem coff1' : ∀ t : Fin grid0.N, k0_cond1 (grid0.coords t) = 1#1 → k0_off1 = ![(sNow t).val] := by decide +kernel
theorem coff2' : ∀ t : Fin grid0.N, k0_cond1 (grid0.coords t) = 1#1 → k0_off2 = ![(sNow t).val, 0, 0] := by decide +kernel
theorem coff3' : ∀ t : Fin grid0.N, k0_cond1 (grid0.coords t) = 1#1 → k0_off3 = ![0, 1024 * (bNow t).val] := by decide +kernel
@[sl_canon] theorem canon2 (t : Fin grid0.N) (h1 : k0_cond1 (grid0.coords t) = 1#1) :
    (scX.slice (Rect.unit (s := S2x100x1024) k0_off2 S1x100x1024.size (k0_off2_inb (grid0.coords t) h1)) (fun _ => rfl)).squeeze S100x1024 squeezes_S1x100x1024_S100x1024 = rslot (sNow t) :=
  congrArg (fun M : Memref sig .tc .vmem S1x100x1024 .f32 => M.squeeze S100x1024 squeezes_S1x100x1024_S100x1024) (Memref.slice_unit_congr _ (coff2' t h1) _ _ (fun _ => rfl) (fun _ => rfl))
@[sl_canon] theorem canon1 (t : Fin grid0.N) (h1 : k0_cond1 (grid0.coords t) = 1#1) :
    (cc0_scratch4.slice (Rect.unit (s := S2) k0_off1 S1.size (k0_off1_inb (grid0.coords t) h1))).squeeze S_ squeezes_S1_S_ = cellA (sNow t) :=
  congrArg (fun A : DmaSems sig S1 => A.squeeze S_ squeezes_S1_S_) (SemArray.slice_unit_congr _ (coff1' t h1) _ _)
@[sl_canon] theorem canon3 (t : Fin grid0.N) (h1 : k0_cond1 (grid0.coords t) = 1#1) :
    hbX.slice (Rect.unit (s := S100x16384) k0_off3 S100x1024.size (k0_off3_inb (grid0.coords t) h1)) (fun _ => rfl) = srcB (bNow t) :=
  Memref.slice_unit_congr _ (coff3' t h1) _ _ (fun _ => rfl) (fun _ => rfl)

/-- The copy waited for at point `t`: the slot read there, its block, its cell. -/
@[sl_canon] theorem canon5 (t : Fin grid0.N) (h2 : k0_cond2 (grid0.coords t) = 1#1) :
    (scX.slice (Rect.unit (s := S2x100x1024) (k0_off5 (grid0.coords t)) S1x100x1024.size (k0_off5_inb (grid0.coords t) h2)) (fun _ => rfl)).squeeze S100x1024 squeezes_S1x100x1024_S100x1024 = rslot (sNow t) :=
  congrArg (fun M : Memref sig .tc .vmem S1x100x1024 .f32 => M.squeeze S100x1024 squeezes_S1x100x1024_S100x1024) (Memref.slice_unit_congr _ (coff5 t) _ _ (fun _ => rfl) (fun _ => rfl))
@[sl_canon] theorem canon4 (t : Fin grid0.N) (h2 : k0_cond2 (grid0.coords t) = 1#1) :
    (cc0_scratch4.slice (Rect.unit (s := S2) (k0_off4 (grid0.coords t)) S1.size (k0_off4_inb (grid0.coords t) h2))).squeeze S_ squeezes_S1_S_ = cellA (sNow t) :=
  congrArg (fun A : DmaSems sig S1 => A.squeeze S_ squeezes_S1_S_) (SemArray.slice_unit_congr _ (coff4 t) _ _)
@[sl_canon] theorem canon6 (t : Fin grid0.N) (h2 : k0_cond2 (grid0.coords t) = 1#1) :
    hbX.slice (Rect.unit (s := S100x16384) (k0_off6 (grid0.coords t)) S100x1024.size (k0_off6_inb (grid0.coords t) h2)) (fun _ => rfl) = srcB (bNow t) :=
  Memref.slice_unit_congr _ (coff6 t) _ _ (fun _ => rfl) (fun _ => rfl)

/-- The copy started at point `t`: the other slot, the next block, the other cell. -/
@[sl_canon] theorem canon8 (t : Fin grid0.N) (h3 : k0_cond3 (grid0.coords t) = 1#1) :
    (scX.slice (Rect.unit (s := S2x100x1024) (k0_off8 (grid0.coords t)) S1x100x1024.size (k0_off8_inb (grid0.coords t) h3)) (fun _ => rfl)).squeeze S100x1024 squeezes_S1x100x1024_S100x1024 = rslot (sNext t) :=
  congrArg (fun M : Memref sig .tc .vmem S1x100x1024 .f32 => M.squeeze S100x1024 squeezes_S1x100x1024_S100x1024) (Memref.slice_unit_congr _ (coff8 t) _ _ (fun _ => rfl) (fun _ => rfl))
@[sl_canon] theorem canon7 (t : Fin grid0.N) (h3 : k0_cond3 (grid0.coords t) = 1#1) :
    (cc0_scratch4.slice (Rect.unit (s := S2) (k0_off7 (grid0.coords t)) S1.size (k0_off7_inb (grid0.coords t) h3))).squeeze S_ squeezes_S1_S_ = cellA (sNext t) :=
  congrArg (fun A : DmaSems sig S1 => A.squeeze S_ squeezes_S1_S_) (SemArray.slice_unit_congr _ (coff7 t) _ _)
@[sl_canon] theorem canon9 (t : Fin grid0.N) (h3 : k0_cond3 (grid0.coords t) = 1#1) :
    hbX.slice (Rect.unit (s := S100x16384) (k0_off9 (grid0.coords t)) S100x1024.size (k0_off9_inb (grid0.coords t) h3)) (fun _ => rfl) = srcB (bNext t) :=
  Memref.slice_unit_congr _ (coff9 t h3) _ _ (fun _ => rfl) (fun _ => rfl)

end Cert.KernelIdeal.Body

end
-- ==== Proof.KIRunC.lean ====
/-
  The kernel's body at an odd grid point `(i, 1)` that is not the last: it starts the copy of column block `i + 1` into
  the slot it is not reading, reads block `i` from the other slot and the second half of the embedding from scratch,
  and stores the eight scaled rows of the output block.  What the output block's buffer ends with is found by running
  the body; the copy is left in flight for the next point.
-/
import proofs.«166942_g35321811042314_cont_sun_m_1252_29_alg».proof.Proof.Gen.KernelIdeal.Skeleton
import proofs.«166942_g35321811042314_cont_sun_m_1252_29_alg».proof.Proof.KICanon

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The slot's contents once block `b` has landed in it whole. -/
abbrev landedJ (c : Dev nD) (W : HbBuf (F := F) c hbX) (s : Fin 2) (b : Fin 16) : HbBuf (F := F) c (rslot s) :=
  (rslot s).view.writes (Elt F) (rslot s).view.junk [⟨Rect.whole S100x1024, ReadAs.same.apply ((srcB b).view.read (Elt F) W)⟩]

set_option maxHeartbeats 4000000 in
/-- The run at such a point: the output block's pieces, and the triple. -/
noncomputable def kernelRun_C [∀ e, Nonempty (Elt F e)] (c : Dev nD) (t : Fin cfg0.N)
    (arg3 : Memref sig .tc .vmem S100x1 .f32) (harg3 : arg3.IsWhole) (arg4 : Memref sig .tc .vmem S26x16 .f32) (harg4 : arg4.IsWhole)
    (arg5 : Memref sig .tc .vmem S100x1 .i32) (harg5 : arg5.IsWhole) (arg6 : Memref sig .tc .vmem S2x1024 .f32) (harg6 : arg6.IsWhole)
    (arg7 : Memref sig .tc .vmem S100x8x1024 .f32) (harg7 : arg7.IsWhole)
    (h1 : ¬ k0_cond1 (grid0.coords t) = 1#1) (h2 : ¬ k0_cond2 (grid0.coords t) = 1#1) (h3 : k0_cond3 (grid0.coords t) = 1#1) (h4 : ¬ k0_cond4 (grid0.coords t) = 1#1)
    (x0 : Vec F S100x1 .f32) (x1 : Vec F S26x16 .f32) (x2 : Vec F S100x1 .i32)
    (e0 : Vec F S2x100x8 .f32) (a0 : Vec F S100x2 .f32) (q0 : Vec F S100x1 .f32)
    (W : HbBuf (F := F) c hbX) :
    { L7 : List (View.Piece (Elt F) S100x8x1024 .f32) //
      ∀ (y3 : Vec F S2x1024 .f32) (f : HbBuf (F := F) c (rslot (sNext t))) (Wt : Waits sig Unit) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare y3 ∗ (∃ d, owns (c : Thread nD τ) arg7 fullShare d)
            ∗ owns (c : Thread nD τ) scE fullShare e0 ∗ owns (c : Thread nD τ) scA fullShare a0 ∗ owns (c : Thread nD τ) scQ fullShare q0
            ∗ slotP c (sNow t) (landedJ c W (sNow t) (bNow t)) ∗ slotP c (sNext t) f ∗ cellP c (sNow t) ∗ cellP c (sNext t)
            ∗ srcP c W (bNext t) ∗ restP c W (bNext t) ∗ owes (c : Thread nD τ) 0 Wt
            ∗ (iprop(owns (c : Thread nD τ) arg3 fullShare x0 ∗ owns (c : Thread nD τ) arg4 fullShare x1 ∗ owns (c : Thread nD τ) arg5 fullShare x2
                ∗ owns (c : Thread nD τ) arg6 fullShare y3 ∗ (∃ f7, arg7.view.loc (c : Thread nD τ) ↦[arg7.view.set]{fullShare} arg7.view.writes (Elt F) f7 L7)
                ∗ owns (c : Thread nD τ) scE fullShare e0 ∗ owns (c : Thread nD τ) scA fullShare a0 ∗ owns (c : Thread nD τ) scQ fullShare q0
                ∗ slotP c (sNow t) (landedJ c W (sNow t) (bNow t)) ∗ cellP c (sNow t)
                ∗ flightP c W (sNext t) (bNext t) f ∗ restP c W (bNext t) ∗ (∃ W', owes (c : Thread nD τ) 0 W')) -∗ K ⟨⟩))
          ⊢ wp frame (wpE (defs₀ (F := F)) Variants.none c none) Set.univ
            (cc0__fm_body (grid0.coords t) hbX (Memref.isWhole_whole _) arg3 harg3 arg4 harg4 arg5 harg5 arg6 harg6 arg7 harg7
              scE (Memref.isWhole_whole _) scA (Memref.isWhole_whole _) scQ (Memref.isWhole_whole _) scX (Memref.isWhole_whole _) cc0_scratch4) K } := by
  refine ⟨?_, fun y3 f Wt K => ?run⟩
  case run =>
    haveI : Fact (¬ k0_cond1 (grid0.coords t) = 1#1) := ⟨h1⟩
    haveI : Fact (¬ k0_cond2 (grid0.coords t) = 1#1) := ⟨h2⟩
    haveI : Fact (k0_cond3 (grid0.coords t) = 1#1) := ⟨h3⟩
    haveI : Fact (¬ k0_cond4 (grid0.coords t) = 1#1) := ⟨h4⟩
    simp only [cc0__fm_body_eq_skeleton]; unfold cc0__fm_body_skel
    unfold owns
    iintro ⟨⟨%f0, %hf0, H0⟩, ⟨%f1, %hf1, H1⟩, ⟨%f2, %hf2, H2⟩, ⟨%f3, %hf3, H3⟩, ⟨%d4, %f4, -, H4⟩, ⟨%fe, %hfe, HE⟩, ⟨%fa, %hfa, HA⟩, ⟨%fq, %hfq, HQ⟩, HsN, HsX, HcN, HcX, Hsrc, Hrest, HW, Hk⟩
    obtain rfl := harg3.eq_unread hf0
    obtain rfl := harg4.eq_unread hf1
    obtain rfl := harg5.eq_unread hf2
    obtain rfl := harg6.eq_unread hf3
    obtain rfl := (Memref.isWhole_whole cc0_scratch0).eq_unread hfe
    obtain rfl := (Memref.isWhole_whole cc0_scratch1).eq_unread hfa
    obtain rfl := (Memref.isWhole_whole cc0_scratch2).eq_unread hfq
    sl_exec (disch := first | exact h1 | exact h2 | exact h3 | exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HE]
    · iexists _; isplitr; · ipureintro; exact (Memref.isWhole_whole cc0_scratch0).read_unread _
      iexact HE
    isplitl [HA]
    · iexists _; isplitr; · ipureintro; exact (Memref.isWhole_whole cc0_scratch1).read_unread _
      iexact HA
    isplitl [HQ]
    · iexists _; isplitr; · ipureintro; exact (Memref.isWhole_whole cc0_scratch2).read_unread _
      iexact HQ
    isplitl [HsN]; · iexact HsN
    isplitl [HcN]; · iexact HcN
    isplitl [HcX]; · iexact HcX
    isplitl [Hrest]; · iexact Hrest
    iexists _; iexact HW

end Cert.KernelIdeal.Body

end
-- ==== Proof.KIRunD.lean ====
/-
  The kernel's body at the last grid point `(15, 1)`: no copy is started; it reads block 15 from its slot and the second
  half of the embedding from scratch and stores the eight scaled rows of the output block.
-/
import proofs.«166942_g35321811042314_cont_sun_m_1252_29_alg».proof.Proof.Gen.KernelIdeal.Skeleton
import proofs.«166942_g35321811042314_cont_sun_m_1252_29_alg».proof.Proof.KIRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The run at the last point: the output block's pieces, and the triple. -/
noncomputable def kernelRun_D [∀ e, Nonempty (Elt F e)] (c : Dev nD) (t : Fin cfg0.N)
    (arg3 : Memref sig .tc .vmem S100x1 .f32) (harg3 : arg3.IsWhole) (arg4 : Memref sig .tc .vmem S26x16 .f32) (harg4 : arg4.IsWhole)
    (arg5 : Memref sig .tc .vmem S100x1 .i32) (harg5 : arg5.IsWhole) (arg6 : Memref sig .tc .vmem S2x1024 .f32) (harg6 : arg6.IsWhole)
    (arg7 : Memref sig .tc .vmem S100x8x1024 .f32) (harg7 : arg7.IsWhole)
    (h1 : ¬ k0_cond1 (grid0.coords t) = 1#1) (h2 : ¬ k0_cond2 (grid0.coords t) = 1#1) (h3 : ¬ k0_cond3 (grid0.coords t) = 1#1) (h4 : ¬ k0_cond4 (grid0.coords t) = 1#1)
    (x0 : Vec F S100x1 .f32) (x1 : Vec F S26x16 .f32) (x2 : Vec F S100x1 .i32)
    (e0 : Vec F S2x100x8 .f32) (a0 : Vec F S100x2 .f32) (q0 : Vec F S100x1 .f32)
    (W : HbBuf (F := F) c hbX) :
    { L7 : List (View.Piece (Elt F) S100x8x1024 .f32) //
      ∀ (y3 : Vec F S2x1024 .f32) (Wt : Waits sig Unit) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare y3 ∗ (∃ d, owns (c : Thread nD τ) arg7 fullShare d)
            ∗ owns (c : Thread nD τ) scE fullShare e0 ∗ owns (c : Thread nD τ) scA fullShare a0 ∗ owns (c : Thread nD τ) scQ fullShare q0
            ∗ slotP c (sNow t) (landedJ c W (sNow t) (bNow t)) ∗ owes (c : Thread nD τ) 0 Wt
            ∗ (iprop(owns (c : Thread nD τ) arg3 fullShare x0 ∗ owns (c : Thread nD τ) arg4 fullShare x1 ∗ owns (c : Thread nD τ) arg5 fullShare x2
                ∗ owns (c : Thread nD τ) arg6 fullShare y3 ∗ (∃ f7, arg7.view.loc (c : Thread nD τ) ↦[arg7.view.set]{fullShare} arg7.view.writes (Elt F) f7 L7)
                ∗ owns (c : Thread nD τ) scE fullShare e0 ∗ owns (c : Thread nD τ) scA fullShare a0 ∗ owns (c : Thread nD τ) scQ fullShare q0
                ∗ slotP c (sNow t) (landedJ c W (sNow t) (bNow t)) ∗ (∃ W', owes (c : Thread nD τ) 0 W')) -∗ K ⟨⟩))
          ⊢ wp frame (wpE (defs₀ (F := F)) Variants.none c none) Set.univ
            (cc0__fm_body (grid0.coords t) hbX (Memref.isWhole_whole _) arg3 harg3 arg4 harg4 arg5 harg5 arg6 harg6 arg7 harg7
              scE (Memref.isWhole_whole _) scA (Memref.isWhole_whole _) scQ (Memref.isWhole_whole _) scX (Memref.isWhole_whole _) cc0_scratch4) K } := by
  refine ⟨?_, fun y3 Wt K => ?run⟩
  case run =>
    haveI : Fact (¬ k0_cond1 (grid0.coords t) = 1#1) := ⟨h1⟩
    haveI : Fact (¬ k0_cond2 (grid0.coords t) = 1#1) := ⟨h2⟩
    haveI : Fact (¬ k0_cond3 (grid0.coords t) = 1#1) := ⟨h3⟩
    haveI : Fact (¬ k0_cond4 (grid0.coords t) = 1#1) := ⟨h4⟩
    simp only [cc0__fm_body_eq_skeleton]; unfold cc0__fm_body_skel
    unfold owns
    iintro ⟨⟨%f0, %hf0, H0⟩, ⟨%f1, %hf1, H1⟩, ⟨%f2, %hf2, H2⟩, ⟨%f3, %hf3, H3⟩, ⟨%d4, %f4, -, H4⟩, ⟨%fe, %hfe, HE⟩, ⟨%fa, %hfa, HA⟩, ⟨%fq, %hfq, HQ⟩, HsN, HW, Hk⟩
    obtain rfl := harg3.eq_unread hf0
    obtain rfl := harg4.eq_unread hf1
    obtain rfl := harg5.eq_unread hf2
    obtain rfl := harg6.eq_unread hf3
    obtain rfl := (Memref.isWhole_whole cc0_scratch0).eq_unread hfe
    obtain rfl := (Memref.isWhole_whole cc0_scratch1).eq_unread hfa
    obtain rfl := (Memref.isWhole_whole cc0_scratch2).eq_unread hfq
    sl_exec (disch := first | exact h1 | exact h2 | exact h3 | exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HE]
    · iexists _; isplitr; · ipureintro; exact (Memref.isWhole_whole cc0_scratch0).read_unread _
      iexact HE
    isplitl [HA]
    · iexists _; isplitr; · ipureintro; exact (Memref.isWhole_whole cc0_scratch1).read_unread _
      iexact HA
    isplitl [HQ]
    · iexists _; isplitr; · ipureintro; exact (Memref.isWhole_whole cc0_scratch2).read_unread _
      iexact HQ
    isplitl [HsN]; · iexact HsN
    iexists _; iexact HW

end Cert.KernelIdeal.Body

end
-- ==== Proof.KIRunB.lean ====
/-
  The kernel's body at an even grid point `(i, 0)` after the first: it waits for the copy of column block `i` that the
  point before left in flight, reads the block from its slot and the first half of the embedding from scratch, stores the
  eight scaled rows of the output block, and computes the two rows of the first result's block from the block and the
  two reduction vectors kept in scratch.
-/
import proofs.«166942_g35321811042314_cont_sun_m_1252_29_alg».proof.Proof.Gen.KernelIdeal.Skeleton
import proofs.«166942_g35321811042314_cont_sun_m_1252_29_alg».proof.Proof.KIRunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The run at such a point: the pieces of the two output blocks, and the triple. -/
noncomputable def kernelRun_B [∀ e, Nonempty (Elt F e)] (c : Dev nD) (t : Fin cfg0.N)
    (arg3 : Memref sig .tc .vmem S100x1 .f32) (harg3 : arg3.IsWhole) (arg4 : Memref sig .tc .vmem S26x16 .f32) (harg4 : arg4.IsWhole)
    (arg5 : Memref sig .tc .vmem S100x1 .i32) (harg5 : arg5.IsWhole) (arg6 : Memref sig .tc .vmem S2x1024 .f32) (harg6 : arg6.IsWhole)
    (arg7 : Memref sig .tc .vmem S100x8x1024 .f32) (harg7 : arg7.IsWhole)
    (h1 : ¬ k0_cond1 (grid0.coords t) = 1#1) (h2 : k0_cond2 (grid0.coords t) = 1#1) (h3 : ¬ k0_cond3 (grid0.coords t) = 1#1) (h4 : k0_cond4 (grid0.coords t) = 1#1)
    (x0 : Vec F S100x1 .f32) (x1 : Vec F S26x16 .f32) (x2 : Vec F S100x1 .i32)
    (e0 : Vec F S2x100x8 .f32) (a0 : Vec F S100x2 .f32) (q0 : Vec F S100x1 .f32)
    (W : HbBuf (F := F) c hbX) :
    (L6 : List (View.Piece (Elt F) S2x1024 .f32)) ×' (L7 : List (View.Piece (Elt F) S100x8x1024 .f32)) ×'
      (∀ (g : HbBuf (F := F) c (rslot (sNow t))) (Wt : Waits sig Unit) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ owns (c : Thread nD τ) scE fullShare e0 ∗ owns (c : Thread nD τ) scA fullShare a0 ∗ owns (c : Thread nD τ) scQ fullShare q0
            ∗ flightP c W (sNow t) (bNow t) g ∗ owes (c : Thread nD τ) 0 Wt
            ∗ (iprop(owns (c : Thread nD τ) arg3 fullShare x0 ∗ owns (c : Thread nD τ) arg4 fullShare x1 ∗ owns (c : Thread nD τ) arg5 fullShare x2
                ∗ (∃ f6, arg6.view.loc (c : Thread nD τ) ↦[arg6.view.set]{fullShare} arg6.view.writes (Elt F) f6 L6) ∗ (∃ f7, arg7.view.loc (c : Thread nD τ) ↦[arg7.view.set]{fullShare} arg7.view.writes (Elt F) f7 L7)
                ∗ owns (c : Thread nD τ) scE fullShare e0 ∗ owns (c : Thread nD τ) scA fullShare a0 ∗ owns (c : Thread nD τ) scQ fullShare q0
                ∗ slotP c (sNow t) (landedJ c W (sNow t) (bNow t)) ∗ srcP c W (bNow t) ∗ cellP c (sNow t) ∗ (∃ W', owes (c : Thread nD τ) 0 W')) -∗ K ⟨⟩))
          ⊢ wp frame (wpE (defs₀ (F := F)) Variants.none c none) Set.univ
            (cc0__fm_body (grid0.coords t) hbX (Memref.isWhole_whole _) arg3 harg3 arg4 harg4 arg5 harg5 arg6 harg6 arg7 harg7
              scE (Memref.isWhole_whole _) scA (Memref.isWhole_whole _) scQ (Memref.isWhole_whole _) scX (Memref.isWhole_whole _) cc0_scratch4) K) := by
  refine ⟨?_, ?_, fun g Wt K => ?run⟩
  case run =>
    haveI : Fact (¬ k0_cond1 (grid0.coords t) = 1#1) := ⟨h1⟩
    haveI : Fact (k0_cond2 (grid0.coords t) = 1#1) := ⟨h2⟩
    haveI : Fact (¬ k0_cond3 (grid0.coords t) = 1#1) := ⟨h3⟩
    haveI : Fact (k0_cond4 (grid0.coords t) = 1#1) := ⟨h4⟩
    simp only [cc0__fm_body_eq_skeleton]; unfold cc0__fm_body_skel
    unfold owns
    iintro ⟨⟨%f0, %hf0, H0⟩, ⟨%f1, %hf1, H1⟩, ⟨%f2, %hf2, H2⟩, ⟨%d3, %f3, -, H3⟩, ⟨%d4, %f4, -, H4⟩, ⟨%fe, %hfe, HE⟩, ⟨%fa, %hfa, HA⟩, ⟨%fq, %hfq, HQ⟩, HF, HW, Hk⟩
    obtain rfl := harg3.eq_unread hf0
    obtain rfl := harg4.eq_unread hf1
    obtain rfl := harg5.eq_unread hf2
    obtain rfl := (Memref.isWhole_whole cc0_scratch0).eq_unread hfe
    obtain rfl := (Memref.isWhole_whole cc0_scratch1).eq_unread hfa
    obtain rfl := (Memref.isWhole_whole cc0_scratch2).eq_unread hfq
    sl_exec (disch := first | exact h1 | exact h2 | exact h3 | exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [HE]
    · iexists _; isplitr; · ipureintro; exact (Memref.isWhole_whole cc0_scratch0).read_unread _
      iexact HE
    isplitl [HA]
    · iexists _; isplitr; · ipureintro; exact (Memref.isWhole_whole cc0_scratch1).read_unread _
      iexact HA
    isplitl [HQ]
    · iexists _; isplitr; · ipureintro; exact (Memref.isWhole_whole cc0_scratch2).read_unread _
      iexact HQ
    isplitl [HF_dst]; · iexact HF_dst
    isplitl [HF_src]; · iexact HF_src
    isplitl [HF]; · iexact HF
    iexists _; iexact HW

end Cert.KernelIdeal.Body

end
-- ==== Proof.KIRunA.lean ====
/-
  The kernel's body at the first grid point `(0, 0)`: it starts the copy of column block 0, computes the embedding of
  every feature from the field indices and the table (a one-hot matrix product) and stores its two halves, the column of
  linear weights beside the embedding's row sums, and the row sums of the embedding's squares into scratch; then it waits
  for the copy, and goes on as every even point does.  The pieces the three scratch buffers and the two output blocks end
  with are found by running the body.
-/
import proofs.«166942_g35321811042314_cont_sun_m_1252_29_alg».proof.Proof.Gen.KernelIdeal.Skeleton
import proofs.«166942_g35321811042314_cont_sun_m_1252_29_alg».proof.Proof.KIRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The run at the first point: the pieces of the two output blocks and of the three scratch buffers, and the triple. -/
noncomputable def kernelRun_A [∀ e, Nonempty (Elt F e)] (c : Dev nD) (t : Fin cfg0.N)
    (arg3 : Memref sig .tc .vmem S100x1 .f32) (harg3 : arg3.IsWhole) (arg4 : Memref sig .tc .vmem S26x16 .f32) (harg4 : arg4.IsWhole)
    (arg5 : Memref sig .tc .vmem S100x1 .i32) (harg5 : arg5.IsWhole) (arg6 : Memref sig .tc .vmem S2x1024 .f32) (harg6 : arg6.IsWhole)
    (arg7 : Memref sig .tc .vmem S100x8x1024 .f32) (harg7 : arg7.IsWhole)
    (h1 : k0_cond1 (grid0.coords t) = 1#1) (h2 : k0_cond2 (grid0.coords t) = 1#1) (h3 : ¬ k0_cond3 (grid0.coords t) = 1#1) (h4 : k0_cond4 (grid0.coords t) = 1#1)
    (x0 : Vec F S100x1 .f32) (x1 : Vec F S26x16 .f32) (x2 : Vec F S100x1 .i32)
    (W : HbBuf (F := F) c hbX) :
    (L6 : List (View.Piece (Elt F) S2x1024 .f32)) ×' (L7 : List (View.Piece (Elt F) S100x8x1024 .f32)) ×'
    (LE : List (View.Piece (Elt F) S2x100x8 .f32)) ×' (LA : List (View.Piece (Elt F) S100x2 .f32)) ×' (LQ : List (View.Piece (Elt F) S100x1 .f32)) ×'
      (∀ (g : HbBuf (F := F) c (rslot (sNow t))) (Wt : Waits sig Unit) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (∃ d, owns (c : Thread nD τ) scE fullShare d) ∗ (∃ d, owns (c : Thread nD τ) scA fullShare d) ∗ (∃ d, owns (c : Thread nD τ) scQ fullShare d)
            ∗ slotP c (sNow t) g ∗ cellP c (sNow t) ∗ srcP c W (bNow t) ∗ owes (c : Thread nD τ) 0 Wt
            ∗ (iprop(owns (c : Thread nD τ) arg3 fullShare x0 ∗ owns (c : Thread nD τ) arg4 fullShare x1 ∗ owns (c : Thread nD τ) arg5 fullShare x2
                ∗ (∃ f6, arg6.view.loc (c : Thread nD τ) ↦[arg6.view.set]{fullShare} arg6.view.writes (Elt F) f6 L6) ∗ (∃ f7, arg7.view.loc (c : Thread nD τ) ↦[arg7.view.set]{fullShare} arg7.view.writes (Elt F) f7 L7)
                ∗ (∃ fE, scE.view.loc (c : Thread nD τ) ↦[scE.view.set]{fullShare} scE.view.writes (Elt F) fE LE) ∗ (∃ fA, scA.view.loc (c : Thread nD τ) ↦[scA.view.set]{fullShare} scA.view.writes (Elt F) fA LA) ∗ (∃ fQ, scQ.view.loc (c : Thread nD τ) ↦[scQ.view.set]{fullShare} scQ.view.writes (Elt F) fQ LQ)
                ∗ slotP c (sNow t) (landedJ c W (sNow t) (bNow t)) ∗ srcP c W (bNow t) ∗ cellP c (sNow t) ∗ (∃ W', owes (c : Thread nD τ) 0 W')) -∗ K ⟨⟩))
          ⊢ wp frame (wpE (defs₀ (F := F)) Variants.none c none) Set.univ
            (cc0__fm_body (grid0.coords t) hbX (Memref.isWhole_whole _) arg3 harg3 arg4 harg4 arg5 harg5 arg6 harg6 arg7 harg7
              scE (Memref.isWhole_whole _) scA (Memref.isWhole_whole _) scQ (Memref.isWhole_whole _) scX (Memref.isWhole_whole _) cc0_scratch4) K) := by
  refine ⟨?_, ?_, ?_, ?_, ?_, fun g Wt K => ?run⟩
  case run =>
    haveI : Fact (k0_cond1 (grid0.coords t) = 1#1) := ⟨h1⟩
    haveI : Fact (k0_cond2 (grid0.coords t) = 1#1) := ⟨h2⟩
    haveI : Fact (¬ k0_cond3 (grid0.coords t) = 1#1) := ⟨h3⟩
    haveI : Fact (k0_cond4 (grid0.coords t) = 1#1) := ⟨h4⟩
    simp only [cc0__fm_body_eq_skeleton]; unfold cc0__fm_body_skel
    unfold owns
    iintro ⟨⟨%f0, %hf0, H0⟩, ⟨%f1, %hf1, H1⟩, ⟨%f2, %hf2, H2⟩, ⟨%d3, %f3, -, H3⟩, ⟨%d4, %f4, -, H4⟩, ⟨%de, %fe, -, HE⟩, ⟨%da, %fa, -, HA⟩, ⟨%dq, %fq, -, HQ⟩, HsN, HcN, Hsrc, HW, Hk⟩
    obtain rfl := harg3.eq_unread hf0
    obtain rfl := harg4.eq_unread hf1
    obtain rfl := harg5.eq_unread hf2
    sl_exec (disch := first | exact h1 | exact h2 | exact h3 | exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [HE]; · iexists _; iexact HE
    isplitl [HA]; · iexists _; iexact HA
    isplitl [HQ]; · iexists _; iexact HQ
    isplitl [HsN]; · iexact HsN
    isplitl [Hsrc]; · iexact Hsrc
    isplitl [HcN]; · iexact HcN
    iexists _; iexact HW

end Cert.KernelIdeal.Body

end
-- ==== Proof.KIData.lean ====
/-
  The proof data of the kernel's pipeline.  Point `t = 2 i + j` of the 16 × 2 grid is one of four kinds: the first
  point; an even point after it; an odd point before the last; the last point.  After the first point the three scratch
  buffers hold the embedding's halves, the linear weights beside the embedding's row sums, and the row sums of its
  squares, for good.  Before an odd point the slot `i % 2` holds column block `i`; before an even point after the first
  the copy of block `i` into that slot is in flight; before the first point and after the last nothing is.
-/
import proofs.«166942_g35321811042314_cont_sun_m_1252_29_alg».proof.Proof.Gen.KernelIdeal.Skeleton
import proofs.«166942_g35321811042314_cont_sun_m_1252_29_alg».proof.Proof.KIRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The staging memrefs at a point, and the conditions in closed form -/

abbrev ms0 (t : Fin cfg0.N) : Memref sig .tc .vmem S100x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S26x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S100x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S100x8x1024 .f32 := win0_4.stage (cfg0.slots t 4)
abbrev hs4 (t : Fin cfg0.N) : (ms4 t).IsWhole := hstage0_4 ((cfg0.slots t 4).cast nbuf0_4)

section Conds
omit [FloatOps F]
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val % 2 = 0 :=
  (by decide +kernel : ∀ t : Fin grid0.N, k0_cond2 (grid0.coords t) = 1#1 ↔ t.val % 2 = 0)
theorem hcond3 : ∀ t : Fin cfg0.N, k0_cond3 (grid0.coords t) = 1#1 ↔ (t.val % 2 = 1 ∧ t.val < 31) :=
  (by decide +kernel : ∀ t : Fin grid0.N, k0_cond3 (grid0.coords t) = 1#1 ↔ (t.val % 2 = 1 ∧ t.val < 31))
theorem hcond4 : ∀ t : Fin cfg0.N, k0_cond4 (grid0.coords t) = 1#1 ↔ t.val % 2 = 0 :=
  (by decide +kernel : ∀ t : Fin grid0.N, k0_cond4 (grid0.coords t) = 1#1 ↔ t.val % 2 = 0)
end Conds

/-! ## The runs at a point's memrefs and blocks -/

/-- The first point's run. -/
def runA (c : Dev nD) (t : Fin cfg0.N) (h0 : t.val = 0) :=
  kernelRun_A (F := F) c t (ms0 t) (hs0 t) (ms1 t) (hs1 t) (ms2 t) (hs2 t) (ms3 t) (hs3 t) (ms4 t) (hs4 t)
    ((hcond1 t).mpr h0) ((hcond2 t).mpr (by omega)) (fun h => by have := (hcond3 t).mp h; omega) ((hcond4 t).mpr (by omega))
    (iblk m c 0 t) (iblk m c 1 t) (iblk m c 2 t) (V m c main_v0)

/-- The first point (as a point of the grid). -/
def t₀ : Fin cfg0.N := ⟨0, by decide⟩

/-- What the three scratch buffers hold from the first point on. -/
def Ev (c : Dev nD) : Vec F S2x100x8 .f32 := View.canon (runA m c t₀ rfl).2.2.1
def Av (c : Dev nD) : Vec F S100x2 .f32 := View.canon (runA m c t₀ rfl).2.2.2.1
def Qv (c : Dev nD) : Vec F S100x1 .f32 := View.canon (runA m c t₀ rfl).2.2.2.2.1

/-- An even point's run, after the first. -/
def runB (c : Dev nD) (t : Fin cfg0.N) (h0 : t.val ≠ 0) (he : t.val % 2 = 0) :=
  kernelRun_B (F := F) c t (ms0 t) (hs0 t) (ms1 t) (hs1 t) (ms2 t) (hs2 t) (ms3 t) (hs3 t) (ms4 t) (hs4 t)
    (fun h => h0 ((hcond1 t).mp h)) ((hcond2 t).mpr he) (fun h => by have := (hcond3 t).mp h; omega) ((hcond4 t).mpr he)
    (iblk m c 0 t) (iblk m c 1 t) (iblk m c 2 t) (Ev m c) (Av m c) (Qv m c) (V m c main_v0)

/-- An odd point's run, before the last. -/
def runC (c : Dev nD) (t : Fin cfg0.N) (ho : t.val % 2 = 1) (hl : t.val < 31) :=
  kernelRun_C (F := F) c t (ms0 t) (hs0 t) (ms1 t) (hs1 t) (ms2 t) (hs2 t) (ms3 t) (hs3 t) (ms4 t) (hs4 t)
    (fun h => by have := (hcond1 t).mp h; omega) (fun h => by have := (hcond2 t).mp h; omega) ((hcond3 t).mpr ⟨ho, hl⟩) (fun h => by have := (hcond4 t).mp h; omega)
    (iblk m c 0 t) (iblk m c 1 t) (iblk m c 2 t) (Ev m c) (Av m c) (Qv m c) (V m c main_v0)

/-- The last point's run. -/
def runD (c : Dev nD) (t : Fin cfg0.N) (ho : t.val % 2 = 1) (hl : ¬ t.val < 31) :=
  kernelRun_D (F := F) c t (ms0 t) (hs0 t) (ms1 t) (hs1 t) (ms2 t) (hs2 t) (ms3 t) (hs3 t) (ms4 t) (hs4 t)
    (fun h => by have := (hcond1 t).mp h; omega) (fun h => by have := (hcond2 t).mp h; omega) (fun h => hl ((hcond3 t).mp h).2) (fun h => by have := (hcond4 t).mp h; omega)
    (iblk m c 0 t) (iblk m c 1 t) (iblk m c 2 t) (Ev m c) (Av m c) (Qv m c) (V m c main_v0)

/-! ## What the two output windows' buffers hold after the body at each point -/

/-- The second result's block: the point's eight stores, read back. -/
def out7At (c : Dev nD) (t : Fin cfg0.N) : Vec F S100x8x1024 .f32 :=
  if h0 : t.val = 0 then View.canon (runA m c t h0).2.1
  else if he : t.val % 2 = 0 then View.canon (runB m c t h0 he).2.1
  else if hl : t.val < 31 then View.canon (runC m c t (by omega) hl).1
  else View.canon (runD m c t (by omega) hl).1

/-- The first result's block at an even point: its one store, read back. -/
def y3Even (c : Dev nD) (t : Fin cfg0.N) (he : t.val % 2 = 0) : Vec F S2x1024 .f32 :=
  if h0 : t.val = 0 then View.canon (runA m c t h0).1 else View.canon (runB m c t h0 he).1

/-- The first result's block: at an odd point what the even point before it left. -/
def y3At (c : Dev nD) (t : Fin cfg0.N) : Vec F S2x1024 .f32 :=
  if he : t.val % 2 = 0 then y3Even m c t he
  else y3Even m c ⟨t.val - 1, Nat.lt_of_le_of_lt (Nat.sub_le _ _) t.isLt⟩ (by dsimp only; omega)

/-! ## The invariant before point `k` -/

/-- The scratch buffers: anything before the first point, the kept values from then on. -/
def PhiS (c : Dev nD) (k : ℕ) : sProp 𝕄 :=
  if k = 0 then iprop((∃ d, owns (c : Thread nD τ) scE fullShare d) ∗ (∃ d, owns (c : Thread nD τ) scA fullShare d) ∗ (∃ d, owns (c : Thread nD τ) scQ fullShare d))
  else iprop(owns (c : Thread nD τ) scE fullShare (Ev m c) ∗ owns (c : Thread nD τ) scA fullShare (Av m c) ∗ owns (c : Thread nD τ) scQ fullShare (Qv m c))

/-- Nothing in flight: both slots held at anything, both cells at zero, the operand whole. -/
def ringIdle (c : Dev nD) (s s' : Fin 2) : sProp 𝕄 :=
  iprop((∃ f, slotP c s f) ∗ (∃ f, slotP c s' f) ∗ cellP c s ∗ cellP c s' ∗ hbPt c hbX (V m c main_v0))
/-- The copy of block `b` into slot `s` in flight; the other slot and cell held. -/
def ringFly (c : Dev nD) (s s' : Fin 2) (b : Fin 16) : sProp 𝕄 :=
  iprop((∃ f, flightP c (V m c main_v0) s b f) ∗ restP c (V m c main_v0) b ∗ (∃ f, slotP c s' f) ∗ cellP c s')
/-- Block `b` landed in slot `s`; the other slot at anything, both cells at zero, the operand whole. -/
def ringHas (c : Dev nD) (s s' : Fin 2) (b : Fin 16) : sProp 𝕄 :=
  iprop(slotP c s (landedJ c (V m c main_v0) s b) ∗ (∃ f, slotP c s' f) ∗ cellP c s ∗ cellP c s' ∗ hbPt c hbX (V m c main_v0))

/-- The ring before point `k`. -/
def PhiRing (c : Dev nD) (k : ℕ) : sProp 𝕄 :=
  if k = 0 ∨ 32 ≤ k then ringIdle m c (Ring.sl 2 (k / 2)) (Ring.sl 2 (k / 2 + 1))
  else if k % 2 = 0 then ringFly m c (Ring.sl 2 (k / 2)) (Ring.sl 2 (k / 2 + 1)) (Ring.bk 16 (k / 2))
  else ringHas m c (Ring.sl 2 (k / 2)) (Ring.sl 2 (k / 2 + 1)) (Ring.bk 16 (k / 2))

/-- The whole invariant before point `k`: the random-number register at some state, the scratch, the ring. -/
def PhiR (c : Dev nD) (k : ℕ) : sProp 𝕄 := iprop((∃ r, prngReg c r) ∗ PhiS m c k ∗ PhiRing m c k)

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => y3At m c t
    | ⟨4, _⟩ => out7At m c t
    | ⟨n + 5, h⟩ => absurd h (Nat.not_lt.2 (Nat.le_add_left _ _))
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = y3At m c t := by dsimp only [dats]
theorem after_4 (c : Dev nD) (t : Fin cfg0.N) : (dats m 0 c).after 4 t = out7At m c t := by dsimp only [dats]

/-- Each input window's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

end Cert.KernelIdeal.Body

end
-- ==== Proof.KISound.lean ====
/-
  The body obligation of the kernel's pipeline: at each of the four kinds of point the body takes the invariant before
  the point and the windows' buffers to the invariant after it and the buffers at what the proof data says.  The pieces a
  buffer ends with cover it, so what it holds does not depend on what it held before.
-/
import proofs.«166942_g35321811042314_cont_sun_m_1252_29_alg».proof.Proof.Gen.KernelIdeal.Skeleton
import proofs.«166942_g35321811042314_cont_sun_m_1252_29_alg».proof.Proof.KIData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The found pieces cover their buffers -/

theorem cover6_A (c : Dev nD) (t : Fin cfg0.N) (h0 : t.val = 0) (y : S2x1024.Idx) : ∃ pc ∈ (runA m c t h0).1, y ∈ pc.1.set :=
  View.cover_of_tiledL (runA m c t h0).1 S2x1024.size (by sl_kernel_rfl) y
theorem cover7_A (c : Dev nD) (t : Fin cfg0.N) (h0 : t.val = 0) (y : S100x8x1024.Idx) : ∃ pc ∈ (runA m c t h0).2.1, y ∈ pc.1.set :=
  View.cover_of_tiledL (runA m c t h0).2.1 S100x1x1024.size (by sl_kernel_rfl) y
theorem coverE_A (c : Dev nD) (t : Fin cfg0.N) (h0 : t.val = 0) (y : S2x100x8.Idx) : ∃ pc ∈ (runA m c t h0).2.2.1, y ∈ pc.1.set :=
  View.cover_of_tiledL (runA m c t h0).2.2.1 S1x100x8.size (by sl_kernel_rfl) y
theorem coverA_A (c : Dev nD) (t : Fin cfg0.N) (h0 : t.val = 0) (y : S100x2.Idx) : ∃ pc ∈ (runA m c t h0).2.2.2.1, y ∈ pc.1.set :=
  View.cover_of_tiledL (runA m c t h0).2.2.2.1 S100x2.size (by sl_kernel_rfl) y
theorem coverQ_A (c : Dev nD) (t : Fin cfg0.N) (h0 : t.val = 0) (y : S100x1.Idx) : ∃ pc ∈ (runA m c t h0).2.2.2.2.1, y ∈ pc.1.set :=
  View.cover_of_tiledL (runA m c t h0).2.2.2.2.1 S100x1.size (by sl_kernel_rfl) y
theorem cover6_B (c : Dev nD) (t : Fin cfg0.N) (h0 : t.val ≠ 0) (he : t.val % 2 = 0) (y : S2x1024.Idx) : ∃ pc ∈ (runB m c t h0 he).1, y ∈ pc.1.set :=
  View.cover_of_tiledL (runB m c t h0 he).1 S2x1024.size (by sl_kernel_rfl) y
theorem cover7_B (c : Dev nD) (t : Fin cfg0.N) (h0 : t.val ≠ 0) (he : t.val % 2 = 0) (y : S100x8x1024.Idx) : ∃ pc ∈ (runB m c t h0 he).2.1, y ∈ pc.1.set :=
  View.cover_of_tiledL (runB m c t h0 he).2.1 S100x1x1024.size (by sl_kernel_rfl) y
theorem cover7_C (c : Dev nD) (t : Fin cfg0.N) (ho : t.val % 2 = 1) (hl : t.val < 31) (y : S100x8x1024.Idx) : ∃ pc ∈ (runC m c t ho hl).1, y ∈ pc.1.set :=
  View.cover_of_tiledL (runC m c t ho hl).1 S100x1x1024.size (by sl_kernel_rfl) y
theorem cover7_D (c : Dev nD) (t : Fin cfg0.N) (ho : t.val % 2 = 1) (hl : ¬ t.val < 31) (y : S100x8x1024.Idx) : ∃ pc ∈ (runD m c t ho hl).1, y ∈ pc.1.set :=
  View.cover_of_tiledL (runD m c t ho hl).1 S100x1x1024.size (by sl_kernel_rfl) y

/-! ## The obligation's two sides, the windows one by one -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 2000000 in
/-- The first point. -/
theorem sound_A (c : Dev nD) :
    bodyPre m c t₀ ⊢ wp frame (wpE (defs₀ (F := F)) Variants.none c none) Set.univ (bodyAt0 t₀) (fun _ => bodyPost m c t₀) := by
  have h0 : (t₀ : Fin cfg0.N).val = 0 := rfl
  unfold bodyPre bodyPost bodyAt0
  simp only [before_0, before_1, before_2]
  rw [after_0, after_1, after_2, after_3, after_4]
  rw [PhiR_castSucc m c t₀, PhiR_succ m c t₀]
  unfold Dat.owesAt Pipeline.owesWithin
  rw [show (dats m 0 c).owed t₀.castSucc = 0 from rfl, show (dats m 0 c).owed t₀.succ = 0 from rfl]
  unfold PhiR PhiS PhiRing
  rw [if_pos h0, if_neg (show ¬ t₀.val + 1 = 0 by omega), if_pos (Or.inl h0),
    if_neg (show ¬ (t₀.val + 1 = 0 ∨ 32 ≤ t₀.val + 1) by rw [h0]; omega), if_neg (show ¬ (t₀.val + 1) % 2 = 0 by rw [h0]; omega)]
  rw [show (t₀.val + 1) / 2 = t₀.val / 2 by rw [h0]]
  unfold ringIdle ringHas
  rw [show y3At m c t₀ = View.canon (runA m c t₀ h0).1 by unfold y3At y3Even; rw [dif_pos (by rw [h0]), dif_pos h0]]
  rw [show out7At m c t₀ = View.canon (runA m c t₀ h0).2.1 by unfold out7At; rw [dif_pos h0]]
  iintro ⟨⟨Hg, ⟨HE, HA, HQ⟩, ⟨⟨%g, HsN⟩, HsX, HcN, HcX, HX⟩⟩, ⟨%Wt, -, HW⟩, ⟨%d0, H0⟩, ⟨%d1, H1⟩, ⟨%d2, H2⟩, H3, H4⟩
  ihave HX' := (src_split c (V m c main_v0) (bNow t₀)).1 $$ HX
  icases HX' with ⟨Hsrc, Hrest⟩
  iapply ((runA m c t₀ h0).2.2.2.2.2 g Wt _)
  isplitl [H0]; · iexact H0
  isplitl [H1]; · iexact H1
  isplitl [H2]; · iexact H2
  isplitl [H3]; · iexact H3
  isplitl [H4]; · iexact H4
  isplitl [HE]; · iexact HE
  isplitl [HA]; · iexact HA
  isplitl [HQ]; · iexact HQ
  isplitl [HsN]; · iexact HsN
  isplitl [HcN]; · iexact HcN
  isplitl [Hsrc]; · iexact Hsrc
  isplitl [HW]; · iexact HW
  iintro ⟨H0, H1, H2, ⟨%f6, H3⟩, ⟨%f7, H4⟩, ⟨%fE, HE⟩, ⟨%fA, HA⟩, ⟨%fQ, HQ⟩, HsN, Hsrc, HcN, ⟨%W', HW'⟩⟩
  isplitl [Hg HE HA HQ HsN HsX HcN HcX Hsrc Hrest]
  · isplitl [Hg]; · iexact Hg
    isplitl [HE HA HQ]
    · isplitl [HE]
      · unfold owns Ev; iexists _; isplitr
        swap; · iexact HE
        ipureintro; exact View.read_writes_eq_canon _ _ _ (coverE_A m c _ _)
      isplitl [HA]
      · unfold owns Av; iexists _; isplitr
        swap; · iexact HA
        ipureintro; exact View.read_writes_eq_canon _ _ _ (coverA_A m c _ _)
      · unfold owns Qv; iexists _; isplitr
        swap; · iexact HQ
        ipureintro; exact View.read_writes_eq_canon _ _ _ (coverQ_A m c _ _)
    isplitl [HsN]; · iexact HsN
    isplitl [HsX]; · iexact HsX
    isplitl [HcN]; · iexact HcN
    isplitl [HcX]; · iexact HcX
    iapply (src_split c (V m c main_v0) (bNow t₀)).2
    isplitl [Hsrc]; · iexact Hsrc
    iexact Hrest
  isplitl [HW']
  · iexists W'; isplitr; · ipureintro; exact fun _ _ => Or.inl trivial
    iexact HW'
  isplitl [H0]; · iexact H0
  isplitl [H1]; · iexact H1
  isplitl [H2]; · iexact H2
  isplitl [H3]
  · unfold owns; iexists _; isplitr
    swap; · iexact H3
    ipureintro; exact View.read_writes_eq_canon _ _ _ (cover6_A m c _ _)
  · unfold owns; iexists _; isplitr
    swap; · iexact H4
    ipureintro; exact View.read_writes_eq_canon _ _ _ (cover7_A m c _ _)

end Cert.KernelIdeal.Body

end
-- ==== Proof.KISound2.lean ====
/-
  The body obligation at the three other kinds of point: an even point after the first (the copy in flight lands, the
  slot is read), an odd point before the last (the next copy is started), the last point (nothing is started).  At an odd
  point the first result's window is idle: its buffer holds what the even point before left, and is handed back as it is.
-/
import proofs.«166942_g35321811042314_cont_sun_m_1252_29_alg».proof.Proof.Gen.KernelIdeal.Skeleton
import proofs.«166942_g35321811042314_cont_sun_m_1252_29_alg».proof.Proof.KISound

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem y3At_even (c : Dev nD) (t : Fin cfg0.N) (he : t.val % 2 = 0) : y3At m c t = y3Even m c t he := by
  unfold y3At; rw [dif_pos he]
theorem y3At_odd (c : Dev nD) (t : Fin cfg0.N) (ho : ¬ t.val % 2 = 0) :
    y3At m c t = y3Even m c ⟨t.val - 1, Nat.lt_of_le_of_lt (Nat.sub_le _ _) t.isLt⟩ (by dsimp only; omega) := by
  unfold y3At; rw [dif_neg ho]

/-- At an odd point the first result's buffer holds what the even point before it left there. -/
theorem before_3_odd (c : Dev nD) (t : Fin cfg0.N) (ho : t.val % 2 = 1) (d) : (dats m 0 c).before 3 t d = y3At m c t := by
  have ht : t.val ≠ 0 := by omega
  have hfl : (cfg0.win 3).flush ⟨t.val - 1, Nat.lt_of_le_of_lt (Nat.sub_le _ _) t.isLt⟩ = false := by
    cases h : (cfg0.win 3).flush ⟨t.val - 1, Nat.lt_of_le_of_lt (Nat.sub_le _ _) t.isLt⟩
    · rfl
    · exfalso; have := (flush0_3 _).mp h; dsimp only at this; omega
  have hidle : cfg0.idle 3 (cfg0.grid.coords ⟨t.val - 1, Nat.lt_of_le_of_lt (Nat.sub_le _ _) t.isLt⟩) = false := by
    have hc4 := (hcond4 ⟨t.val - 1, Nat.lt_of_le_of_lt (Nat.sub_le _ _) t.isLt⟩).mpr (by dsimp only; omega)
    show (!(k0_cond4 (grid0.coords ⟨t.val - 1, _⟩) == 1#1)) = false
    rw [hc4]; rfl
  rw [(dats m 0 c).before_of_pos 3 t ht ((cfg0.win 3).fetch_out rfl t), hfl, if_neg Bool.false_ne_true]
  unfold Dat.left; rw [hidle]; dsimp only
  unfold Dat.kept
  rw [Pipeline.fill_of_clip_none (cfg := cfg0) 3 _ (fun _ => rfl) d ((dats m 0 c).after 3 _), Window.fill_cut, after_3]
  rw [y3At_even m c ⟨t.val - 1, Nat.lt_of_le_of_lt (Nat.sub_le _ _) t.isLt⟩ (by dsimp only; omega), y3At_odd m c t (by omega)]

set_option maxHeartbeats 2000000 in
/-- An even point after the first. -/
theorem sound_B (c : Dev nD) (t : Fin cfg0.N) (h0 : t.val ≠ 0) (he : t.val % 2 = 0) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before_0, before_1, before_2]
  rw [after_0, after_1, after_2, after_3, after_4]
  rw [PhiR_castSucc m c t, PhiR_succ m c t]
  unfold Dat.owesAt Pipeline.owesWithin
  rw [show (dats m 0 c).owed t.castSucc = 0 from rfl, show (dats m 0 c).owed t.succ = 0 from rfl]
  unfold PhiR PhiS PhiRing
  rw [if_neg h0, if_neg (show ¬ t.val + 1 = 0 by omega), if_neg (show ¬ (t.val = 0 ∨ 32 ≤ t.val) by omega), if_pos he,
    if_neg (show ¬ (t.val + 1 = 0 ∨ 32 ≤ t.val + 1) by omega), if_neg (show ¬ (t.val + 1) % 2 = 0 by omega)]
  rw [show (t.val + 1) / 2 = t.val / 2 by omega]
  unfold ringFly ringHas
  rw [show y3At m c t = View.canon (runB m c t h0 he).1 by unfold y3At y3Even; rw [dif_pos he, dif_neg h0]]
  rw [show out7At m c t = View.canon (runB m c t h0 he).2.1 by unfold out7At; rw [dif_neg h0, dif_pos he]]
  iintro ⟨⟨Hg, ⟨HE, HA, HQ⟩, ⟨⟨%g, HF⟩, Hrest, HsX, HcX⟩⟩, ⟨%Wt, -, HW⟩, ⟨%d0, H0⟩, ⟨%d1, H1⟩, ⟨%d2, H2⟩, ⟨%d3, H3⟩, ⟨%d4, H4⟩⟩
  iapply ((runB m c t h0 he).2.2 g Wt _)
  isplitl [H0]; · iexact H0
  isplitl [H1]; · iexact H1
  isplitl [H2]; · iexact H2
  isplitl [H3]; · iexists _; iexact H3
  isplitl [H4]; · iexists _; iexact H4
  isplitl [HE]; · iexact HE
  isplitl [HA]; · iexact HA
  isplitl [HQ]; · iexact HQ
  isplitl [HF]; · iexact HF
  isplitl [HW]; · iexact HW
  iintro ⟨H0, H1, H2, ⟨%f6, H3⟩, ⟨%f7, H4⟩, HE, HA, HQ, HsN, Hsrc, HcN, ⟨%W', HW'⟩⟩
  isplitl [Hg HE HA HQ HsN HsX HcN HcX Hsrc Hrest]
  · isplitl [Hg]; · iexact Hg
    isplitl [HE HA HQ]
    · isplitl [HE]; · iexact HE
      isplitl [HA]; · iexact HA
      iexact HQ
    isplitl [HsN]; · iexact HsN
    isplitl [HsX]; · iexact HsX
    isplitl [HcN]; · iexact HcN
    isplitl [HcX]; · iexact HcX
    iapply (src_split c (V m c main_v0) (bNow t)).2
    isplitl [Hsrc]; · iexact Hsrc
    iexact Hrest
  isplitl [HW']
  · iexists W'; isplitr; · ipureintro; exact fun _ _ => Or.inl trivial
    iexact HW'
  isplitl [H0]; · iexact H0
  isplitl [H1]; · iexact H1
  isplitl [H2]; · iexact H2
  isplitl [H3]
  · unfold owns; iexists _; isplitr
    swap; · iexact H3
    ipureintro; exact View.read_writes_eq_canon _ _ _ (cover6_B m c _ _ _)
  · unfold owns; iexists _; isplitr
    swap; · iexact H4
    ipureintro; exact View.read_writes_eq_canon _ _ _ (cover7_B m c _ _ _)

set_option maxHeartbeats 2000000 in
/-- An odd point before the last. -/
theorem sound_C (c : Dev nD) (t : Fin cfg0.N) (ho : t.val % 2 = 1) (hl : t.val < 31) :
    bodyPre m c t ⊢ wp frame (wpE (defs₀ (F := F)) Variants.none c none) Set.univ (bodyAt0 t) (fun _ => bodyPost m c t) := by
  unfold bodyPre bodyPost bodyAt0
  simp only [before_0, before_1, before_2]
  rw [after_0, after_1, after_2, after_3, after_4]
  rw [PhiR_castSucc m c t, PhiR_succ m c t]
  unfold Dat.owesAt Pipeline.owesWithin
  rw [show (dats m 0 c).owed t.castSucc = 0 from rfl, show (dats m 0 c).owed t.succ = 0 from rfl]
  unfold PhiR PhiS PhiRing
  rw [if_neg (show ¬ t.val = 0 by omega), if_neg (show ¬ t.val + 1 = 0 by omega), if_neg (show ¬ (t.val = 0 ∨ 32 ≤ t.val) by omega),
    if_neg (show ¬ t.val % 2 = 0 by omega), if_neg (show ¬ (t.val + 1 = 0 ∨ 32 ≤ t.val + 1) by omega), if_pos (show (t.val + 1) % 2 = 0 by omega)]
  rw [show (t.val + 1) / 2 = t.val / 2 + 1 by omega]
  rw [show Ring.sl 2 (t.val / 2 + 1 + 1) = Ring.sl 2 (t.val / 2) from Ring.sl_add 2 (t.val / 2)]
  unfold ringHas ringFly
  simp only [before_3_odd m c t ho]
  rw [show out7At m c t = View.canon (runC m c t ho hl).1 by unfold out7At; rw [dif_neg (by omega), dif_neg (by omega), dif_pos hl]]
  iintro ⟨⟨Hg, ⟨HE, HA, HQ⟩, ⟨HsN, ⟨%f, HsX⟩, HcN, HcX, HX⟩⟩, ⟨%Wt, -, HW⟩, ⟨%d0, H0⟩, ⟨%d1, H1⟩, ⟨%d2, H2⟩, ⟨%d3, H3⟩, ⟨%d4, H4⟩⟩
  ihave HX' := (src_split c (V m c main_v0) (bNext t)).1 $$ HX
  icases HX' with ⟨Hsrc, Hrest⟩
  iapply ((runC m c t ho hl).2 (y3At m c t) f Wt _)
  isplitl [H0]; · iexact H0
  isplitl [H1]; · iexact H1
  isplitl [H2]; · iexact H2
  isplitl [H3]; · iexact H3
  isplitl [H4]; · iexists _; iexact H4
  isplitl [HE]; · iexact HE
  isplitl [HA]; · iexact HA
  isplitl [HQ]; · iexact HQ
  isplitl [HsN]; · iexact HsN
  isplitl [HsX]; · iexact HsX
  isplitl [HcN]; · iexact HcN
  isplitl [HcX]; · iexact HcX
  isplitl [Hsrc]; · iexact Hsrc
  isplitl [Hrest]; · iexact Hrest
  isplitl [HW]; · iexact HW
  iintro ⟨H0, H1, H2, H3, ⟨%f7, H4⟩, HE, HA, HQ, HsN, HcN, HF, Hrest, ⟨%W', HW'⟩⟩
  isplitl [Hg HE HA HQ HsN HcN HF Hrest]
  · isplitl [Hg]; · iexact Hg
    isplitl [HE HA HQ]
    · isplitl [HE]; · iexact HE
      isplitl [HA]; · iexact HA
      iexact HQ
    isplitl [HF]; · iexists f; iexact HF
    isplitl [Hrest]; · iexact Hrest
    isplitl [HsN]; · iexists _; iexact HsN
    iexact HcN
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  unfold owns; iexists _; isplitr
  swap; · iexact H4
  ipureintro; exact View.read_writes_eq_canon _ _ _ (cover7_C m c _ _ _)

set_option maxHeartbeats 2000000 in
/-- The last point. -/
theorem sound_D (c : Dev nD) (t : Fin cfg0.N) (ho : t.val % 2 = 1) (hl : ¬ t.val < 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before_0, before_1, before_2]
  rw [after_0, after_1, after_2, after_3, after_4]
  rw [PhiR_castSucc m c t, PhiR_succ m c t]
  unfold Dat.owesAt Pipeline.owesWithin
  rw [show (dats m 0 c).owed t.castSucc = 0 from rfl, show (dats m 0 c).owed t.succ = 0 from rfl]
  unfold PhiR PhiS PhiRing
  rw [if_neg (show ¬ t.val = 0 by omega), if_neg (show ¬ t.val + 1 = 0 by omega), if_neg (show ¬ (t.val = 0 ∨ 32 ≤ t.val) by omega),
    if_neg (show ¬ t.val % 2 = 0 by omega), if_pos (show (t.val + 1 = 0 ∨ 32 ≤ t.val + 1) by omega)]
  rw [show (t.val + 1) / 2 = t.val / 2 + 1 by omega]
  rw [show Ring.sl 2 (t.val / 2 + 1 + 1) = Ring.sl 2 (t.val / 2) from Ring.sl_add 2 (t.val / 2)]
  unfold ringHas ringIdle
  simp only [before_3_odd m c t ho]
  rw [show out7At m c t = View.canon (runD m c t ho hl).1 by unfold out7At; rw [dif_neg (by omega), dif_neg (by omega), dif_neg hl]]
  iintro ⟨⟨Hg, ⟨HE, HA, HQ⟩, ⟨HsN, HsX, HcN, HcX, HX⟩⟩, ⟨%Wt, -, HW⟩, ⟨%d0, H0⟩, ⟨%d1, H1⟩, ⟨%d2, H2⟩, ⟨%d3, H3⟩, ⟨%d4, H4⟩⟩
  iapply ((runD m c t ho hl).2 (y3At m c t) Wt _)
  isplitl [H0]; · iexact H0
  isplitl [H1]; · iexact H1
  isplitl [H2]; · iexact H2
  isplitl [H3]; · iexact H3
  isplitl [H4]; · iexists _; iexact H4
  isplitl [HE]; · iexact HE
  isplitl [HA]; · iexact HA
  isplitl [HQ]; · iexact HQ
  isplitl [HsN]; · iexact HsN
  isplitl [HW]; · iexact HW
  iintro ⟨H0, H1, H2, H3, ⟨%f7, H4⟩, HE, HA, HQ, HsN, ⟨%W', HW'⟩⟩
  isplitl [Hg HE HA HQ HsN HsX HcN HcX HX]
  · isplitl [Hg]; · iexact Hg
    isplitl [HE HA HQ]
    · isplitl [HE]; · iexact HE
      isplitl [HA]; · iexact HA
      iexact HQ
    isplitl [HsX]; · iexact HsX
    isplitl [HsN]; · iexists _; iexact HsN
    isplitl [HcX]; · iexact HcX
    isplitl [HcN]; · iexact HcN
    iexact HX
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  unfold owns; iexists _; isplitr
  swap; · iexact H4
  ipureintro; exact View.read_writes_eq_canon _ _ _ (cover7_D m c _ _ _)

end Cert.KernelIdeal.Body

end
-- ==== Proof.KIFrame.lean ====
/-
  The kernel program's frame run: the body obligation at every point (one of the four kinds), the invariant before the
  first point from what the launch hands the region and back after the last, and the launch theorem for a kernel that
  moves an operand by copies of its own, with the two transposes of the results after the region.
-/
import proofs.«166942_g35321811042314_cont_sun_m_1252_29_alg».proof.Proof.Gen.KernelIdeal.Skeleton
import proofs.«166942_g35321811042314_cont_sun_m_1252_29_alg».proof.Proof.KISound2

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = t₀ := Fin.ext h0
    exact sound_A m c
  · by_cases he : t.val % 2 = 0
    · exact sound_B m c t h0 he
    · by_cases hl : t.val < 31
      · exact sound_C m c t (by omega) hl
      · exact sound_D m c t (by omega) hl

section Idle
omit [FloatOps F]
/-- The first result's window is idle exactly at the odd points, where it is written back. -/
theorem idle3_even : ∀ t : Fin grid0.N, t.val % 2 = 0 → idle0 3 (grid0.coords t) = false := by decide +kernel
theorem idle3_odd : ∀ t : Fin grid0.N, ¬ t.val % 2 = 0 → idle0 3 (grid0.coords t) = true ∧ (win0 3).flush t = true := by decide +kernel
end Idle

/-- The library's body obligation, at every point. -/
theorem body_obligation (c : Dev nD) : BodyObligation (dats (F := F) m 0 c) (defs₀ (F := F)) Variants.none () Set.univ := fun t => by
  rw [bigSep_W0, bigSep_W0]
  by_cases he : t.val % 2 = 0
  · simp only [idle3_even t he]
    exact sound_body m c t
  · simp only [(idle3_odd t he).1, (idle3_odd t he).2]
    exact sound_body m c t

/-! ## Into the invariant and out of it -/

theorem hin (c : Dev nD) : Pipeline.ΦD osem spec0 HX (V m) c ⊢ (dats m 0 c).Φ 0 := by
  rw [PhiD_eq, show (dats m 0 c).Φ 0 = PhiR m c 0 from rfl]
  unfold PhiR PhiS PhiRing
  rw [if_pos rfl, if_pos (Or.inl rfl)]
  unfold ringIdle
  rw [show Ring.sl 2 (0 / 2) = (0 : Fin 2) from rfl, show Ring.sl 2 (0 / 2 + 1) = (1 : Fin 2) from rfl, cellP_0, cellP_1]
  iintro ⟨⟨HE, HA, HQ, HX4⟩, Hg, ⟨Hc0, Hc1⟩, Hh⟩
  ihave HS := (slots_in (F := F) c) $$ HX4
  icases HS with ⟨HS0, HS1⟩
  isplitl [Hg]; · iexact Hg
  isplitl [HE HA HQ]
  · isplitl [HE]; · iexact HE
    isplitl [HA]; · iexact HA
    iexact HQ
  isplitl [HS0]; · iexact HS0
  isplitl [HS1]; · iexact HS1
  isplitl [Hc0]; · iexact Hc0
  isplitl [Hc1]; · iexact Hc1
  iexact Hh

theorem hout (c : Dev nD) : (dats m 0 c).Φ (Fin.last cfg0.N) ⊢ Pipeline.ΦD osem spec0 HX (V m) c := by
  rw [PhiD_eq, show (dats m 0 c).Φ (Fin.last cfg0.N) = PhiR m c grid0.N from rfl]
  unfold PhiR PhiS PhiRing
  rw [show grid0.N = 32 by rw [N_0]]
  rw [if_neg (by decide : ¬ (32 : ℕ) = 0), if_pos (Or.inr (le_refl 32))]
  unfold ringIdle
  rw [show Ring.sl 2 (32 / 2) = (0 : Fin 2) from rfl, show Ring.sl 2 (32 / 2 + 1) = (1 : Fin 2) from rfl, cellP_0, cellP_1]
  iintro ⟨Hg, ⟨HE, HA, HQ⟩, ⟨HS0, HS1, Hc0, Hc1, Hh⟩⟩
  isplitl [HE HA HQ HS0 HS1]
  · isplitl [HE]; · iexists _; iexact HE
    isplitl [HA]; · iexists _; iexact HA
    isplitl [HQ]; · iexists _; iexact HQ
    iapply (slots_out (F := F) c)
    isplitl [HS0]; · iexact HS0
    iexact HS1
  isplitl [Hg]; · iexact Hg
  isplitl [Hc0 Hc1]
  · isplitl [Hc0]; · iexact Hc0
    iexact Hc1
  iexact Hh

/-! ## The run and the frame -/

/-- The two transposes after the region touch neither the operand the kernel moves itself nor anything scoped. -/
theorem sfxD_sub : ∀ ops ∈ ([hostOps1] : List (List (HloOp τ sig (Elt F)))), ∀ op ∈ ops,
    op.bufs ⊆ Pipeline.tailRefsBut sig Pipeline.Prefetch.none spec0 HX := by
  intro ops hops op hop
  simp only [List.mem_cons, List.mem_nil_iff, or_false] at hops
  rcases hops with rfl
  refine Pipeline.sub_tailRefsBut Pipeline.Prefetch.none spec0 HX op ((List.forall_iff_forall_mem.mp hostOps1_sub) op hop) (fun k => k.elim0) ?_
  intro b hb
  simp only [HX, Finset.mem_singleton] at hb; subst hb
  simp only [hostOps1, List.mem_cons, List.mem_nil_iff, or_false] at hop
  rcases hop with rfl | rfl <;> simp only [StableHlo.unary_bufs, Finset.mem_insert, Finset.mem_singleton, not_or] <;>
    exact ⟨StableHlo.devRef_ne_of_ne (by decide), StableHlo.devRef_ne_of_ne (by decide)⟩

set_option backward.isDefEq.respectTransparency.types false in
/-- Every weakly fair execution of @main terminates, nothing faulting, each array of the pipeline at what the library
    computes from the proof data and every other unscoped buffer as the two transposes leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_dma_around cfgs (dats m) (0 : Fin 1) launch0 osem defs₀ Variants.none ownSemFacts HX HX_sub m ρ main
    (hbody := fun c => (body_obligation m c).loose) (hshare := fun c => (dats m 0 c).share_full fun _ => rfl)
    (howed := fun _ _ => rfl) (V₀ := V0 m) (opss := [hostOps1]) (hsub := sfxD_sub) (hfresh := sfx_fresh) (hkeep := sfx_keeps)
    (hmain := hmainD m Variants.none) (hA := A_eq m) (hin := hin m) (hout := hout m)

theorem W_main_arg0 (dats' : (p : Fin _) → (c : Dev nD) → Dat τ (Elt F) Unit ℕ (Pipeline.UD sig nD τ) ℕ (cfgs p) c) (c : Dev nD) :
    Pipeline.afterTail₀ cfgs dats' 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats' : (p : Fin _) → (c : Dev nD) → Dat τ (Elt F) Unit ℕ (Pipeline.UD sig nD τ) ℕ (cfgs p) c) (c : Dev nD) :
    Pipeline.afterTail₀ cfgs dats' 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg3 (dats' : (p : Fin _) → (c : Dev nD) → Dat τ (Elt F) Unit ℕ (Pipeline.UD sig nD τ) ℕ (cfgs p) c) (c : Dev nD) :
    Pipeline.afterTail₀ cfgs dats' 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩) (run_main m ρ)

end Cert.KernelIdeal.Body

end
-- ==== Proof.KICover.lean ====
/-
  From the blocks the region writes back to its two result arrays.

  The grid has 16 batch chunks by 2 embedding halves; point `t` is chunk `t / 2`, half `t % 2`.  The first result array
  `[2, 16384]` is written back at the odd points, block `[2, 1024]` at columns `1024 (t / 2) …`; the second,
  `[100, 16, 16384]`, at every point, block `[100, 8, 1024]` at embedding coordinates `8 (t % 2) …` and columns
  `1024 (t / 2) …`.  Every index of either array lies in the block of some point that writes back, so an array all of
  whose written blocks are blocks of one function `G` ends holding `G`.
-/
import proofs.«166942_g35321811042314_cont_sun_m_1252_29_alg».proof.Proof.Gen.KernelIdeal.Frame
import Idealize.ShloMosaic.Lib.Pipeline.Value
import Idealize.ShloMosaic.Lib.ValueIdx

set_option maxRecDepth 16384

noncomputable section

namespace Cert.FM.KHost

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The block index maps, decided over the grid -/

/-- Where the two result windows' blocks sit at point `t`. -/
theorem idx_out : ∀ t : Fin cfg0.N, win0_3.index t (0 : Fin 2) = 0 ∧ win0_3.index t (1 : Fin 2) = t.val / 2
    ∧ win0_4.index t (0 : Fin 3) = 0 ∧ win0_4.index t (1 : Fin 3) = t.val % 2 ∧ win0_4.index t (2 : Fin 3) = t.val / 2 :=
  (by decide +kernel : ∀ t : Fin grid0.N, _)

/-- Every column block of the first result array is some ODD point's. -/
theorem idx_onto3 : ∀ q : Fin 16, ∃ t : Fin cfg0.N, t.val % 2 = 1 ∧ win0_3.index t = ![0, q.val] :=
  (by decide +kernel : ∀ q : Fin 16, ∃ t : Fin grid0.N, t.val % 2 = 1 ∧ win0_3.index t = ![0, q.val])

/-- Every block of the second result array is some point's. -/
theorem idx_onto4 : ∀ (q1 : Fin 2) (q2 : Fin 16), ∃ t : Fin cfg0.N, win0_4.index t = ![0, q1.val, q2.val] :=
  (by decide +kernel : ∀ (q1 : Fin 2) (q2 : Fin 16), ∃ t : Fin grid0.N, win0_4.index t = ![0, q1.val, q2.val])

/-- The grid has 32 points. -/
theorem t_lt (t : Fin cfg0.N) : t.val < 32 := Nat.lt_of_lt_of_eq t.isLt (N_0 : cfg0.N = 32)

/-! ## Membership in a block -/

theorem mem_blk3 (t : Fin cfg0.N) (i : S2x16384.Idx) :
    i ∈ ((cfg0.win 3).blk t).view.set ↔ ∀ a : Fin 2, win0_3.index t a * S2x1024.size a ≤ (i a).val
      ∧ (i a).val < win0_3.index t a * S2x1024.size a + S2x1024.size a := by
  show i ∈ ((View.whole main_v3_0).slice (win0_3.rect t)).set ↔ _
  rw [View.set_slice_whole, Rect.mem_set_unit]
  exact Iff.rfl

theorem mem_blk4 (t : Fin cfg0.N) (i : S100x16x16384.Idx) :
    i ∈ ((cfg0.win 4).blk t).view.set ↔ ∀ a : Fin 3, win0_4.index t a * S100x8x1024.size a ≤ (i a).val
      ∧ (i a).val < win0_4.index t a * S100x8x1024.size a + S100x8x1024.size a := by
  show i ∈ ((View.whole main_v3_1).slice (win0_4.rect t)).set ↔ _
  rw [View.set_slice_whole, Rect.mem_set_unit]
  exact Iff.rfl

/-! ## The cover -/

theorem cover3 (i : S2x16384.Idx) : ∃ t : Fin cfg0.N, (cfg0.win 3).flush t = true ∧ i ∈ ((cfg0.win 3).blk t).view.set := by
  have hi0 : (i 0).val < 2 := (i 0).isLt
  have hi1 : (i 1).val < 16384 := (i 1).isLt
  obtain ⟨t, hodd, ht⟩ := idx_onto3 ⟨(i 1).val / 1024, by omega⟩
  have q0 : win0_3.index t (0 : Fin 2) = 0 := congrFun ht 0
  have q1 : win0_3.index t (1 : Fin 2) = (i 1).val / 1024 := congrFun ht 1
  refine ⟨t, (flush0_3 t).mpr hodd, ?_⟩
  rw [mem_blk3]
  intro a
  match a with
  | ⟨0, _⟩ => show win0_3.index t (0 : Fin 2) * 2 ≤ (i 0).val ∧ (i 0).val < win0_3.index t (0 : Fin 2) * 2 + 2; omega
  | ⟨1, _⟩ => show win0_3.index t (1 : Fin 2) * 1024 ≤ (i 1).val ∧ (i 1).val < win0_3.index t (1 : Fin 2) * 1024 + 1024; omega

theorem cover4 (i : S100x16x16384.Idx) : ∃ t : Fin cfg0.N, (cfg0.win 4).flush t = true ∧ i ∈ ((cfg0.win 4).blk t).view.set := by
  have hi0 : (i 0).val < 100 := (i 0).isLt
  have hi1 : (i 1).val < 16 := (i 1).isLt
  have hi2 : (i 2).val < 16384 := (i 2).isLt
  obtain ⟨t, ht⟩ := idx_onto4 ⟨(i 1).val / 8, by omega⟩ ⟨(i 2).val / 1024, by omega⟩
  have q0 : win0_4.index t (0 : Fin 3) = 0 := congrFun ht 0
  have q1 : win0_4.index t (1 : Fin 3) = (i 1).val / 8 := congrFun ht 1
  have q2 : win0_4.index t (2 : Fin 3) = (i 2).val / 1024 := congrFun ht 2
  refine ⟨t, flush0_4 t, ?_⟩
  rw [mem_blk4]
  intro a
  match a with
  | ⟨0, _⟩ => show win0_4.index t (0 : Fin 3) * 100 ≤ (i 0).val ∧ (i 0).val < win0_4.index t (0 : Fin 3) * 100 + 100; omega
  | ⟨1, _⟩ => show win0_4.index t (1 : Fin 3) * 8 ≤ (i 1).val ∧ (i 1).val < win0_4.index t (1 : Fin 3) * 8 + 8; omega
  | ⟨2, _⟩ => show win0_4.index t (2 : Fin 3) * 1024 ≤ (i 2).val ∧ (i 2).val < win0_4.index t (2 : Fin 3) * 1024 + 1024; omega

/-! ## From blocks to arrays -/

variable (dats : (p : Fin 1) → (c : Dev nD) → Dat τ (Elt Ideal) Unit ℕ (Pipeline.UD sig nD τ) ℕ (cfgs p) c)

/-- THE FIRST RESULT ARRAY: if what every odd point writes back is its block of `G3`, the array ends holding `G3`. -/
theorem arrAt3_eq (c : Dev nD) (G3 : S2x16384.Idx → EReal)
    (h : ∀ t : Fin cfg0.N, t.val % 2 = 1 → (dats 0 c).flushed 3 t = ((cfg0.win 3).blk t).view.read (Elt Ideal) G3) :
    ((dats 0 c).arrAt 3 cfg0.N : S2x16384.Idx → EReal) = G3 :=
  (dats 0 c).arrAt_eq_of_cover 3 G3 (fun t hf => h t ((flush0_3 t).mp hf)) cover3

/-- THE SECOND RESULT ARRAY: if what every point writes back is its block of `G4`, the array ends holding `G4`. -/
theorem arrAt4_eq (c : Dev nD) (G4 : S100x16x16384.Idx → EReal)
    (h : ∀ t : Fin cfg0.N, (dats 0 c).flushed 4 t = ((cfg0.win 4).blk t).view.read (Elt Ideal) G4) :
    ((dats 0 c).arrAt 4 cfg0.N : S100x16x16384.Idx → EReal) = G4 :=
  (dats 0 c).arrAt_eq_of_cover 4 G4 (fun t _ => h t) cover4

/-! ## A block's element in the array -/

/-- Element `(k, l)` of point `t`'s block of the first result array is the array's `(k, 1024 (t / 2) + l)`. -/
theorem blk3_emb (t : Fin cfg0.N) (k : Fin 2) (l : Fin 1024) :
    ((cfg0.win 3).blk t).view.emb (ix2 k l)
      = (ix2 k ⟨1024 * (t.val / 2) + l.val, by have := t_lt t; have := l.isLt; omega⟩ : S2x16384.Idx) := by
  obtain ⟨e0, e1, -⟩ := idx_out t
  funext a; apply Fin.ext
  match a with
  | ⟨0, _⟩ => show win0_3.index t (0 : Fin 2) * 2 + 1 * k.val = k.val; omega
  | ⟨1, _⟩ => show win0_3.index t (1 : Fin 2) * 1024 + 1 * l.val = 1024 * (t.val / 2) + l.val; omega

/-- Element `(f, e', l)` of point `t`'s block of the second result array is the array's
    `(f, 8 (t % 2) + e', 1024 (t / 2) + l)`. -/
theorem blk4_emb (t : Fin cfg0.N) (f : Fin 100) (e' : Fin 8) (l : Fin 1024) :
    ((cfg0.win 4).blk t).view.emb (ix3 f e' l)
      = (ix3 f ⟨8 * (t.val % 2) + e'.val, by have := e'.isLt; omega⟩
          ⟨1024 * (t.val / 2) + l.val, by have := t_lt t; have := l.isLt; omega⟩ : S100x16x16384.Idx) := by
  obtain ⟨-, -, e2, e3, e4⟩ := idx_out t
  funext a; apply Fin.ext
  match a with
  | ⟨0, _⟩ => show win0_4.index t (0 : Fin 3) * 100 + 1 * f.val = f.val; omega
  | ⟨1, _⟩ => show win0_4.index t (1 : Fin 3) * 8 + 1 * e'.val = 8 * (t.val % 2) + e'.val; omega
  | ⟨2, _⟩ => show win0_4.index t (2 : Fin 3) * 1024 + 1 * l.val = 1024 * (t.val / 2) + l.val; omega

end Cert.FM.KHost

end
-- ==== Proof.LibRowReduce.lean ====
/-
  A matrix reduced along its rows and the result put back beside every entry, read at an index.

  A kernel that normalises the rows of an [a, b] matrix (a softmax, a layer norm over the last axis) reduces it over
  axis 1 to a vector [a], casts the vector to a column [a, 1] and broadcasts the column to [a, b]. At the ideal
  instance and at position (i, c): the broadcast column reads the column at (i, 0), the column reads the vector at i,
  and the vector at i is the sum, or the maximum from the accumulator's value, over k of the matrix at (i, k) — the
  reduced index i with k put back on the dropped axis is (i, k).
-/
import Idealize.ShloMosaic.PureOps.Ideal.Laws
import Idealize.ShloMosaic.Lib.Pipeline.Value
import Idealize.ShloMosaic.Lib.ValueIdx

noncomputable section

open scoped BigOperators

namespace Idealize.ShloMosaic.RowReduce

open Idealize.ShloMosaic Idealize.ShloMosaic.ValueIdx

variable {α : Type}

/-- An [a] vector cast to an [a, 1] column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, c), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The reduced index i with k put back on the dropped axis 1 is (i, k). -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the rows' entries: at i, the sum over k of the matrix at (i, k). -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the rows' entries: at i, the maximum from the accumulator's value over k of the matrix at (i, k). -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f Finset.univ) (funext fun k => congrArg src (lift_row h i k)))

end Idealize.ShloMosaic.RowReduce

end
-- ==== Proof.KIHostPre.lean ====
/-
  The arrays the kernel's region finds, read at an index.

  Before the region the program transposes `x : [16384, 100]` to `[100, 16384]` and reshapes `w : [100]` and the field
  indices `fi : [100]` to columns `[100, 1]`; `V` is passed as it is.  Entry `(f, b)` of the transposed array is entry
  `(b, f)` of `x`, and entry `(f, 0)` of a column is entry `f` of the vector it was reshaped from.
-/
import proofs.«166942_g35321811042314_cont_sun_m_1252_29_alg».proof.Proof.Gen.KernelIdeal.Frame
import Idealize.ShloMosaic.Lib.StableHlo.Run
import Idealize.ShloMosaic.Lib.ValueIdx
import Idealize.ShloMosaic.Lib.ValueLayout
import proofs.«166942_g35321811042314_cont_sun_m_1252_29_alg».proof.Proof.LibRowReduce

set_option maxRecDepth 16384

noncomputable section

namespace Cert.FM.KHost

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ)

/-! ## The three host results as operations of the arguments -/

/-- The transposed input as the region finds it. -/
theorem V_main_v0_eq (c : Dev nD) :
    (V m c main_v0 : S100x16384.Idx → EReal)
      = transpose S100x16384 [1, 0] (m ((c : Thread nD τ).loc main_arg0)) transposes_S16384x100_S100x16384_1_0 := by
  show StableHlo.after hostOps0 (fun b => m (c, b)) (Proc.devRef .tc main_v0) = _
  after_results

/-- The weight column as the region finds it. -/
theorem V_main_v1_eq (c : Dev nD) :
    (V m c main_v1 : S100x1.Idx → EReal)
      = shapeCast S100x1 (m ((c : Thread nD τ).loc main_arg1)) shapeCasts_S100_S100x1 := by
  show StableHlo.after hostOps0 (fun b => m (c, b)) (Proc.devRef .tc main_v1) = _
  after_results
  rfl

/-- The field-index column as the region finds it. -/
theorem V_main_v2_eq (c : Dev nD) :
    (V m c main_v2 : S100x1.Idx → BitVec 32)
      = shapeCast S100x1 (m ((c : Thread nD τ).loc main_arg3)) shapeCasts_S100_S100x1 := by
  show StableHlo.after hostOps0 (fun b => m (c, b)) (Proc.devRef .tc main_v2) = _
  after_results
  rfl

/-! ## At an index -/

/-- Entry `(f, b)` of the transposed input is entry `(b, f)` of the input. -/
theorem V_main_v0_apply (c : Dev nD) (f : Fin 100) (b : Fin 16384) :
    (V m c main_v0 : S100x16384.Idx → EReal) (ix2 f b) = (m ((c : Thread nD τ).loc main_arg0) : S16384x100.Idx → EReal) (ix2 b f) := by
  rw [V_main_v0_eq]
  exact transpose_ix2_apply _ _ f b

/-- Entry `(f, 0)` of the weight column is entry `f` of the weights. -/
theorem V_main_v1_apply (c : Dev nD) (f : Fin 100) :
    (V m c main_v1 : S100x1.Idx → EReal) (ix2 f (0 : Fin 1)) = (m ((c : Thread nD τ).loc main_arg1) : S100.Idx → EReal) (ix1 f) := by
  rw [V_main_v1_eq]
  exact RowReduce.shapeCast_a_a1_apply _ _ f (0 : Fin 1)

/-- Entry `(f, 0)` of the field-index column is entry `f` of the field indices. -/
theorem V_main_v2_apply (c : Dev nD) (f : Fin 100) :
    (V m c main_v2 : S100x1.Idx → BitVec 32) (ix2 f (0 : Fin 1)) = (m ((c : Thread nD τ).loc main_arg3) : S100.Idx → BitVec 32) (ix1 f) := by
  rw [V_main_v2_eq]
  exact RowReduce.shapeCast_a_a1_apply _ _ f (0 : Fin 1)

end Cert.FM.KHost

end
-- ==== Proof.KIHostTail.lean ====
/-
  The arrays the program returns, read at an index.

  After the region the program transposes its two result arrays: `y_fm` from `[2, 16384]` to `[16384, 2]` and the scaled
  embeddings from `[100, 16, 16384]` to `[16384, 100, 16]` (the batch axis moved to the front).  Entry `(b, k)` of the
  first is entry `(k, b)` of what the region left in its first result array, and entry `(b, f, e)` of the second is
  entry `(f, e, b)` of what it left in the second.
-/
import proofs.«166942_g35321811042314_cont_sun_m_1252_29_alg».proof.Proof.KIHostPre
import Idealize.ShloMosaic.Lib.Pipeline.FrameSuffix

set_option maxRecDepth 16384

noncomputable section

namespace Cert.FM.KHost

open Idealize.ShloMosaic Idealize.ShloMosaic.TcCoe Idealize.ShloMosaic.ValueIdx Idealize.ShloMosaic.StableHlo
open Idealize.SL.Sem
open Idealize.ShloMosaic.Pipeline (Dat Cfg Window)
open Cert.KernelIdeal Cert.KernelIdeal.Gen

/-- A rank-3 array with its last axis moved to the front (permutation `[2, 0, 1]`) reads, at `(k, i, j)`, the operand
    at `(i, j, k)`. -/
theorem transpose_ix3_201_apply {α : Type} {a b c : ℕ} (x : (⟨3, ![a, b, c]⟩ : Shape).Idx → α)
    (h : (⟨3, ![a, b, c]⟩ : Shape).Transposes [2, 0, 1] ⟨3, ![c, a, b]⟩) (k : Fin c) (i : Fin a) (j : Fin b) :
    transpose ⟨3, ![c, a, b]⟩ [2, 0, 1] x h (ix3 k i j) = x (ix3 i j k) :=
  transpose_apply _ x h _ _ fun d => match d with | ⟨0, _⟩ => rfl | ⟨1, _⟩ => rfl | ⟨2, _⟩ => rfl

variable (m : (ℓ : Loc nD τ sig) → Buf (Elt Ideal) ℓ)
variable (dats : (p : Fin 1) → (c : Dev nD) → Dat τ (Elt Ideal) Unit ℕ (Pipeline.UD sig nD τ) ℕ (cfgs p) c)

/-! ## The two returned arrays as operations of the region's result arrays -/

/-- The returned `y_fm` is the transpose of the region's first result array. -/
theorem tail_v4_eq (c : Dev nD) :
    (Pipeline.afterTail₀ cfgs dats 0 (V0 m) [hostOps1] c main_v4 : S16384x2.Idx → EReal)
      = transpose S16384x2 [1, 0] ((dats 0 c).arrAt 3 cfg0.N : S2x16384.Idx → EReal) transposes_S2x16384_S16384x2_1_0 := by
  unfold Pipeline.afterTail₀
  simp only [List.flatten_cons, List.flatten_nil, List.append_nil]
  after_results
  exact congrArg (fun x => transpose S16384x2 [1, 0] x transposes_S2x16384_S16384x2_1_0)
    (Pipeline.withArrays_arr spec0 winFacts0.arr_inj c (V0 m c) (fun w => (dats 0 c).arrAt w cfg0.N) 3)

/-- The returned scaled embeddings are the region's second result array with the batch axis moved to the front. -/
theorem tail_v5_eq (c : Dev nD) :
    (Pipeline.afterTail₀ cfgs dats 0 (V0 m) [hostOps1] c main_v5 : S16384x100x16.Idx → EReal)
      = transpose S16384x100x16 [2, 0, 1] ((dats 0 c).arrAt 4 cfg0.N : S100x16x16384.Idx → EReal)
          transposes_S100x16x16384_S16384x100x16_2_0_1 := by
  unfold Pipeline.afterTail₀
  simp only [List.flatten_cons, List.flatten_nil, List.append_nil]
  after_results
  exact congrArg (fun x => transpose S16384x100x16 [2, 0, 1] x transposes_S100x16x16384_S16384x100x16_2_0_1)
    (Pipeline.withArrays_arr spec0 winFacts0.arr_inj c (V0 m c) (fun w => (dats 0 c).arrAt w cfg0.N) 4)

/-! ## At an index -/

/-- Entry `(b, k)` of the returned `y_fm` is entry `(k, b)` of the region's first result array. -/
theorem tail_v4_apply (c : Dev nD) (b : Fin 16384) (k : Fin 2) :
    (Pipeline.afterTail₀ cfgs dats 0 (V0 m) [hostOps1] c main_v4 : S16384x2.Idx → EReal) (ix2 b k)
      = ((dats 0 c).arrAt 3 cfg0.N : S2x16384.Idx → EReal) (ix2 k b) := by
  rw [tail_v4_eq]
  exact transpose_ix2_apply _ _ b k

/-- Entry `(b, f, e)` of the returned scaled embeddings is entry `(f, e, b)` of the region's second result array. -/
theorem tail_v5_apply (c : Dev nD) (b : Fin 16384) (f : Fin 100) (e : Fin 16) :
    (Pipeline.afterTail₀ cfgs dats 0 (V0 m) [hostOps1] c main_v5 : S16384x100x16.Idx → EReal) (ix3 b f e)
      = ((dats 0 c).arrAt 4 cfg0.N : S100x16x16384.Idx → EReal) (ix3 f e b) := by
  rw [tail_v5_eq]
  exact transpose_ix3_201_apply _ _ b f e

end Cert.FM.KHost

end
-- ==== Proof.Spec.lean ====
/-
  The factorization-machine component as one function of its four argument arrays, index by index, on the
  extended reals.  With `E f e = V[field f, e]` the embedding row of feature `f`:

    new_inputs b f e = x b f * E f e
    y b 0            = Σ_f  w f * x b f
    y b 1            = 1/2 * ((Σ_f Σ_e x b f * E f e)^2 - Σ_f Σ_e (x b f * E f e)^2)

  Both programs are compared with these two functions.  The domain on which they agree: every float entry a
  real number, and every field index a row number of `V` (below 26).
-/
import Idealize.ShloMosaic.PureOps.Ideal
import Idealize.ShloMosaic.Lib.ValueIdx

noncomputable section

open scoped BigOperators

namespace Cert.FM

open Idealize.ShloMosaic Idealize.ShloMosaic.ValueIdx

/-- The shapes of the four arguments and the two results. -/
abbrev SX : Shape := ⟨2, ![16384, 100]⟩
abbrev SW : Shape := ⟨1, ![100]⟩
abbrev SV : Shape := ⟨2, ![26, 16]⟩
abbrev SY : Shape := ⟨2, ![16384, 2]⟩
abbrev SN : Shape := ⟨3, ![16384, 100, 16]⟩

/-- The row of `V` feature `f` reads: its field index (taken modulo 26 so that the function is total; on the
    domain the index is already below 26). -/
def row (fi : SW.Idx → BitVec 32) (f : Fin 100) : Fin 26 :=
  ⟨(fi (ix1 f)).toNat % 26, Nat.mod_lt _ (by norm_num)⟩

/-- The embedding of feature `f`, coordinate `e`. -/
def emb (V : SV.Idx → EReal) (fi : SW.Idx → BitVec 32) (f : Fin 100) (e : Fin 16) : EReal :=
  V (ix2 (row fi f) e)

/-- One scaled embedding entry `x b f * E f e`. -/
def term (x : SX.Idx → EReal) (V : SV.Idx → EReal) (fi : SW.Idx → BitVec 32) (b : Fin 16384) (f : Fin 100) (e : Fin 16) : EReal :=
  x (ix2 b f) * emb V fi f e

/-- The second result: every scaled embedding entry. -/
def newInputs (x : SX.Idx → EReal) (V : SV.Idx → EReal) (fi : SW.Idx → BitVec 32) : SN.Idx → EReal :=
  fun j => term x V fi (j 0) (j 1) (j 2)

/-- The linear term of batch row `b`. -/
def lin (x : SX.Idx → EReal) (w : SW.Idx → EReal) (b : Fin 16384) : EReal :=
  ∑ f : Fin 100, w (ix1 f) * x (ix2 b f)

/-- The sum of the scaled embedding entries of batch row `b`. -/
def total (x : SX.Idx → EReal) (V : SV.Idx → EReal) (fi : SW.Idx → BitVec 32) (b : Fin 16384) : EReal :=
  ∑ f : Fin 100, ∑ e : Fin 16, term x V fi b f e

/-- The sum of their squares. -/
def totalSq (x : SX.Idx → EReal) (V : SV.Idx → EReal) (fi : SW.Idx → BitVec 32) (b : Fin 16384) : EReal :=
  ∑ f : Fin 100, ∑ e : Fin 16, term x V fi b f e * term x V fi b f e

/-- The literal one half, as both programs carry it. -/
def half : EReal := Ideal.ofBits .f32 0x3F000000#32

/-- The pairwise interaction term of batch row `b`. -/
def inter (x : SX.Idx → EReal) (V : SV.Idx → EReal) (fi : SW.Idx → BitVec 32) (b : Fin 16384) : EReal :=
  half * (total x V fi b * total x V fi b - totalSq x V fi b)

/-- The first result: column 0 the linear term, column 1 the interaction term. -/
def yfm (x : SX.Idx → EReal) (w : SW.Idx → EReal) (V : SV.Idx → EReal) (fi : SW.Idx → BitVec 32) : SY.Idx → EReal :=
  fun j => if (j 1).val = 0 then lin x w (j 0) else inter x V fi (j 0)

/-- The domain: real entries, field indices that are row numbers of `V`. -/
structure InDomain (x : SX.Idx → EReal) (w : SW.Idx → EReal) (V : SV.Idx → EReal) (fi : SW.Idx → BitVec 32) : Prop where
  x_real : ∀ i, ∃ r : ℝ, x i = (r : EReal)
  w_real : ∀ i, ∃ r : ℝ, w i = (r : EReal)
  V_real : ∀ i, ∃ r : ℝ, V i = (r : EReal)
  fi_lt : ∀ f : Fin 100, (fi (ix1 f)).toNat < 26

theorem row_val {x : SX.Idx → EReal} {w : SW.Idx → EReal} {V : SV.Idx → EReal} {fi : SW.Idx → BitVec 32}
    (h : InDomain x w V fi) (f : Fin 100) : (row fi f).val = (fi (ix1 f)).toNat :=
  Nat.mod_eq_of_lt (h.fi_lt f)

end Cert.FM

end
-- ==== Proof.KIValue.lean ====
/-
  The kernel's results, read over the extended reals, as whole functions of its arguments.  The region's first result array `[2, 16384]` ends
  with row 0 the linear terms and row 1 the interaction terms of the 16384 batch rows; its second, `[100, 16, 16384]`, with
  entry `(f, e, b)` the scaled embedding entry `x b f * E f e`: every block a point writes back is the block of these two
  functions, and the blocks cover the arrays.  The two transposes after the region turn them into the program's results.
-/
import proofs.«166942_g35321811042314_cont_sun_m_1252_29_alg».proof.Proof.KIFrame
import proofs.«166942_g35321811042314_cont_sun_m_1252_29_alg».proof.Proof.KICover
import proofs.«166942_g35321811042314_cont_sun_m_1252_29_alg».proof.Proof.KIHostTail
import proofs.«166942_g35321811042314_cont_sun_m_1252_29_alg».proof.Proof.Spec

set_option maxRecDepth 16384

noncomputable section

namespace Cert.FM.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Body Cert.FM Cert.FM.KHost

variable (m : (ℓ : Loc nD τ sig) → Buf (Elt Ideal) ℓ) (ρ : Dev nD → PrngReg)

/-- The four argument arrays on device `c`. -/
abbrev ax (c : Dev nD) : SX.Idx → EReal := m ((c.tc : Thread nD τ).loc main_arg0)
abbrev aw (c : Dev nD) : SW.Idx → EReal := m ((c.tc : Thread nD τ).loc main_arg1)
abbrev aV (c : Dev nD) : SV.Idx → EReal := m ((c.tc : Thread nD τ).loc main_arg2)
abbrev afi (c : Dev nD) : SW.Idx → BitVec 32 := m ((c.tc : Thread nD τ).loc main_arg3)

/-- The region's two result arrays as whole functions of the arguments. -/
def G3 (c : Dev nD) : S2x16384.Idx → EReal :=
  fun j => if (j 0).val = 0 then lin (ax m c) (aw m c) (j 1) else inter (ax m c) (aV m c) (afi m c) (j 1)
def G4 (c : Dev nD) : S100x16x16384.Idx → EReal :=
  fun j => term (ax m c) (aV m c) (afi m c) (j 2) (j 0) (j 1)

/-- What the points' bodies leave, entry by entry: the second result's block at every point, the first result's at the
    even points. -/
structure BlockValues (c : Dev nD) : Prop where
  out : ∀ (t : Fin cfg0.N) (f : Fin 100) (e' : Fin 8) (l : Fin 1024), out7At m c t (ix3 f e' l) =
      term (ax m c) (aV m c) (afi m c) ⟨1024 * (t.val / 2) + l.val, by have := t_lt t; have := l.isLt; omega⟩ f
        ⟨8 * (t.val % 2) + e'.val, by have := e'.isLt; omega⟩
  lin : ∀ (t : Fin cfg0.N) (he : t.val % 2 = 0) (l : Fin 1024), y3Even m c t he (ix2 (0 : Fin 2) l) =
      Cert.FM.lin (ax m c) (aw m c) ⟨1024 * (t.val / 2) + l.val, by have := t_lt t; have := l.isLt; omega⟩
  inter : ∀ (t : Fin cfg0.N) (he : t.val % 2 = 0) (l : Fin 1024), y3Even m c t he (ix2 (1 : Fin 2) l) =
      Cert.FM.inter (ax m c) (aV m c) (afi m c) ⟨1024 * (t.val / 2) + l.val, by have := t_lt t; have := l.isLt; omega⟩

variable {m}

/-- What every point writes back of the second result is its block of `G4`. -/
theorem flushed4_eq {c : Dev nD} (hv : BlockValues m c) (t : Fin cfg0.N) :
    (dats m 0 c).flushed 4 t = ((cfg0.win 4).blk t).view.read (Elt Ideal) (G4 m c) := by
  show (cfg0.win 4).cut (grid0.coords t) ((dats m 0 c).after 4 t) = _
  rw [after_4]
  funext y
  obtain ⟨f, e', l, rfl⟩ : ∃ (f : Fin 100) (e' : Fin 8) (l : Fin 1024), y = ix3 f e' l := ⟨y 0, y 1, y 2, eq_ix3 y⟩
  show out7At m c t (ix3 f e' l) = G4 m c (((cfg0.win 4).blk t).view.emb (ix3 f e' l))
  rw [blk4_emb, hv.out]
  rfl

/-- What an odd point writes back of the first result — what the even point before it computed — is its block of `G3`. -/
theorem flushed3_eq {c : Dev nD} (hv : BlockValues m c) (t : Fin cfg0.N) (ho : t.val % 2 = 1) :
    (dats m 0 c).flushed 3 t = ((cfg0.win 3).blk t).view.read (Elt Ideal) (G3 m c) := by
  show (cfg0.win 3).cut (grid0.coords t) ((dats m 0 c).after 3 t) = _
  rw [after_3, y3At_odd m c t (by omega)]
  funext y
  obtain ⟨k, l, rfl⟩ : ∃ (k : Fin 2) (l : Fin 1024), y = ix2 k l := ⟨y 0, y 1, eq_ix2 y⟩
  show y3Even m c ⟨t.val - 1, _⟩ _ (ix2 k l) = G3 m c (((cfg0.win 3).blk t).view.emb (ix2 k l))
  rw [blk3_emb]
  match k with
  | ⟨0, _⟩ =>
    refine (hv.lin ⟨t.val - 1, _⟩ _ l).trans ?_
    show _ = (if (0 : ℕ) = 0 then _ else _)
    rw [if_pos rfl]
    exact congrArg (Cert.FM.lin (ax m c) (aw m c)) (Fin.ext (by dsimp only; omega))
  | ⟨1, _⟩ =>
    refine (hv.inter ⟨t.val - 1, _⟩ _ l).trans ?_
    show _ = (if (1 : ℕ) = 0 then _ else _)
    rw [if_neg (by decide)]
    exact congrArg (Cert.FM.inter (ax m c) (aV m c) (afi m c)) (Fin.ext (by dsimp only; omega))

variable (m)

set_option maxHeartbeats 1000000 in
/-- THE KERNEL'S RUN: every weakly fair execution terminates, nothing faulting, with the first result the linear and
    interaction terms, the second every scaled embedding entry, and the arguments unchanged. -/
theorem kernel_value (hv : ∀ c, BlockValues m c) :
    θ_run defs (onTc (τ := τ) (main (F := Ideal))) ⟨m, fun _ => 0, ρ⟩ (fun r => ∀ c : Dev nD,
      r.2.mem ((c.tc : Thread nD τ).loc main_v4) = yfm (ax m c) (aw m c) (aV m c) (afi m c)
      ∧ r.2.mem ((c.tc : Thread nD τ).loc main_v5) = newInputs (ax m c) (aV m c) (afi m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main (F := Ideal) m ρ)
  · refine ((h c).2 main_v4 (Pipeline.mem_restRefs_of main_v4 (by decide) (by decide))).trans ?_
    funext j
    obtain ⟨b, k, rfl⟩ : ∃ (b : Fin 16384) (k : Fin 2), j = ix2 b k := ⟨j 0, j 1, eq_ix2 j⟩
    refine (tail_v4_apply m (dats m) c b k).trans ?_
    rw [arrAt3_eq (dats m) c (G3 m c) (fun t ho => flushed3_eq (hv c) t ho)]
    rfl
  · refine ((h c).2 main_v5 (Pipeline.mem_restRefs_of main_v5 (by decide) (by decide))).trans ?_
    funext j
    obtain ⟨b, f, e, rfl⟩ : ∃ (b : Fin 16384) (f : Fin 100) (e : Fin 16), j = ix3 b f e := ⟨j 0, j 1, j 2, eq_ix3 j⟩
    refine (tail_v5_apply m (dats m) c b f e).trans ?_
    rw [arrAt4_eq (dats m) c (G4 m c) (fun t => flushed4_eq (hv c) t)]
    rfl

end Cert.FM.KVal

end
-- ==== Proof.KIValCanon.lean ====
/-
  A buffer written by unit-stride stores, read back at an index.

  The contents a list of stores leaves are, at each index, the payload of the newest store whose rectangle holds the
  index.  For a unit-stride rectangle the index lies in it exactly when each coordinate lies between the offset and the
  offset plus the size, and the position within the rectangle is the index less the offsets.  The output tile of the
  kernel is written by eight such stores, one per embedding coordinate of the half, each a [100, 1, 1024] slab at
  coordinate k of the middle axis: entry (f, k, l) of the tile is slab k's payload at (f, 0, l).
-/
import Idealize.ShloMosaic.Lib.Pipeline.FrameBody
import Idealize.ShloMosaic.Lib.ValueIdx

noncomputable section

namespace Cert.FM.KVal

open Idealize.ShloMosaic Idealize.ShloMosaic.ValueIdx

variable {s : Shape} {e : EltTy} {Val : EltTy → Type} [∀ e, Nonempty (Val e)]

/-- An index at position `x` of the newest store's rectangle reads that store's payload at `x`. -/
theorem canon_cons_unit_of_mem {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- An index that misses the newest store's rectangle on axis `a` reads what the earlier stores left. -/
theorem canon_cons_unit_of_not_mem {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L ?_
  show y ∉ (Rect.unit off size inb).set
  rw [Rect.mem_set_unit]
  intro hall
  have := hall a
  omega

end Cert.FM.KVal

end
-- ==== Proof.KIPayTile.lean ====
/-
  The kernel's output tiles read at an index.

  The body holds a chunk of the transposed input, `xt : [100, 1024]` (features by batch lanes), and one half of the
  embedding, `eh : [100, 8]`.  For each of the eight embedding coordinates `k` of the half it takes column `k` of `eh`,
  spreads it along the lanes, multiplies by `xt` and stores the product as the `[100, 1, 1024]` tile of coordinate `k`:

      tile k (f, 0, l) = xt (f, l) * eh (f, k).

  The two operands reach the first two tiles through casts that drop a leading unit axis.
-/
import proofs.«166942_g35321811042314_cont_sun_m_1252_29_alg».proof.Proof.Gen.KernelIdeal.Skeleton
import Idealize.ShloMosaic.Lib.ValueIdx
import Idealize.ShloMosaic.Lib.ValueLayout

noncomputable section

namespace Cert.FM.Pay

open Idealize.ShloMosaic Idealize.ShloMosaic.ValueIdx Cert.KernelIdeal Cert.KernelIdeal.Gen

/-! ## Two layout operations at an index -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two operands -/

/-- The chunk of the transposed input, its leading unit axis dropped. -/
theorem pay8_apply (v16 : Vec Ideal S1x100x1024 .f32) (f : Fin 100) (l : Fin 1024) :
    k0_pay8 v16 (ix2 f l) = v16 (ix3 (0 : Fin 1) f l) := by
  unfold k0_pay8
  exact shapeCast_1ab_ab_apply v16 _ f l

/-- The embedding half, its leading unit axis dropped. -/
theorem pay9_apply (v19 : Vec Ideal S1x100x8 .f32) (f : Fin 100) (e : Fin 8) :
    k0_pay9 v19 (ix2 f e) = v19 (ix3 (0 : Fin 1) f e) := by
  unfold k0_pay9
  exact shapeCast_1ab_ab_apply v19 _ f e

/-! ## One tile -/

/-- THE TILE OF COORDINATE `k`: column `k` of the embedding half spread along the lanes, times the input chunk, cast to
    `[100, 1, 1024]`. -/
theorem tile_apply (k : ℕ) (hk : k < 8) (hs : S100x8.Slices ![0, k] S100x1) (hb : S100x1.Broadcasts S100x1024)
    (hc : S100x1024.ShapeCasts S100x1x1024) (xt : FVec Ideal S100x1024 .f32) (eh : FVec Ideal S100x8 .f32)
    (f : Fin 100) (l : Fin 1024) :
    shapeCast S100x1x1024 (mulf xt (broadcastTo S100x1024 (extractStridedSlice S100x1 ![0, k] eh hs) hb)) hc
        (ix3 f (0 : Fin 1) l)
      = xt (ix2 f l) * eh (ix2 f ⟨k, hk⟩) := by
  rw [shapeCast_ab_a1b_apply, mulf_apply, broadcastTo_a1_ab_apply,
    slice2_axis1_apply k eh hs f (0 : Fin 1) ⟨k, hk⟩ rfl]

/-! ## The eight tiles -/

theorem pay10_apply (v16 : Vec Ideal S1x100x1024 .f32) (v19 : Vec Ideal S1x100x8 .f32) (f : Fin 100) (l : Fin 1024) :
    k0_pay10 v16 v19 (ix3 f (0 : Fin 1) l) = v16 (ix3 (0 : Fin 1) f l) * v19 (ix3 (0 : Fin 1) f (0 : Fin 8)) := by
  unfold k0_pay10
  refine (tile_apply 0 (by norm_num) _ _ _ (k0_pay8 v16) (k0_pay9 v19) f l).trans ?_
  rw [pay8_apply, pay9_apply]
  rfl

theorem pay11_apply (v16 : Vec Ideal S1x100x1024 .f32) (v19 : Vec Ideal S1x100x8 .f32) (f : Fin 100) (l : Fin 1024) :
    k0_pay11 v16 v19 (ix3 f (0 : Fin 1) l) = v16 (ix3 (0 : Fin 1) f l) * v19 (ix3 (0 : Fin 1) f (1 : Fin 8)) := by
  unfold k0_pay11
  refine (tile_apply 1 (by norm_num) _ _ _ (k0_pay8 v16) (k0_pay9 v19) f l).trans ?_
  rw [pay8_apply, pay9_apply]
  rfl

theorem pay12_apply (v17 : FVec Ideal S100x1024 .f32) (v20 : FVec Ideal S100x8 .f32) (f : Fin 100) (l : Fin 1024) :
    k0_pay12 v17 v20 (ix3 f (0 : Fin 1) l) = v17 (ix2 f l) * v20 (ix2 f (2 : Fin 8)) := by
  unfold k0_pay12
  exact tile_apply 2 (by norm_num) _ _ _ v17 v20 f l

theorem pay13_apply (v17 : FVec Ideal S100x1024 .f32) (v20 : FVec Ideal S100x8 .f32) (f : Fin 100) (l : Fin 1024) :
    k0_pay13 v17 v20 (ix3 f (0 : Fin 1) l) = v17 (ix2 f l) * v20 (ix2 f (3 : Fin 8)) := by
  unfold k0_pay13
  exact tile_apply 3 (by norm_num) _ _ _ v17 v20 f l

theorem pay14_apply (v17 : FVec Ideal S100x1024 .f32) (v20 : FVec Ideal S100x8 .f32) (f : Fin 100) (l : Fin 1024) :
    k0_pay14 v17 v20 (ix3 f (0 : Fin 1) l) = v17 (ix2 f l) * v20 (ix2 f (4 : Fin 8)) := by
  unfold k0_pay14
  exact tile_apply 4 (by norm_num) _ _ _ v17 v20 f l

theorem pay15_apply (v17 : FVec Ideal S100x1024 .f32) (v20 : FVec Ideal S100x8 .f32) (f : Fin 100) (l : Fin 1024) :
    k0_pay15 v17 v20 (ix3 f (0 : Fin 1) l) = v17 (ix2 f l) * v20 (ix2 f (5 : Fin 8)) := by
  unfold k0_pay15
  exact tile_apply 5 (by norm_num) _ _ _ v17 v20 f l

theorem pay16_apply (v17 : FVec Ideal S100x1024 .f32) (v20 : FVec Ideal S100x8 .f32) (f : Fin 100) (l : Fin 1024) :
    k0_pay16 v17 v20 (ix3 f (0 : Fin 1) l) = v17 (ix2 f l) * v20 (ix2 f (6 : Fin 8)) := by
  unfold k0_pay16
  exact tile_apply 6 (by norm_num) _ _ _ v17 v20 f l

theorem pay17_apply (v17 : FVec Ideal S100x1024 .f32) (v20 : FVec Ideal S100x8 .f32) (f : Fin 100) (l : Fin 1024) :
    k0_pay17 v17 v20 (ix3 f (0 : Fin 1) l) = v17 (ix2 f l) * v20 (ix2 f (7 : Fin 8)) := by
  unfold k0_pay17
  exact tile_apply 7 (by norm_num) _ _ _ v17 v20 f l

end Cert.FM.Pay

end
-- ==== Proof.KIValTiles.lean ====
/-
  The kernel's output tile read at an index.

  The tile [100, 8, 1024] is written by eight stores, slab k at coordinate k of the middle axis holding, at (f, 0, l),
  the chunk of the transposed input at (f, l) times column k of the embedding half at f.  So entry (f, k, l) of the tile
  is input (f, l) times embedding half (f, k), whichever way the two operands reached the stores.
-/
import proofs.«166942_g35321811042314_cont_sun_m_1252_29_alg».proof.Proof.KIValCanon
import proofs.«166942_g35321811042314_cont_sun_m_1252_29_alg».proof.Proof.KIPayTile

noncomputable section

namespace Cert.FM.KVal

open Idealize.ShloMosaic Idealize.ShloMosaic.ValueIdx Cert.KernelIdeal Cert.KernelIdeal.Gen

/-- A slab at coordinate i of the middle axis does not hold an index whose middle coordinate j is below i. -/
theorem skip (i j : ℕ) (hij : j < i) (hj : j < 8)
    (inb : ∀ a, (![0, i, 0] : Fin 3 → ℕ) a + (![100, 1, 1024] : Fin 3 → ℕ) a ≤ S100x8x1024.size a)
    (w : FVec Ideal S100x1x1024 .f32) (L : List (View.Piece (Elt Ideal) S100x8x1024 .f32)) (f : Fin 100) (l : Fin 1024) :
    View.canon ((⟨Rect.unit ![0, i, 0] ![100, 1, 1024] inb, w⟩ : View.Piece (Elt Ideal) S100x8x1024 .f32) :: L) (ix3 f (⟨j, hj⟩ : Fin 8) l)
      = View.canon L (ix3 f (⟨j, hj⟩ : Fin 8) l) :=
  canon_cons_unit_of_not_mem (s := S100x8x1024) (e := .f32) (Val := Elt Ideal) inb w L _ 1 (Or.inl hij)

/-- The slab at coordinate j holds the indices with middle coordinate j, entry (f, j, l) at its (f, 0, l). -/
theorem hit (j : ℕ) (hj : j < 8)
    (inb : ∀ a, (![0, j, 0] : Fin 3 → ℕ) a + (![100, 1, 1024] : Fin 3 → ℕ) a ≤ S100x8x1024.size a)
    (w : FVec Ideal S100x1x1024 .f32) (L : List (View.Piece (Elt Ideal) S100x8x1024 .f32)) (f : Fin 100) (l : Fin 1024) :
    View.canon ((⟨Rect.unit ![0, j, 0] ![100, 1, 1024] inb, w⟩ : View.Piece (Elt Ideal) S100x8x1024 .f32) :: L) (ix3 f (⟨j, hj⟩ : Fin 8) l)
      = w (ix3 f (0 : Fin 1) l) :=
  canon_cons_unit_of_mem (s := S100x8x1024) (e := .f32) (Val := Elt Ideal) inb w L _ (ix3 f (0 : Fin 1) l) fun a => match a with
    | ⟨0, _⟩ => (Nat.zero_add _).symm | ⟨1, _⟩ => rfl | ⟨2, _⟩ => (Nat.zero_add _).symm

/-! ## Eight slabs, newest first: entry (f, k, l) is slab k's payload at (f, 0, l) -/

theorem slab0
    (i0 : ∀ a, (![0, 0, 0] : Fin 3 → ℕ) a + (![100, 1, 1024] : Fin 3 → ℕ) a ≤ S100x8x1024.size a)
    (i1 : ∀ a, (![0, 1, 0] : Fin 3 → ℕ) a + (![100, 1, 1024] : Fin 3 → ℕ) a ≤ S100x8x1024.size a)
    (i2 : ∀ a, (![0, 2, 0] : Fin 3 → ℕ) a + (![100, 1, 1024] : Fin 3 → ℕ) a ≤ S100x8x1024.size a)
    (i3 : ∀ a, (![0, 3, 0] : Fin 3 → ℕ) a + (![100, 1, 1024] : Fin 3 → ℕ) a ≤ S100x8x1024.size a)
    (i4 : ∀ a, (![0, 4, 0] : Fin 3 → ℕ) a + (![100, 1, 1024] : Fin 3 → ℕ) a ≤ S100x8x1024.size a)
    (i5 : ∀ a, (![0, 5, 0] : Fin 3 → ℕ) a + (![100, 1, 1024] : Fin 3 → ℕ) a ≤ S100x8x1024.size a)
    (i6 : ∀ a, (![0, 6, 0] : Fin 3 → ℕ) a + (![100, 1, 1024] : Fin 3 → ℕ) a ≤ S100x8x1024.size a)
    (i7 : ∀ a, (![0, 7, 0] : Fin 3 → ℕ) a + (![100, 1, 1024] : Fin 3 → ℕ) a ≤ S100x8x1024.size a)
    (p0 p1 p2 p3 p4 p5 p6 p7 : FVec Ideal S100x1x1024 .f32) (f : Fin 100) (l : Fin 1024) (h : 0 < 8) :
    View.canon (Val := Elt Ideal) [(⟨Rect.unit ![0, 7, 0] ![100, 1, 1024] i7, p7⟩ : View.Piece (Elt Ideal) S100x8x1024 .f32),
      (⟨Rect.unit ![0, 6, 0] ![100, 1, 1024] i6, p6⟩ : View.Piece (Elt Ideal) S100x8x1024 .f32),
      (⟨Rect.unit ![0, 5, 0] ![100, 1, 1024] i5, p5⟩ : View.Piece (Elt Ideal) S100x8x1024 .f32),
      (⟨Rect.unit ![0, 4, 0] ![100, 1, 1024] i4, p4⟩ : View.Piece (Elt Ideal) S100x8x1024 .f32),
      (⟨Rect.unit ![0, 3, 0] ![100, 1, 1024] i3, p3⟩ : View.Piece (Elt Ideal) S100x8x1024 .f32),
      (⟨Rect.unit ![0, 2, 0] ![100, 1, 1024] i2, p2⟩ : View.Piece (Elt Ideal) S100x8x1024 .f32),
      (⟨Rect.unit ![0, 1, 0] ![100, 1, 1024] i1, p1⟩ : View.Piece (Elt Ideal) S100x8x1024 .f32),
      (⟨Rect.unit ![0, 0, 0] ![100, 1, 1024] i0, p0⟩ : View.Piece (Elt Ideal) S100x8x1024 .f32)] (ix3 f (⟨0, h⟩ : Fin 8) l)
      = p0 (ix3 f (0 : Fin 1) l) :=
  ((skip 7 0 (by norm_num) h i7 p7 _ f l).trans (((skip 6 0 (by norm_num) h i6 p6 _ f l).trans (((skip 5 0 (by norm_num) h i5 p5 _ f l).trans (((skip 4 0 (by norm_num) h i4 p4 _ f l).trans (((skip 3 0 (by norm_num) h i3 p3 _ f l).trans (((skip 2 0 (by norm_num) h i2 p2 _ f l).trans (((skip 1 0 (by norm_num) h i1 p1 _ f l).trans (hit 0 h i0 p0 _ f l))))))))))))))

theorem slab1
    (i0 : ∀ a, (![0, 0, 0] : Fin 3 → ℕ) a + (![100, 1, 1024] : Fin 3 → ℕ) a ≤ S100x8x1024.size a)
    (i1 : ∀ a, (![0, 1, 0] : Fin 3 → ℕ) a + (![100, 1, 1024] : Fin 3 → ℕ) a ≤ S100x8x1024.size a)
    (i2 : ∀ a, (![0, 2, 0] : Fin 3 → ℕ) a + (![100, 1, 1024] : Fin 3 → ℕ) a ≤ S100x8x1024.size a)
    (i3 : ∀ a, (![0, 3, 0] : Fin 3 → ℕ) a + (![100, 1, 1024] : Fin 3 → ℕ) a ≤ S100x8x1024.size a)
    (i4 : ∀ a, (![0, 4, 0] : Fin 3 → ℕ) a + (![100, 1, 1024] : Fin 3 → ℕ) a ≤ S100x8x1024.size a)
    (i5 : ∀ a, (![0, 5, 0] : Fin 3 → ℕ) a + (![100, 1, 1024] : Fin 3 → ℕ) a ≤ S100x8x1024.size a)
    (i6 : ∀ a, (![0, 6, 0] : Fin 3 → ℕ) a + (![100, 1, 1024] : Fin 3 → ℕ) a ≤ S100x8x1024.size a)
    (i7 : ∀ a, (![0, 7, 0] : Fin 3 → ℕ) a + (![100, 1, 1024] : Fin 3 → ℕ) a ≤ S100x8x1024.size a)
    (p0 p1 p2 p3 p4 p5 p6 p7 : FVec Ideal S100x1x1024 .f32) (f : Fin 100) (l : Fin 1024) (h : 1 < 8) :
    View.canon (Val := Elt Ideal) [(⟨Rect.unit ![0, 7, 0] ![100, 1, 1024] i7, p7⟩ : View.Piece (Elt Ideal) S100x8x1024 .f32),
      (⟨Rect.unit ![0, 6, 0] ![100, 1, 1024] i6, p6⟩ : View.Piece (Elt Ideal) S100x8x1024 .f32),
      (⟨Rect.unit ![0, 5, 0] ![100, 1, 1024] i5, p5⟩ : View.Piece (Elt Ideal) S100x8x1024 .f32),
      (⟨Rect.unit ![0, 4, 0] ![100, 1, 1024] i4, p4⟩ : View.Piece (Elt Ideal) S100x8x1024 .f32),
      (⟨Rect.unit ![0, 3, 0] ![100, 1, 1024] i3, p3⟩ : View.Piece (Elt Ideal) S100x8x1024 .f32),
      (⟨Rect.unit ![0, 2, 0] ![100, 1, 1024] i2, p2⟩ : View.Piece (Elt Ideal) S100x8x1024 .f32),
      (⟨Rect.unit ![0, 1, 0] ![100, 1, 1024] i1, p1⟩ : View.Piece (Elt Ideal) S100x8x1024 .f32),
      (⟨Rect.unit ![0, 0, 0] ![100, 1, 1024] i0, p0⟩ : View.Piece (Elt Ideal) S100x8x1024 .f32)] (ix3 f (⟨1, h⟩ : Fin 8) l)
      = p1 (ix3 f (0 : Fin 1) l) :=
  ((skip 7 1 (by norm_num) h i7 p7 _ f l).trans (((skip 6 1 (by norm_num) h i6 p6 _ f l).trans (((skip 5 1 (by norm_num) h i5 p5 _ f l).trans (((skip 4 1 (by norm_num) h i4 p4 _ f l).trans (((skip 3 1 (by norm_num) h i3 p3 _ f l).trans (((skip 2 1 (by norm_num) h i2 p2 _ f l).trans (hit 1 h i1 p1 _ f l))))))))))))

theorem slab2
    (i0 : ∀ a, (![0, 0, 0] : Fin 3 → ℕ) a + (![100, 1, 1024] : Fin 3 → ℕ) a ≤ S100x8x1024.size a)
    (i1 : ∀ a, (![0, 1, 0] : Fin 3 → ℕ) a + (![100, 1, 1024] : Fin 3 → ℕ) a ≤ S100x8x1024.size a)
    (i2 : ∀ a, (![0, 2, 0] : Fin 3 → ℕ) a + (![100, 1, 1024] : Fin 3 → ℕ) a ≤ S100x8x1024.size a)
    (i3 : ∀ a, (![0, 3, 0] : Fin 3 → ℕ) a + (![100, 1, 1024] : Fin 3 → ℕ) a ≤ S100x8x1024.size a)
    (i4 : ∀ a, (![0, 4, 0] : Fin 3 → ℕ) a + (![100, 1, 1024] : Fin 3 → ℕ) a ≤ S100x8x1024.size a)
    (i5 : ∀ a, (![0, 5, 0] : Fin 3 → ℕ) a + (![100, 1, 1024] : Fin 3 → ℕ) a ≤ S100x8x1024.size a)
    (i6 : ∀ a, (![0, 6, 0] : Fin 3 → ℕ) a + (![100, 1, 1024] : Fin 3 → ℕ) a ≤ S100x8x1024.size a)
    (i7 : ∀ a, (![0, 7, 0] : Fin 3 → ℕ) a + (![100, 1, 1024] : Fin 3 → ℕ) a ≤ S100x8x1024.size a)
    (p0 p1 p2 p3 p4 p5 p6 p7 : FVec Ideal S100x1x1024 .f32) (f : Fin 100) (l : Fin 1024) (h : 2 < 8) :
    View.canon (Val := Elt Ideal) [(⟨Rect.unit ![0, 7, 0] ![100, 1, 1024] i7, p7⟩ : View.Piece (Elt Ideal) S100x8x1024 .f32),
      (⟨Rect.unit ![0, 6, 0] ![100, 1, 1024] i6, p6⟩ : View.Piece (Elt Ideal) S100x8x1024 .f32),
      (⟨Rect.unit ![0, 5, 0] ![100, 1, 1024] i5, p5⟩ : View.Piece (Elt Ideal) S100x8x1024 .f32),
      (⟨Rect.unit ![0, 4, 0] ![100, 1, 1024] i4, p4⟩ : View.Piece (Elt Ideal) S100x8x1024 .f32),
      (⟨Rect.unit ![0, 3, 0] ![100, 1, 1024] i3, p3⟩ : View.Piece (Elt Ideal) S100x8x1024 .f32),
      (⟨Rect.unit ![0, 2, 0] ![100, 1, 1024] i2, p2⟩ : View.Piece (Elt Ideal) S100x8x1024 .f32),
      (⟨Rect.unit ![0, 1, 0] ![100, 1, 1024] i1, p1⟩ : View.Piece (Elt Ideal) S100x8x1024 .f32),
      (⟨Rect.unit ![0, 0, 0] ![100, 1, 1024] i0, p0⟩ : View.Piece (Elt Ideal) S100x8x1024 .f32)] (ix3 f (⟨2, h⟩ : Fin 8) l)
      = p2 (ix3 f (0 : Fin 1) l) :=
  ((skip 7 2 (by norm_num) h i7 p7 _ f l).trans (((skip 6 2 (by norm_num) h i6 p6 _ f l).trans (((skip 5 2 (by norm_num) h i5 p5 _ f l).trans (((skip 4 2 (by norm_num) h i4 p4 _ f l).trans (((skip 3 2 (by norm_num) h i3 p3 _ f l).trans (hit 2 h i2 p2 _ f l))))))))))

theorem slab3
    (i0 : ∀ a, (![0, 0, 0] : Fin 3 → ℕ) a + (![100, 1, 1024] : Fin 3 → ℕ) a ≤ S100x8x1024.size a)
    (i1 : ∀ a, (![0, 1, 0] : Fin 3 → ℕ) a + (![100, 1, 1024] : Fin 3 → ℕ) a ≤ S100x8x1024.size a)
    (i2 : ∀ a, (![0, 2, 0] : Fin 3 → ℕ) a + (![100, 1, 1024] : Fin 3 → ℕ) a ≤ S100x8x1024.size a)
    (i3 : ∀ a, (![0, 3, 0] : Fin 3 → ℕ) a + (![100, 1, 1024] : Fin 3 → ℕ) a ≤ S100x8x1024.size a)
    (i4 : ∀ a, (![0, 4, 0] : Fin 3 → ℕ) a + (![100, 1, 1024] : Fin 3 → ℕ) a ≤ S100x8x1024.size a)
    (i5 : ∀ a, (![0, 5, 0] : Fin 3 → ℕ) a + (![100, 1, 1024] : Fin 3 → ℕ) a ≤ S100x8x1024.size a)
    (i6 : ∀ a, (![0, 6, 0] : Fin 3 → ℕ) a + (![100, 1, 1024] : Fin 3 → ℕ) a ≤ S100x8x1024.size a)
    (i7 : ∀ a, (![0, 7, 0] : Fin 3 → ℕ) a + (![100, 1, 1024] : Fin 3 → ℕ) a ≤ S100x8x1024.size a)
    (p0 p1 p2 p3 p4 p5 p6 p7 : FVec Ideal S100x1x1024 .f32) (f : Fin 100) (l : Fin 1024) (h : 3 < 8) :
    View.canon (Val := Elt Ideal) [(⟨Rect.unit ![0, 7, 0] ![100, 1, 1024] i7, p7⟩ : View.Piece (Elt Ideal) S100x8x1024 .f32),
      (⟨Rect.unit ![0, 6, 0] ![100, 1, 1024] i6, p6⟩ : View.Piece (Elt Ideal) S100x8x1024 .f32),
      (⟨Rect.unit ![0, 5, 0] ![100, 1, 1024] i5, p5⟩ : View.Piece (Elt Ideal) S100x8x1024 .f32),
      (⟨Rect.unit ![0, 4, 0] ![100, 1, 1024] i4, p4⟩ : View.Piece (Elt Ideal) S100x8x1024 .f32),
      (⟨Rect.unit ![0, 3, 0] ![100, 1, 1024] i3, p3⟩ : View.Piece (Elt Ideal) S100x8x1024 .f32),
      (⟨Rect.unit ![0, 2, 0] ![100, 1, 1024] i2, p2⟩ : View.Piece (Elt Ideal) S100x8x1024 .f32),
      (⟨Rect.unit ![0, 1, 0] ![100, 1, 1024] i1, p1⟩ : View.Piece (Elt Ideal) S100x8x1024 .f32),
      (⟨Rect.unit ![0, 0, 0] ![100, 1, 1024] i0, p0⟩ : View.Piece (Elt Ideal) S100x8x1024 .f32)] (ix3 f (⟨3, h⟩ : Fin 8) l)
      = p3 (ix3 f (0 : Fin 1) l) :=
  ((skip 7 3 (by norm_num) h i7 p7 _ f l).trans (((skip 6 3 (by norm_num) h i6 p6 _ f l).trans (((skip 5 3 (by norm_num) h i5 p5 _ f l).trans (((skip 4 3 (by norm_num) h i4 p4 _ f l).trans (hit 3 h i3 p3 _ f l))))))))

theorem slab4
    (i0 : ∀ a, (![0, 0, 0] : Fin 3 → ℕ) a + (![100, 1, 1024] : Fin 3 → ℕ) a ≤ S100x8x1024.size a)
    (i1 : ∀ a, (![0, 1, 0] : Fin 3 → ℕ) a + (![100, 1, 1024] : Fin 3 → ℕ) a ≤ S100x8x1024.size a)
    (i2 : ∀ a, (![0, 2, 0] : Fin 3 → ℕ) a + (![100, 1, 1024] : Fin 3 → ℕ) a ≤ S100x8x1024.size a)
    (i3 : ∀ a, (![0, 3, 0] : Fin 3 → ℕ) a + (![100, 1, 1024] : Fin 3 → ℕ) a ≤ S100x8x1024.size a)
    (i4 : ∀ a, (![0, 4, 0] : Fin 3 → ℕ) a + (![100, 1, 1024] : Fin 3 → ℕ) a ≤ S100x8x1024.size a)
    (i5 : ∀ a, (![0, 5, 0] : Fin 3 → ℕ) a + (![100, 1, 1024] : Fin 3 → ℕ) a ≤ S100x8x1024.size a)
    (i6 : ∀ a, (![0, 6, 0] : Fin 3 → ℕ) a + (![100, 1, 1024] : Fin 3 → ℕ) a ≤ S100x8x1024.size a)
    (i7 : ∀ a, (![0, 7, 0] : Fin 3 → ℕ) a + (![100, 1, 1024] : Fin 3 → ℕ) a ≤ S100x8x1024.size a)
    (p0 p1 p2 p3 p4 p5 p6 p7 : FVec Ideal S100x1x1024 .f32) (f : Fin 100) (l : Fin 1024) (h : 4 < 8) :
    View.canon (Val := Elt Ideal) [(⟨Rect.unit ![0, 7, 0] ![100, 1, 1024] i7, p7⟩ : View.Piece (Elt Ideal) S100x8x1024 .f32),
      (⟨Rect.unit ![0, 6, 0] ![100, 1, 1024] i6, p6⟩ : View.Piece (Elt Ideal) S100x8x1024 .f32),
      (⟨Rect.unit ![0, 5, 0] ![100, 1, 1024] i5, p5⟩ : View.Piece (Elt Ideal) S100x8x1024 .f32),
      (⟨Rect.unit ![0, 4, 0] ![100, 1, 1024] i4, p4⟩ : View.Piece (Elt Ideal) S100x8x1024 .f32),
      (⟨Rect.unit ![0, 3, 0] ![100, 1, 1024] i3, p3⟩ : View.Piece (Elt Ideal) S100x8x1024 .f32),
      (⟨Rect.unit ![0, 2, 0] ![100, 1, 1024] i2, p2⟩ : View.Piece (Elt Ideal) S100x8x1024 .f32),
      (⟨Rect.unit ![0, 1, 0] ![100, 1, 1024] i1, p1⟩ : View.Piece (Elt Ideal) S100x8x1024 .f32),
      (⟨Rect.unit ![0, 0, 0] ![100, 1, 1024] i0, p0⟩ : View.Piece (Elt Ideal) S100x8x1024 .f32)] (ix3 f (⟨4, h⟩ : Fin 8) l)
      = p4 (ix3 f (0 : Fin 1) l) :=
  ((skip 7 4 (by norm_num) h i7 p7 _ f l).trans (((skip 6 4 (by norm_num) h i6 p6 _ f l).trans (((skip 5 4 (by norm_num) h i5 p5 _ f l).trans (hit 4 h i4 p4 _ f l))))))

theorem slab5
    (i0 : ∀ a, (![0, 0, 0] : Fin 3 → ℕ) a + (![100, 1, 1024] : Fin 3 → ℕ) a ≤ S100x8x1024.size a)
    (i1 : ∀ a, (![0, 1, 0] : Fin 3 → ℕ) a + (![100, 1, 1024] : Fin 3 → ℕ) a ≤ S100x8x1024.size a)
    (i2 : ∀ a, (![0, 2, 0] : Fin 3 → ℕ) a + (![100, 1, 1024] : Fin 3 → ℕ) a ≤ S100x8x1024.size a)
    (i3 : ∀ a, (![0, 3, 0] : Fin 3 → ℕ) a + (![100, 1, 1024] : Fin 3 → ℕ) a ≤ S100x8x1024.size a)
    (i4 : ∀ a, (![0, 4, 0] : Fin 3 → ℕ) a + (![100, 1, 1024] : Fin 3 → ℕ) a ≤ S100x8x1024.size a)
    (i5 : ∀ a, (![0, 5, 0] : Fin 3 → ℕ) a + (![100, 1, 1024] : Fin 3 → ℕ) a ≤ S100x8x1024.size a)
    (i6 : ∀ a, (![0, 6, 0] : Fin 3 → ℕ) a + (![100, 1, 1024] : Fin 3 → ℕ) a ≤ S100x8x1024.size a)
    (i7 : ∀ a, (![0, 7, 0] : Fin 3 → ℕ) a + (![100, 1, 1024] : Fin 3 → ℕ) a ≤ S100x8x1024.size a)
    (p0 p1 p2 p3 p4 p5 p6 p7 : FVec Ideal S100x1x1024 .f32) (f : Fin 100) (l : Fin 1024) (h : 5 < 8) :
    View.canon (Val := Elt Ideal) [(⟨Rect.unit ![0, 7, 0] ![100, 1, 1024] i7, p7⟩ : View.Piece (Elt Ideal) S100x8x1024 .f32),
      (⟨Rect.unit ![0, 6, 0] ![100, 1, 1024] i6, p6⟩ : View.Piece (Elt Ideal) S100x8x1024 .f32),
      (⟨Rect.unit ![0, 5, 0] ![100, 1, 1024] i5, p5⟩ : View.Piece (Elt Ideal) S100x8x1024 .f32),
      (⟨Rect.unit ![0, 4, 0] ![100, 1, 1024] i4, p4⟩ : View.Piece (Elt Ideal) S100x8x1024 .f32),
      (⟨Rect.unit ![0, 3, 0] ![100, 1, 1024] i3, p3⟩ : View.Piece (Elt Ideal) S100x8x1024 .f32),
      (⟨Rect.unit ![0, 2, 0] ![100, 1, 1024] i2, p2⟩ : View.Piece (Elt Ideal) S100x8x1024 .f32),
      (⟨Rect.unit ![0, 1, 0] ![100, 1, 1024] i1, p1⟩ : View.Piece (Elt Ideal) S100x8x1024 .f32),
      (⟨Rect.unit ![0, 0, 0] ![100, 1, 1024] i0, p0⟩ : View.Piece (Elt Ideal) S100x8x1024 .f32)] (ix3 f (⟨5, h⟩ : Fin 8) l)
      = p5 (ix3 f (0 : Fin 1) l) :=
  ((skip 7 5 (by norm_num) h i7 p7 _ f l).trans (((skip 6 5 (by norm_num) h i6 p6 _ f l).trans (hit 5 h i5 p5 _ f l))))

theorem slab6
    (i0 : ∀ a, (![0, 0, 0] : Fin 3 → ℕ) a + (![100, 1, 1024] : Fin 3 → ℕ) a ≤ S100x8x1024.size a)
    (i1 : ∀ a, (![0, 1, 0] : Fin 3 → ℕ) a + (![100, 1, 1024] : Fin 3 → ℕ) a ≤ S100x8x1024.size a)
    (i2 : ∀ a, (![0, 2, 0] : Fin 3 → ℕ) a + (![100, 1, 1024] : Fin 3 → ℕ) a ≤ S100x8x1024.size a)
    (i3 : ∀ a, (![0, 3, 0] : Fin 3 → ℕ) a + (![100, 1, 1024] : Fin 3 → ℕ) a ≤ S100x8x1024.size a)
    (i4 : ∀ a, (![0, 4, 0] : Fin 3 → ℕ) a + (![100, 1, 1024] : Fin 3 → ℕ) a ≤ S100x8x1024.size a)
    (i5 : ∀ a, (![0, 5, 0] : Fin 3 → ℕ) a + (![100, 1, 1024] : Fin 3 → ℕ) a ≤ S100x8x1024.size a)
    (i6 : ∀ a, (![0, 6, 0] : Fin 3 → ℕ) a + (![100, 1, 1024] : Fin 3 → ℕ) a ≤ S100x8x1024.size a)
    (i7 : ∀ a, (![0, 7, 0] : Fin 3 → ℕ) a + (![100, 1, 1024] : Fin 3 → ℕ) a ≤ S100x8x1024.size a)
    (p0 p1 p2 p3 p4 p5 p6 p7 : FVec Ideal S100x1x1024 .f32) (f : Fin 100) (l : Fin 1024) (h : 6 < 8) :
    View.canon (Val := Elt Ideal) [(⟨Rect.unit ![0, 7, 0] ![100, 1, 1024] i7, p7⟩ : View.Piece (Elt Ideal) S100x8x1024 .f32),
      (⟨Rect.unit ![0, 6, 0] ![100, 1, 1024] i6, p6⟩ : View.Piece (Elt Ideal) S100x8x1024 .f32),
      (⟨Rect.unit ![0, 5, 0] ![100, 1, 1024] i5, p5⟩ : View.Piece (Elt Ideal) S100x8x1024 .f32),
      (⟨Rect.unit ![0, 4, 0] ![100, 1, 1024] i4, p4⟩ : View.Piece (Elt Ideal) S100x8x1024 .f32),
      (⟨Rect.unit ![0, 3, 0] ![100, 1, 1024] i3, p3⟩ : View.Piece (Elt Ideal) S100x8x1024 .f32),
      (⟨Rect.unit ![0, 2, 0] ![100, 1, 1024] i2, p2⟩ : View.Piece (Elt Ideal) S100x8x1024 .f32),
      (⟨Rect.unit ![0, 1, 0] ![100, 1, 1024] i1, p1⟩ : View.Piece (Elt Ideal) S100x8x1024 .f32),
      (⟨Rect.unit ![0, 0, 0] ![100, 1, 1024] i0, p0⟩ : View.Piece (Elt Ideal) S100x8x1024 .f32)] (ix3 f (⟨6, h⟩ : Fin 8) l)
      = p6 (ix3 f (0 : Fin 1) l) :=
  ((skip 7 6 (by norm_num) h i7 p7 _ f l).trans (hit 6 h i6 p6 _ f l))

theorem slab7
    (i0 : ∀ a, (![0, 0, 0] : Fin 3 → ℕ) a + (![100, 1, 1024] : Fin 3 → ℕ) a ≤ S100x8x1024.size a)
    (i1 : ∀ a, (![0, 1, 0] : Fin 3 → ℕ) a + (![100, 1, 1024] : Fin 3 → ℕ) a ≤ S100x8x1024.size a)
    (i2 : ∀ a, (![0, 2, 0] : Fin 3 → ℕ) a + (![100, 1, 1024] : Fin 3 → ℕ) a ≤ S100x8x1024.size a)
    (i3 : ∀ a, (![0, 3, 0] : Fin 3 → ℕ) a + (![100, 1, 1024] : Fin 3 → ℕ) a ≤ S100x8x1024.size a)
    (i4 : ∀ a, (![0, 4, 0] : Fin 3 → ℕ) a + (![100, 1, 1024] : Fin 3 → ℕ) a ≤ S100x8x1024.size a)
    (i5 : ∀ a, (![0, 5, 0] : Fin 3 → ℕ) a + (![100, 1, 1024] : Fin 3 → ℕ) a ≤ S100x8x1024.size a)
    (i6 : ∀ a, (![0, 6, 0] : Fin 3 → ℕ) a + (![100, 1, 1024] : Fin 3 → ℕ) a ≤ S100x8x1024.size a)
    (i7 : ∀ a, (![0, 7, 0] : Fin 3 → ℕ) a + (![100, 1, 1024] : Fin 3 → ℕ) a ≤ S100x8x1024.size a)
    (p0 p1 p2 p3 p4 p5 p6 p7 : FVec Ideal S100x1x1024 .f32) (f : Fin 100) (l : Fin 1024) (h : 7 < 8) :
    View.canon (Val := Elt Ideal) [(⟨Rect.unit ![0, 7, 0] ![100, 1, 1024] i7, p7⟩ : View.Piece (Elt Ideal) S100x8x1024 .f32),
      (⟨Rect.unit ![0, 6, 0] ![100, 1, 1024] i6, p6⟩ : View.Piece (Elt Ideal) S100x8x1024 .f32),
      (⟨Rect.unit ![0, 5, 0] ![100, 1, 1024] i5, p5⟩ : View.Piece (Elt Ideal) S100x8x1024 .f32),
      (⟨Rect.unit ![0, 4, 0] ![100, 1, 1024] i4, p4⟩ : View.Piece (Elt Ideal) S100x8x1024 .f32),
      (⟨Rect.unit ![0, 3, 0] ![100, 1, 1024] i3, p3⟩ : View.Piece (Elt Ideal) S100x8x1024 .f32),
      (⟨Rect.unit ![0, 2, 0] ![100, 1, 1024] i2, p2⟩ : View.Piece (Elt Ideal) S100x8x1024 .f32),
      (⟨Rect.unit ![0, 1, 0] ![100, 1, 1024] i1, p1⟩ : View.Piece (Elt Ideal) S100x8x1024 .f32),
      (⟨Rect.unit ![0, 0, 0] ![100, 1, 1024] i0, p0⟩ : View.Piece (Elt Ideal) S100x8x1024 .f32)] (ix3 f (⟨7, h⟩ : Fin 8) l)
      = p7 (ix3 f (0 : Fin 1) l) :=
  hit 7 h i7 p7 _ f l

/-- The eight payloads over the two operands, the first two through the operands before their unit axis is dropped:
    entry (f, k, l) of the tile is the input chunk at (f, l) times the embedding half at (f, k). -/
theorem tile_apply8
    (i0 : ∀ a, (![0, 0, 0] : Fin 3 → ℕ) a + (![100, 1, 1024] : Fin 3 → ℕ) a ≤ S100x8x1024.size a)
    (i1 : ∀ a, (![0, 1, 0] : Fin 3 → ℕ) a + (![100, 1, 1024] : Fin 3 → ℕ) a ≤ S100x8x1024.size a)
    (i2 : ∀ a, (![0, 2, 0] : Fin 3 → ℕ) a + (![100, 1, 1024] : Fin 3 → ℕ) a ≤ S100x8x1024.size a)
    (i3 : ∀ a, (![0, 3, 0] : Fin 3 → ℕ) a + (![100, 1, 1024] : Fin 3 → ℕ) a ≤ S100x8x1024.size a)
    (i4 : ∀ a, (![0, 4, 0] : Fin 3 → ℕ) a + (![100, 1, 1024] : Fin 3 → ℕ) a ≤ S100x8x1024.size a)
    (i5 : ∀ a, (![0, 5, 0] : Fin 3 → ℕ) a + (![100, 1, 1024] : Fin 3 → ℕ) a ≤ S100x8x1024.size a)
    (i6 : ∀ a, (![0, 6, 0] : Fin 3 → ℕ) a + (![100, 1, 1024] : Fin 3 → ℕ) a ≤ S100x8x1024.size a)
    (i7 : ∀ a, (![0, 7, 0] : Fin 3 → ℕ) a + (![100, 1, 1024] : Fin 3 → ℕ) a ≤ S100x8x1024.size a)
    (v16 : Vec Ideal S1x100x1024 .f32) (v19 : Vec Ideal S1x100x8 .f32) (xt : FVec Ideal S100x1024 .f32) (eh : FVec Ideal S100x8 .f32)
    (hx : ∀ (f : Fin 100) (l : Fin 1024), xt (ix2 f l) = v16 (ix3 (0 : Fin 1) f l))
    (he : ∀ (f : Fin 100) (k : Fin 8), eh (ix2 f k) = v19 (ix3 (0 : Fin 1) f k))
    (f : Fin 100) (k : Fin 8) (l : Fin 1024) :
    View.canon (Val := Elt Ideal) [(⟨Rect.unit ![0, 7, 0] ![100, 1, 1024] i7, k0_pay17 xt eh⟩ : View.Piece (Elt Ideal) S100x8x1024 .f32),
      (⟨Rect.unit ![0, 6, 0] ![100, 1, 1024] i6, k0_pay16 xt eh⟩ : View.Piece (Elt Ideal) S100x8x1024 .f32),
      (⟨Rect.unit ![0, 5, 0] ![100, 1, 1024] i5, k0_pay15 xt eh⟩ : View.Piece (Elt Ideal) S100x8x1024 .f32),
      (⟨Rect.unit ![0, 4, 0] ![100, 1, 1024] i4, k0_pay14 xt eh⟩ : View.Piece (Elt Ideal) S100x8x1024 .f32),
      (⟨Rect.unit ![0, 3, 0] ![100, 1, 1024] i3, k0_pay13 xt eh⟩ : View.Piece (Elt Ideal) S100x8x1024 .f32),
      (⟨Rect.unit ![0, 2, 0] ![100, 1, 1024] i2, k0_pay12 xt eh⟩ : View.Piece (Elt Ideal) S100x8x1024 .f32),
      (⟨Rect.unit ![0, 1, 0] ![100, 1, 1024] i1, k0_pay11 v16 v19⟩ : View.Piece (Elt Ideal) S100x8x1024 .f32),
      (⟨Rect.unit ![0, 0, 0] ![100, 1, 1024] i0, k0_pay10 v16 v19⟩ : View.Piece (Elt Ideal) S100x8x1024 .f32)] (ix3 f k l)
      = v16 (ix3 (0 : Fin 1) f l) * v19 (ix3 (0 : Fin 1) f k) :=
  match k with
  | ⟨0, h⟩ => (slab0 i0 i1 i2 i3 i4 i5 i6 i7 _ _ _ _ _ _ _ _ f l h).trans (Pay.pay10_apply v16 v19 f l)
  | ⟨1, h⟩ => (slab1 i0 i1 i2 i3 i4 i5 i6 i7 _ _ _ _ _ _ _ _ f l h).trans (Pay.pay11_apply v16 v19 f l)
  | ⟨2, h⟩ => (slab2 i0 i1 i2 i3 i4 i5 i6 i7 _ _ _ _ _ _ _ _ f l h).trans
      ((Pay.pay12_apply xt eh f l).trans (by rw [hx, he]; rfl))
  | ⟨3, h⟩ => (slab3 i0 i1 i2 i3 i4 i5 i6 i7 _ _ _ _ _ _ _ _ f l h).trans
      ((Pay.pay13_apply xt eh f l).trans (by rw [hx, he]; rfl))
  | ⟨4, h⟩ => (slab4 i0 i1 i2 i3 i4 i5 i6 i7 _ _ _ _ _ _ _ _ f l h).trans
      ((Pay.pay14_apply xt eh f l).trans (by rw [hx, he]; rfl))
  | ⟨5, h⟩ => (slab5 i0 i1 i2 i3 i4 i5 i6 i7 _ _ _ _ _ _ _ _ f l h).trans
      ((Pay.pay15_apply xt eh f l).trans (by rw [hx, he]; rfl))
  | ⟨6, h⟩ => (slab6 i0 i1 i2 i3 i4 i5 i6 i7 _ _ _ _ _ _ _ _ f l h).trans
      ((Pay.pay16_apply xt eh f l).trans (by rw [hx, he]; rfl))
  | ⟨7, h⟩ => (slab7 i0 i1 i2 i3 i4 i5 i6 i7 _ _ _ _ _ _ _ _ f l h).trans
      ((Pay.pay17_apply xt eh f l).trans (by rw [hx, he]; rfl))

end Cert.FM.KVal

end
-- ==== Proof.KIValReads.lean ====
/-
  What the kernel's body reads at a grid point: the column block landed in its slot, and a half of the embedding.

  The two-slot buffer is one [2, 100, 1024] array; slot s is its rows (s, ·, ·), seen as a [100, 1024] array.  A column
  block landed in slot s is that array written through the slot; the body then loads rows (s, ·, ·) of the whole buffer,
  so it reads the block: entry (0, f, l) of the load is the block's entry (f, l).  The embedding scratch is a
  [2, 100, 8] array held whole; the body loads rows (t mod 2, ·, ·), so entry (0, f, k) of the load is the scratch at
  (t mod 2, f, k).
-/
import proofs.«166942_g35321811042314_cont_sun_m_1252_29_alg».proof.Proof.KIData
import Idealize.ShloMosaic.PureOps.Ideal
import Idealize.ShloMosaic.Lib.WholeRead
import Idealize.ShloMosaic.Lib.ValueIdx

set_option maxRecDepth 16384

noncomputable section

namespace Cert.FM.KVal

open Idealize.ShloMosaic Idealize.ShloMosaic.ValueIdx Idealize.ShloMosaic.TcCoe
open Cert.KernelIdeal Cert.KernelIdeal.Gen Cert.KernelIdeal.Body

/-- Where the load of the current slot reads: rows (s, ·, ·) of the buffer, s the slot of the point. -/
theorem slotIdx (t : Fin grid0.N) (inb : ∀ a, k0_off10 (grid0.coords t) a + S1x100x1024.size a ≤ S2x100x1024.size a)
    (f : Fin 100) (l : Fin 1024) :
    (Rect.unit (s := S2x100x1024) (k0_off10 (grid0.coords t)) S1x100x1024.size inb).toLoadRect.idx (ix3 (0 : Fin 1) f l)
      = (ix3 (sNow t) f l : S2x100x1024.Idx) := by
  funext a
  refine Fin.ext ?_
  show k0_off10 (grid0.coords t) a + 1 * ((ix3 (0 : Fin 1) f l : S1x100x1024.Idx) a).val = ((ix3 (sNow t) f l : S2x100x1024.Idx) a).val
  rw [coff10 t]
  match a with
  | ⟨0, _⟩ => show (sNow t).val + 1 * 0 = (sNow t).val; omega
  | ⟨1, _⟩ => show 0 + 1 * f.val = f.val; omega
  | ⟨2, _⟩ => show 0 + 1 * l.val = l.val; omega

/-- Where the load of the embedding half reads: rows (t mod 2, ·, ·) of the scratch. -/
theorem halfIdx (t : Fin grid0.N) (inb : ∀ a, k0_off11 (grid0.coords t) a + S1x100x8.size a ≤ S2x100x8.size a)
    (f : Fin 100) (k : Fin 8) :
    (Rect.unit (s := S2x100x8) (k0_off11 (grid0.coords t)) S1x100x8.size inb).toLoadRect.idx (ix3 (0 : Fin 1) f k)
      = (ix3 (⟨t.val % 2, Nat.mod_lt _ (by norm_num)⟩ : Fin 2) f k : S2x100x8.Idx) := by
  funext a
  refine Fin.ext ?_
  show k0_off11 (grid0.coords t) a + 1 * ((ix3 (0 : Fin 1) f k : S1x100x8.Idx) a).val = _
  rw [coff11 t]
  match a with
  | ⟨0, _⟩ => show t.val % 2 + 1 * 0 = t.val % 2; omega
  | ⟨1, _⟩ => show 0 + 1 * f.val = f.val; omega
  | ⟨2, _⟩ => show 0 + 1 * k.val = k.val; omega

set_option backward.isDefEq.respectTransparency.types false in
/-- Slot s of the buffer places its entry (f, l) at the buffer's (s, f, l). -/
theorem slot_emb (s : Fin 2) (f : Fin 100) (l : Fin 1024) :
    (rslot s).view.emb (ix2 f l) = scX.view.emb (ix3 s f l : S2x100x1024.Idx) := by
  have hr : Shape.reshapeEquiv squeezes_S1x100x1024_S100x1024.numel_eq (ix2 f l : S100x1024.Idx)
      = (ix3 (0 : Fin 1) f l : S1x100x1024.Idx) :=
    Shape.reshapeEquiv_eq_of_rowMajor _ (by
      rw [Shape.rowMajor_val_three, Shape.rowMajor_val_two]
      show (0 * 100 + f.val) * 1024 + l.val = f.val * 1024 + l.val
      omega)
  show scX.view.emb ((Rect.unit (s := S2x100x1024) ![s.val, 0, 0] S1x100x1024.size (inb_slot s)).emb
    (Shape.reshapeEquiv squeezes_S1x100x1024_S100x1024.numel_eq (ix2 f l))) = _
  rw [hr]
  refine congrArg scX.view.emb (funext fun a => Fin.ext ?_)
  match a with
  | ⟨0, _⟩ => show s.val + 1 * 0 = s.val; omega
  | ⟨1, _⟩ => show 0 + 1 * f.val = f.val; omega
  | ⟨2, _⟩ => show 0 + 1 * l.val = l.val; omega

-- the slot's view and the buffer's are views of one buffer: their contents types agree after the slot is unfolded
set_option backward.isDefEq.respectTransparency.types false in
/-- THE SLOT READ: with block `P` landed in the point's slot, the body's load of that slot reads `P`. -/
theorem slotRead_apply (c : Dev nD) (t : Fin grid0.N)
    (inb : ∀ a, k0_off10 (grid0.coords t) a + S1x100x1024.size a ≤ S2x100x1024.size a)
    (P : S100x1024.Idx → Elt Ideal .f32) (f : Fin 100) (l : Fin 1024) :
    View.readAt (Elt Ideal) scX.view (Rect.unit (s := S2x100x1024) (k0_off10 (grid0.coords t)) S1x100x1024.size inb).toLoadRect
        ((rslot (sNow t)).view.writes (Elt Ideal) (rslot (sNow t)).view.junk [⟨Rect.whole S100x1024, P⟩]) (ix3 (0 : Fin 1) f l)
      = P (ix2 f l) := by
  rw [View.readAt_apply, slotIdx t inb f l]
  have hread : ∀ g : (rslot (sNow t)).view.ty.Contents (Elt Ideal),
      scX.view.read (Elt Ideal) g (ix3 (sNow t) f l) = (rslot (sNow t)).view.read (Elt Ideal) g (ix2 f l) := fun g => by
    rw [View.read_apply, View.read_apply, slot_emb]
    rfl
  rw [hread, View.read_writes_junk_apply_eq_canon]
  exact (congrArg (View.canon _) (Rect.emb_whole_apply S100x1024 (ix2 f l)).symm).trans
    (View.canon_cons_emb (Rect.whole S100x1024) P [] (ix2 f l))

/-- THE EMBEDDING HALF READ: the body's load of the scratch held at `e0` reads `e0` at rows (t mod 2, ·, ·). -/
theorem halfRead_apply (t : Fin grid0.N) (inb : ∀ a, k0_off11 (grid0.coords t) a + S1x100x8.size a ≤ S2x100x8.size a)
    (e0 : Vec Ideal S2x100x8 .f32) (f : Fin 100) (k : Fin 8) :
    View.readAt (Elt Ideal) scE.view (Rect.unit (s := S2x100x8) (k0_off11 (grid0.coords t)) S1x100x8.size inb).toLoadRect
        ((Memref.isWhole_whole cc0_scratch0).unread e0) (ix3 (0 : Fin 1) f k)
      = e0 (ix3 (⟨t.val % 2, Nat.mod_lt _ (by norm_num)⟩ : Fin 2) f k) := by
  rw [Memref.IsWhole.readAt_unread, halfIdx t inb f k]

end Cert.FM.KVal

end
-- ==== Proof.KIValAt.lean ====
/-
  The output tile at a grid point, over what the point's body reads.

  At every point after the first the body loads the point's slot of the two-slot buffer and rows (t mod 2, ·, ·) of the
  embedding scratch, drops their leading unit axes, and writes the eight slabs.  With the slot's load `v16` and the
  scratch held at `e0`, entry (f, k, l) of the tile is `v16` at (0, f, l) times `e0` at (t mod 2, f, k).
-/
import proofs.«166942_g35321811042314_cont_sun_m_1252_29_alg».proof.Proof.KIValTiles
import proofs.«166942_g35321811042314_cont_sun_m_1252_29_alg».proof.Proof.KIValReads

set_option maxRecDepth 16384

noncomputable section

namespace Cert.FM.KVal

open Idealize.ShloMosaic Idealize.ShloMosaic.ValueIdx Idealize.ShloMosaic.TcCoe
open Cert.KernelIdeal Cert.KernelIdeal.Gen Cert.KernelIdeal.Body

/-- The body's load of the embedding half at point `t`, the scratch held at `e0`. -/
abbrev halfLoad (t : Fin grid0.N) (e0 : Vec Ideal S2x100x8 .f32) : Vec Ideal S1x100x8 .f32 :=
  View.readAt (Elt Ideal) scE.view
    (Rect.unit (s := S2x100x8) (k0_off11 (grid0.coords t)) S1x100x8.size (k0_off11_inb (grid0.coords t))).toLoadRect
    ((Memref.isWhole_whole cc0_scratch0).unread e0)

/-- The tile's eight pieces over the slot's load, the embedding half's load and the two with their unit axes dropped. -/
abbrev tilePieces
    (i0 : ∀ a, (![0, 0, 0] : Fin 3 → ℕ) a + (![100, 1, 1024] : Fin 3 → ℕ) a ≤ S100x8x1024.size a)
    (i1 : ∀ a, (![0, 1, 0] : Fin 3 → ℕ) a + (![100, 1, 1024] : Fin 3 → ℕ) a ≤ S100x8x1024.size a)
    (i2 : ∀ a, (![0, 2, 0] : Fin 3 → ℕ) a + (![100, 1, 1024] : Fin 3 → ℕ) a ≤ S100x8x1024.size a)
    (i3 : ∀ a, (![0, 3, 0] : Fin 3 → ℕ) a + (![100, 1, 1024] : Fin 3 → ℕ) a ≤ S100x8x1024.size a)
    (i4 : ∀ a, (![0, 4, 0] : Fin 3 → ℕ) a + (![100, 1, 1024] : Fin 3 → ℕ) a ≤ S100x8x1024.size a)
    (i5 : ∀ a, (![0, 5, 0] : Fin 3 → ℕ) a + (![100, 1, 1024] : Fin 3 → ℕ) a ≤ S100x8x1024.size a)
    (i6 : ∀ a, (![0, 6, 0] : Fin 3 → ℕ) a + (![100, 1, 1024] : Fin 3 → ℕ) a ≤ S100x8x1024.size a)
    (i7 : ∀ a, (![0, 7, 0] : Fin 3 → ℕ) a + (![100, 1, 1024] : Fin 3 → ℕ) a ≤ S100x8x1024.size a)
    (v16 : Vec Ideal S1x100x1024 .f32) (v19 : Vec Ideal S1x100x8 .f32) (xt : FVec Ideal S100x1024 .f32) (eh : FVec Ideal S100x8 .f32) :
    List (View.Piece (Elt Ideal) S100x8x1024 .f32) :=
  [(⟨Rect.unit ![0, 7, 0] ![100, 1, 1024] i7, k0_pay17 xt eh⟩ : View.Piece (Elt Ideal) S100x8x1024 .f32),
      (⟨Rect.unit ![0, 6, 0] ![100, 1, 1024] i6, k0_pay16 xt eh⟩ : View.Piece (Elt Ideal) S100x8x1024 .f32),
      (⟨Rect.unit ![0, 5, 0] ![100, 1, 1024] i5, k0_pay15 xt eh⟩ : View.Piece (Elt Ideal) S100x8x1024 .f32),
      (⟨Rect.unit ![0, 4, 0] ![100, 1, 1024] i4, k0_pay14 xt eh⟩ : View.Piece (Elt Ideal) S100x8x1024 .f32),
      (⟨Rect.unit ![0, 3, 0] ![100, 1, 1024] i3, k0_pay13 xt eh⟩ : View.Piece (Elt Ideal) S100x8x1024 .f32),
      (⟨Rect.unit ![0, 2, 0] ![100, 1, 1024] i2, k0_pay12 xt eh⟩ : View.Piece (Elt Ideal) S100x8x1024 .f32),
      (⟨Rect.unit ![0, 1, 0] ![100, 1, 1024] i1, k0_pay11 v16 v19⟩ : View.Piece (Elt Ideal) S100x8x1024 .f32),
      (⟨Rect.unit ![0, 0, 0] ![100, 1, 1024] i0, k0_pay10 v16 v19⟩ : View.Piece (Elt Ideal) S100x8x1024 .f32)]

/-- Entry (f, k, l) of the tile at point `t`. -/
theorem tile_at (t : Fin grid0.N)
    (i0 : ∀ a, (![0, 0, 0] : Fin 3 → ℕ) a + (![100, 1, 1024] : Fin 3 → ℕ) a ≤ S100x8x1024.size a)
    (i1 : ∀ a, (![0, 1, 0] : Fin 3 → ℕ) a + (![100, 1, 1024] : Fin 3 → ℕ) a ≤ S100x8x1024.size a)
    (i2 : ∀ a, (![0, 2, 0] : Fin 3 → ℕ) a + (![100, 1, 1024] : Fin 3 → ℕ) a ≤ S100x8x1024.size a)
    (i3 : ∀ a, (![0, 3, 0] : Fin 3 → ℕ) a + (![100, 1, 1024] : Fin 3 → ℕ) a ≤ S100x8x1024.size a)
    (i4 : ∀ a, (![0, 4, 0] : Fin 3 → ℕ) a + (![100, 1, 1024] : Fin 3 → ℕ) a ≤ S100x8x1024.size a)
    (i5 : ∀ a, (![0, 5, 0] : Fin 3 → ℕ) a + (![100, 1, 1024] : Fin 3 → ℕ) a ≤ S100x8x1024.size a)
    (i6 : ∀ a, (![0, 6, 0] : Fin 3 → ℕ) a + (![100, 1, 1024] : Fin 3 → ℕ) a ≤ S100x8x1024.size a)
    (i7 : ∀ a, (![0, 7, 0] : Fin 3 → ℕ) a + (![100, 1, 1024] : Fin 3 → ℕ) a ≤ S100x8x1024.size a)
    (v16 : Vec Ideal S1x100x1024 .f32) (e0 : Vec Ideal S2x100x8 .f32) (xt : FVec Ideal S100x1024 .f32) (eh : FVec Ideal S100x8 .f32)
    (hx : xt = k0_pay8 v16) (he : eh = k0_pay9 (halfLoad t e0)) (f : Fin 100) (k : Fin 8) (l : Fin 1024) :
    View.canon (tilePieces i0 i1 i2 i3 i4 i5 i6 i7 v16 (halfLoad t e0) xt eh) (ix3 f k l)
      = v16 (ix3 (0 : Fin 1) f l) * e0 (ix3 (⟨t.val % 2, Nat.mod_lt _ (by norm_num)⟩ : Fin 2) f k) := by
  subst hx he
  refine (tile_apply8 i0 i1 i2 i3 i4 i5 i6 i7 v16 (halfLoad t e0) (k0_pay8 v16) (k0_pay9 (halfLoad t e0))
    (fun f l => Pay.pay8_apply v16 f l) (fun f k => Pay.pay9_apply (halfLoad t e0) f k) f k l).trans ?_
  exact congrArg (v16 (ix3 (0 : Fin 1) f l) * ·) (halfRead_apply t _ e0 f k)

end Cert.FM.KVal

end
-- ==== Proof.KIValA.lean ====
/-
  The second result's block at the first point.

  There the body copies the first column block into its slot and waits for it, computes the embedding and writes its two
  halves to scratch, reads the block and the first half back, and writes the eight slabs of the output tile.  The
  embedding scratch is from then on what these two stores left, so the tile's entry (f, k, l) is again the block at
  (f, l) times the embedding scratch at (t mod 2, f, k).
-/
import proofs.«166942_g35321811042314_cont_sun_m_1252_29_alg».proof.Proof.KIValAt

set_option maxRecDepth 16384

noncomputable section

namespace Cert.FM.KVal

open Idealize.ShloMosaic Idealize.ShloMosaic.ValueIdx Idealize.ShloMosaic.TcCoe
open Cert.KernelIdeal Cert.KernelIdeal.Gen Cert.KernelIdeal.Body

variable (m : (ℓ : Loc nD τ sig) → Buf (Elt Ideal) ℓ)

/-- The body's load of the point's slot, block `P` landed in it. -/
abbrev slotLoad (t : Fin grid0.N) (P : S100x1024.Idx → Elt Ideal .f32) : Vec Ideal S1x100x1024 .f32 :=
  View.readAt (Elt Ideal) scX.view
    (Rect.unit (s := S2x100x1024) (k0_off10 (grid0.coords t)) S1x100x1024.size (k0_off10_inb (grid0.coords t))).toLoadRect
    ((rslot (sNow t)).view.writes (Elt Ideal) (rslot (sNow t)).view.junk [⟨Rect.whole S100x1024, P⟩])

/-- The tile the run at the first point leaves, at an index. -/
theorem runA_apply (c : Dev nD) (t : Fin cfg0.N) (h0 : t.val = 0) (f : Fin 100) (k : Fin 8) (l : Fin 1024) :
    View.canon (runA (F := Ideal) m c t h0).2.1 (ix3 f k l)
      = (srcB (bNow t)).view.read (Elt Ideal) (V m c main_v0) (ix2 f l)
        * Ev m c (ix3 (⟨t.val % 2, Nat.mod_lt _ (by norm_num)⟩ : Fin 2) f k) := by
  obtain rfl : t = t₀ := Fin.ext h0
  unfold Ev runA kernelRun_A
  dsimp only
  have h1 : slotLoad t₀ (kernelRun_A.sl.dma0 c t₀ (V m c main_v0)) (ix3 (0 : Fin 1) f l)
      = (srcB (bNow t₀)).view.read (Elt Ideal) (V m c main_v0) (ix2 f l) :=
    slotRead_apply c t₀ _ _ f l
  have h2 : kernelRun_A.sl.v19 (F := Ideal) c t₀ (ms1 t₀) (hs1 t₀) (ms2 t₀) (hs2 t₀) (iblk m c 1 t₀) (iblk m c 2 t₀) (ix3 (0 : Fin 1) f k)
      = View.canon (kernelRun_A.sl.HE_2 c (ms1 t₀) (hs1 t₀) (ms2 t₀) (hs2 t₀) (iblk m c 1 t₀) (iblk m c 2 t₀))
          (ix3 (⟨t₀.val % 2, Nat.mod_lt _ (by norm_num)⟩ : Fin 2) f k) := by
    unfold kernelRun_A.sl.v19
    exact (congrFun (View.readAt_writes_junk_eq_canon scE.view _ _) _).trans (congrArg (View.canon _) (halfIdx t₀ _ f k))
  have hT := tile_apply8 inb_S100x8x1024_S100x1x1024_0_0_0 inb_S100x8x1024_S100x1x1024_0_1_0 inb_S100x8x1024_S100x1x1024_0_2_0 inb_S100x8x1024_S100x1x1024_0_3_0 inb_S100x8x1024_S100x1x1024_0_4_0 inb_S100x8x1024_S100x1x1024_0_5_0 inb_S100x8x1024_S100x1x1024_0_6_0 inb_S100x8x1024_S100x1x1024_0_7_0
    (slotLoad t₀ (kernelRun_A.sl.dma0 c t₀ (V m c main_v0)))
    (kernelRun_A.sl.v19 c t₀ (ms1 t₀) (hs1 t₀) (ms2 t₀) (hs2 t₀) (iblk m c 1 t₀) (iblk m c 2 t₀))
    (k0_pay8 (slotLoad t₀ (kernelRun_A.sl.dma0 c t₀ (V m c main_v0))))
    (k0_pay9 (kernelRun_A.sl.v19 c t₀ (ms1 t₀) (hs1 t₀) (ms2 t₀) (hs2 t₀) (iblk m c 1 t₀) (iblk m c 2 t₀)))
    (fun f l => Pay.pay8_apply (slotLoad t₀ (kernelRun_A.sl.dma0 c t₀ (V m c main_v0))) f l)
    (fun f k => Pay.pay9_apply (kernelRun_A.sl.v19 c t₀ (ms1 t₀) (hs1 t₀) (ms2 t₀) (hs2 t₀) (iblk m c 1 t₀) (iblk m c 2 t₀)) f k)
    f k l
  rw [h1, h2] at hT
  exact hT

end Cert.FM.KVal

end
-- ==== Proof.KIValB.lean ====
/-
  The second result's block at an even point after the first.

  There the body waits for the column block to land in its slot, reads it and the first half of the embedding from
  scratch, and writes the eight slabs of the output tile: entry (f, k, l) of the tile is the block at (f, l) times the
  embedding scratch at (t mod 2, f, k).
-/
import proofs.«166942_g35321811042314_cont_sun_m_1252_29_alg».proof.Proof.KIValAt

set_option maxRecDepth 16384

noncomputable section

namespace Cert.FM.KVal

open Idealize.ShloMosaic Idealize.ShloMosaic.ValueIdx Idealize.ShloMosaic.TcCoe
open Cert.KernelIdeal Cert.KernelIdeal.Gen Cert.KernelIdeal.Body

variable (m : (ℓ : Loc nD τ sig) → Buf (Elt Ideal) ℓ)

/-- The tile the run at an even point after the first leaves, at an index. -/
theorem runB_apply (c : Dev nD) (t : Fin cfg0.N) (h0 : t.val ≠ 0) (he : t.val % 2 = 0) (f : Fin 100) (k : Fin 8) (l : Fin 1024) :
    View.canon (runB (F := Ideal) m c t h0 he).2.1 (ix3 f k l)
      = (srcB (bNow t)).view.read (Elt Ideal) (V m c main_v0) (ix2 f l)
        * Ev m c (ix3 (⟨t.val % 2, Nat.mod_lt _ (by norm_num)⟩ : Fin 2) f k) := by
  unfold runB kernelRun_B
  dsimp only
  have h1 := tile_at t inb_S100x8x1024_S100x1x1024_0_0_0 inb_S100x8x1024_S100x1x1024_0_1_0 inb_S100x8x1024_S100x1x1024_0_2_0 inb_S100x8x1024_S100x1x1024_0_3_0 inb_S100x8x1024_S100x1x1024_0_4_0 inb_S100x8x1024_S100x1x1024_0_5_0 inb_S100x8x1024_S100x1x1024_0_6_0 inb_S100x8x1024_S100x1x1024_0_7_0 (kernelRun_B.sl.v16 (F := Ideal) c t (V m c main_v0)) (Ev m c)
    (k0_pay8 (kernelRun_B.sl.v16 c t (V m c main_v0))) (k0_pay9 (halfLoad t (Ev m c))) rfl rfl f k l
  have h3 : kernelRun_B.sl.v16 (F := Ideal) c t (V m c main_v0) (ix3 (0 : Fin 1) f l)
      = (srcB (bNow t)).view.read (Elt Ideal) (V m c main_v0) (ix2 f l) := by
    unfold kernelRun_B.sl.v16
    exact slotRead_apply c t _ _ f l
  rw [h3] at h1
  exact h1

end Cert.FM.KVal

end
-- ==== Proof.KIValC.lean ====
/-
  The second result's block at an odd point before the last.

  There the body reads the column block landed in its slot and the second half of the embedding from scratch, and
  writes the eight slabs of the output tile: entry (f, k, l) of the tile is the block at (f, l) times the embedding
  scratch at (t mod 2, f, k).
-/
import proofs.«166942_g35321811042314_cont_sun_m_1252_29_alg».proof.Proof.KIValAt

set_option maxRecDepth 16384

noncomputable section

namespace Cert.FM.KVal

open Idealize.ShloMosaic Idealize.ShloMosaic.ValueIdx Idealize.ShloMosaic.TcCoe
open Cert.KernelIdeal Cert.KernelIdeal.Gen Cert.KernelIdeal.Body

variable (m : (ℓ : Loc nD τ sig) → Buf (Elt Ideal) ℓ)

/-- The tile the run at an odd point before the last leaves, at an index. -/
theorem runC_apply (c : Dev nD) (t : Fin cfg0.N) (ho : t.val % 2 = 1) (hl : t.val < 31) (f : Fin 100) (k : Fin 8) (l : Fin 1024) :
    View.canon (runC (F := Ideal) m c t ho hl).1 (ix3 f k l)
      = (srcB (bNow t)).view.read (Elt Ideal) (V m c main_v0) (ix2 f l)
        * Ev m c (ix3 (⟨t.val % 2, Nat.mod_lt _ (by norm_num)⟩ : Fin 2) f k) := by
  unfold runC kernelRun_C
  dsimp only
  have h1 := tile_at t inb_S100x8x1024_S100x1x1024_0_0_0 inb_S100x8x1024_S100x1x1024_0_1_0 inb_S100x8x1024_S100x1x1024_0_2_0 inb_S100x8x1024_S100x1x1024_0_3_0 inb_S100x8x1024_S100x1x1024_0_4_0 inb_S100x8x1024_S100x1x1024_0_5_0 inb_S100x8x1024_S100x1x1024_0_6_0 inb_S100x8x1024_S100x1x1024_0_7_0 (kernelRun_C.sl.v16 (F := Ideal) c t (V m c main_v0)) (Ev m c)
    (k0_pay8 (kernelRun_C.sl.v16 c t (V m c main_v0))) (k0_pay9 (halfLoad t (Ev m c))) rfl rfl f k l
  have h3 : kernelRun_C.sl.v16 (F := Ideal) c t (V m c main_v0) (ix3 (0 : Fin 1) f l)
      = (srcB (bNow t)).view.read (Elt Ideal) (V m c main_v0) (ix2 f l) := by
    unfold kernelRun_C.sl.v16
    exact slotRead_apply c t _ _ f l
  rw [h3] at h1
  exact h1

end Cert.FM.KVal

end
-- ==== Proof.KIValD.lean ====
/-
  The second result's block at the last point.

  There the body reads the column block landed in its slot and the second half of the embedding from scratch, starts no
  copy, and writes the eight slabs of the output tile: entry (f, k, l) of the tile is the block at (f, l) times the
  embedding scratch at (t mod 2, f, k).
-/
import proofs.«166942_g35321811042314_cont_sun_m_1252_29_alg».proof.Proof.KIValAt

set_option maxRecDepth 16384

noncomputable section

namespace Cert.FM.KVal

open Idealize.ShloMosaic Idealize.ShloMosaic.ValueIdx Idealize.ShloMosaic.TcCoe
open Cert.KernelIdeal Cert.KernelIdeal.Gen Cert.KernelIdeal.Body

variable (m : (ℓ : Loc nD τ sig) → Buf (Elt Ideal) ℓ)

/-- The tile the run at the last point leaves, at an index. -/
theorem runD_apply (c : Dev nD) (t : Fin cfg0.N) (ho : t.val % 2 = 1) (hl : ¬ t.val < 31) (f : Fin 100) (k : Fin 8) (l : Fin 1024) :
    View.canon (runD (F := Ideal) m c t ho hl).1 (ix3 f k l)
      = (srcB (bNow t)).view.read (Elt Ideal) (V m c main_v0) (ix2 f l)
        * Ev m c (ix3 (⟨t.val % 2, Nat.mod_lt _ (by norm_num)⟩ : Fin 2) f k) := by
  unfold runD kernelRun_D
  dsimp only
  have h1 := tile_at t inb_S100x8x1024_S100x1x1024_0_0_0 inb_S100x8x1024_S100x1x1024_0_1_0 inb_S100x8x1024_S100x1x1024_0_2_0 inb_S100x8x1024_S100x1x1024_0_3_0 inb_S100x8x1024_S100x1x1024_0_4_0 inb_S100x8x1024_S100x1x1024_0_5_0 inb_S100x8x1024_S100x1x1024_0_6_0 inb_S100x8x1024_S100x1x1024_0_7_0 (kernelRun_D.sl.v16 (F := Ideal) c t (V m c main_v0)) (Ev m c)
    (k0_pay8 (kernelRun_D.sl.v16 c t (V m c main_v0))) (k0_pay9 (halfLoad t (Ev m c))) rfl rfl f k l
  have h3 : kernelRun_D.sl.v16 (F := Ideal) c t (V m c main_v0) (ix3 (0 : Fin 1) f l)
      = (srcB (bNow t)).view.read (Elt Ideal) (V m c main_v0) (ix2 f l) := by
    unfold kernelRun_D.sl.v16
    exact slotRead_apply c t _ _ f l
  rw [h3] at h1
  exact h1

end Cert.FM.KVal

end
-- ==== Proof.KIHostBlk.lean ====
/-
  The blocks the kernel's body is handed, read at an index.

  The three staged inputs — the weight column, `V` and the field-index column — have one block each, the whole array,
  at block index `(0, 0)` at every grid point; so the block at any point reads the array itself.  The transposed input
  is not staged: the body copies, for batch chunk `b`, the `[100, 1024]` rectangle of columns `1024 b … 1024 b + 1023`,
  whose entry `(f, l)` is entry `(1024 b + l, f)` of the input.
-/
import proofs.«166942_g35321811042314_cont_sun_m_1252_29_alg».proof.Proof.KIHostPre
import proofs.«166942_g35321811042314_cont_sun_m_1252_29_alg».proof.Proof.KIRing

set_option maxRecDepth 16384

noncomputable section

namespace Cert.FM.KHost

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ)

/-- The three input windows sit at block index `(0, 0)` at every grid point. -/
theorem idx_in : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The staged inputs -/

/-- The weight column's block at any point: entry `(f, 0)` is weight `f`. -/
theorem iblk0_apply (c : Dev nD) (t : Fin cfg0.N) (f : Fin 100) :
    (iblk m c 0 t : S100x1.Idx → EReal) (ix2 f (0 : Fin 1)) = (m ((c : Thread nD τ).loc main_arg1) : S100.Idx → EReal) (ix1 f) := by
  obtain ⟨e0, e1, -⟩ := idx_in t
  have h : ((cfg0.win 0).blk t).view.emb (ix2 f (0 : Fin 1)) = (ix2 f (0 : Fin 1) : S100x1.Idx) := by
    funext a; apply Fin.ext
    match a with
    | ⟨0, _⟩ => show win0_0.index t (0 : Fin 2) * 100 + 1 * f.val = f.val; omega
    | ⟨1, _⟩ => show win0_0.index t (1 : Fin 2) * 1 + 1 * 0 = 0; omega
  show (V m c main_v1 : S100x1.Idx → EReal) (((cfg0.win 0).blk t).view.emb (ix2 f (0 : Fin 1))) = _
  rw [h]
  exact V_main_v1_apply m c f

/-- The block of `V` at any point is `V`. -/
theorem iblk1_eq (c : Dev nD) (t : Fin cfg0.N) :
    (iblk m c 1 t : S26x16.Idx → EReal) = (m ((c : Thread nD τ).loc main_arg2) : S26x16.Idx → EReal) := by
  obtain ⟨-, -, e2, e3, -⟩ := idx_in t
  funext j
  have h : ((cfg0.win 1).blk t).view.emb j = (j : S26x16.Idx) := by
    funext a; apply Fin.ext
    match a with
    | ⟨0, _⟩ => show win0_1.index t (0 : Fin 2) * 26 + 1 * (j 0).val = (j 0).val; omega
    | ⟨1, _⟩ => show win0_1.index t (1 : Fin 2) * 16 + 1 * (j 1).val = (j 1).val; omega
  show (V m c main_arg2 : S26x16.Idx → EReal) (((cfg0.win 1).blk t).view.emb j) = _
  rw [h, V_main_arg2]

/-- The field-index column's block at any point: entry `(f, 0)` is field index `f`. -/
theorem iblk2_apply (c : Dev nD) (t : Fin cfg0.N) (f : Fin 100) :
    (iblk m c 2 t : S100x1.Idx → BitVec 32) (ix2 f (0 : Fin 1)) = (m ((c : Thread nD τ).loc main_arg3) : S100.Idx → BitVec 32) (ix1 f) := by
  obtain ⟨-, -, -, -, e4, e5⟩ := idx_in t
  have h : ((cfg0.win 2).blk t).view.emb (ix2 f (0 : Fin 1)) = (ix2 f (0 : Fin 1) : S100x1.Idx) := by
    funext a; apply Fin.ext
    match a with
    | ⟨0, _⟩ => show win0_2.index t (0 : Fin 2) * 100 + 1 * f.val = f.val; omega
    | ⟨1, _⟩ => show win0_2.index t (1 : Fin 2) * 1 + 1 * 0 = 0; omega
  show (V m c main_v2 : S100x1.Idx → BitVec 32) (((cfg0.win 2).blk t).view.emb (ix2 f (0 : Fin 1))) = _
  rw [h]
  exact V_main_v2_apply m c f

/-! ## A batch chunk of the transposed input -/

/-- Entry `(f, l)` of batch chunk `b` of the transposed input is entry `(1024 b + l, f)` of the input. -/
theorem srcB_apply (c : Dev nD) (b : Fin 16) (f : Fin 100) (l : Fin 1024) :
    (Body.srcB b).view.read (Elt Ideal) (V m c main_v0) (ix2 f l)
      = (m ((c : Thread nD τ).loc main_arg0) : S16384x100.Idx → EReal)
          (ix2 ⟨1024 * b.val + l.val, by have := b.isLt; have := l.isLt; omega⟩ f) := by
  have h : (Body.srcB b).view.emb (ix2 f l)
      = (ix2 f ⟨1024 * b.val + l.val, by have := b.isLt; have := l.isLt; omega⟩ : S100x16384.Idx) := by
    funext a; apply Fin.ext
    match a with
    | ⟨0, _⟩ => show 0 + 1 * f.val = f.val; omega
    | ⟨1, _⟩ => show 1024 * b.val + 1 * l.val = 1024 * b.val + l.val; omega
  show (V m c main_v0 : S100x16384.Idx → EReal) ((Body.srcB b).view.emb (ix2 f l)) = _
  rw [h]
  exact V_main_v0_apply m c f _

end Cert.FM.KHost

end
-- ==== Proof.LibConcatCols.lean ====
/-
  Two matrices with the same rows laid side by side, read at an index.

  The concatenation of an [n, a] and an [n, b] matrix along axis 1 is the [n, a + b] matrix whose row r is the first
  matrix's row r followed by the second's: entry (r, k) is the first matrix at (r, k) when k < a, and the second at
  (r, k − a) otherwise.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type}

/-- Entry (r, k) of two matrices laid side by side: the left one below column a, the right one from column a on. -/
theorem concat_cols_apply {n a b t : ℕ} (ht : t = a + b) (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, t]⟩ : Shape) 1) (r : Fin n) (k : Fin t) :
    concatenate (⟨2, ![n, t]⟩ : Shape) 1 [⟨(⟨2, ![n, a]⟩ : Shape), x₁⟩, ⟨(⟨2, ![n, b]⟩ : Shape), x₂⟩] h (ix2 r k)
      = if hk : k.val < a then x₁ (ix2 r ⟨k.val, hk⟩) else x₂ (ix2 r ⟨k.val - a, by have := k.isLt; omega⟩) := by
  split
  · rename_i hk
    exact concatenate_pair_apply_left (1 : Fin 2) x₁ x₂ h (ix2 r k) rfl (ix2 r ⟨k.val, hk⟩) (fun ax => by
      match ax with
      | ⟨0, _⟩ => rfl
      | ⟨1, _⟩ => rfl)
  · rename_i hk
    exact concatenate_pair_apply_right (1 : Fin 2) x₁ x₂ h (ix2 r k) rfl rfl (ix2 r ⟨k.val - a, by have := k.isLt; omega⟩)
      (fun ax hax => by
        match ax with
        | ⟨0, _⟩ => rfl
        | ⟨1, _⟩ => exact absurd rfl hax)
      (by show (k.val - a) + a = k.val; omega)

end Idealize.ShloMosaic.ConcatCols

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibRealEntries.lean ====
/-
  Extended reals that are real numbers, and the two laws a graph-convolution network with a log-softmax needs of them.

  On the extended reals the product does not distribute over the sum once an infinity is involved, and a difference
  cannot be regrouped across one; both hold when every term is a real number. The real numbers are closed under
  the sum, the product, the difference, the maximum and finite sums, a maximum taken from the bottom element over a
  non-empty family of reals is a real, and the sum of the exponentials of real numbers is a positive real, whose
  logarithm is again a real. So: a row of sums against weights splits termwise, `∑ (a + b) · w = ∑ a · w + ∑ b · w`,
  and the two usual spellings of a row's log-softmax, `x − (log Σ + m)` and `(x − m) − log Σ`, agree.
-/
import Idealize.ShloMosaic.PureOps.Ideal

noncomputable section

open scoped BigOperators

namespace Cert.Lib.RealEntries

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (g : ι → ℝ) : ((∑ i ∈ s, g i : ℝ) : EReal) = ∑ i ∈ s, (g i : EReal) := by
  classical
  induction s using Finset.induction_on with
  | empty => rw [Finset.sum_empty, Finset.sum_empty, EReal.coe_zero]
  | insert a s ha ih => rw [Finset.sum_insert ha, Finset.sum_insert ha, EReal.coe_add, ih]

/-- Among real numbers the product distributes over the sum. -/
theorem add_mul_of_isReal {a b w : EReal} (ha : IsReal a) (hb : IsReal b) (hw : IsReal w) : (a + b) * w = a * w + b * w := by
  obtain ⟨a, rfl⟩ := ha; obtain ⟨b, rfl⟩ := hb; obtain ⟨w, rfl⟩ := hw
  rw [← EReal.coe_add, ← EReal.coe_mul, ← EReal.coe_mul, ← EReal.coe_mul, ← EReal.coe_add, add_mul]

/-- A ROW OF SUMS AGAINST WEIGHTS splits: `∑ (a + b) · w = ∑ a · w + ∑ b · w` when every entry is a real number. -/
theorem sum_add_mul {ι : Type*} (s : Finset ι) (a b w : ι → EReal) (ha : ∀ i, IsReal (a i)) (hb : ∀ i, IsReal (b i))
    (hw : ∀ i, IsReal (w i)) : ∑ i ∈ s, (a i + b i) * w i = ∑ i ∈ s, a i * w i + ∑ i ∈ s, b i * w i := by
  rw [← Finset.sum_add_distrib]
  exact Finset.sum_congr rfl fun i _ => add_mul_of_isReal (ha i) (hb i) (hw i)

/-- The maximum, taken from the bottom element, of a non-empty family of real numbers is a real number. -/
theorem isReal_fold_max {n : ℕ} (f : Fin (n + 1) → EReal) (hf : ∀ k, IsReal (f k)) :
    IsReal ((Finset.univ : Finset (Fin (n + 1))).fold max ⊥ f) := by
  rw [isReal_iff]
  constructor
  · have h0 : f 0 ≤ (Finset.univ : Finset (Fin (n + 1))).fold max ⊥ f :=
      (Finset.le_fold_max (f 0)).2 (Or.inr ⟨0, Finset.mem_univ _, le_rfl⟩)
    intro hb
    rw [hb] at h0
    exact (isReal_iff.mp (hf 0)).1 (le_bot_iff.mp h0)
  · have h1 : (Finset.univ : Finset (Fin (n + 1))).fold max ⊥ f < ⊤ :=
      (Finset.fold_max_lt ⊤).2 ⟨bot_lt_top, fun k _ => lt_top_iff_ne_top.mpr (isReal_iff.mp (hf k)).2⟩
    exact h1.ne

/-- The exponentials of a non-empty row of real numbers, each shifted by a real number, sum to a positive real. -/
theorem sum_exp_pos {n : ℕ} (f : Fin (n + 1) → EReal) (hf : ∀ k, IsReal (f k)) {M : EReal} (hM : IsReal M) :
    ∃ s : ℝ, 0 < s ∧ ∑ k : Fin (n + 1), Ideal.exp (f k - M) = (s : EReal) := by
  obtain ⟨m, rfl⟩ := hM
  choose g hg using hf
  refine ⟨∑ k : Fin (n + 1), Real.exp (g k - m), Finset.sum_pos (fun k _ => Real.exp_pos _) Finset.univ_nonempty, ?_⟩
  rw [coe_sum]
  refine Finset.sum_congr rfl fun k _ => ?_
  rw [hg k, ← EReal.coe_sub]
  rfl

/-- The logarithm of that sum is a real number. -/
theorem isReal_log_sum_exp {n : ℕ} (f : Fin (n + 1) → EReal) (hf : ∀ k, IsReal (f k)) {M : EReal} (hM : IsReal M) :
    IsReal (Ideal.log (∑ k : Fin (n + 1), Ideal.exp (f k - M))) := by
  obtain ⟨s, hs, e⟩ := sum_exp_pos f hf hM
  rw [e]
  refine ⟨Real.log s, ?_⟩
  show (if s ≤ 0 then (⊥ : EReal) else ((Real.log s : ℝ) : EReal)) = _
  rw [if_neg (not_le.mpr hs)]

/-- THE TWO SPELLINGS OF A ROW'S LOG-SOFTMAX agree on real numbers: the entry less (the logarithm of the shifted
    exponentials' sum plus the shift) is the shifted entry less that logarithm. -/
theorem logSoftmax_regroup {x L M : EReal} (hx : IsReal x) (hL : IsReal L) (hM : IsReal M) : x - (L + M) = (x - M) - L := by
  obtain ⟨a, rfl⟩ := hx; obtain ⟨l, rfl⟩ := hL; obtain ⟨m, rfl⟩ := hM
  rw [← EReal.coe_add, ← EReal.coe_sub, ← EReal.coe_sub, ← EReal.coe_sub]
  congr 1
  ring

end Cert.Lib.RealEntries

end
-- ==== Proof.Algebra.lean ====
/-
  The arithmetic of the factorization-machine component on the extended reals.

  One program sums the scaled embedding entries `x b f * E f e` over both `f` and `e`; the other first sums each
  embedding row, `Σ_e E f e`, and then contracts the row sums against `x b ·`.  The two agree because a real factor
  may be taken out of a finite sum of reals: on the extended reals the product does not distribute over a sum that
  involves an infinity, which is why every entry is assumed to be a real number.  The same is said of the squares.
  Last, a row of `V` selected by a field index is the contraction of `V` against the indicator of that index: exactly
  one of the 26 indicator entries is one, the others are zero.
-/
import Idealize.ShloMosaic.PureOps.Ideal
import Idealize.ShloMosaic.Lib.ValueIdx
import proofs.«166942_g35321811042314_cont_sun_m_1252_29_alg».proof.Proof.Spec
import proofs.«166942_g35321811042314_cont_sun_m_1252_29_alg».proof.Proof.LibRealEntries

noncomputable section

open scoped BigOperators

namespace Cert.FM

open Idealize.ShloMosaic Idealize.ShloMosaic.ValueIdx Cert.Lib.RealEntries

/-! ## A real factor and a finite sum of reals -/

/-- A real factor goes into a finite sum of reals, termwise (the factor written on the right of the sum, on the left
    of each term). -/
theorem sum_mul_of_real {ι : Type*} (s : Finset ι) (E : ι → EReal) (c : EReal)
    (hE : ∀ i, ∃ r : ℝ, E i = (r : EReal)) (hc : ∃ r : ℝ, c = (r : EReal)) :
    (∑ i ∈ s, E i) * c = ∑ i ∈ s, c * E i := by
  obtain ⟨c, rfl⟩ := hc
  choose g hg using hE
  obtain rfl : E = fun i => ((g i : ℝ) : EReal) := funext hg
  rw [(coe_sum s g).symm, ← EReal.coe_mul, Finset.sum_mul, coe_sum]
  refine Finset.sum_congr rfl fun i _ => ?_
  rw [← EReal.coe_mul, mul_comm]

/-- (a) Row sums contracted against the factors are the double sum of the products. -/
theorem sum_rowsum_mul {m n : ℕ} (E : Fin m → Fin n → EReal) (X : Fin m → EReal)
    (hE : ∀ f e, ∃ r : ℝ, E f e = (r : EReal)) (hX : ∀ f, ∃ r : ℝ, X f = (r : EReal)) :
    ∑ f, (∑ e, E f e) * X f = ∑ f, ∑ e, X f * E f e :=
  Finset.sum_congr rfl fun f _ => sum_mul_of_real Finset.univ (E f) (X f) (hE f) (hX f)

/-- (b) The same for the squares: the row sums of the squared entries against the squared factors are the double
    sum of the squared products. -/
theorem sum_rowsumsq_mul {m n : ℕ} (E : Fin m → Fin n → EReal) (X : Fin m → EReal)
    (hE : ∀ f e, ∃ r : ℝ, E f e = (r : EReal)) (hX : ∀ f, ∃ r : ℝ, X f = (r : EReal)) :
    ∑ f, (∑ e, E f e * E f e) * (X f * X f) = ∑ f, ∑ e, (X f * E f e) * (X f * E f e) := by
  refine Finset.sum_congr rfl fun f _ => ?_
  rw [sum_mul_of_real Finset.univ (fun e => E f e * E f e) (X f * X f)
    (fun e => IsReal.mul (hE f e) (hE f e)) (IsReal.mul (hX f) (hX f))]
  exact Finset.sum_congr rfl fun e _ => mul_mul_mul_comm _ _ _ _

/-- (a) with an accumulator that starts at zero. -/
theorem zero_add_sum_rowsum_mul {m n : ℕ} (E : Fin m → Fin n → EReal) (X : Fin m → EReal)
    (hE : ∀ f e, ∃ r : ℝ, E f e = (r : EReal)) (hX : ∀ f, ∃ r : ℝ, X f = (r : EReal)) :
    0 + ∑ f, (∑ e, E f e) * X f = ∑ f, ∑ e, X f * E f e := by
  rw [zero_add, sum_rowsum_mul E X hE hX]

/-- (b) with an accumulator that starts at zero. -/
theorem zero_add_sum_rowsumsq_mul {m n : ℕ} (E : Fin m → Fin n → EReal) (X : Fin m → EReal)
    (hE : ∀ f e, ∃ r : ℝ, E f e = (r : EReal)) (hX : ∀ f, ∃ r : ℝ, X f = (r : EReal)) :
    0 + ∑ f, (∑ e, E f e * E f e) * (X f * X f) = ∑ f, ∑ e, (X f * E f e) * (X f * E f e) := by
  rw [zero_add, sum_rowsumsq_mul E X hE hX]

/-! ## The indicator of a field index, contracted against `V` -/

/-- A family that is one at `r` and zero elsewhere, contracted against `v`, is `v r`. -/
theorem sum_indicator_mul {n : ℕ} (c v : Fin n → EReal) (r : Fin n) (hc : ∀ k, c k = if k = r then 1 else 0) :
    ∑ k, c k * v k = v r := by
  rw [Finset.sum_eq_single r]
  · rw [hc r, if_pos rfl, one_mul]
  · intro k _ hk
    rw [hc k, if_neg hk, zero_mul]
  · intro h
    exact absurd (Finset.mem_univ r) h

/-- A field index below 26 is the 32-bit word of exactly one `k : Fin 26`, the row it reads. -/
theorem eq_ofNat_iff_row (fi : SW.Idx → BitVec 32) (f : Fin 100) (hf : (fi (ix1 f)).toNat < 26) (k : Fin 26) :
    fi (ix1 f) = BitVec.ofNat 32 k.val ↔ k = row fi f := by
  have hrow : (row fi f).val = (fi (ix1 f)).toNat := Nat.mod_eq_of_lt hf
  have hk : k.val < 26 := k.isLt
  constructor
  · intro h
    refine Fin.ext ?_
    rw [hrow, h, BitVec.toNat_ofNat]
    exact (Nat.mod_eq_of_lt (by omega)).symm
  · intro h
    refine BitVec.eq_of_toNat_eq ?_
    rw [BitVec.toNat_ofNat, h, hrow]
    exact (Nat.mod_eq_of_lt (by omega)).symm

/-- The indicator of the field index of feature `f`, as the 26 comparisons with the row numbers print it. -/
def oh (fi : SW.Idx → BitVec 32) (f : Fin 100) (k : Fin 26) : EReal :=
  if fi (ix1 f) = BitVec.ofNat 32 k.val then 1 else 0

/-- (c) THE ONE-HOT CONTRACTION: the indicator of the field index against column `e` of `V` is the embedding entry. -/
theorem sum_oh_mul (V : SV.Idx → EReal) (fi : SW.Idx → BitVec 32) (f : Fin 100) (hf : (fi (ix1 f)).toNat < 26)
    (e : Fin 16) : ∑ k : Fin 26, oh fi f k * V (ix2 k e) = emb V fi f e := by
  refine sum_indicator_mul (fun k => oh fi f k) (fun k => V (ix2 k e)) (row fi f) fun k => ?_
  unfold oh
  by_cases h : k = row fi f
  · rw [if_pos h, if_pos ((eq_ofNat_iff_row fi f hf k).mpr h)]
  · rw [if_neg h, if_neg fun h' => h ((eq_ofNat_iff_row fi f hf k).mp h')]

/-- (c) with an accumulator that starts at zero. -/
theorem zero_add_sum_oh_mul (V : SV.Idx → EReal) (fi : SW.Idx → BitVec 32) (f : Fin 100)
    (hf : (fi (ix1 f)).toNat < 26) (e : Fin 16) : 0 + ∑ k : Fin 26, oh fi f k * V (ix2 k e) = emb V fi f e := by
  rw [zero_add, sum_oh_mul V fi f hf e]

/-- (c) with the indicator written out. -/
theorem sum_ite_mul (V : SV.Idx → EReal) (fi : SW.Idx → BitVec 32) (f : Fin 100) (hf : (fi (ix1 f)).toNat < 26)
    (e : Fin 16) :
    ∑ k : Fin 26, (if fi (ix1 f) = BitVec.ofNat 32 k.val then (1 : EReal) else 0) * V (ix2 k e) = emb V fi f e :=
  sum_oh_mul V fi f hf e

/-- (c) with the indicator written out and an accumulator that starts at zero. -/
theorem zero_add_sum_ite_mul (V : SV.Idx → EReal) (fi : SW.Idx → BitVec 32) (f : Fin 100)
    (hf : (fi (ix1 f)).toNat < 26) (e : Fin 16) :
    0 + ∑ k : Fin 26, (if fi (ix1 f) = BitVec.ofNat 32 k.val then (1 : EReal) else 0) * V (ix2 k e) = emb V fi f e :=
  zero_add_sum_oh_mul V fi f hf e

/-! ## On the domain -/

section OnDomain
variable {x : SX.Idx → EReal} {w : SW.Idx → EReal} {V : SV.Idx → EReal} {fi : SW.Idx → BitVec 32}

/-- On the domain every embedding entry is a real number. -/
theorem emb_real (h : InDomain x w V fi) (f : Fin 100) (e : Fin 16) : ∃ r : ℝ, emb V fi f e = (r : EReal) :=
  h.V_real _

/-- On the domain every scaled embedding entry is a real number. -/
theorem term_real (h : InDomain x w V fi) (b : Fin 16384) (f : Fin 100) (e : Fin 16) :
    ∃ r : ℝ, term x V fi b f e = (r : EReal) :=
  IsReal.mul (h.x_real _) (emb_real h f e)

/-- On the domain the embedding entry is the one-hot contraction. -/
theorem sum_oh_mul_of_inDomain (h : InDomain x w V fi) (f : Fin 100) (e : Fin 16) :
    ∑ k : Fin 26, oh fi f k * V (ix2 k e) = emb V fi f e :=
  sum_oh_mul V fi f (h.fi_lt f) e

/-- (a) on the domain: the embedding row sums against row `b` of `x` are the sum of the scaled embedding entries. -/
theorem sum_rowsum_emb_mul (h : InDomain x w V fi) (b : Fin 16384) :
    ∑ f : Fin 100, (∑ e : Fin 16, emb V fi f e) * x (ix2 b f) = total x V fi b :=
  sum_rowsum_mul (fun f e => emb V fi f e) (fun f => x (ix2 b f)) (fun f e => emb_real h f e) (fun _ => h.x_real _)

/-- (b) on the domain: the row sums of the squared embedding entries against the squares of row `b` of `x` are the
    sum of the squared scaled embedding entries. -/
theorem sum_rowsumsq_emb_mul (h : InDomain x w V fi) (b : Fin 16384) :
    ∑ f : Fin 100, (∑ e : Fin 16, emb V fi f e * emb V fi f e) * (x (ix2 b f) * x (ix2 b f)) = totalSq x V fi b :=
  sum_rowsumsq_mul (fun f e => emb V fi f e) (fun f => x (ix2 b f)) (fun f e => emb_real h f e) (fun _ => h.x_real _)

/-- (a) on the domain, the accumulator starting at zero. -/
theorem zero_add_sum_rowsum_emb_mul (h : InDomain x w V fi) (b : Fin 16384) :
    0 + ∑ f : Fin 100, (∑ e : Fin 16, emb V fi f e) * x (ix2 b f) = total x V fi b := by
  rw [zero_add, sum_rowsum_emb_mul h b]

/-- (b) on the domain, the accumulator starting at zero. -/
theorem zero_add_sum_rowsumsq_emb_mul (h : InDomain x w V fi) (b : Fin 16384) :
    0 + ∑ f : Fin 100, (∑ e : Fin 16, emb V fi f e * emb V fi f e) * (x (ix2 b f) * x (ix2 b f)) = totalSq x V fi b := by
  rw [zero_add, sum_rowsumsq_emb_mul h b]

/-- The linear term, the accumulator starting at zero. -/
theorem zero_add_lin (b : Fin 16384) : 0 + ∑ f : Fin 100, w (ix1 f) * x (ix2 b f) = lin x w b := by
  rw [zero_add]; rfl

end OnDomain

end Cert.FM

end
-- ==== Proof.KIPayEmb.lean ====
/-
  The kernel's embedding table read at an index.

  The body builds, for each feature `f`, the indicator of its field index among the 26 row numbers of `V` — the
  comparison of the index with the lane number, widened and converted to a float: one where they agree, zero elsewhere —
  and multiplies the `[100, 26]` indicator matrix by `V : [26, 16]` into a zero accumulator:

      E (f, e) = Σ_k [fi f = k] * V (k, e),

  which is row `fi f` of `V` when the index is below 26.  The two halves of `E` (columns 0–7 and 8–15) are stored under
  a leading unit axis.
-/
import proofs.«166942_g35321811042314_cont_sun_m_1252_29_alg».proof.Proof.Gen.KernelIdeal.Skeleton
import Idealize.ShloMosaic.Lib.ValueIdx
import Idealize.ShloMosaic.Lib.ValueLayout
import Idealize.ShloMosaic.Lib.Affine
import proofs.«166942_g35321811042314_cont_sun_m_1252_29_alg».proof.Proof.LibDotPlain
import proofs.«166942_g35321811042314_cont_sun_m_1252_29_alg».proof.Proof.KIPayTile
import proofs.«166942_g35321811042314_cont_sun_m_1252_29_alg».proof.Proof.Algebra

noncomputable section

open scoped BigOperators

namespace Cert.FM.Pay

open Idealize.ShloMosaic Idealize.ShloMosaic.ValueIdx Cert.KernelIdeal Cert.KernelIdeal.Gen

/-! ## The indicator entry -/

/-- The comparison bit of two words, widened to 32 bits and converted to a float, is one when they agree and zero
    otherwise. -/
theorem sitofp_cmpi_eq (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · have e : ((1#1 : BitVec 1).setWidth 32).toInt = 1 := by decide
    rw [IntOp.cmpi_eq.mpr h, if_pos h, e]
    simp
  · have e : ((0#1 : BitVec 1).setWidth 32).toInt = 0 := by decide
    rw [eq_zero_of_ne_one (mt IntOp.cmpi_eq.mp h), if_neg h, e]
    simp

/-- The indicator matrix at `(f, k)`: the field index of `f` compared with the lane number `k`. -/
theorem indicator_apply (fi2 : IVec S100x1 32) (hc : S100x1.ShapeCasts S100x1) (hi : S100x26.Iotas .tc 32 [1])
    (hb : S100x1.Broadcasts S100x26) (hw : 1 < 32) (f : Fin 100) (k : Fin 26) :
    (sitofp (F := Ideal) .f32 (extui 32 (cmpi .eq (broadcastTo S100x26 (shapeCast S100x1 fi2 hc) hb)
        (iota .tc S100x26 32 [1] hi)) hw) : FVec Ideal S100x26 .f32) (ix2 f k)
      = if fi2 (ix2 f (0 : Fin 1)) = BitVec.ofNat 32 k.val then (1 : EReal) else 0 := by
  rw [sitofp_apply, extui_apply]
  show (FloatOps.sitofp (F := Ideal) .f32 ((IntOp.cmpi .eq (broadcastTo S100x26 (shapeCast S100x1 fi2 hc) hb (ix2 f k))
      (iota .tc S100x26 32 [1] hi (ix2 f k))).setWidth 32) : EReal) = _
  rw [broadcastTo_a1_ab_apply, shapeCast_self, iota_single_apply, sitofp_cmpi_eq]

/-! ## The embedding table -/

/-- The dimension numbers of the indicator-by-`V` product are those of a plain matrix product. -/
theorem dot_isPlain : DotPlain.IsPlain dot_S100x26_S26x16_S100x16_1_0_0_1_n_n := ⟨rfl, rfl, rfl, rfl, rfl, rfl⟩

/-- THE EMBEDDING TABLE AT `(f, e)`: the indicator of the field index of `f` contracted against column `e` of `V`. -/
theorem pay2_apply (fi2 : Vec Ideal S100x1 .i32) (Vb : Vec Ideal S26x16 .f32) (f : Fin 100) (e : Fin 16) :
    k0_pay2 fi2 Vb (ix2 f e)
      = ∑ k : Fin 26, (if fi2 (ix2 f (0 : Fin 1)) = BitVec.ofNat 32 k.val then (1 : EReal) else 0) * Vb (ix2 k e) := by
  unfold k0_pay2
  refine (DotPlain.matmul_zero_apply dot_isPlain _ _ _ (ix2 f e)).trans ?_
  refine Finset.sum_congr rfl fun k _ => ?_
  rw [indicator_apply]

/-- When the field indices are below 26 the embedding table is the rows of `V` they name. -/
theorem pay2_eq_emb (fi2 : Vec Ideal S100x1 .i32) (Vb : Vec Ideal S26x16 .f32) (fi : SW.Idx → BitVec 32)
    (hfi : ∀ f : Fin 100, fi2 (ix2 f (0 : Fin 1)) = fi (ix1 f)) (hlt : ∀ f : Fin 100, (fi (ix1 f)).toNat < 26)
    (f : Fin 100) (e : Fin 16) : k0_pay2 fi2 Vb (ix2 f e) = emb Vb fi f e := by
  rw [pay2_apply, hfi f]
  exact sum_ite_mul Vb fi f (hlt f) e

/-! ## Its two halves, and its squares -/

/-- The first half of the embedding table, under a leading unit axis: columns 0–7. -/
theorem pay3_apply (fi2 : Vec Ideal S100x1 .i32) (Vb : Vec Ideal S26x16 .f32) (f : Fin 100) (e' : Fin 8) :
    k0_pay3 fi2 Vb (ix3 (0 : Fin 1) f e') = k0_pay2 fi2 Vb (ix2 f ⟨e'.val, by have := e'.isLt; omega⟩) := by
  unfold k0_pay3
  rw [shapeCast_ab_1ab_apply]
  exact slice2_axis1_apply 0 _ _ f e' _ (Nat.zero_add _).symm

/-- The second half, under a leading unit axis: columns 8–15. -/
theorem pay4_apply (fi2 : Vec Ideal S100x1 .i32) (Vb : Vec Ideal S26x16 .f32) (f : Fin 100) (e' : Fin 8) :
    k0_pay4 fi2 Vb (ix3 (0 : Fin 1) f e') = k0_pay2 fi2 Vb (ix2 f ⟨e'.val + 8, by have := e'.isLt; omega⟩) := by
  unfold k0_pay4
  rw [shapeCast_ab_1ab_apply]
  exact slice2_axis1_apply 8 _ _ f e' _ (Nat.add_comm _ _)

/-- The squares of the embedding table. -/
theorem pay6_apply (fi2 : Vec Ideal S100x1 .i32) (Vb : Vec Ideal S26x16 .f32) (f : Fin 100) (e : Fin 16) :
    k0_pay6 fi2 Vb (ix2 f e) = k0_pay2 fi2 Vb (ix2 f e) * k0_pay2 fi2 Vb (ix2 f e) := by
  unfold k0_pay6
  rfl

end Cert.FM.Pay

end
-- ==== Proof.KIPaySums.lean ====
/-
  The kernel's two reduction vectors read at an index.

  From the embedding table `E : [100, 16]` the body forms, once, the two arrays it later contracts the input against:
  `A : [100, 2]` whose column 0 is the linear weight `w` and whose column 1 is the row sum `Σ_e E (f, e)`, and
  `q : [100, 1]`, the row sum of the squares `Σ_e E (f, e)²`.  A row sum is a reduction over axis 1 kept as a column; the
  two columns of `A` are laid side by side.
-/
import proofs.«166942_g35321811042314_cont_sun_m_1252_29_alg».proof.Proof.Gen.KernelIdeal.Skeleton
import Idealize.ShloMosaic.Lib.ValueIdx
import Idealize.ShloMosaic.Lib.Pipeline.Value
import proofs.«166942_g35321811042314_cont_sun_m_1252_29_alg».proof.Proof.LibRowReduce
import proofs.«166942_g35321811042314_cont_sun_m_1252_29_alg».proof.Proof.LibConcatCols
import proofs.«166942_g35321811042314_cont_sun_m_1252_29_alg».proof.Proof.KIPayEmb

noncomputable section

open scoped BigOperators

namespace Cert.FM.Pay

open Idealize.ShloMosaic Idealize.ShloMosaic.ValueIdx Cert.KernelIdeal Cert.KernelIdeal.Gen

/-! ## A row sum kept as a column, and two columns side by side -/

/-- The sum over axis 1 of a `[100, 16]` array, cast to a column, reads at `(f, 0)` the sum of row `f`. -/
theorem rowSumCol_apply (src : FVec Ideal S100x16 .f32) (h : S100x16.Reduces [1] S100) (hφ : FKind.Formats .f32)
    (hacc : (0x00000000#32 : BitVec 32) = FKind.add.neutral .f32 hφ) (hc : S100.ShapeCasts S100x1) (f : Fin 100) :
    shapeCast S100x1 (multiReduction (F := Ideal) .add [1] S100 src 0x00000000#32 h hφ hacc) hc (ix2 f (0 : Fin 1))
      = ∑ e : Fin 16, src (ix2 f e) :=
  (RowReduce.shapeCast_a_a1_apply _ hc f (0 : Fin 1)).trans (RowReduce.rowSum_apply src _ h hφ hacc f)

/-- Two columns side by side: column 0 is the first. -/
theorem concatCols_zero (x₁ x₂ : S100x1.Idx → EReal) (h : Shape.Concatenates [S100x1, S100x1] S100x2 1) (f : Fin 100) :
    concatenate S100x2 1 [⟨S100x1, x₁⟩, ⟨S100x1, x₂⟩] h (ix2 f (0 : Fin 2)) = x₁ (ix2 f (0 : Fin 1)) := by
  refine (ConcatCols.concat_cols_apply (n := 100) (a := 1) (b := 1) (t := 2) rfl x₁ x₂ h f (0 : Fin 2)).trans ?_
  rw [dif_pos (by decide)]
  rfl

/-- Two columns side by side: column 1 is the second. -/
theorem concatCols_one (x₁ x₂ : S100x1.Idx → EReal) (h : Shape.Concatenates [S100x1, S100x1] S100x2 1) (f : Fin 100) :
    concatenate S100x2 1 [⟨S100x1, x₁⟩, ⟨S100x1, x₂⟩] h (ix2 f (1 : Fin 2)) = x₂ (ix2 f (0 : Fin 1)) := by
  refine (ConcatCols.concat_cols_apply (n := 100) (a := 1) (b := 1) (t := 2) rfl x₁ x₂ h f (1 : Fin 2)).trans ?_
  rw [dif_neg (by decide)]
  rfl

/-! ## The array `A` -/

/-- Column 0 of `A` is the linear weight. -/
theorem pay5_apply_zero (fi2 : Vec Ideal S100x1 .i32) (Vb : Vec Ideal S26x16 .f32) (wb : Vec Ideal S100x1 .f32) (f : Fin 100) :
    k0_pay5 fi2 Vb wb (ix2 f (0 : Fin 2)) = wb (ix2 f (0 : Fin 1)) := by
  unfold k0_pay5
  rw [shapeCast_self]
  refine (concatCols_zero _ _ _ f).trans ?_
  rw [shapeCast_self]

/-- Column 1 of `A` is the row sum of the embedding table. -/
theorem pay5_apply_one (fi2 : Vec Ideal S100x1 .i32) (Vb : Vec Ideal S26x16 .f32) (wb : Vec Ideal S100x1 .f32) (f : Fin 100) :
    k0_pay5 fi2 Vb wb (ix2 f (1 : Fin 2)) = ∑ e : Fin 16, k0_pay2 fi2 Vb (ix2 f e) := by
  unfold k0_pay5
  rw [shapeCast_self]
  refine (concatCols_one _ _ _ f).trans ?_
  exact rowSumCol_apply (k0_pay2 fi2 Vb) _ _ _ _ f

/-! ## The array `q` -/

/-- The row sum of a `[100, 16]` array kept as a column. -/
theorem pay7_apply (v104 : FVec Ideal S100x16 .f32) (f : Fin 100) :
    k0_pay7 v104 (ix2 f (0 : Fin 1)) = ∑ e : Fin 16, v104 (ix2 f e) := by
  unfold k0_pay7
  rw [shapeCast_self]
  exact rowSumCol_apply v104 _ _ _ _ f

/-- `q` is the row sum of the squares of the embedding table. -/
theorem pay7_pay6_apply (fi2 : Vec Ideal S100x1 .i32) (Vb : Vec Ideal S26x16 .f32) (f : Fin 100) :
    k0_pay7 (k0_pay6 fi2 Vb) (ix2 f (0 : Fin 1))
      = ∑ e : Fin 16, k0_pay2 fi2 Vb (ix2 f e) * k0_pay2 fi2 Vb (ix2 f e) := by
  rw [pay7_apply]
  exact Finset.sum_congr rfl fun e _ => pay6_apply fi2 Vb f e

end Cert.FM.Pay

end
-- ==== Proof.KIValS.lean ====
/-
  What the kernel's three scratch buffers hold from the first grid point on, read at an index.

  At the first point the body computes the embedding table `E (f, e) = V (fi f, e)` from the field indices and `V`, and
  stores: its two halves (columns 0–7 and 8–15) as the two `[100, 8]` planes of the first scratch buffer; the linear
  weights beside the row sums `Σ_e E (f, e)` as the two columns of the second; the row sums of the squares
  `Σ_e E (f, e)²` as the one column of the third.  The staged inputs it reads are whole blocks, so each load reads the
  block itself; a buffer written by one store over its whole extent holds that store's payload, and one written by two
  stores over disjoint planes holds, on each plane, that plane's payload.
-/
import proofs.«166942_g35321811042314_cont_sun_m_1252_29_alg».proof.Proof.KIData
import proofs.«166942_g35321811042314_cont_sun_m_1252_29_alg».proof.Proof.KIValCanon
import proofs.«166942_g35321811042314_cont_sun_m_1252_29_alg».proof.Proof.KIPaySums
import proofs.«166942_g35321811042314_cont_sun_m_1252_29_alg».proof.Proof.KIHostBlk
import proofs.«166942_g35321811042314_cont_sun_m_1252_29_alg».proof.Proof.Algebra
import Idealize.ShloMosaic.Lib.WholeRead

set_option maxRecDepth 16384

noncomputable section

open scoped BigOperators

namespace Cert.FM.KVal

open Idealize.ShloMosaic Idealize.ShloMosaic.ValueIdx Idealize.ShloMosaic.TcCoe
open Idealize.SL.Sem
open Cert.KernelIdeal Cert.KernelIdeal.Gen Cert.KernelIdeal.Body

/-! ## A load of a whole held buffer -/

/-- A load of the whole of a buffer held at the contents that read `X` reads `X`. -/
theorem readAt_whole_unread {sig : RefSig} {κ : Kind} {sp : Space} {S : Shape} {e : EltTy} {Val : EltTy → Type}
    {M : Memref sig κ sp S e} (h : M.IsWhole) {off : Fin S.rank → ℕ} (hz : off = fun _ => 0)
    (inb : ∀ a, off a + S.size a ≤ S.size a) (X : S.Idx → Val e) :
    View.readAt Val M.view (Rect.unit off S.size inb).toLoadRect (h.unread X) = X := by
  show View.ld (M.view.read Val (h.unread X)) (Rect.unit off S.size inb) = X
  rw [h.read_unread, View.ld_unit_zero hz]

/-- The zero offsets of a rank-2 rectangle, however spelt. -/
theorem hz2 : (![0, 0] : Fin 2 → ℕ) = fun _ => 0 := funext fun a => by fin_cases a <;> rfl

variable (m : (ℓ : Loc nD τ sig) → Buf (Elt Ideal) ℓ)

/-! ## The four argument arrays -/

/-- The four argument arrays as launched, at the types the specification reads them at. -/
abbrev xIn (c : Dev nD) : SX.Idx → EReal := m ((c : Thread nD τ).loc main_arg0)
abbrev wIn (c : Dev nD) : SW.Idx → EReal := m ((c : Thread nD τ).loc main_arg1)
abbrev VIn (c : Dev nD) : SV.Idx → EReal := m ((c : Thread nD τ).loc main_arg2)
abbrev fiIn (c : Dev nD) : SW.Idx → BitVec 32 := m ((c : Thread nD τ).loc main_arg3)

/-! ## The scratch buffers as payloads of the staged blocks -/

/-- The second scratch buffer: the weights beside the embedding's row sums. -/
theorem Av_eq (c : Dev nD) : Body.Av m c = k0_pay5 (iblk m c 2 t₀) (iblk m c 1 t₀) (iblk m c 0 t₀) := by
  unfold Body.Av Body.runA Body.kernelRun_A
  dsimp only
  unfold Body.kernelRun_A.sl.HA_1
  rw [View.canon_unit_zero hz2, readAt_whole_unread _ hz2, readAt_whole_unread _ hz2, readAt_whole_unread _ hz2]

/-- The third scratch buffer: the row sums of the embedding's squares. -/
theorem Qv_eq (c : Dev nD) : Body.Qv m c = k0_pay7 (k0_pay6 (iblk m c 2 t₀) (iblk m c 1 t₀)) := by
  unfold Body.Qv Body.runA Body.kernelRun_A
  dsimp only
  unfold Body.kernelRun_A.sl.HQ_1 Body.kernelRun_A.sl.r
  rw [View.canon_unit_zero hz2, readAt_whole_unread _ hz2, readAt_whole_unread _ hz2]

/-- The first scratch buffer: the embedding's second half stored on plane 1 after its first half on plane 0. -/
theorem Ev_eq (c : Dev nD) :
    Body.Ev m c = View.canon
      [(⟨Rect.unit (s := S2x100x8) ![1, 0, 0] S1x100x8.size Facts₀.inb_S2x100x8_S1x100x8_1_0_0,
          k0_pay4 (iblk m c 2 t₀) (iblk m c 1 t₀)⟩ : View.Piece (Elt Ideal) S2x100x8 .f32),
       ⟨Rect.unit (s := S2x100x8) ![0, 0, 0] S1x100x8.size Facts₀.inb_S2x100x8_S1x100x8_0_0_0,
          k0_pay3 (iblk m c 2 t₀) (iblk m c 1 t₀)⟩] := by
  unfold Body.Ev Body.runA Body.kernelRun_A
  dsimp only
  unfold Body.kernelRun_A.sl.HE_2
  rw [readAt_whole_unread _ hz2, readAt_whole_unread _ hz2]

/-! ## At an index, on the domain -/

section OnDomain
variable (c : Dev nD) (hd : InDomain (xIn m c) (wIn m c) (VIn m c) (fiIn m c))
include hd

/-- The embedding table the body computes at the first point is the rows of `V` the field indices name. -/
theorem pay2_t0 (f : Fin 100) (e : Fin 16) :
    k0_pay2 (iblk m c 2 t₀) (iblk m c 1 t₀) (ix2 f e) = emb (VIn m c) (fiIn m c) f e := by
  rw [Pay.pay2_eq_emb _ _ (fiIn m c) (KHost.iblk2_apply m c t₀) hd.fi_lt, KHost.iblk1_eq]

/-- Plane 0 of the first scratch buffer: columns 0–7 of the embedding. -/
theorem Ev_apply_zero (f : Fin 100) (e' : Fin 8) :
    Body.Ev m c (ix3 (0 : Fin 2) f e') = emb (VIn m c) (fiIn m c) f ⟨e'.val, by have := e'.isLt; omega⟩ := by
  rw [Ev_eq]
  refine (canon_cons_unit_of_not_mem _ _ _ _ (0 : Fin 3) (Or.inl Nat.zero_lt_one)).trans ?_
  refine (canon_cons_unit_of_mem _ _ _ _ (ix3 (0 : Fin 1) f e' : S1x100x8.Idx) (fun a => ?_)).trans ?_
  · match a with
    | ⟨0, _⟩ => rfl
    | ⟨1, _⟩ => exact (Nat.zero_add _).symm
    | ⟨2, _⟩ => exact (Nat.zero_add _).symm
  · rw [Pay.pay3_apply]
    exact pay2_t0 m c hd f _

/-- Plane 1 of the first scratch buffer: columns 8–15 of the embedding. -/
theorem Ev_apply_one (f : Fin 100) (e' : Fin 8) :
    Body.Ev m c (ix3 (1 : Fin 2) f e') = emb (VIn m c) (fiIn m c) f ⟨e'.val + 8, by have := e'.isLt; omega⟩ := by
  rw [Ev_eq]
  refine (canon_cons_unit_of_mem _ _ _ _ (ix3 (0 : Fin 1) f e' : S1x100x8.Idx) (fun a => ?_)).trans ?_
  · match a with
    | ⟨0, _⟩ => rfl
    | ⟨1, _⟩ => exact (Nat.zero_add _).symm
    | ⟨2, _⟩ => exact (Nat.zero_add _).symm
  · rw [Pay.pay4_apply]
    exact pay2_t0 m c hd f _

/-- THE FIRST SCRATCH BUFFER: plane `h` holds columns `8 h … 8 h + 7` of the embedding. -/
theorem Ev_apply (h : Fin 2) (f : Fin 100) (e' : Fin 8) :
    Body.Ev m c (ix3 h f e')
      = emb (VIn m c) (fiIn m c) f ⟨8 * h.val + e'.val, by have := h.isLt; have := e'.isLt; omega⟩ := by
  match h with
  | ⟨0, _⟩ =>
    refine (Ev_apply_zero m c hd f e').trans ?_
    exact congrArg (emb (VIn m c) (fiIn m c) f) (Fin.ext (by show e'.val = 8 * 0 + e'.val; omega))
  | ⟨1, _⟩ =>
    refine (Ev_apply_one m c hd f e').trans ?_
    exact congrArg (emb (VIn m c) (fiIn m c) f) (Fin.ext (by show e'.val + 8 = 8 * 1 + e'.val; omega))

/-- THE SECOND SCRATCH BUFFER, column 0: the linear weights. -/
theorem Av_apply_zero (f : Fin 100) : Body.Av m c (ix2 f (0 : Fin 2)) = wIn m c (ix1 f) := by
  rw [Av_eq, Pay.pay5_apply_zero]
  exact KHost.iblk0_apply m c t₀ f

/-- THE SECOND SCRATCH BUFFER, column 1: the embedding's row sums. -/
theorem Av_apply_one (f : Fin 100) :
    Body.Av m c (ix2 f (1 : Fin 2)) = ∑ e : Fin 16, emb (VIn m c) (fiIn m c) f e := by
  rw [Av_eq, Pay.pay5_apply_one]
  exact Finset.sum_congr rfl fun e _ => pay2_t0 m c hd f e

/-- THE THIRD SCRATCH BUFFER: the row sums of the embedding's squares. -/
theorem Qv_apply (f : Fin 100) :
    Body.Qv m c (ix2 f (0 : Fin 1)) = ∑ e : Fin 16, emb (VIn m c) (fiIn m c) f e * emb (VIn m c) (fiIn m c) f e := by
  rw [Qv_eq, Pay.pay7_pay6_apply]
  exact Finset.sum_congr rfl fun e _ => by rw [pay2_t0 m c hd f e]

end OnDomain

end Cert.FM.KVal

end
-- ==== Proof.KIValOut.lean ====
/-
  The second result's block at every grid point.

  Point t = 2 i + j of the 16 × 2 grid reads column block i of the transposed input — batch rows 1024 i … 1024 i + 1023 —
  and half j of the embedding, and its tile's entry (f, k, l) is the input at (1024 i + l, f) times the embedding of
  feature f at coordinate 8 j + k: the specification's scaled embedding entry.
-/
import proofs.«166942_g35321811042314_cont_sun_m_1252_29_alg».proof.Proof.KIValA
import proofs.«166942_g35321811042314_cont_sun_m_1252_29_alg».proof.Proof.KIValB
import proofs.«166942_g35321811042314_cont_sun_m_1252_29_alg».proof.Proof.KIValC
import proofs.«166942_g35321811042314_cont_sun_m_1252_29_alg».proof.Proof.KIValD
import proofs.«166942_g35321811042314_cont_sun_m_1252_29_alg».proof.Proof.KIHostBlk
import proofs.«166942_g35321811042314_cont_sun_m_1252_29_alg».proof.Proof.KIValS
import proofs.«166942_g35321811042314_cont_sun_m_1252_29_alg».proof.Proof.Spec

set_option maxRecDepth 16384

noncomputable section

namespace Cert.FM.KVal

open Idealize.ShloMosaic Idealize.ShloMosaic.ValueIdx Idealize.ShloMosaic.TcCoe
open Cert.KernelIdeal Cert.KernelIdeal.Gen Cert.KernelIdeal.Body

variable (m : (ℓ : Loc nD τ sig) → Buf (Elt Ideal) ℓ)

/-- A point of the grid is below 32. -/
theorem point_lt (t : Fin cfg0.N) : t.val < 32 := t.isLt

/-- The tile at point `t` over the column block the point reads and the embedding scratch. -/
theorem out7At_read (c : Dev nD) (t : Fin cfg0.N) (f : Fin 100) (k : Fin 8) (l : Fin 1024) :
    out7At (F := Ideal) m c t (ix3 f k l)
      = (srcB (bNow t)).view.read (Elt Ideal) (V m c main_v0) (ix2 f l)
        * Ev m c (ix3 (⟨t.val % 2, Nat.mod_lt _ (by norm_num)⟩ : Fin 2) f k) := by
  unfold out7At
  by_cases h0 : t.val = 0
  · rw [dif_pos h0]
    exact runA_apply m c t h0 f k l
  · rw [dif_neg h0]
    by_cases he : t.val % 2 = 0
    · rw [dif_pos he]
      exact runB_apply m c t h0 he f k l
    · rw [dif_neg he]
      by_cases hl : t.val < 31
      · rw [dif_pos hl]
        exact runC_apply m c t (by omega) hl f k l
      · rw [dif_neg hl]
        exact runD_apply m c t (by omega) hl f k l

/-- THE TILE AT A POINT: given that the embedding scratch holds the embedding's halves, entry (f, k, l) of the tile at
    point `t` is the input at batch row 1024 (t / 2) + l, feature f, times the embedding of f at 8 (t mod 2) + k. -/
theorem out7At_apply (c : Dev nD)
    (hEv : ∀ (h : Fin 2) (f : Fin 100) (k : Fin 8), Ev m c (ix3 h f k)
      = emb (VIn m c) (fiIn m c) f ⟨8 * h.val + k.val, by have := h.isLt; have := k.isLt; omega⟩)
    (t : Fin cfg0.N) (f : Fin 100) (k : Fin 8) (l : Fin 1024) :
    out7At (F := Ideal) m c t (ix3 f k l)
      = xIn m c (ix2 ⟨1024 * (t.val / 2) + l.val, by have := point_lt t; have := l.isLt; omega⟩ f)
        * emb (VIn m c) (fiIn m c) f ⟨8 * (t.val % 2) + k.val, by have := k.isLt; omega⟩ := by
  have hb : (bNow t).val = t.val / 2 := Ring.bk_val (by have := point_lt t; omega)
  rw [out7At_read, KHost.srcB_apply, hEv]
  refine congrArg (fun a : EReal => a * emb (VIn m c) (fiIn m c) f ⟨8 * (t.val % 2) + k.val, by have := k.isLt; omega⟩)
    (congrArg (xIn m c) ?_)
  refine congrArg (fun r : Fin 16384 => (ix2 r f : SX.Idx)) (Fin.ext ?_)
  show 1024 * (bNow t).val + l.val = 1024 * (t.val / 2) + l.val
  rw [hb]

/-- On the domain: the tile's entry is the specification's scaled embedding entry. -/
theorem out7At_term (c : Dev nD) (hd : InDomain (xIn m c) (wIn m c) (VIn m c) (fiIn m c))
    (t : Fin cfg0.N) (f : Fin 100) (k : Fin 8) (l : Fin 1024) :
    out7At (F := Ideal) m c t (ix3 f k l)
      = term (xIn m c) (VIn m c) (fiIn m c) ⟨1024 * (t.val / 2) + l.val, by have := point_lt t; have := l.isLt; omega⟩ f
          ⟨8 * (t.val % 2) + k.val, by have := k.isLt; omega⟩ :=
  out7At_apply m c (Ev_apply m c hd) t f k l

end Cert.FM.KVal

end
-- ==== Proof.LibDotTN.lean ====
/-
  The dimension numbers of a matrix product with the LEFT operand transposed — both operands contracted on their first axis,
  no batch axes — read at an index. At result position (i, q) and contraction position k the left operand is read at (k, i) and the
  right at (k, q); the contraction shape has one axis of the shared extent, so the sum over it is the ordinary sum over k of
  l(k, i) · r(k, q): a column of the left against a column of the right. A matrix unit product of that form, at the ideal instance,
  reads as its accumulator plus that sum, whatever the extents.
-/
import Idealize.ShloMosaic.PureOps.Ideal.Laws
import Idealize.ShloMosaic.Lib.ValueIdx

noncomputable section

open scoped BigOperators

namespace Idealize.ShloMosaic.DotTN

open Idealize.ShloMosaic Idealize.ShloMosaic.ValueIdx

variable {M K N : Nat} (d : DotDims ⟨2, ![K, M]⟩ ⟨2, ![K, N]⟩ ⟨2, ![M, N]⟩)

/-- The dimension numbers: [0] × [0] contracted, [1] and [1] kept, no batch axes. -/
structure IsTN : Prop where
  lc : d.lhsContracting = [0]
  rc : d.rhsContracting = [0]
  ln : d.lhsNonContracting = [1]
  rn : d.rhsNonContracting = [1]
  lb : d.lhsBatch = []
  rb : d.rhsBatch = []

variable {d}

theorem rank_one (h : IsTN d) : d.contr.rank = 1 := by rw [d.rank_contr, h.lc]; rfl

theorem size_zero (h : IsTN d) : d.contr.size ⟨0, by rw [rank_one h]; exact Nat.one_pos⟩ = K := by
  rw [d.size_contr 0 (by rw [h.lc]; exact Nat.one_pos)]
  have e : d.lhsContracting[0]'(by rw [h.lc]; exact Nat.one_pos) = (0 : Fin 2) := by simp [h.lc]
  rw [e]; rfl

/-- The contraction positions are the numbers below the shared extent. -/
def pos (h : IsTN d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

/-- The left operand's kept axis (its second) reads the result's row coordinate. -/
theorem lhsIdx_kept (h : IsTN d) (j : (⟨2, ![M, N]⟩ : Shape).Idx) (k : d.contr.Idx) :
    (d.lhsIdx j k 1).val = (j 0).val := by
  have hb : (1 : Fin 2) ∉ d.lhsBatch := by rw [h.lb]; exact List.not_mem_nil
  have hn : (1 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The left operand's contracted axis (its first) reads the contraction position. -/
theorem lhsIdx_contr (h : IsTN d) (j : (⟨2, ![M, N]⟩ : Shape).Idx) (k : d.contr.Idx) :
    (d.lhsIdx j k 0).val = (pos h k).val := by
  rw [d.lhsIdx_val_of_single h.lc j k]; rfl

/-- The right operand's kept axis (its second) reads the result's column coordinate. -/
theorem rhsIdx_kept (h : IsTN d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- The right operand's contracted axis (its first) reads the contraction position. -/
theorem rhsIdx_contr (h : IsTN d) (j : (⟨2, ![M, N]⟩ : Shape).Idx) (k : d.contr.Idx) :
    (d.rhsIdx j k 0).val = (pos h k).val := by
  rw [d.rhsIdx_val_of_single h.rc j k]; rfl

theorem lhsIdx_eq (h : IsTN d) (j : (⟨2, ![M, N]⟩ : Shape).Idx) (k : d.contr.Idx) :
    d.lhsIdx j k = ix2 (pos h k) (j 0) := by
  funext a; apply Fin.ext
  match a with
  | ⟨0, _⟩ => exact lhsIdx_contr h j k
  | ⟨1, _⟩ => exact lhsIdx_kept h j k

theorem rhsIdx_eq (h : IsTN d) (j : (⟨2, ![M, N]⟩ : Shape).Idx) (k : d.contr.Idx) :
    d.rhsIdx j k = ix2 (pos h k) (j 1) := by
  funext a; apply Fin.ext
  match a with
  | ⟨0, _⟩ => exact rhsIdx_contr h j k
  | ⟨1, _⟩ => exact rhsIdx_kept h j k

/-- THE CONTRACTION SUM: the sum over k below the shared extent of l(k, i) · r(k, q). -/
theorem sum_eq (h : IsTN d) (l : (⟨2, ![K, M]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 k (j 0)) * r (ix2 k (j 1)) := by
  rw [← Equiv.sum_comp (pos h) (fun k : Fin K => l (ix2 k (j 0)) * r (ix2 k (j 1)))]
  exact Finset.sum_congr rfl fun k _ => by rw [lhsIdx_eq h j k, rhsIdx_eq h j k]; rfl

/-- A matrix unit product of that form into any accumulator, at the ideal instance and at an index. -/
theorem matmul_apply (h : IsTN d) (prec : Option ContractPrecision) {φ₁ φ₂ : FTy}
    (l : FVec Ideal ⟨2, ![K, M]⟩ φ₁) (r : FVec Ideal ⟨2, ![K, N]⟩ φ₂) (acc : FVec Ideal ⟨2, ![M, N]⟩ .f32) (j : (⟨2, ![M, N]⟩ : Shape).Idx) :
    matmul d prec l r acc j = acc j + ∑ k : Fin K, l (ix2 k (j 0)) * r (ix2 k (j 1)) :=
  (Ideal.matmul_apply d prec l r acc j).trans (congrArg (acc j + ·) (sum_eq h l r j))

/-- Into a zero accumulator: just the sum. -/
theorem matmul_zero_apply (h : IsTN d) (prec : Option ContractPrecision) {φ₁ φ₂ : FTy}
    (l : FVec Ideal ⟨2, ![K, M]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 k (j 0)) * r (ix2 k (j 1)) :=
  (Ideal.matmul_constant_zero_apply d prec l r j).trans (sum_eq h l r j)

end Idealize.ShloMosaic.DotTN

end
-- ==== Proof.KIPayYfm.lean ====
/-
  The kernel's `y_fm` block read at an index.

  With `xt : [100, 1024]` the chunk of the transposed input, `A : [100, 2]` and `q : [100, 1]` the two reduction arrays,
  the body contracts the feature axis of both operands,

      P (k, l) = Σ_f A (f, k) * xt (f, l),        Q (0, l) = Σ_f q (f, 0) * (xt (f, l) * xt (f, l)),

  and stores the two rows  P (0, ·)  and  1/2 * (P (1, ·) * P (1, ·) - Q (0, ·))  one above the other.
-/
import proofs.«166942_g35321811042314_cont_sun_m_1252_29_alg».proof.Proof.Gen.KernelIdeal.Skeleton
import Idealize.ShloMosaic.Lib.ValueIdx
import Idealize.ShloMosaic.Lib.ValueLayout
import Idealize.ShloMosaic.Lib.Pipeline.Value
import proofs.«166942_g35321811042314_cont_sun_m_1252_29_alg».proof.Proof.LibDotTN
import proofs.«166942_g35321811042314_cont_sun_m_1252_29_alg».proof.Proof.Spec

noncomputable section

open scoped BigOperators

namespace Cert.FM.Pay

open Idealize.ShloMosaic Idealize.ShloMosaic.ValueIdx Cert.KernelIdeal Cert.KernelIdeal.Gen

/-! ## Two rows one above the other -/

/-- Two `[1, 1024]` rows stacked: row 0 is the first. -/
theorem concatRows_zero (x₁ x₂ : S1x1024.Idx → EReal) (h : Shape.Concatenates [S1x1024, S1x1024] S2x1024 0) (l : Fin 1024) :
    concatenate S2x1024 0 [⟨S1x1024, x₁⟩, ⟨S1x1024, x₂⟩] h (ix2 (0 : Fin 2) l) = x₁ (ix2 (0 : Fin 1) l) :=
  concatenate_pair_apply_left (0 : Fin 2) x₁ x₂ h (ix2 (0 : Fin 2) l) rfl (ix2 (0 : Fin 1) l) (fun ax => by
    match ax with
    | ⟨0, _⟩ => rfl
    | ⟨1, _⟩ => rfl)

/-- Two `[1, 1024]` rows stacked: row 1 is the second. -/
theorem concatRows_one (x₁ x₂ : S1x1024.Idx → EReal) (h : Shape.Concatenates [S1x1024, S1x1024] S2x1024 0) (l : Fin 1024) :
    concatenate S2x1024 0 [⟨S1x1024, x₁⟩, ⟨S1x1024, x₂⟩] h (ix2 (1 : Fin 2) l) = x₂ (ix2 (0 : Fin 1) l) :=
  concatenate_pair_apply_right (0 : Fin 2) x₁ x₂ h (ix2 (1 : Fin 2) l) rfl rfl (ix2 (0 : Fin 1) l)
    (fun ax hax => by
      match ax with
      | ⟨0, _⟩ => exact absurd rfl hax
      | ⟨1, _⟩ => rfl)
    rfl

/-! ## The two contractions over the features -/

/-- Both products contract the first axis of both operands. -/
theorem dotA_isTN : DotTN.IsTN dot_S100x2_S100x1024_S2x1024_0_0_1_1_n_n := ⟨rfl, rfl, rfl, rfl, rfl, rfl⟩
theorem dotQ_isTN : DotTN.IsTN dot_S100x1_S100x1024_S1x1024_0_0_1_1_n_n := ⟨rfl, rfl, rfl, rfl, rfl, rfl⟩

/-- `P (k, l)`: column `k` of `A` against lane `l` of the input chunk. -/
theorem contrA_apply (v17 : FVec Ideal S100x1024 .f32) (v72 : Vec Ideal S100x2 .f32) (k : Fin 2) (l : Fin 1024) :
    matmul (φ₁ := .f32) (φ₂ := .f32) dot_S100x2_S100x1024_S2x1024_0_0_1_1_n_n (some .fp32) v72 v17 (constant (F := Ideal) S2x1024 .f32 0x00000000#32)
        (ix2 k l)
      = ∑ f : Fin 100, v72 (ix2 f k) * v17 (ix2 f l) :=
  DotTN.matmul_zero_apply (φ₁ := .f32) (φ₂ := .f32) dotA_isTN (some .fp32) v72 v17 (ix2 k l)

/-- `Q (0, l)`: `q` against the squares of lane `l` of the input chunk. -/
theorem contrQ_apply (v17 : FVec Ideal S100x1024 .f32) (v74 : Vec Ideal S100x1 .f32) (l : Fin 1024) :
    matmul (φ₁ := .f32) (φ₂ := .f32) dot_S100x1_S100x1024_S1x1024_0_0_1_1_n_n (some .fp32) v74 (mulf v17 v17)
        (constant (F := Ideal) S1x1024 .f32 0x00000000#32) (ix2 (0 : Fin 1) l)
      = ∑ f : Fin 100, v74 (ix2 f (0 : Fin 1)) * (v17 (ix2 f l) * v17 (ix2 f l)) :=
  DotTN.matmul_zero_apply (φ₁ := .f32) (φ₂ := .f32) dotQ_isTN (some .fp32) v74 (mulf v17 v17) (ix2 (0 : Fin 1) l)

/-! ## The block -/

/-- Row 0 of the block: the linear contraction `P (0, l)`. -/
theorem pay1_apply_zero (v17 : FVec Ideal S100x1024 .f32) (v72 : Vec Ideal S100x2 .f32) (v74 : Vec Ideal S100x1 .f32)
    (l : Fin 1024) :
    k0_pay1 v17 v72 v74 (ix2 (0 : Fin 2) l) = ∑ f : Fin 100, v72 (ix2 f (0 : Fin 2)) * v17 (ix2 f l) := by
  unfold k0_pay1
  refine (concatRows_zero _ _ _ l).trans ?_
  refine (slice2_axis0_apply 0 _ _ (0 : Fin 1) l (0 : Fin 2) rfl).trans ?_
  exact contrA_apply v17 v72 0 l

/-- Row 1 of the block: one half of the square of `P (1, l)` less `Q (0, l)`. -/
theorem pay1_apply_one (v17 : FVec Ideal S100x1024 .f32) (v72 : Vec Ideal S100x2 .f32) (v74 : Vec Ideal S100x1 .f32)
    (l : Fin 1024) :
    k0_pay1 v17 v72 v74 (ix2 (1 : Fin 2) l)
      = half * ((∑ f : Fin 100, v72 (ix2 f (1 : Fin 2)) * v17 (ix2 f l)) * (∑ f : Fin 100, v72 (ix2 f (1 : Fin 2)) * v17 (ix2 f l))
          - ∑ f : Fin 100, v74 (ix2 f (0 : Fin 1)) * (v17 (ix2 f l) * v17 (ix2 f l))) := by
  unfold k0_pay1
  refine (concatRows_one _ _ _ l).trans ?_
  rw [mulf_apply, subf_apply, mulf_apply, broadcast_apply,
    slice2_axis0_apply 1 _ _ (0 : Fin 1) l (1 : Fin 2) rfl, contrA_apply, contrQ_apply]
  rfl

end Cert.FM.Pay

end
-- ==== Proof.KIValY.lean ====
/-
  What the first result window's buffer holds after the body at an even grid point, read at an index.

  At an even point `t` (batch chunk `t / 2`) the body has the chunk's `[100, 1024]` block of the transposed input in its
  slot — entry `(f, l)` is `x (1024 (t / 2) + l, f)` — and the two reduction arrays `A` and `q` in scratch (written at the
  first point, read back from then on).  It stores the two rows

      y (0, l) = Σ_f A (f, 0) * x (b, f),      y (1, l) = 1/2 * ((Σ_f A (f, 1) * x (b, f))² - Σ_f q (f, 0) * x (b, f)²),

  with `b = 1024 (t / 2) + l`.  With `A (f, 0) = w f`, `A (f, 1) = Σ_e E (f, e)` and `q (f, 0) = Σ_e E (f, e)²` these are the
  linear term and the pairwise interaction term of batch row `b`: a real factor goes into a finite sum of reals.
-/
import proofs.«166942_g35321811042314_cont_sun_m_1252_29_alg».proof.Proof.KIData
import proofs.«166942_g35321811042314_cont_sun_m_1252_29_alg».proof.Proof.KIValReads
import proofs.«166942_g35321811042314_cont_sun_m_1252_29_alg».proof.Proof.KIValS
import proofs.«166942_g35321811042314_cont_sun_m_1252_29_alg».proof.Proof.KIPayYfm
import proofs.«166942_g35321811042314_cont_sun_m_1252_29_alg».proof.Proof.KICover

set_option maxRecDepth 16384

noncomputable section

open scoped BigOperators

namespace Cert.FM.KVal

open Idealize.ShloMosaic Idealize.ShloMosaic.ValueIdx Idealize.ShloMosaic.TcCoe
open Idealize.SL.Sem
open Cert.KernelIdeal Cert.KernelIdeal.Gen Cert.KernelIdeal.Body

variable (m : (ℓ : Loc nD τ sig) → Buf (Elt Ideal) ℓ)

/-! ## The batch chunk in the slot -/

/-- The batch row that lane `l` of point `t`'s chunk holds. -/
abbrev rowOf (t : Fin cfg0.N) (l : Fin 1024) : Fin 16384 :=
  ⟨1024 * (t.val / 2) + l.val, by have := KHost.t_lt t; have := l.isLt; omega⟩

/-- Point `t`'s chunk of the transposed input: entry `(f, l)` is `x` at batch row `1024 (t / 2) + l`, feature `f`. -/
def chunk (c : Dev nD) (t : Fin cfg0.N) : FVec Ideal S100x1024 .f32 :=
  fun j => xIn m c (ix2 (rowOf t ⟨(j 1).val, idx2_lt1 j⟩) ⟨(j 0).val, idx2_lt0 j⟩)

theorem chunk_apply (c : Dev nD) (t : Fin cfg0.N) (f : Fin 100) (l : Fin 1024) :
    chunk m c t (ix2 f l) = xIn m c (ix2 (rowOf t l) f) := rfl

/-- The body's load of its slot, the chunk's block landed there, its unit axis dropped, is the chunk. -/
theorem slot_eq_chunk (c : Dev nD) (t : Fin cfg0.N)
    (inb : ∀ a, k0_off10 (grid0.coords t) a + S1x100x1024.size a ≤ S2x100x1024.size a) :
    k0_pay8 (View.readAt (Elt Ideal) scX.view
        (Rect.unit (s := S2x100x1024) (k0_off10 (grid0.coords t)) S1x100x1024.size inb).toLoadRect
        ((rslot (sNow t)).view.writes (Elt Ideal) (rslot (sNow t)).view.junk
          [⟨Rect.whole S100x1024, ReadAs.same.apply (View.read (Elt Ideal) (srcB (bNow t)).view (V m c main_v0))⟩]))
      = chunk m c t := by
  funext j
  obtain ⟨f, l, rfl⟩ : ∃ (f : Fin 100) (l : Fin 1024), j = ix2 f l := ⟨j 0, j 1, eq_ix2 j⟩
  rw [Pay.pay8_apply, chunk_apply]
  refine (slotRead_apply c t inb _ f l).trans ?_
  show (srcB (bNow t)).view.read (Elt Ideal) (V m c main_v0) (ix2 f l) = _
  refine (KHost.srcB_apply m c (bNow t) f l).trans ?_
  have hb : (bNow t).val = t.val / 2 := Ring.bk_val (by have := KHost.t_lt t; omega)
  exact congrArg (fun r => xIn m c (ix2 r f))
    (Fin.ext (by show 1024 * (bNow t).val + l.val = 1024 * (t.val / 2) + l.val; rw [hb]))

/-! ## The block as one payload -/

/-- THE BLOCK AT AN EVEN POINT is the `y_fm` payload of the chunk and the two reduction arrays. -/
theorem y3Even_eq (c : Dev nD) (t : Fin cfg0.N) (he : t.val % 2 = 0) :
    Body.y3Even m c t he = k0_pay1 (chunk m c t) (Body.Av m c) (Body.Qv m c) := by
  by_cases h0 : t.val = 0
  · obtain rfl : t = t₀ := Fin.ext h0
    unfold Body.y3Even
    rw [dif_pos h0]
    unfold Body.runA Body.kernelRun_A
    dsimp only
    unfold Body.kernelRun_A.sl.r_1 Body.kernelRun_A.sl.dma0 Body.kernelRun_A.sl.v72 Body.kernelRun_A.sl.v74
      Body.kernelRun_A.sl.HA_1 Body.kernelRun_A.sl.HQ_1 Body.kernelRun_A.sl.r
    rw [View.canon_unit_zero hz2, View.readCov_unit_zero _ hz2, View.readCov_unit_zero _ hz2,
      readAt_whole_unread _ hz2, readAt_whole_unread _ hz2, readAt_whole_unread _ hz2, slot_eq_chunk,
      Av_eq, Qv_eq]
  · unfold Body.y3Even
    rw [dif_neg h0]
    unfold Body.runB Body.kernelRun_B
    dsimp only
    unfold Body.kernelRun_B.sl.r Body.kernelRun_B.sl.v16
    rw [View.canon_unit_zero hz2]
    refine (congrArg (fun v => k0_pay1 v _ _) (slot_eq_chunk m c t _)).trans ?_
    refine (congrArg (fun a => k0_pay1 (chunk m c t) a _)
      (readAt_whole_unread (M := scA) (Memref.isWhole_whole _) hz2 _ (Body.Av m c))).trans ?_
    exact congrArg (fun q => k0_pay1 (chunk m c t) (Body.Av m c) q)
      (readAt_whole_unread (M := scQ) (Memref.isWhole_whole _) hz2 _ (Body.Qv m c))

/-! ## At an index, on the domain -/

section OnDomain
variable (c : Dev nD) (hd : InDomain (xIn m c) (wIn m c) (VIn m c) (fiIn m c))
include hd

/-- ROW 0 OF THE BLOCK: the linear term of the lane's batch row. -/
theorem y3Even_apply_zero (t : Fin cfg0.N) (he : t.val % 2 = 0) (l : Fin 1024) :
    Body.y3Even m c t he (ix2 (0 : Fin 2) l) = lin (xIn m c) (wIn m c) (rowOf t l) := by
  rw [y3Even_eq, Pay.pay1_apply_zero]
  show _ = ∑ f : Fin 100, wIn m c (ix1 f) * xIn m c (ix2 (rowOf t l) f)
  exact Finset.sum_congr rfl fun f _ => by rw [Av_apply_zero m c hd f, chunk_apply]

/-- ROW 1 OF THE BLOCK: the pairwise interaction term of the lane's batch row. -/
theorem y3Even_apply_one (t : Fin cfg0.N) (he : t.val % 2 = 0) (l : Fin 1024) :
    Body.y3Even m c t he (ix2 (1 : Fin 2) l) = inter (xIn m c) (VIn m c) (fiIn m c) (rowOf t l) := by
  rw [y3Even_eq, Pay.pay1_apply_one]
  have hP : ∑ f : Fin 100, Body.Av m c (ix2 f (1 : Fin 2)) * chunk m c t (ix2 f l)
      = total (xIn m c) (VIn m c) (fiIn m c) (rowOf t l) := by
    rw [← sum_rowsum_emb_mul hd (rowOf t l)]
    exact Finset.sum_congr rfl fun f _ => by rw [Av_apply_one m c hd f, chunk_apply]
  have hQ : ∑ f : Fin 100, Body.Qv m c (ix2 f (0 : Fin 1)) * (chunk m c t (ix2 f l) * chunk m c t (ix2 f l))
      = totalSq (xIn m c) (VIn m c) (fiIn m c) (rowOf t l) := by
    rw [← sum_rowsumsq_emb_mul hd (rowOf t l)]
    exact Finset.sum_congr rfl fun f _ => by rw [Qv_apply m c hd f, chunk_apply]
  rw [hP, hQ]
  rfl

end OnDomain

end Cert.FM.KVal

end
-- ==== Proof.KIValAll.lean ====
/-
  On the domain (real entries, field indices that are row numbers of the table) what the kernel's body leaves at each
  grid point is, entry by entry, the scaled embedding entries of the point's batch chunk and embedding half, and at the even
  points the linear and interaction terms of the chunk.
-/
import proofs.«166942_g35321811042314_cont_sun_m_1252_29_alg».proof.Proof.KIValue
import proofs.«166942_g35321811042314_cont_sun_m_1252_29_alg».proof.Proof.KIValOut
import proofs.«166942_g35321811042314_cont_sun_m_1252_29_alg».proof.Proof.KIValY

noncomputable section

namespace Cert.FM.KVal

open Idealize.ShloMosaic Idealize.ShloMosaic.TcCoe Idealize.ShloMosaic.ValueIdx
open Idealize.SL.Sem
open Cert.KernelIdeal Cert.KernelIdeal.Gen Cert.KernelIdeal.Body Cert.FM

theorem blockValues (m : (ℓ : Loc nD τ sig) → Buf (Elt Ideal) ℓ) (c : Dev nD)
    (hd : InDomain (ax m c) (aw m c) (aV m c) (afi m c)) : BlockValues m c where
  out := fun t f e' l => out7At_term m c hd t f e' l
  lin := fun t he l => y3Even_apply_zero m c hd t he l
  inter := fun t he l => y3Even_apply_one m c hd t he l

end Cert.FM.KVal

end
-- ==== Proof.RefRun.lean ====
/-
  The reference program as one straight line of host operations.

  The reference's entry function calls the index-lookup function, which calls the selection function; a call runs the
  callee's operations on the caller's buffers. Written out at the call sites, the entry function is a line of
  forty-six operations, each writing one buffer of its own. Every weakly fair execution of that line terminates,
  and every buffer ends at the fold of the operations' results over the contents the memory had at the start.
-/
import proofs.«166942_g35321811042314_cont_sun_m_1252_29_alg».proof.ReferenceIdeal
import proofs.«166942_g35321811042314_cont_sun_m_1252_29_alg».proof.Proof.Gen.ReferenceIdeal
import Idealize.ShloMosaic.Lib.StableHlo.Run

noncomputable section

namespace Cert.FM.Ref

open Idealize.ShloMosaic Idealize.ShloMosaic.StableHlo Idealize.SL.Sem
open Cert.ReferenceIdeal Cert.ReferenceIdeal.Gen

variable {F : FTy → Type} [FloatOps F]

/-- The operations of the entry function in order, the two called functions' operations at their call sites over the
    buffers of those calls: the reshape of the first argument; the lookup's twenty-three (among them the
    selection's one); the twenty-two after it. -/
abbrev ops : List (HloOp τ sig (Elt F)) :=
  [
    reshape main_arg0 main_v0 rfl shapeCasts_S16384x100_S16384x100x1,
    TRef.nullary main_call0.c (constantI S_ 32 0#32),
    TRef.unary main_call0.c main_call0.v0 (broadcastInDim S100 ![] bcast_S_S100),
    TRef.binary (TRef.of main_arg3 : TRef sig ⟨S100, .i32⟩) main_call0.v0 main_call0.v1 (cmpi .slt),
    TRef.nullary main_call0.c_0 (constantI S_ 32 26#32),
    TRef.unary main_call0.c_0 main_call0.v2 (broadcastInDim S100 ![] bcast_S_S100),
    TRef.binary (TRef.of main_arg3 : TRef sig ⟨S100, .i32⟩) main_call0.v2 main_call0.v3 addi,
    TRef.ternary main_call0.v1 main_call0.v3 (TRef.of main_arg3 : TRef sig ⟨S100, .i32⟩) main_call0.call0.v0 select,
    TRef.unary main_call0.call0.v0 main_call0.v5 (broadcastInDim S100x1 ![0] bcast_S100_S100x1_0),
    TRef.nullary main_call0.c_1 (constantI S1 32 25#32),
    TRef.nullary main_call0.c_2 (constantI S_ 32 0#32),
    TRef.unary main_call0.c_2 main_call0.v6 (broadcastInDim S100x1 ![] bcast_S_S100x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S100x1 ![0, 1] bcast_S1x1_S100x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S100x1_S100_d1 h_S_),
    TRef.binary (TRef.of main_arg2 : TRef sig ⟨S26x16, .f32⟩) main_call0.v5 main_call0.v13 (fun x i => Host.gather gather_S26x16_S100x1_S100x16_1_0_n_n_0_1_116 x i),
    TRef.unary main_call0.v12 main_call0.v14 (broadcastInDim S100x16 ![0] bcast_S100_S100x16_0),
    TRef.nullary main_call0.cst (constant S_ .f32 0x7FC00000#32),
    TRef.unary main_call0.cst main_call0.v15 (broadcastInDim S100x16 ![] bcast_S_S100x16),
    TRef.ternary main_call0.v14 main_call0.v13 main_call0.v15 main_call0.v16 select,
    unary main_v1 main_v2 (broadcastInDim S1x100x16 ![1, 2] bcast_S100x16_S1x100x16_1_2 : (⟨S100x16, .f32⟩ : BufTy).Contents (Elt F) → (⟨S1x100x16, .f32⟩ : BufTy).Contents (Elt F)),
    unary main_v0 main_v3 (broadcastInDim S16384x100x16 ![0, 1, 2] bcast_S16384x100x1_S16384x100x16_0_1_2 : (⟨S16384x100x1, .f32⟩ : BufTy).Contents (Elt F) → (⟨S16384x100x16, .f32⟩ : BufTy).Contents (Elt F)),
    unary main_v2 main_v4 (broadcastInDim S16384x100x16 ![0, 1, 2] bcast_S1x100x16_S16384x100x16_0_1_2 : (⟨S1x100x16, .f32⟩ : BufTy).Contents (Elt F) → (⟨S16384x100x16, .f32⟩ : BufTy).Contents (Elt F)),
    binary main_v3 main_v4 main_v5 (mulf : (⟨S16384x100x16, .f32⟩ : BufTy).Contents (Elt F) → (⟨S16384x100x16, .f32⟩ : BufTy).Contents (Elt F) → (⟨S16384x100x16, .f32⟩ : BufTy).Contents (Elt F)),
    unary main_arg1 main_v6 (broadcastInDim S1x100 ![1] bcast_S100_S1x100_1 : (⟨S100, .f32⟩ : BufTy).Contents (Elt F) → (⟨S1x100, .f32⟩ : BufTy).Contents (Elt F)),
    unary main_v6 main_v7 (broadcastInDim S16384x100 ![0, 1] bcast_S1x100_S16384x100_0_1 : (⟨S1x100, .f32⟩ : BufTy).Contents (Elt F) → (⟨S16384x100, .f32⟩ : BufTy).Contents (Elt F)),
    binary main_v7 main_arg0 main_v8 (mulf : (⟨S16384x100, .f32⟩ : BufTy).Contents (Elt F) → (⟨S16384x100, .f32⟩ : BufTy).Contents (Elt F) → (⟨S16384x100, .f32⟩ : BufTy).Contents (Elt F)),
    nullary main_cst (constant S_ .f32 0x00000000#32),
    binary main_v8 main_cst main_v9 ((fun x v => Host.reduceAdd x v reducesTo_S16384x100_S16384_d1 h_S_) : (⟨S16384x100, .f32⟩ : BufTy).Contents (Elt F) → (⟨S_, .f32⟩ : BufTy).Contents (Elt F) → (⟨S16384, .f32⟩ : BufTy).Contents (Elt F)),
    reshape main_v9 main_v10 rfl shapeCasts_S16384_S16384x1,
    nullary main_cst_0 (constant S_ .f32 0x00000000#32),
    binary main_v5 main_cst_0 main_v11 ((fun x v => Host.reduceAdd x v reducesTo_S16384x100x16_S16384_d1_2 h_S_) : (⟨S16384x100x16, .f32⟩ : BufTy).Contents (Elt F) → (⟨S_, .f32⟩ : BufTy).Contents (Elt F) → (⟨S16384, .f32⟩ : BufTy).Contents (Elt F)),
    binary main_v5 main_v5 main_v12 (mulf : (⟨S16384x100x16, .f32⟩ : BufTy).Contents (Elt F) → (⟨S16384x100x16, .f32⟩ : BufTy).Contents (Elt F) → (⟨S16384x100x16, .f32⟩ : BufTy).Contents (Elt F)),
    nullary main_cst_1 (constant S_ .f32 0x00000000#32),
    binary main_v12 main_cst_1 main_v13 ((fun x v => Host.reduceAdd x v reducesTo_S16384x100x16_S16384_d1_2 h_S_) : (⟨S16384x100x16, .f32⟩ : BufTy).Contents (Elt F) → (⟨S_, .f32⟩ : BufTy).Contents (Elt F) → (⟨S16384, .f32⟩ : BufTy).Contents (Elt F)),
    binary main_v11 main_v11 main_v14 (mulf : (⟨S16384, .f32⟩ : BufTy).Contents (Elt F) → (⟨S16384, .f32⟩ : BufTy).Contents (Elt F) → (⟨S16384, .f32⟩ : BufTy).Contents (Elt F)),
    binary main_v14 main_v13 main_v15 (subf : (⟨S16384, .f32⟩ : BufTy).Contents (Elt F) → (⟨S16384, .f32⟩ : BufTy).Contents (Elt F) → (⟨S16384, .f32⟩ : BufTy).Contents (Elt F)),
    nullary main_cst_2 (constant S_ .f32 0x3F000000#32),
    unary main_cst_2 main_v16 (broadcastInDim S16384 ![] bcast_S_S16384 : (⟨S_, .f32⟩ : BufTy).Contents (Elt F) → (⟨S16384, .f32⟩ : BufTy).Contents (Elt F)),
    binary main_v16 main_v15 main_v17 (mulf : (⟨S16384, .f32⟩ : BufTy).Contents (Elt F) → (⟨S16384, .f32⟩ : BufTy).Contents (Elt F) → (⟨S16384, .f32⟩ : BufTy).Contents (Elt F)),
    reshape main_v17 main_v18 rfl shapeCasts_S16384_S16384x1,
    binary main_v10 main_v18 main_v19 ((fun a b => concatenate S16384x2 1 [⟨S16384x1, a⟩, ⟨S16384x1, b⟩] concatenates_S16384x1_S16384x1_S16384x2_d1) : (⟨S16384x1, .f32⟩ : BufTy).Contents (Elt F) → (⟨S16384x1, .f32⟩ : BufTy).Contents (Elt F) → (⟨S16384x2, .f32⟩ : BufTy).Contents (Elt F)) ]

set_option maxRecDepth 2048 in
/-- The entry function is that line: the called functions' definitions opened at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., unary_bufs_sub .., binary_bufs_sub .., unary_bufs_sub .., unary_bufs_sub ..,
    binary_bufs_sub .., nullary_bufs_sub .., binary_bufs_sub .., reshape_bufs_sub .., nullary_bufs_sub .., binary_bufs_sub ..,
    binary_bufs_sub .., nullary_bufs_sub .., binary_bufs_sub .., binary_bufs_sub .., binary_bufs_sub .., nullary_bufs_sub ..,
    unary_bufs_sub .., binary_bufs_sub .., reshape_bufs_sub .., binary_bufs_sub ..⟩

/-- From any memory with zero counters every weakly fair execution of the entry function terminates, and every
    buffer ends at the fold of the operations' results over the contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.FM.Ref

end
-- ==== Proof.RefValue.lean ====
/-
  What each buffer of the reference holds, as a function of the four arguments.

  One definition per operation of the line, in the line's order: the operation applied to the definitions of its
  operands. The lookup's stages come first (the index wrapped when negative, the in-range mask, the gathered rows, the
  selection against the fill), then the entry function's: the scaled embedding entries, the linear term, the two
  totals, the interaction term and the two-column result.
-/
import proofs.«166942_g35321811042314_cont_sun_m_1252_29_alg».proof.ReferenceIdeal
import proofs.«166942_g35321811042314_cont_sun_m_1252_29_alg».proof.Proof.Gen.ReferenceIdeal
import Idealize.ShloMosaic.PureOps.Ideal

noncomputable section

namespace Cert.FM.Ref

open Idealize.ShloMosaic
open Cert.ReferenceIdeal Cert.ReferenceIdeal.Gen

/-! ## The lookup -/

/-- The constant 0 and its copy at every feature. -/
def tc : IVec S_ 32 := constantI S_ 32 0#32
def t0 : IVec S100 32 := broadcastInDim S100 ![] bcast_S_S100 tc
/-- Which field indices are negative. -/
def t1 (fi : IVec S100 32) : IVec S100 1 := cmpi .slt fi t0
/-- The constant 26, the number of rows, at every feature. -/
def tc0 : IVec S_ 32 := constantI S_ 32 26#32
def t2 : IVec S100 32 := broadcastInDim S100 ![] bcast_S_S100 tc0
/-- The field index plus the number of rows. -/
def t3 (fi : IVec S100 32) : IVec S100 32 := addi fi t2
/-- The wrapped index: a negative index counts from the end. -/
def t4 (fi : IVec S100 32) : IVec S100 32 := select (t1 fi) (t3 fi) fi
/-- The wrapped indices as a column. -/
def t5 (fi : IVec S100 32) : IVec S100x1 32 := broadcastInDim S100x1 ![0] bcast_S100_S100x1_0 (t4 fi)
/-- The constant 25, the last row. -/
def tc1 : IVec S1 32 := constantI S1 32 25#32
def t6 : IVec S100x1 32 := broadcastInDim S100x1 ![] bcast_S_S100x1 tc
/-- Which wrapped indices are at least 0. -/
def t7 (fi : IVec S100 32) : IVec S100x1 1 := cmpi .sge (t5 fi) t6
def t8 : IVec S1x1 32 := broadcastInDim S1x1 ![1] bcast_S1_S1x1_1 tc1
def t9 : IVec S100x1 32 := broadcastInDim S100x1 ![0, 1] bcast_S1x1_S100x1_0_1 t8
/-- Which wrapped indices are at most 25. -/
def t10 (fi : IVec S100 32) : IVec S100x1 1 := cmpi .sle (t5 fi) t9
/-- Which wrapped indices are row numbers. -/
def t11 (fi : IVec S100 32) : IVec S100x1 1 := andi (t7 fi) (t10 fi)
def tc3 : IVec S_ 1 := constantI S_ 1 1#1
/-- The same per feature: the conjunction along the unit axis. -/
def t12 (fi : IVec S100 32) : IVec S100 1 := Host.reduce IntOp.andi (t11 fi) tc3 reducesTo_S100x1_S100_d1 h_S_
/-- The gathered rows. -/
def t13 (V : FVec Ideal S26x16 .f32) (fi : IVec S100 32) : FVec Ideal S100x16 .f32 :=
  Host.gather gather_S26x16_S100x1_S100x16_1_0_n_n_0_1_116 V (t5 fi)
def t14 (fi : IVec S100 32) : IVec S100x16 1 := broadcastInDim S100x16 ![0] bcast_S100_S100x16_0 (t12 fi)
/-- The fill for an index that is no row number. -/
def tcst : FVec Ideal S_ .f32 := constant S_ .f32 0x7FC00000#32
def t15 : FVec Ideal S100x16 .f32 := broadcastInDim S100x16 ![] bcast_S_S100x16 tcst
/-- The embedding rows: the gathered row where the index is a row number, the fill elsewhere. -/
def t16 (V : FVec Ideal S26x16 .f32) (fi : IVec S100 32) : FVec Ideal S100x16 .f32 := select (t14 fi) (t13 V fi) t15

/-! ## The entry function -/

/-- The first argument with a unit axis added. -/
def m0 (x : FVec Ideal S16384x100 .f32) : FVec Ideal S16384x100x1 .f32 :=
  shapeCast S16384x100x1 x shapeCasts_S16384x100_S16384x100x1
def m2 (V : FVec Ideal S26x16 .f32) (fi : IVec S100 32) : FVec Ideal S1x100x16 .f32 :=
  broadcastInDim S1x100x16 ![1, 2] bcast_S100x16_S1x100x16_1_2 (t16 V fi)
def m3 (x : FVec Ideal S16384x100 .f32) : FVec Ideal S16384x100x16 .f32 :=
  broadcastInDim S16384x100x16 ![0, 1, 2] bcast_S16384x100x1_S16384x100x16_0_1_2 (m0 x)
def m4 (V : FVec Ideal S26x16 .f32) (fi : IVec S100 32) : FVec Ideal S16384x100x16 .f32 :=
  broadcastInDim S16384x100x16 ![0, 1, 2] bcast_S1x100x16_S16384x100x16_0_1_2 (m2 V fi)
/-- The scaled embedding entries: the second result. -/
def refN (x : FVec Ideal S16384x100 .f32) (V : FVec Ideal S26x16 .f32) (fi : IVec S100 32) : FVec Ideal S16384x100x16 .f32 :=
  mulf (m3 x) (m4 V fi)
def m6 (w : FVec Ideal S100 .f32) : FVec Ideal S1x100 .f32 := broadcastInDim S1x100 ![1] bcast_S100_S1x100_1 w
def m7 (w : FVec Ideal S100 .f32) : FVec Ideal S16384x100 .f32 :=
  broadcastInDim S16384x100 ![0, 1] bcast_S1x100_S16384x100_0_1 (m6 w)
def m8 (x : FVec Ideal S16384x100 .f32) (w : FVec Ideal S100 .f32) : FVec Ideal S16384x100 .f32 := mulf (m7 w) x
/-- The zero the sums start from. -/
def mcst : FVec Ideal S_ .f32 := constant S_ .f32 0x00000000#32
/-- The linear term of every batch row. -/
def m9 (x : FVec Ideal S16384x100 .f32) (w : FVec Ideal S100 .f32) : FVec Ideal S16384 .f32 :=
  Host.reduceAdd (m8 x w) mcst reducesTo_S16384x100_S16384_d1 h_S_
def m10 (x : FVec Ideal S16384x100 .f32) (w : FVec Ideal S100 .f32) : FVec Ideal S16384x1 .f32 :=
  shapeCast S16384x1 (m9 x w) shapeCasts_S16384_S16384x1
/-- The total of the scaled embedding entries of every batch row. -/
def m11 (x : FVec Ideal S16384x100 .f32) (V : FVec Ideal S26x16 .f32) (fi : IVec S100 32) : FVec Ideal S16384 .f32 :=
  Host.reduceAdd (refN x V fi) mcst reducesTo_S16384x100x16_S16384_d1_2 h_S_
def m12 (x : FVec Ideal S16384x100 .f32) (V : FVec Ideal S26x16 .f32) (fi : IVec S100 32) : FVec Ideal S16384x100x16 .f32 :=
  mulf (refN x V fi) (refN x V fi)
/-- The total of their squares. -/
def m13 (x : FVec Ideal S16384x100 .f32) (V : FVec Ideal S26x16 .f32) (fi : IVec S100 32) : FVec Ideal S16384 .f32 :=
  Host.reduceAdd (m12 x V fi) mcst reducesTo_S16384x100x16_S16384_d1_2 h_S_
def m14 (x : FVec Ideal S16384x100 .f32) (V : FVec Ideal S26x16 .f32) (fi : IVec S100 32) : FVec Ideal S16384 .f32 :=
  mulf (m11 x V fi) (m11 x V fi)
def m15 (x : FVec Ideal S16384x100 .f32) (V : FVec Ideal S26x16 .f32) (fi : IVec S100 32) : FVec Ideal S16384 .f32 :=
  subf (m14 x V fi) (m13 x V fi)
/-- The constant one half and its copy at every batch row. -/
def mc2 : FVec Ideal S_ .f32 := constant S_ .f32 0x3F000000#32
def m16 : FVec Ideal S16384 .f32 := broadcastInDim S16384 ![] bcast_S_S16384 mc2
/-- The interaction term of every batch row. -/
def m17 (x : FVec Ideal S16384x100 .f32) (V : FVec Ideal S26x16 .f32) (fi : IVec S100 32) : FVec Ideal S16384 .f32 :=
  mulf m16 (m15 x V fi)
def m18 (x : FVec Ideal S16384x100 .f32) (V : FVec Ideal S26x16 .f32) (fi : IVec S100 32) : FVec Ideal S16384x1 .f32 :=
  shapeCast S16384x1 (m17 x V fi) shapeCasts_S16384_S16384x1
/-- The first result: the linear term and the interaction term side by side. -/
def refY (x : FVec Ideal S16384x100 .f32) (w : FVec Ideal S100 .f32) (V : FVec Ideal S26x16 .f32) (fi : IVec S100 32) :
    FVec Ideal S16384x2 .f32 :=
  concatenate S16384x2 1 [⟨S16384x1, m10 x w⟩, ⟨S16384x1, m18 x V fi⟩] concatenates_S16384x1_S16384x1_S16384x2_d1

end Cert.FM.Ref

end
-- ==== Proof.RefOut.lean ====
/-
  What the two result buffers hold after the line.

  The fold of the forty-six operations, read at a result buffer: each operation's result decides whether the buffer
  read is the one it writes, so the fold unrolls to the composition of the operations that lead to the buffer, which
  is the stage definition of that buffer by unfolding. The reductions, the gather and the layout operations are kept
  folded meanwhile: the comparison never looks inside them.
-/
import proofs.«166942_g35321811042314_cont_sun_m_1252_29_alg».proof.Proof.RefRun
import proofs.«166942_g35321811042314_cont_sun_m_1252_29_alg».proof.Proof.RefValue

noncomputable section

namespace Cert.FM.Ref

open Idealize.ShloMosaic Idealize.ShloMosaic.StableHlo
open Cert.ReferenceIdeal Cert.ReferenceIdeal.Gen

attribute [local irreducible] Host.reduce Host.reduceAdd Host.gather concatenate shapeCast broadcastInDim in
set_option maxRecDepth 8192 in
set_option maxHeartbeats 400000 in
/-- The buffer of the scaled embedding entries ends at `refN` of the arguments' contents. -/
theorem outN_eq (V : Valuation τ sig (Elt Ideal)) :
    after (ops (F := Ideal)) V (Proc.devRef .tc main_v5)
      = refN (V (Proc.devRef .tc main_arg0)) (V (Proc.devRef .tc main_arg2)) (V (Proc.devRef .tc main_arg3)) := by
  simp only [after_cons, after_nil]
  rfl

attribute [local irreducible] Host.reduce Host.reduceAdd Host.gather concatenate shapeCast broadcastInDim in
set_option maxRecDepth 8192 in
set_option maxHeartbeats 400000 in
/-- The two-column result buffer ends at `refY` of the arguments' contents. -/
theorem outY_eq (V : Valuation τ sig (Elt Ideal)) :
    after (ops (F := Ideal)) V (Proc.devRef .tc main_v19)
      = refY (V (Proc.devRef .tc main_arg0)) (V (Proc.devRef .tc main_arg1)) (V (Proc.devRef .tc main_arg2)) (V (Proc.devRef .tc main_arg3)) := by
  simp only [after_cons, after_nil]
  rfl

end Cert.FM.Ref

end
-- ==== Proof.RefArgs.lean ====
/-
  The line writes no argument buffer: each of the four ends holding what it held.
-/
import proofs.«166942_g35321811042314_cont_sun_m_1252_29_alg».proof.Proof.RefRun
import proofs.«166942_g35321811042314_cont_sun_m_1252_29_alg».proof.Proof.RefValue

noncomputable section

namespace Cert.FM.Ref

open Idealize.ShloMosaic Idealize.ShloMosaic.StableHlo
open Cert.ReferenceIdeal Cert.ReferenceIdeal.Gen

attribute [local irreducible] Host.reduce Host.reduceAdd Host.gather concatenate shapeCast broadcastInDim in
set_option maxRecDepth 8192 in
set_option maxHeartbeats 400000 in
/-- Argument 0's buffer is written by no operation of the line. -/
theorem arg0_eq (V : Valuation τ sig (Elt Ideal)) :
    after (ops (F := Ideal)) V (Proc.devRef .tc main_arg0)
      = V (Proc.devRef .tc main_arg0) := by
  simp only [after_cons, after_nil]
  rfl

attribute [local irreducible] Host.reduce Host.reduceAdd Host.gather concatenate shapeCast broadcastInDim in
set_option maxRecDepth 8192 in
set_option maxHeartbeats 400000 in
/-- Argument 1's buffer is written by no operation of the line. -/
theorem arg1_eq (V : Valuation τ sig (Elt Ideal)) :
    after (ops (F := Ideal)) V (Proc.devRef .tc main_arg1)
      = V (Proc.devRef .tc main_arg1) := by
  simp only [after_cons, after_nil]
  rfl

attribute [local irreducible] Host.reduce Host.reduceAdd Host.gather concatenate shapeCast broadcastInDim in
set_option maxRecDepth 8192 in
set_option maxHeartbeats 400000 in
/-- Argument 2's buffer is written by no operation of the line. -/
theorem arg2_eq (V : Valuation τ sig (Elt Ideal)) :
    after (ops (F := Ideal)) V (Proc.devRef .tc main_arg2)
      = V (Proc.devRef .tc main_arg2) := by
  simp only [after_cons, after_nil]
  rfl

attribute [local irreducible] Host.reduce Host.reduceAdd Host.gather concatenate shapeCast broadcastInDim in
set_option maxRecDepth 8192 in
set_option maxHeartbeats 400000 in
/-- Argument 3's buffer is written by no operation of the line. -/
theorem arg3_eq (V : Valuation τ sig (Elt Ideal)) :
    after (ops (F := Ideal)) V (Proc.devRef .tc main_arg3)
      = V (Proc.devRef .tc main_arg3) := by
  simp only [after_cons, after_nil]
  rfl

end Cert.FM.Ref

end
-- ==== Proof.RefMain.lean ====
/-
  The reference runs, and what it leaves.

  Every weakly fair execution of the reference's entry function, from any memory with zero counters, terminates; on
  every device the two result buffers end at `refY` and `refN` of the contents the four argument buffers had at the
  start, and the argument buffers end as they started.
-/
import proofs.«166942_g35321811042314_cont_sun_m_1252_29_alg».proof.Proof.RefOut
import proofs.«166942_g35321811042314_cont_sun_m_1252_29_alg».proof.Proof.RefArgs

noncomputable section

namespace Cert.FM.Ref

open Idealize.ShloMosaic Idealize.ShloMosaic.StableHlo Idealize.SL.Sem
open Cert.ReferenceIdeal Cert.ReferenceIdeal.Gen

/-- The run of the reference with its two results and its unchanged arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19)
          = refY (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v5)
          = refN (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v19).trans (outY_eq _), (h c main_v5).trans (outN_eq _),
      (h c main_arg0).trans (arg0_eq _), (h c main_arg1).trans (arg1_eq _), (h c main_arg2).trans (arg2_eq _),
      (h c main_arg3).trans (arg3_eq _)⟩)
    (run_main (F := Ideal) m ρ)

/-- The run of the reference with its unchanged arguments only. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2.2) (run m ρ)

end Cert.FM.Ref

end
-- ==== Proof.LibGatherScatter.lean ====
/-
  `stablehlo.gather` and the accumulating `stablehlo.scatter` READ AT AN INDEX, for start indices given as an `[E, 1]`
  array.

  What `x[idx]` and a segment sum lower to when the `E` start indices are the rows of an `[E, 1]` integer array, the
  index vector on axis 1 with its one component naming operand axis 0:
  * gather of a flat operand `[N]` (`vecGatherDims`, `gather_vec_apply`): result element `e` is the operand at the start
    index `idx[e, 0]`, read signed and clamped into `[0, N − 1]`;
  * gather of the rows of an operand `[N, C]` (`rowGatherDims`, `gather_row_apply`): result element `(e, j)` is the
    operand at row `idx[e, 0]` (signed, clamped into `[0, N − 1]`) and column `j`;
  * accumulating scatter of update rows `[E, C]` into an operand `[N, C]` (`rowScatterDims`, `scatterAdd_row_apply`):
    operand element `(i, j)` plus the sum of `upd[e, j]` over the update rows `e` whose start index `idx[e, 0]`, read
    signed and NOT clamped, is `i` (a row whose start index is outside `[0, N)` is dropped);
  * accumulating scatter of updates `[E]` into a flat operand `[N]` (`vecScatterDims`, `scatterAdd_vec_apply`): operand
    element `i` plus the sum of `upd[e]` over the `e` with `idx[e, 0] = i`.
  The conditions `wf` on the dimension numbers are decided on a program's literal shapes; any two proofs of them are
  equal, so a program's record with these field values is the one here.
-/
import Idealize.ShloMosaic.Lib.ValueIdx
import Idealize.ShloMosaic.PureOps.Ideal

noncomputable section

open scoped BigOperators

namespace Idealize.ShloMosaic.GatherScatter

open Idealize.ShloMosaic Idealize.ShloMosaic.ValueIdx

/-! ## The dimension numbers -/

/-- Gather of a flat operand `[N]` at start indices `[E, 1]`, result `[E]`: no offset axes, operand axis 0 collapsed,
    the index vector on axis 1 with its one component naming operand axis 0, slice size 1. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather of the rows of an operand `[N, C]` at start indices `[E, 1]`, result `[E, C]`: result axis 1 the offset axis
    (the column), operand axis 0 collapsed, the index vector on axis 1 with its one component naming operand axis 0,
    slice sizes one row by all `C` columns. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Scatter of update rows `[E, C]` into an operand `[N, C]` at scatter indices `[E, 1]`: update axis 1 the window axis
    (the column), operand axis 0 inserted, the index vector on axis 1 with its one component naming operand axis 0. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of updates `[E]` into a flat operand `[N]` at scatter indices `[E, 1]`: no window axes, operand axis 0
    inserted, the index vector on axis 1 with its one component naming operand axis 0. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers read at an index -/

/-- THE FLAT GATHER READ AT `e`: the operand at the start index `idx[e, 0]`, read signed and clamped into
    `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE ROW GATHER READ AT `(e, j)`: the operand at row `idx[e, 0]`, read signed and clamped into `[0, N − 1]`, and
    column `j` (axis 0 takes the clamped start, no offset; axis 1 is not in the start index map and takes the result's
    offset coordinate). -/
theorem gather_row_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N C E wf) x idx (ix2 e j) = x (ix2 ⟨min (idx (ix2 e 0)).toInt.toNat (N - 1), by omega⟩ j) := by
  unfold Host.gather
  congr 1
  funext a
  refine Fin.ext ?_
  match a with
  | ⟨0, _⟩ =>
    show (rowGatherDims N C E wf).start (ix2 e j) idx 0 + (rowGatherDims N C E wf).batchCoord (ix2 e j) 0
      + (rowGatherDims N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e j) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e j) idx 1 + (rowGatherDims N C E wf).batchCoord (ix2 e j) 1
      + (rowGatherDims N C E wf).offCoord (ix2 e j) 1 = j.val
    rw [GatherDims.batchCoord_eq_zero _ _ _ List.not_mem_nil]
    have hs : (rowGatherDims N C E wf).start (ix2 e j) idx 1 = 0 := by
      unfold GatherDims.start
      rw [dif_neg (show (1 : Fin 2) ∉ (rowGatherDims N C E wf).startIndexMap from (by decide : (1 : Fin 2) ∉ [(0 : Fin 2)]))]
    rw [hs]
    simp only [Nat.add_zero, Nat.zero_add]
    have hk : (1 : Fin 2) ∈ (rowGatherDims N C E wf).sKept :=
      (GatherDims.mem_sKept _ _).mpr ⟨(by decide : (1 : Fin 2) ∉ [(0 : Fin 2)]), List.not_mem_nil⟩
    unfold GatherDims.offCoord
    rw [dif_pos hk]
    rfl

/-! ## The accumulating row scatter read at an index -/

section RowScatter
variable {N C E w : Nat} (wf : ScatterDims.WF ⟨2, ![N, C]⟩ ⟨2, ![E, 1]⟩ ⟨2, ![E, C]⟩ [1] [0] [0] 1)

/-- On operand axis 0 the window of update index `u` starts at the scatter index `idx[u₀, 0]`, read signed. -/
theorem rowScatter_start0 (idx : IVec ⟨2, ![E, 1]⟩ w) (u : (⟨2, ![E, C]⟩ : Shape).Idx) :
    (rowScatterDims N C E wf).start u idx (0 : Fin 2) = (idx (ix2 (u 0) 0)).toInt := by
  unfold ScatterDims.start
  rw [dif_pos (show (0 : Fin 2) ∈ (rowScatterDims N C E wf).scatterDimsToOperandDims from List.mem_singleton.mpr rfl)]
  have hsi : (rowScatterDims N C E wf).siIdx u ⟨List.idxOf (0 : Fin 2) (rowScatterDims N C E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- Operand axis 1 is not named by the scatter index: its window starts at `0`. -/
theorem rowScatter_start1 (idx : IVec ⟨2, ![E, 1]⟩ w) (u : (⟨2, ![E, C]⟩ : Shape).Idx) :
    (rowScatterDims N C E wf).start u idx (1 : Fin 2) = 0 := by
  unfold ScatterDims.start
  rw [dif_neg (show (1 : Fin 2) ∉ (rowScatterDims N C E wf).scatterDimsToOperandDims from
    (by decide : (1 : Fin 2) ∉ [(0 : Fin 2)]))]

/-- Operand axis 0 is an inserted axis: no window coordinate. -/
theorem rowScatter_window0 (u : (⟨2, ![E, C]⟩ : Shape).Idx) :
    (rowScatterDims N C E wf).window u (0 : Fin 2) = 0 := by
  unfold ScatterDims.window
  rw [dif_neg (show (0 : Fin 2) ∉ (rowScatterDims N C E wf).sKept from
    (by decide : (0 : Fin 2) ∉ (List.finRange 2).filter (· ∉ [(0 : Fin 2)])))]

/-- On operand axis 1 the window coordinate of update index `u` is its column. -/
theorem rowScatter_window1 (u : (⟨2, ![E, C]⟩ : Shape).Idx) :
    (rowScatterDims N C E wf).window u (1 : Fin 2) = (u 1).val := by
  unfold ScatterDims.window
  rw [dif_pos (show (1 : Fin 2) ∈ (rowScatterDims N C E wf).sKept from
    (by decide : (1 : Fin 2) ∈ (List.finRange 2).filter (· ∉ [(0 : Fin 2)])))]
  rfl

/-- Update index `u = (e, j')` lands on operand index `(i, j)` exactly when the signed start index `idx[e, 0]` is `i`
    and `j' = j`; otherwise it lands elsewhere or, with the start outside `[0, N)`, nowhere. -/
theorem rowScatter_resultIdx_iff (idx : IVec ⟨2, ![E, 1]⟩ w) (u : (⟨2, ![E, C]⟩ : Shape).Idx) (i : Fin N) (j : Fin C) :
    (rowScatterDims N C E wf).resultIdx? u idx = some (ix2 i j) ↔ (idx (ix2 (u 0) 0)).toInt = (i.val : Int) ∧ u 1 = j := by
  unfold ScatterDims.resultIdx?
  constructor
  · intro h
    split at h
    · rename_i hall
      have hf := Option.some.inj h
      have h0 := congrArg Fin.val (congrFun hf (0 : Fin 2))
      have h1 := congrArg Fin.val (congrFun hf (1 : Fin 2))
      have ha0 := hall (0 : Fin 2)
      have ha1 := hall (1 : Fin 2)
      simp only [rowScatter_start0, rowScatter_start1, rowScatter_window0, rowScatter_window1] at h0 h1 ha0 ha1
      refine ⟨?_, Fin.ext ?_⟩
      · have : (i.val : Int) = ((ix2 i j (0 : Fin 2)).val : Int) := rfl
        omega
      · have : (j.val) = ((ix2 i j (1 : Fin 2)).val) := rfl
        omega
    · exact absurd h (by simp)
  · rintro ⟨h0, h1⟩
    have hall : ∀ a : Fin 2, 0 ≤ (rowScatterDims N C E wf).start u idx a + (rowScatterDims N C E wf).window u a ∧
        (rowScatterDims N C E wf).start u idx a + (rowScatterDims N C E wf).window u a
          < ((⟨2, ![N, C]⟩ : Shape).size a : Int) := by
      intro a
      match a with
      | ⟨0, _⟩ =>
        show 0 ≤ (rowScatterDims N C E wf).start u idx (0 : Fin 2) + ((rowScatterDims N C E wf).window u (0 : Fin 2) : Int) ∧
          (rowScatterDims N C E wf).start u idx (0 : Fin 2) + ((rowScatterDims N C E wf).window u (0 : Fin 2) : Int) < (N : Int)
        rw [rowScatter_start0, rowScatter_window0, h0]
        have := i.isLt
        omega
      | ⟨1, _⟩ =>
        show 0 ≤ (rowScatterDims N C E wf).start u idx (1 : Fin 2) + ((rowScatterDims N C E wf).window u (1 : Fin 2) : Int) ∧
          (rowScatterDims N C E wf).start u idx (1 : Fin 2) + ((rowScatterDims N C E wf).window u (1 : Fin 2) : Int) < (C : Int)
        rw [rowScatter_start1, rowScatter_window1]
        have := idx2_lt1 u
        omega
    rw [dif_pos hall]
    congr 1
    funext a
    refine Fin.ext ?_
    match a with
    | ⟨0, _⟩ =>
      show ((rowScatterDims N C E wf).start u idx (0 : Fin 2) + ((rowScatterDims N C E wf).window u (0 : Fin 2) : Int)).toNat = i.val
      rw [rowScatter_start0, rowScatter_window0, h0]
      omega
    | ⟨1, _⟩ =>
      show ((rowScatterDims N C E wf).start u idx (1 : Fin 2) + ((rowScatterDims N C E wf).window u (1 : Fin 2) : Int)).toNat = j.val
      rw [rowScatter_start1, rowScatter_window1, ← h1]
      omega

/-- THE ACCUMULATING ROW SCATTER READ AT `(i, j)`: the operand's element plus the sum of `upd[e, j]` over the update
    rows `e` whose start index `idx[e, 0]`, read signed and not clamped, is `i`; a row whose start index is outside
    `[0, N)` contributes nothing. (The update indices landing on `(i, j)` are `(e, j)` for those `e`: the sum is
    re-indexed along `e ↦ (e, j)`.) -/
theorem scatterAdd_row_apply
    (x : (⟨2, ![N, C]⟩ : Shape).Idx → EReal) (idx : IVec ⟨2, ![E, 1]⟩ w) (upd : (⟨2, ![E, C]⟩ : Shape).Idx → EReal)
    (i : Fin N) (j : Fin C) :
    Ideal.hostScatterAdd (rowScatterDims N C E wf) x idx upd (ix2 i j)
      = x (ix2 i j) + ∑ e ∈ Finset.univ.filter (fun e : Fin E => (idx (ix2 e 0)).toInt = (i.val : Int)), upd (ix2 e j) := by
  unfold Ideal.hostScatterAdd
  congr 1
  refine Finset.sum_nbij' (fun u => u 0) (fun e => ix2 e j) ?_ ?_ ?_ ?_ ?_
  · intro u hu
    exact Finset.mem_filter.mpr ⟨Finset.mem_univ _, ((rowScatter_resultIdx_iff wf idx u i j).mp (Finset.mem_filter.mp hu).2).1⟩
  · intro e he
    exact Finset.mem_filter.mpr ⟨Finset.mem_univ _,
      (rowScatter_resultIdx_iff wf idx (ix2 e j) i j).mpr ⟨(Finset.mem_filter.mp he).2, rfl⟩⟩
  · intro u hu
    have h1 := ((rowScatter_resultIdx_iff wf idx u i j).mp (Finset.mem_filter.mp hu).2).2
    rw [← h1]
    exact (eq_ix2 u).symm
  · intro e _
    rfl
  · intro u hu
    have h1 := ((rowScatter_resultIdx_iff wf idx u i j).mp (Finset.mem_filter.mp hu).2).2
    rw [← h1]
    exact congrArg upd (eq_ix2 u)

end RowScatter

/-! ## The accumulating flat scatter read at an index -/

section VecScatter
variable {N E w : Nat} (wf : ScatterDims.WF ⟨1, ![N]⟩ ⟨2, ![E, 1]⟩ ⟨1, ![E]⟩ [] [0] [0] 1)

/-- On operand axis 0 the window of update index `u` starts at the scatter index `idx[u₀, 0]`, read signed. -/
theorem vecScatter_start0 (idx : IVec ⟨2, ![E, 1]⟩ w) (u : (⟨1, ![E]⟩ : Shape).Idx) :
    (vecScatterDims N E wf).start u idx (0 : Fin 1) = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- Operand axis 0 is an inserted axis: no window coordinate. -/
theorem vecScatter_window0 (u : (⟨1, ![E]⟩ : Shape).Idx) :
    (vecScatterDims N E wf).window u (0 : Fin 1) = 0 := by
  unfold ScatterDims.window
  rw [dif_neg (show (0 : Fin 1) ∉ (vecScatterDims N E wf).sKept from
    (by decide : (0 : Fin 1) ∉ (List.finRange 1).filter (· ∉ [(0 : Fin 1)])))]

/-- Update index `u = (e)` lands on operand index `(i)` exactly when the signed start index `idx[e, 0]` is `i`. -/
theorem vecScatter_resultIdx_iff (idx : IVec ⟨2, ![E, 1]⟩ w) (u : (⟨1, ![E]⟩ : Shape).Idx) (i : Fin N) :
    (vecScatterDims N E wf).resultIdx? u idx = some (ix1 i) ↔ (idx (ix2 (u 0) 0)).toInt = (i.val : Int) := by
  unfold ScatterDims.resultIdx?
  constructor
  · intro h
    split at h
    · rename_i hall
      have hf := Option.some.inj h
      have h0 := congrArg Fin.val (congrFun hf (0 : Fin 1))
      have ha0 := hall (0 : Fin 1)
      simp only [vecScatter_start0, vecScatter_window0] at h0 ha0
      have : (i.val : Int) = ((ix1 i (0 : Fin 1)).val : Int) := rfl
      omega
    · exact absurd h (by simp)
  · intro h0
    have hall : ∀ a : Fin 1, 0 ≤ (vecScatterDims N E wf).start u idx a + (vecScatterDims N E wf).window u a ∧
        (vecScatterDims N E wf).start u idx a + (vecScatterDims N E wf).window u a
          < ((⟨1, ![N]⟩ : Shape).size a : Int) := by
      intro a
      match a with
      | ⟨0, _⟩ =>
        show 0 ≤ (vecScatterDims N E wf).start u idx (0 : Fin 1) + ((vecScatterDims N E wf).window u (0 : Fin 1) : Int) ∧
          (vecScatterDims N E wf).start u idx (0 : Fin 1) + ((vecScatterDims N E wf).window u (0 : Fin 1) : Int) < (N : Int)
        rw [vecScatter_start0, vecScatter_window0, h0]
        have := i.isLt
        omega
    rw [dif_pos hall]
    congr 1
    funext a
    refine Fin.ext ?_
    match a with
    | ⟨0, _⟩ =>
      show ((vecScatterDims N E wf).start u idx (0 : Fin 1) + ((vecScatterDims N E wf).window u (0 : Fin 1) : Int)).toNat = i.val
      rw [vecScatter_start0, vecScatter_window0, h0]
      omega

/-- THE ACCUMULATING FLAT SCATTER READ AT `i`: the operand's element plus the sum of `upd[e]` over the `e` whose start
    index `idx[e, 0]`, read signed and not clamped, is `i`; an update whose start index is outside `[0, N)` contributes
    nothing. -/
theorem scatterAdd_vec_apply
    (x : (⟨1, ![N]⟩ : Shape).Idx → EReal) (idx : IVec ⟨2, ![E, 1]⟩ w) (upd : (⟨1, ![E]⟩ : Shape).Idx → EReal)
    (i : Fin N) :
    Ideal.hostScatterAdd (vecScatterDims N E wf) x idx upd (ix1 i)
      = x (ix1 i) + ∑ e ∈ Finset.univ.filter (fun e : Fin E => (idx (ix2 e 0)).toInt = (i.val : Int)), upd (ix1 e) := by
  unfold Ideal.hostScatterAdd
  congr 1
  refine Finset.sum_nbij' (fun u => u 0) (fun e => ix1 e) ?_ ?_ ?_ ?_ ?_
  · intro u hu
    exact Finset.mem_filter.mpr ⟨Finset.mem_univ _, (vecScatter_resultIdx_iff wf idx u i).mp (Finset.mem_filter.mp hu).2⟩
  · intro e he
    exact Finset.mem_filter.mpr ⟨Finset.mem_univ _,
      (vecScatter_resultIdx_iff wf idx (ix1 e) i).mpr (Finset.mem_filter.mp he).2⟩
  · intro u _
    exact (eq_ix1 u).symm
  · intro e _
    rfl
  · intro u _
    exact congrArg upd (eq_ix1 u)

end VecScatter

end Idealize.ShloMosaic.GatherScatter

end
-- ==== Proof.RefEmb.lean ====
/-
  The lookup on the domain: the embedding rows are the rows of the table the field indices name.

  For a field index below 26: it is not negative, so it is not wrapped; it lies between 0 and 25, so the in-range mask
  is on; the gather's start index, read signed and clamped to the last row, is the index itself; and the selection
  against the fill keeps the gathered row.
-/
import proofs.«166942_g35321811042314_cont_sun_m_1252_29_alg».proof.Proof.Spec
import proofs.«166942_g35321811042314_cont_sun_m_1252_29_alg».proof.Proof.RefValue
import proofs.«166942_g35321811042314_cont_sun_m_1252_29_alg».proof.Proof.LibGatherScatter
import Idealize.ShloMosaic.Lib.Pipeline.Value
import Idealize.ShloMosaic.Lib.ReduceAll

noncomputable section

namespace Cert.FM.Ref

open Idealize.ShloMosaic Idealize.ShloMosaic.ValueIdx
open Cert.ReferenceIdeal Cert.ReferenceIdeal.Gen

/-! ## A word below 26 -/

/-- Read signed, a word below 26 is the number it is read as unsigned. -/
theorem toInt_of_lt26 (a : BitVec 32) (h : a.toNat < 26) : a.toInt = (a.toNat : Int) := by
  have e := BitVec.toInt_eq_toNat_cond a
  have := a.isLt
  omega

/-- It is not below zero, -/
theorem cmpi_slt_zero_of_lt26 (a : BitVec 32) (h : a.toNat < 26) : IntOp.cmpi .slt a 0#32 = 0#1 := by
  refine eq_zero_of_ne_one fun e => ?_
  have h1 := IntOp.cmpi_slt.mp e
  rw [toInt_of_lt26 a h] at h1
  have h0 : (0#32 : BitVec 32).toInt = 0 := by decide
  omega

/-- it is at least zero, -/
theorem cmpi_sge_zero_of_lt26 (a : BitVec 32) (h : a.toNat < 26) : IntOp.cmpi .sge a 0#32 = 1#1 := by
  refine IntOp.cmpi_sge.mpr ?_
  rw [toInt_of_lt26 a h]
  have h0 : (0#32 : BitVec 32).toInt = 0 := by decide
  omega

/-- and it is at most 25. -/
theorem cmpi_sle_25_of_lt26 (a : BitVec 32) (h : a.toNat < 26) : IntOp.cmpi .sle a 25#32 = 1#1 := by
  refine IntOp.cmpi_sle.mpr ?_
  rw [toInt_of_lt26 a h]
  have h0 : (25#32 : BitVec 32).toInt = 25 := by decide
  omega

/-- A conjunction of one-bit words all 1, started at 1, is 1. -/
theorem foldl_andi_one {ι : Type} (g : ι → BitVec 1) (l : List ι) (hl : ∀ i ∈ l, g i = 1#1) :
    l.foldl (fun r i => IntOp.andi r (g i)) 1#1 = 1#1 := by
  induction l with
  | nil => rfl
  | cons a l ih =>
    rw [List.foldl_cons, hl a List.mem_cons_self]
    exact ih fun i hi => hl i (List.mem_cons_of_mem _ hi)

/-! ## The lookup's stages at an index -/

variable {fi : IVec S100 32}

/-- A field index below 26 is not wrapped. -/
theorem t4_apply (f : Fin 100) (h : (fi (ix1 f)).toNat < 26) : t4 fi (ix1 f) = fi (ix1 f) := by
  show Scalar.select (IntOp.cmpi .slt (fi (ix1 f)) 0#32) (IntOp.addi (fi (ix1 f)) 26#32) (fi (ix1 f)) = fi (ix1 f)
  rw [cmpi_slt_zero_of_lt26 _ h, select_zero]

/-- The column of wrapped indices at row `f`. -/
theorem t5_apply (fi : IVec S100 32) (f : Fin 100) (u : Fin 1) : t5 fi (ix2 f u) = t4 fi (ix1 f) :=
  broadcastInDim_apply _ _ _ (ix2 f u) (ix1 f) fun a => match a with | ⟨0, _⟩ => rfl

/-- The in-range mask is on at a field index below 26. -/
theorem t11_apply (f : Fin 100) (u : Fin 1) (h : (fi (ix1 f)).toNat < 26) : t11 fi (ix2 f u) = 1#1 := by
  show IntOp.andi (IntOp.cmpi .sge (t5 fi (ix2 f u)) 0#32) (IntOp.cmpi .sle (t5 fi (ix2 f u)) 25#32) = 1#1
  rw [t5_apply, t4_apply f h, cmpi_sge_zero_of_lt26 _ h, cmpi_sle_25_of_lt26 _ h]
  rfl

/-- So is its conjunction along the unit axis, at every feature. -/
theorem t12_apply (hfi : ∀ f : Fin 100, (fi (ix1 f)).toNat < 26) (j : S100.Idx) : t12 fi j = 1#1 := by
  unfold t12
  rw [Host.reduce_eq_foldl]
  refine foldl_andi_one (t11 fi) _ fun i _ => ?_
  obtain ⟨f, u, rfl⟩ : ∃ (f : Fin 100) (u : Fin 1), i = ix2 f u := ⟨i 0, i 1, eq_ix2 i⟩
  exact t11_apply f u (hfi f)

/-- The mask copied along the embedding coordinate. -/
theorem t14_apply (fi : IVec S100 32) (f : Fin 100) (e : Fin 16) : t14 fi (ix2 f e) = t12 fi (ix1 f) :=
  broadcastInDim_apply _ _ _ (ix2 f e) (ix1 f) fun a => match a with | ⟨0, _⟩ => rfl

/-- The gathered row of a field index below 26 is the table's row of that number. -/
theorem t13_apply (V : FVec Ideal S26x16 .f32) (f : Fin 100) (e : Fin 16) (h : (fi (ix1 f)).toNat < 26) :
    t13 V fi (ix2 f e) = V (ix2 (⟨(fi (ix1 f)).toNat, h⟩ : Fin 26) e) := by
  unfold t13
  refine (GatherScatter.gather_row_apply (N := 26) (C := 16) (E := 100) (by norm_num)
    gather_S26x16_S100x1_S100x16_1_0_n_n_0_1_116_wf V (t5 fi) f e).trans ?_
  refine congrArg (fun r : Fin 26 => V (ix2 r e)) (Fin.ext ?_)
  show min (t5 fi (ix2 f 0)).toInt.toNat (26 - 1) = (fi (ix1 f)).toNat
  rw [t5_apply, t4_apply f h, toInt_of_lt26 _ h, Int.toNat_natCast]
  omega

/-- On the domain the embedding rows are the specification's. -/
theorem t16_apply {x : FM.SX.Idx → EReal} {w : FM.SW.Idx → EReal} {V : FM.SV.Idx → EReal} {fi : FM.SW.Idx → BitVec 32}
    (hd : InDomain x w V fi) (f : Fin 100) (e : Fin 16) : t16 V fi (ix2 f e) = emb V fi f e := by
  show Scalar.select (t14 fi (ix2 f e)) (t13 V fi (ix2 f e)) (t15 (ix2 f e)) = emb V fi f e
  rw [t14_apply, t12_apply hd.fi_lt, select_one, t13_apply V f e (hd.fi_lt f)]
  exact congrArg (fun r : Fin 26 => V (ix2 r e)) (Fin.ext (row_val hd f).symm)

end Cert.FM.Ref

end
-- ==== Proof.RefEqN.lean ====
/-
  The second result on the domain: the scaled embedding entries.

  Entry (b, f, e) of the reference's product is the first argument at (b, f), reached through the added unit axis and
  its broadcast along the embedding coordinate, times the embedding row f at e, reached through the two broadcasts
  along the batch.
-/
import proofs.«166942_g35321811042314_cont_sun_m_1252_29_alg».proof.Proof.RefEmb

noncomputable section

namespace Cert.FM.Ref

open Idealize.ShloMosaic Idealize.ShloMosaic.ValueIdx
open Cert.ReferenceIdeal Cert.ReferenceIdeal.Gen

/-- The first argument with a unit axis added reads the argument. -/
theorem m0_apply (x : FVec Ideal S16384x100 .f32) (b : Fin 16384) (f : Fin 100) (u : Fin 1) :
    m0 x (ix3 b f u) = x (ix2 b f) := by
  unfold m0
  refine shapeCast_apply x _ (ix3 b f u) (ix2 b f) ?_
  rw [Shape.rowMajor_val_two, Shape.rowMajor_val_three]
  show b.val * 100 + f.val = (b.val * 100 + f.val) * 1 + u.val
  have := u.isLt
  omega

/-- Its broadcast along the embedding coordinate. -/
theorem m3_apply (x : FVec Ideal S16384x100 .f32) (b : Fin 16384) (f : Fin 100) (e : Fin 16) :
    m3 x (ix3 b f e) = x (ix2 b f) := by
  unfold m3
  exact (broadcastInDim_apply _ _ _ (ix3 b f e) (ix3 b f (0 : Fin 1)) fun a => match a with
    | ⟨0, _⟩ => rfl | ⟨1, _⟩ => rfl | ⟨2, _⟩ => rfl).trans (m0_apply x b f 0)

/-- The embedding rows under a leading unit axis. -/
theorem m2_apply (V : FVec Ideal S26x16 .f32) (fi : IVec S100 32) (u : Fin 1) (f : Fin 100) (e : Fin 16) :
    m2 V fi (ix3 u f e) = t16 V fi (ix2 f e) := by
  unfold m2
  exact broadcastInDim_apply _ _ _ (ix3 u f e) (ix2 f e) fun a => match a with
    | ⟨0, _⟩ => rfl | ⟨1, _⟩ => rfl

/-- Their broadcast along the batch. -/
theorem m4_apply (V : FVec Ideal S26x16 .f32) (fi : IVec S100 32) (b : Fin 16384) (f : Fin 100) (e : Fin 16) :
    m4 V fi (ix3 b f e) = t16 V fi (ix2 f e) := by
  unfold m4
  exact (broadcastInDim_apply _ _ _ (ix3 b f e) (ix3 (0 : Fin 1) f e) fun a => match a with
    | ⟨0, _⟩ => rfl | ⟨1, _⟩ => rfl | ⟨2, _⟩ => rfl).trans (m2_apply V fi 0 f e)

/-- An entry of the product, for any arguments. -/
theorem refN_apply (x : FVec Ideal S16384x100 .f32) (V : FVec Ideal S26x16 .f32) (fi : IVec S100 32)
    (b : Fin 16384) (f : Fin 100) (e : Fin 16) : refN x V fi (ix3 b f e) = x (ix2 b f) * t16 V fi (ix2 f e) := by
  show m3 x (ix3 b f e) * m4 V fi (ix3 b f e) = _
  rw [m3_apply, m4_apply]

variable {x : FM.SX.Idx → EReal} {w : FM.SW.Idx → EReal} {V : FM.SV.Idx → EReal} {fi : FM.SW.Idx → BitVec 32}

/-- On the domain it is the specification's scaled embedding entry. -/
theorem refN_term (hd : InDomain x w V fi) (b : Fin 16384) (f : Fin 100) (e : Fin 16) :
    refN x V fi (ix3 b f e) = term x V fi b f e := by
  rw [refN_apply, t16_apply hd]
  rfl

/-- On the domain the reference's second result is the specification's. -/
theorem refN_eq (hd : InDomain x w V fi) : refN x V fi = newInputs x V fi := by
  funext j
  obtain ⟨b, f, e, rfl⟩ : ∃ (b : Fin 16384) (f : Fin 100) (e : Fin 16), j = ix3 b f e := ⟨j 0, j 1, j 2, eq_ix3 j⟩
  exact refN_term hd b f e

end Cert.FM.Ref

end
-- ==== Proof.RefSums.lean ====
/-
  The reference's three sums at a batch row.

  A float add-reduction on the extended reals holds, at each kept index, the initial value plus the sum of the source
  entries that drop to it. Over axis 1 of a [16384, 100] array that is the sum over the feature coordinate; over axes 1
  and 2 of a [16384, 100, 16] array the entries dropping to row b are exactly the (b, f, e), so it is the double sum over
  feature and embedding coordinate. The initial value is the zero constant, and 0 + s = s.
-/
import proofs.«166942_g35321811042314_cont_sun_m_1252_29_alg».proof.Proof.RefEqN
import Idealize.ShloMosaic.Lib.IdealHost

noncomputable section

open scoped BigOperators

namespace Cert.FM.Ref

open Idealize.ShloMosaic Idealize.ShloMosaic.ValueIdx
open Cert.ReferenceIdeal Cert.ReferenceIdeal.Gen

/-- The zero constant is the extended real zero. -/
theorem mcst_apply (j : S_.Idx) : mcst j = 0 := Ideal.ofBits_zero_f32

/-! ## The sum over the features -/

/-- The weights laid along every batch row. -/
theorem m7_apply (w : FVec Ideal S100 .f32) (b : Fin 16384) (f : Fin 100) : m7 w (ix2 b f) = w (ix1 f) := by
  unfold m7 m6
  refine (broadcastInDim_apply _ _ _ (ix2 b f) (ix2 (0 : Fin 1) f) fun a => match a with
    | ⟨0, _⟩ => rfl | ⟨1, _⟩ => rfl).trans ?_
  exact broadcastInDim_apply _ _ _ (ix2 (0 : Fin 1) f) (ix1 f) fun a => match a with | ⟨0, _⟩ => rfl

/-- The reduction over axis 1 of a [16384, 100] array, from zero, at row b. -/
theorem reduce_d1_apply (g : FVec Ideal S16384x100 .f32) (b : Fin 16384) :
    Host.reduceAdd g mcst reducesTo_S16384x100_S16384_d1 h_S_ (ix1 b) = ∑ f : Fin 100, g (ix2 b f) := by
  rw [hostReduceAdd_apply,
    Ideal.hostReduceAdd_single reducesTo_S16384x100_S16384_d1 (by decide : S16384x100.Reduces [1] S16384), mcst_apply, zero_add]
  refine Finset.sum_congr rfl fun f _ => congrArg g ?_
  funext a
  match a with
  | ⟨0, _⟩ => exact Fin.ext rfl
  | ⟨1, _⟩ => exact Fin.ext rfl

/-- The linear term of batch row b. -/
theorem m9_apply (x : FVec Ideal S16384x100 .f32) (w : FVec Ideal S100 .f32) (b : Fin 16384) :
    m9 x w (ix1 b) = ∑ f : Fin 100, w (ix1 f) * x (ix2 b f) := by
  unfold m9
  rw [reduce_d1_apply]
  refine Finset.sum_congr rfl fun f _ => ?_
  show m7 w (ix2 b f) * x (ix2 b f) = _
  rw [m7_apply]

/-! ## The sum over features and embedding coordinates -/

/-- The entries of a [16384, 100, 16] array that drop to row b when axes 1 and 2 are removed are the (b, f, e). -/
theorem sum_rows (h : S16384x100x16.ReducesTo [1, 2] S16384) (g : S16384x100x16.Idx → EReal) (b : Fin 16384) :
    ∑ i ∈ Finset.univ.filter (fun i => h.drop i = ix1 b), g i = ∑ f : Fin 100, ∑ e : Fin 16, g (ix3 b f e) := by
  refine Eq.trans ?_ (Fintype.sum_prod_type' (fun (f : Fin 100) (e : Fin 16) => g (ix3 b f e)))
  have key : ∀ i : S16384x100x16.Idx, h.drop i = ix1 b → (i 0 : Fin 16384) = b := fun i hi => by
    have h1 : (h.drop i 0 : Nat) = (b : Nat) := congrArg Fin.val (congrFun hi 0)
    have h2 : (h.drop i 0 : Nat) = i 0 := h.drop_apply_val_of_eq i 0 0
    exact Fin.ext (h2.symm.trans h1)
  refine Finset.sum_nbij' (fun i => ((i 1 : Fin 100), (i 2 : Fin 16))) (fun p => ix3 b p.1 p.2) ?_ ?_ ?_ ?_ ?_
  · intro i _
    exact Finset.mem_univ _
  · intro p _
    refine Finset.mem_filter.mpr ⟨Finset.mem_univ _, ?_⟩
    funext a
    match a with
    | ⟨0, _⟩ => exact Fin.ext (h.drop_apply_val_of_eq (ix3 b p.1 p.2) 0 0)
  · intro i hi
    have hb := key i (Finset.mem_filter.mp hi).2
    show ix3 b (i 1) (i 2) = i
    rw [← hb]
    exact (eq_ix3 i).symm
  · intro p _
    rfl
  · intro i hi
    have hb := key i (Finset.mem_filter.mp hi).2
    show g i = g (ix3 b (i 1) (i 2))
    rw [← hb]
    exact congrArg g (eq_ix3 i)

/-- The reduction over axes 1 and 2 of a [16384, 100, 16] array, from zero, at row b. -/
theorem reduce_d12_apply (g : FVec Ideal S16384x100x16 .f32) (b : Fin 16384) :
    Host.reduceAdd g mcst reducesTo_S16384x100x16_S16384_d1_2 h_S_ (ix1 b) = ∑ f : Fin 100, ∑ e : Fin 16, g (ix3 b f e) := by
  rw [hostReduceAdd_apply]
  unfold Ideal.hostReduceAdd
  rw [sum_rows, mcst_apply, zero_add]

end Cert.FM.Ref

end
-- ==== Proof.RefEqY.lean ====
/-
  The first result on the domain: the linear term and the interaction term.

  Column 0 of the two-column result is the reshaped sum over the features of weight times entry; column 1 is the
  reshaped half of the square of the total of the scaled embedding entries less the total of their squares.
-/
import proofs.«166942_g35321811042314_cont_sun_m_1252_29_alg».proof.Proof.RefSums
import proofs.«166942_g35321811042314_cont_sun_m_1252_29_alg».proof.Proof.LibConcatCols

noncomputable section

open scoped BigOperators

namespace Cert.FM.Ref

open Idealize.ShloMosaic Idealize.ShloMosaic.ValueIdx
open Cert.ReferenceIdeal Cert.ReferenceIdeal.Gen

/-- A vector of 16384 entries as a one-column matrix. -/
theorem col_apply (g : FVec Ideal S16384 .f32) (b : Fin 16384) (u : Fin 1) :
    shapeCast S16384x1 g shapeCasts_S16384_S16384x1 (ix2 b u) = g (ix1 b) := by
  refine shapeCast_apply g _ (ix2 b u) (ix1 b) ?_
  rw [Shape.rowMajor_val_one, Shape.rowMajor_val_two]
  show b.val = b.val * 1 + u.val
  have := u.isLt
  omega

/-- The two-column result at (b, k): column 0 from the first matrix, column 1 from the second. -/
theorem refY_apply (x : FVec Ideal S16384x100 .f32) (w : FVec Ideal S100 .f32) (V : FVec Ideal S26x16 .f32) (fi : IVec S100 32)
    (b : Fin 16384) (k : Fin 2) :
    refY x w V fi (ix2 b k) = if k.val = 0 then m9 x w (ix1 b) else m17 x V fi (ix1 b) := by
  unfold refY
  rw [ConcatCols.concat_cols_apply (n := 16384) (a := 1) (b := 1) (t := 2) rfl (m10 x w) (m18 x V fi)
    concatenates_S16384x1_S16384x1_S16384x2_d1 b k]
  by_cases hk : k.val < 1
  · rw [dif_pos hk, if_pos (by omega)]
    exact col_apply (m9 x w) b _
  · rw [dif_neg hk, if_neg (by omega)]
    exact col_apply (m17 x V fi) b _

variable {x : FM.SX.Idx → EReal} {w : FM.SW.Idx → EReal} {V : FM.SV.Idx → EReal} {fi : FM.SW.Idx → BitVec 32}

/-- On the domain the total of the scaled embedding entries of row b, -/
theorem m11_apply (hd : InDomain x w V fi) (b : Fin 16384) : m11 x V fi (ix1 b) = total x V fi b := by
  unfold m11
  rw [reduce_d12_apply]
  exact Finset.sum_congr rfl fun f _ => Finset.sum_congr rfl fun e _ => refN_term hd b f e

/-- the total of their squares, -/
theorem m13_apply (hd : InDomain x w V fi) (b : Fin 16384) : m13 x V fi (ix1 b) = totalSq x V fi b := by
  unfold m13
  rw [reduce_d12_apply]
  refine Finset.sum_congr rfl fun f _ => Finset.sum_congr rfl fun e _ => ?_
  show refN x V fi (ix3 b f e) * refN x V fi (ix3 b f e) = _
  rw [refN_term hd]

/-- and the interaction term. -/
theorem m17_apply (hd : InDomain x w V fi) (b : Fin 16384) : m17 x V fi (ix1 b) = inter x V fi b := by
  show half * (m11 x V fi (ix1 b) * m11 x V fi (ix1 b) - m13 x V fi (ix1 b)) = inter x V fi b
  rw [m11_apply hd, m13_apply hd]
  rfl

/-- On the domain the reference's first result is the specification's. -/
theorem refY_eq (hd : InDomain x w V fi) : refY x w V fi = yfm x w V fi := by
  funext j
  obtain ⟨b, k, rfl⟩ : ∃ (b : Fin 16384) (k : Fin 2), j = ix2 b k := ⟨j 0, j 1, eq_ix2 j⟩
  rw [refY_apply]
  show _ = if k.val = 0 then lin x w b else inter x V fi b
  by_cases hk : k.val = 0
  · rw [if_pos hk, if_pos hk, m9_apply]
    rfl
  · rw [if_neg hk, if_neg hk, m17_apply hd]

end Cert.FM.Ref

end
-- ==== Proof.PreDomain.lean ====
/-
  From the precondition to the domain.

  The precondition is one bit: the conjunction of four tests over whole arrays.  Three say that the absolute value of
  every entry of a float argument is below plus infinity; on the extended reals that leaves exactly the real numbers,
  since the absolute value of either infinity is plus infinity.  The fourth says that every field index, read as a signed
  32-bit integer, is at least 0 and below 26; a word that is nonnegative when read signed reads the same unsigned, so
  its unsigned value is below 26 and it names a row of `V`.  A conjunction over a whole array that comes out true was
  true at every index.
-/
import proofs.«166942_g35321811042314_cont_sun_m_1252_29_alg».proof.Proof.Gen.Pre_finite_inputs
import proofs.«166942_g35321811042314_cont_sun_m_1252_29_alg».proof.Proof.Spec
import Idealize.ShloMosaic.Lib.ReduceAll
import Idealize.ShloMosaic.Lib.ValueIdx

noncomputable section

namespace Cert.FM

open Idealize.ShloMosaic Idealize.ShloMosaic.ValueIdx Cert.Pre_finite_inputs

/-- The scalar shape has one index. -/
instance subsingleton_scalarIdx : Subsingleton S_.Idx := ⟨fun a b => funext fun d => d.elim0⟩

/-- The word `0x7F800000` (sign 0, exponent all ones, significand 0) denotes plus infinity. -/
theorem ofBits_inf : Ideal.ofBits .f32 0x7F800000#32 = (⊤ : EReal) := by
  simp [Ideal.ofBits, Ideal.ieee]

/-- An extended real whose absolute value is below plus infinity is a real number. -/
theorem real_of_abs_lt_inf (a : EReal)
    (h : Ideal.cmp .olt (max a (-a)) (Ideal.ofBits .f32 0x7F800000#32) = 1#1) : ∃ r : ℝ, a = (r : EReal) := by
  rw [ofBits_inf] at h
  have hlt : max a (-a) < ⊤ := by
    by_contra hn
    have h0 : Ideal.cmp .olt (max a (-a)) ⊤ = 0#1 := by
      show BitVec.ofBool (decide (max a (-a) < ⊤)) = 0#1
      rw [decide_eq_false hn]; rfl
    rw [h0] at h
    exact absurd h (by decide)
  induction a using EReal.rec with
  | bot => exact absurd hlt (by simp)
  | coe r => exact ⟨r, rfl⟩
  | top => exact absurd hlt (by simp)

/-- A 32-bit word that, read signed, is at least 0 and below `n` is below `n` read unsigned. -/
theorem toNat_lt_of_signed (v : BitVec 32) (n : Nat) (hn : n < 2 ^ 31)
    (h0 : IntOp.cmpi .sge v 0#32 = 1#1) (h1 : IntOp.cmpi .slt v (BitVec.ofNat 32 n) = 1#1) : v.toNat < n := by
  rw [IntOp.cmpi_sge] at h0
  rw [IntOp.cmpi_slt] at h1
  have hz : (0#32 : BitVec 32).toInt = 0 := by decide
  rw [hz] at h0
  have hnI : (BitVec.ofNat 32 n).toInt = (n : Int) := by
    rw [BitVec.toInt_ofNat']
    exact Int.bmod_eq_of_le (by omega) (by omega)
  rw [hnI] at h1
  have hv : v.toInt = (v.toNat : Int) := by
    rw [BitVec.toInt_eq_toNat_of_lt]
    have := (BitVec.toInt_pos_iff (x := v)).mp h0
    omega
  omega

/-- THE PRECONDITION GIVES THE DOMAIN: every float entry a real number, every field index a row number of `V`. -/
theorem inDomain_of_pre [Cert.Pre_finite_inputs.Facts] (x : FVec Ideal S16384x100 .f32) (w : FVec Ideal S100 .f32)
    (V : FVec Ideal S26x16 .f32) (fi : IVec S100 32)
    (h : Cert.Pre_finite_inputs.fn (F := Ideal) x w V fi = (fun _ => 1#1)) : InDomain x w V fi := by
  have e := congrFun h ValueIdx.ix0
  dsimp only [Cert.Pre_finite_inputs.fn, Cert.Pre_finite_inputs.fn_part1, andi] at e
  rw [IntOp.andi_eq_one, IntOp.andi_eq_one, IntOp.andi_eq_one] at e
  obtain ⟨⟨⟨hx, hw⟩, hV⟩, hfi⟩ := e
  refine ⟨fun i => ?_, fun i => ?_, fun i => ?_, fun f => ?_⟩
  · exact real_of_abs_lt_inf (x i) (Host.reduce_andi_all _ _ _ _ _ hx i)
  · exact real_of_abs_lt_inf (w i) (Host.reduce_andi_all _ _ _ _ _ hw i)
  · exact real_of_abs_lt_inf (V i) (Host.reduce_andi_all _ _ _ _ _ hV i)
  · have hf := Host.reduce_andi_all _ _ _ _ _ hfi (ix1 f)
    obtain ⟨h0, h1⟩ := IntOp.andi_eq_one.mp hf
    exact toNat_lt_of_signed (fi (ix1 f)) 26 (by norm_num) h0 h1

end Cert.FM

end
-- ==== Proof.lean ====
/-
  A factorization-machine component: for a batch `x : [16384, 100]`, linear weights `w : [100]`, an embedding table
  `V : [26, 16]` and a field index per feature, with `E f e = V[field f, e]`,

    new_inputs b f e = x b f * E f e,
    y b 0 = Σ_f w f * x b f,        y b 1 = 1/2 * ((Σ_f Σ_e x b f * E f e)^2 - Σ_f Σ_e (x b f * E f e)^2).

  The kernel works on the transposed batch, one chunk of 1024 batch rows and one half of the embedding at a grid point: it
  looks the embedding up once by a one-hot matrix product, keeps its two halves, the weights beside its row sums, and the
  row sums of its squares, and at each chunk forms `y` by two contractions over the features,

    y b 1 = 1/2 * ((Σ_f (Σ_e E f e) * x b f)^2 - Σ_f (Σ_e E f e * E f e) * (x b f * x b f)).

  Over the extended reals the two arrangements agree where every entry is a real number (distributivity fails at
  infinities) and every field index is a row number of `V` (the one-hot row is then the unit vector of that row; the
  reference's lookup wraps or fills an index outside the range, the one-hot product gives a zero row).  The frames: the
  kernel streams the transposed batch through a two-slot buffer by copies of its own, one copy in flight across a grid
  point's boundary; the invariant carried from point to point names the copy in flight, the block landed, and the three
  kept vectors.
-/
import proofs.«166942_g35321811042314_cont_sun_m_1252_29_alg».proof.Defs
import proofs.«166942_g35321811042314_cont_sun_m_1252_29_alg».proof.Proof.Gen.Kernel
import proofs.«166942_g35321811042314_cont_sun_m_1252_29_alg».proof.Proof.Gen.KernelIdeal
import proofs.«166942_g35321811042314_cont_sun_m_1252_29_alg».proof.Proof.Gen.ReferenceIdeal
import proofs.«166942_g35321811042314_cont_sun_m_1252_29_alg».proof.Proof.Gen.Pre_finite_inputs
import proofs.«166942_g35321811042314_cont_sun_m_1252_29_alg».proof.Proof.KBFrame
import proofs.«166942_g35321811042314_cont_sun_m_1252_29_alg».proof.Proof.KIValue
import proofs.«166942_g35321811042314_cont_sun_m_1252_29_alg».proof.Proof.KIValAll
import proofs.«166942_g35321811042314_cont_sun_m_1252_29_alg».proof.Proof.RefMain
import proofs.«166942_g35321811042314_cont_sun_m_1252_29_alg».proof.Proof.RefEqY
import proofs.«166942_g35321811042314_cont_sun_m_1252_29_alg».proof.Proof.PreDomain

noncomputable section

namespace Cert.Proof

open Idealize.ShloMosaic Idealize.SL.Sem Cert.FM Cert.FM.KVal

/-- The word-level kernel runs, faults nowhere, and leaves its arguments unchanged. -/
theorem frame_k : Cert.frame_Kernel (hKernel := Cert.Kernel.Gen.facts) (hPre_finite_inputs := Cert.Pre_finite_inputs.Gen.facts) :=
  fun m ρ _ => Cert.Kernel.Body.frame (F := Bits) m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

/-- And the reference. -/
theorem frame_ri : Cert.frame_ReferenceIdeal (hReferenceIdeal := Cert.ReferenceIdeal.Gen.facts) (hPre_finite_inputs := Cert.Pre_finite_inputs.Gen.facts) :=
  fun m g _ => Cert.FM.Ref.frame m g

/-- No operation of the kernel was rewritten for the reading over the extended reals. -/
theorem preserves : Cert.preserves_Kernel_KernelIdeal := trivial

/-- On the domain both programs end with the linear and interaction terms and every scaled embedding entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  have hd : ∀ c, InDomain (ax m c) (aw m c) (aV m c) (afi m c) := fun c => inDomain_of_pre _ _ _ _ (hpre c)
  refine ⟨fun c => yfm (ax m c) (aw m c) (aV m c) (afi m c), fun c => newInputs (ax m c) (aV m c) (afi m c),
    kernel_value m g (fun c => blockValues m c (hd c)), ?_⟩
  refine (θ_run _ _ _).mono (fun _ h c => ⟨(h c).1.trans ?_, (h c).2.1.trans ?_, (h c).2.2⟩) (Cert.FM.Ref.run m' g')
  · rw [(hagree c).1, (hagree c).2.1, (hagree c).2.2.1, (hagree c).2.2.2]
    exact Cert.FM.Ref.refY_eq (hd c)
  · rw [(hagree c).1, (hagree c).2.2.1, (hagree c).2.2.2]
    exact Cert.FM.Ref.refN_eq (hd c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
